-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S768x768 : Shape := ⟨2, ![768, 768]⟩
abbrev S768 : Shape := ⟨1, ![768]⟩
abbrev S768x2 : Shape := ⟨2, ![768, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x2 : S_.BroadcastsInDim S768x2 (![] : Fin 0 → Fin S768x2.rank)
  reducesTo_S768x2_S_d0_1 : S768x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg22 : FVec F S768x2 .f32) (main_arg23 : FVec F S2 .f32) (main_v98 : IVec S_ 1) (main_v101 : IVec S768 1) (main_c_39 : IVec S_ 1) : IVec S_ 1 :=
  let main_v102 : IVec S_ 1 := (fun x v => Host.reduce IntOp.andi x v reducesTo_S768_S_d0 h_S_) main_v101 main_c_39
  let main_v103 : IVec S_ 1 := andi main_v98 main_v102
  let main_v104 : FVec F S768x2 .f32 := Host.absf main_arg22
  let main_cst_40 : FVec F S_ .f32 := constant S_ .f32 0x7F800000#32
  let main_v105 : FVec F S768x2 .f32 := broadcastInDim S768x2 ![] bcast_S_S768x2 main_cst_40
  let main_v106 : IVec S768x2 1 := cmpf .olt main_v104 main_v105
  let main_c_41 : IVec S_ 1 := constantI S_ 1 1#1
  let main_v107 : IVec S_ 1 := (fun x v => Host.reduce IntOp.andi x v reducesTo_S768x2_S_d0_1 h_S_) main_v106 main_c_41
  let main_v108 : IVec S_ 1 := andi main_v103 main_v107
  let main_v109 : FVec F S2 .f32 := Host.absf main_arg23
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg19 : FVec F S256 .f32) (main_arg20 : FVec F S768x768 .f32) (main_arg21 : FVec F S768 .f32) (main_arg22 : FVec F S768x2 .f32) (main_arg23 : FVec F S2 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S768x768 .f32 := Host.absf main_arg20
  let main_cst_36 : FVec F S_ .f32 := constant S_ .f32 0x7F800000#32
  let main_v95 : FVec F S768x768 .f32 := broadcastInDim S768x768 ![] bcast_S_S768x768 main_cst_36
  let main_v96 : IVec S768x768 1 := cmpf .olt main_v94 main_v95
  let main_c_37 : IVec S_ 1 := constantI S_ 1 1#1
  let main_v97 : IVec S_ 1 := (fun x v => Host.reduce IntOp.andi x v reducesTo_S768x768_S_d0_1 h_S_) main_v96 main_c_37
  let main_v98 : IVec S_ 1 := andi main_v93 main_v97
  let main_v99 : FVec F S768 .f32 := Host.absf main_arg21
  let main_cst_38 : FVec F S_ .f32 := constant S_ .f32 0x7F800000#32
  let main_v100 : FVec F S768 .f32 := broadcastInDim S768 ![] bcast_S_S768 main_cst_38
  let main_v101 : IVec S768 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S256 .f32) (main_arg16 : FVec F S256 .f32) (main_arg17 : FVec F S256 .f32) (main_arg18 : FVec F S256x256 .f32) (main_arg19 : FVec F S256 .f32) (main_arg20 : FVec F S768x768 .f32) (main_arg21 : FVec F S768 .f32) (main_arg22 : FVec F S768x2 .f32) (main_arg23 : FVec F S2 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S256x256 .f32) (main_arg13 : FVec F S256 .f32) (main_arg14 : FVec F S256x256 .f32) (main_arg15 : FVec F S256 .f32) (main_arg16 : FVec F S256 .f32) (main_arg17 : FVec F S256 .f32) (main_arg18 : FVec F S256x256 .f32) (main_arg19 : FVec F S256 .f32) (main_arg20 : FVec F S768x768 .f32) (main_arg21 : FVec F S768 .f32) (main_arg22 : FVec F S768x2 .f32) (main_arg23 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256 .f32) (main_arg17 : FVec F S256 .f32) (main_arg18 : FVec F S256x256 .f32) (main_arg19 : FVec F S256 .f32) (main_arg20 : FVec F S768x768 .f32) (main_arg21 : FVec F S768 .f32) (main_arg22 : FVec F S768x2 .f32) (main_arg23 : FVec F S2 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256 .f32) (main_arg17 : FVec F S256 .f32) (main_arg18 : FVec F S256x256 .f32) (main_arg19 : FVec F S256 .f32) (main_arg20 : FVec F S768x768 .f32) (main_arg21 : FVec F S768 .f32) (main_arg22 : FVec F S768x2 .f32) (main_arg23 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x800000 32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256 .f32) (main_arg17 : FVec F S256 .f32) (main_arg18 : FVec F S256x256 .f32) (main_arg19 : FVec F S256 .f32) (main_arg20 : FVec F S768x768 .f32) (main_arg21 : FVec F S768 .f32) (main_arg22 : FVec F S768x2 .f32) (main_arg23 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S768x768 : Shape := ⟨2, ![768, 768]⟩
abbrev S768 : Shape := ⟨1, ![768]⟩
abbrev S768x2 : Shape := ⟨2, ![768, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x768 : Shape := ⟨2, ![50000, 768]⟩
abbrev S1x768 : Shape := ⟨2, ![1, 768]⟩
abbrev S1x2 : Shape := ⟨2, ![1, 2]⟩
abbrev S50000x2 : Shape := ⟨2, ![50000, 2]⟩
abbrev S1000x768 : Shape := ⟨2, ![1000, 768]⟩
abbrev S1000x2 : Shape := ⟨2, ![1000, 2]⟩
abbrev S1000 : Shape := ⟨1, ![1000]⟩
abbrev S1000x1 : Shape := ⟨2, ![1000, 1]⟩

abbrev nBuf : Space → Nat
  | .hbm => 188
  | .vmem => 64
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256, .f32⟩
  | 17 => ⟨S256, .f32⟩
  | 18 => ⟨S256x256, .f32⟩
  | 19 => ⟨S256, .f32⟩
  | 20 => ⟨S768x768, .f32⟩
  | 21 => ⟨S768, .f32⟩
  | 22 => ⟨S768x2, .f32⟩
  | 23 => ⟨S2, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S128x256, .bf16⟩
  | 42 => ⟨S1x256, .f32⟩
  | 43 => ⟨S50000x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S50000x256, .f32⟩
  | 57 => ⟨S50000x256, .f32⟩
  | 58 => ⟨S50000x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S256x256, .bf16⟩
  | 73 => ⟨S1x256, .f32⟩
  | 74 => ⟨S1x256, .f32⟩
  | 75 => ⟨S1x256, .f32⟩
  | 76 => ⟨S1x256, .f32⟩
  | 77 => ⟨S1x256, .f32⟩
  | 78 => ⟨S50000x256, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S256x256, .bf16⟩
  | 93 => ⟨S1x256, .f32⟩
  | 94 => ⟨S50000x256, .f32⟩
  | 95 => ⟨S_, .f32⟩
  | 96 => ⟨S256, .f32⟩
  | 97 => ⟨S_, .f32⟩
  | 98 => ⟨S256, .f32⟩
  | 99 => ⟨S256, .f32⟩
  | 100 => ⟨S_, .i32⟩
  | 101 => ⟨S_, .f32⟩
  | 102 => ⟨S256, .f32⟩
  | 103 => ⟨S1x256, .f32⟩
  | 104 => ⟨S_, .f32⟩
  | 105 => ⟨S1x256, .f32⟩
  | 106 => ⟨S1x256, .f32⟩
  | 107 => ⟨S50000x256, .f32⟩
  | 108 => ⟨S50000x256, .f32⟩
  | 109 => ⟨S50000x256, .f32⟩
  | 110 => ⟨S_, .f32⟩
  | 111 => ⟨S_, .f32⟩
  | 112 => ⟨S_, .f32⟩
  | 113 => ⟨S_, .f32⟩
  | 114 => ⟨S256, .f32⟩
  | 115 => ⟨S256, .f32⟩
  | 116 => ⟨S256, .f32⟩
  | 117 => ⟨S_, .f32⟩
  | 118 => ⟨S_, .i1⟩
  | 119 => ⟨S_, .f32⟩
  | 120 => ⟨S_, .f32⟩
  | 121 => ⟨S256, .f32⟩
  | 122 => ⟨S256, .f32⟩
  | 123 => ⟨S256x256, .bf16⟩
  | 124 => ⟨S1x256, .f32⟩
  | 125 => ⟨S1x256, .f32⟩
  | 126 => ⟨S1x256, .f32⟩
  | 127 => ⟨S1x256, .f32⟩
  | _ => ⟨S50000x128, .f32⟩

abbrev hbmTy0_1 (i : Nat) : BufTy := match i % 128 with
  | 0 => ⟨S1x256, .f32⟩
  | 1 => ⟨S50000x256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x256, .f32⟩
  | 11 => ⟨S_, .f32⟩
  | 12 => ⟨S50000x256, .f32⟩
  | 13 => ⟨S800000x1, .i32⟩
  | 14 => ⟨S50000x256, .f32⟩
  | 15 => ⟨S256x256, .bf16⟩
  | 16 => ⟨S1x256, .f32⟩
  | 17 => ⟨S50000x256, .f32⟩
  | 18 => ⟨S_, .f32⟩
  | 19 => ⟨S256, .f32⟩
  | 20 => ⟨S_, .f32⟩
  | 21 => ⟨S256, .f32⟩
  | 22 => ⟨S256, .f32⟩
  | 23 => ⟨S_, .i32⟩
  | 24 => ⟨S_, .f32⟩
  | 25 => ⟨S256, .f32⟩
  | 26 => ⟨S1x256, .f32⟩
  | 27 => ⟨S_, .f32⟩
  | 28 => ⟨S1x256, .f32⟩
  | 29 => ⟨S1x256, .f32⟩
  | 30 => ⟨S50000x256, .f32⟩
  | 31 => ⟨S50000x256, .f32⟩
  | 32 => ⟨S50000x256, .f32⟩
  | 33 => ⟨S_, .f32⟩
  | 34 => ⟨S_, .f32⟩
  | 35 => ⟨S_, .f32⟩
  | 36 => ⟨S_, .f32⟩
  | 37 => ⟨S256, .f32⟩
  | 38 => ⟨S256, .f32⟩
  | 39 => ⟨S256, .f32⟩
  | 40 => ⟨S_, .f32⟩
  | 41 => ⟨S_, .i1⟩
  | 42 => ⟨S_, .f32⟩
  | 43 => ⟨S_, .f32⟩
  | 44 => ⟨S256, .f32⟩
  | 45 => ⟨S256, .f32⟩
  | 46 => ⟨S256x256, .bf16⟩
  | 47 => ⟨S1x256, .f32⟩
  | 48 => ⟨S1x256, .f32⟩
  | 49 => ⟨S1x256, .f32⟩
  | 50 => ⟨S1x256, .f32⟩
  | 51 => ⟨S1x256, .f32⟩
  | 52 => ⟨S50000x256, .f32⟩
  | 53 => ⟨S50000x768, .f32⟩
  | 54 => ⟨S768x768, .bf16⟩
  | 55 => ⟨S768x2, .bf16⟩
  | 56 => ⟨S1x768, .f32⟩
  | 57 => ⟨S1x2, .f32⟩
  | 58 => ⟨S50000x2, .f32⟩
  | 59 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .bf16⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S256x256, .bf16⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .bf16⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S256x256, .bf16⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S1000x768, .f32⟩
  | .local _ .vmem, ⟨55, _⟩ => ⟨S1000x768, .f32⟩
  | .local _ .vmem, ⟨56, _⟩ => ⟨S768x768, .bf16⟩
  | .local _ .vmem, ⟨57, _⟩ => ⟨S1x768, .f32⟩
  | .local _ .vmem, ⟨58, _⟩ => ⟨S768x2, .bf16⟩
  | .local _ .vmem, ⟨59, _⟩ => ⟨S1x2, .f32⟩
  | .local _ .vmem, ⟨60, _⟩ => ⟨S1000x2, .f32⟩
  | .local _ .vmem, ⟨61, _⟩ => ⟨S1000x2, .f32⟩
  | .local _ .vmem, ⟨62, _⟩ => ⟨S1000x2, .f32⟩
  | .local _ .vmem, ⟨63, _⟩ => ⟨S1000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_c_4 : Ref sig .tc := ⟨.hbm, 79, rfl⟩
abbrev main_v28 : Ref sig .tc := ⟨.hbm, 80, rfl⟩
abbrev main_v29 : Ref sig .tc := ⟨.hbm, 81, rfl⟩
abbrev main_c_5 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_6 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_7 : Ref sig .tc := ⟨.hbm, 95, rfl⟩
abbrev main_v41 : Ref sig .tc := ⟨.hbm, 96, rfl⟩
abbrev main_cst_8 : Ref sig .tc := ⟨.hbm, 97, rfl⟩
abbrev main_v42 : Ref sig .tc := ⟨.hbm, 98, rfl⟩
abbrev main_v43 : Ref sig .tc := ⟨.hbm, 99, rfl⟩
abbrev main_c_9 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_cst_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_cst_1 : Ref sig .tc := ⟨.hbm, 111, rfl⟩
abbrev main_call1_v8 : Ref sig .tc := ⟨.hbm, 112, rfl⟩
abbrev main_call1_cst_2 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_cst_3 : Ref sig .tc := ⟨.hbm, 117, rfl⟩
abbrev main_call1_v12 : Ref sig .tc := ⟨.hbm, 118, rfl⟩
abbrev main_call1_cst_4 : Ref sig .tc := ⟨.hbm, 119, rfl⟩
abbrev main_call1_call0_v0 : Ref sig .tc := ⟨.hbm, 120, rfl⟩
abbrev main_call1_call0_v1 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_c_10 : Ref sig .tc := ⟨.hbm, 130, rfl⟩
abbrev main_v52 : Ref sig .tc := ⟨.hbm, 131, rfl⟩
abbrev main_v53 : Ref sig .tc := ⟨.hbm, 132, rfl⟩
abbrev main_c_11 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_cst_12 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_cst_13 : Ref sig .tc := ⟨.hbm, 146, rfl⟩
abbrev main_v65 : Ref sig .tc := ⟨.hbm, 147, rfl⟩
abbrev main_cst_14 : Ref sig .tc := ⟨.hbm, 148, rfl⟩
abbrev main_v66 : Ref sig .tc := ⟨.hbm, 149, rfl⟩
abbrev main_v67 : Ref sig .tc := ⟨.hbm, 150, rfl⟩
abbrev main_c_15 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_cst_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_v7 : Ref sig .tc := ⟨.hbm, 161, rfl⟩
abbrev main_call2_cst_1 : Ref sig .tc := ⟨.hbm, 162, rfl⟩
abbrev main_call2_v8 : Ref sig .tc := ⟨.hbm, 163, rfl⟩
abbrev main_call2_cst_2 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_cst_3 : Ref sig .tc := ⟨.hbm, 168, rfl⟩
abbrev main_call2_v12 : Ref sig .tc := ⟨.hbm, 169, rfl⟩
abbrev main_call2_cst_4 : Ref sig .tc := ⟨.hbm, 170, rfl⟩
abbrev main_call2_call0_v0 : Ref sig .tc := ⟨.hbm, 171, rfl⟩
abbrev main_call2_call0_v1 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81_0 : Ref sig .tc := ⟨.hbm, 186, rfl⟩
abbrev main_v81_1 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg6_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem6_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S768x768 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x768 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S768x2 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1000x2 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S50000x256 : S_.BroadcastsInDim S50000x256 (![] : Fin 0 → Fin S50000x256.rank)
  concatenates_S50000x256_S50000x256_S50000x256_S50000x768_d1 : Shape.Concatenates [S50000x256, S50000x256, S50000x256] S50000x768 1
  shapeCasts_S768_S1x768 : S768.ShapeCasts S1x768
  shapeCasts_S2_S1x2 : S2.ShapeCasts S1x2
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  inb_S768x2_S768x2_0_0 : ∀ a, (![0, 0] : Fin 2 → Nat) a + S768x2.size a ≤ S768x2.size a
  h_S768x2 : 0 < S768x2.numel
  shapeCasts_S768x2_S768x2 : S768x2.ShapeCasts S768x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  reduces_S1000x2_S1000 : S1000x2.Reduces [1] S1000
  shapeCasts_S1000_S1000x1 : S1000.ShapeCasts S1000x1
  broadcasts_S1000x1_S1000x2 : S1000x1.Broadcasts S1000x2
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x768_S768x768_S1000x768_1_0_0_1_n_n_wf : DotDims.WF S1000x768 S768x768 S1000x768 [1] [0] [0] [1] [] []
  dot_S1000x768_S768x2_S1000x2_1_0_0_1_n_n_wf : DotDims.WF S1000x768 S768x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .bf16 = 32 ∨ (Rect.block (s := S256x256) S256x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x256.size a ≤ S50000x256.size a
  hwx5_7 : ∀ i : grid5.Coords, EltTy.bits .f32 = 32 ∨ (Rect.block (s := S50000x256) S2000x256.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x768.size a ≤ S50000x768.size a
  hwx6_0 : ∀ i : grid6.Coords, EltTy.bits .f32 = 32 ∨ (Rect.block (s := S50000x768) S1000x768.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S768x768.size a ≤ S768x768.size a
  hwx6_1 : ∀ i : grid6.Coords, EltTy.bits .bf16 = 32 ∨ (Rect.block (s := S768x768) S768x768.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x768.size a ≤ S1x768.size a
  hwx6_2 : ∀ i : grid6.Coords, EltTy.bits .f32 = 32 ∨ (Rect.block (s := S1x768) S1x768.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S768x2.size a ≤ S768x2.size a
  hwx6_3 : ∀ i : grid6.Coords, EltTy.bits .bf16 = 32 ∨ (Rect.block (s := S768x2) S768x2.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x2.size a ≤ S50000x2.size a
  hwx6_5 : ∀ i : grid6.Coords, EltTy.bits .f32 = 32 ∨ (Rect.block (s := S50000x2) S1000x2.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x2.size a ≤ S50000x2.size a
  hwx6_6 : ∀ i : grid6.Coords, EltTy.bits .f32 = 32 ∨ (Rect.block (s := S50000x2) S1000x2.size (cc6_transform_6 i) (hinb6_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def dot_S1000x768_S768x2_S1000x2_1_0_0_1_n_n : DotDims S1000x768 S768x2 S1000x2 where
  lhsContracting := [1]
  rhsContracting := [0]
  lhsNonContracting := [0]
  rhsNonContracting := [1]
  lhsBatch := []
  rhsBatch := []
  wf := dot_S1000x768_S768x2_S1000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v51) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v51) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v64) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v74) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v75) S2000x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v76) S1000x768.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S768x768.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x768.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78) S768x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v80) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v81_0) S1000x2.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v81_1) S1000x2.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S768x768 : Shape := ⟨2, ![768, 768]⟩
abbrev S768 : Shape := ⟨1, ![768]⟩
abbrev S768x2 : Shape := ⟨2, ![768, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x768 : Shape := ⟨2, ![50000, 768]⟩
abbrev S1x768 : Shape := ⟨2, ![1, 768]⟩
abbrev S50000x2 : Shape := ⟨2, ![50000, 2]⟩
abbrev S1x2 : Shape := ⟨2, ![1, 2]⟩
abbrev S50000 : Shape := ⟨1, ![50000]⟩
abbrev S50000x1 : Shape := ⟨2, ![50000, 1]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256, .f32⟩
  | 17 => ⟨S256, .f32⟩
  | 18 => ⟨S256x256, .f32⟩
  | 19 => ⟨S256, .f32⟩
  | 20 => ⟨S768x768, .f32⟩
  | 21 => ⟨S768, .f32⟩
  | 22 => ⟨S768x2, .f32⟩
  | 23 => ⟨S2, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000x128, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S256, .f32⟩
  | 48 => ⟨S_, .f32⟩
  | 49 => ⟨S256, .f32⟩
  | 50 => ⟨S256, .f32⟩
  | 51 => ⟨S_, .i32⟩
  | 52 => ⟨S_, .f32⟩
  | 53 => ⟨S256, .f32⟩
  | 54 => ⟨S1x256, .f32⟩
  | 55 => ⟨S_, .f32⟩
  | 56 => ⟨S1x256, .f32⟩
  | 57 => ⟨S1x256, .f32⟩
  | 58 => ⟨S50000x256, .f32⟩
  | 59 => ⟨S50000x256, .f32⟩
  | 60 => ⟨S50000x256, .f32⟩
  | 61 => ⟨S_, .f32⟩
  | 62 => ⟨S_, .f32⟩
  | 63 => ⟨S_, .f32⟩
  | 64 => ⟨S_, .f32⟩
  | 65 => ⟨S256, .f32⟩
  | 66 => ⟨S256, .f32⟩
  | 67 => ⟨S256, .f32⟩
  | 68 => ⟨S_, .f32⟩
  | 69 => ⟨S_, .i1⟩
  | 70 => ⟨S_, .f32⟩
  | 71 => ⟨S_, .f32⟩
  | 72 => ⟨S256, .f32⟩
  | 73 => ⟨S256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S256, .f32⟩
  | 80 => ⟨S256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S_, .f32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S_, .f32⟩
  | 110 => ⟨S50000x256, .f32⟩
  | 111 => ⟨S800000x1, .i32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S256, .f32⟩
  | 120 => ⟨S_, .f32⟩
  | 121 => ⟨S256, .f32⟩
  | 122 => ⟨S256, .f32⟩
  | 123 => ⟨S_, .i32⟩
  | 124 => ⟨S_, .f32⟩
  | 125 => ⟨S256, .f32⟩
  | 126 => ⟨S1x256, .f32⟩
  | 127 => ⟨S_, .f32⟩
  | _ => ⟨S50000x128, .f32⟩

abbrev hbmTy0_1 (i : Nat) : BufTy := match i % 128 with
  | 0 => ⟨S1x256, .f32⟩
  | 1 => ⟨S1x256, .f32⟩
  | 2 => ⟨S50000x256, .f32⟩
  | 3 => ⟨S50000x256, .f32⟩
  | 4 => ⟨S50000x256, .f32⟩
  | 5 => ⟨S_, .f32⟩
  | 6 => ⟨S_, .f32⟩
  | 7 => ⟨S_, .f32⟩
  | 8 => ⟨S_, .f32⟩
  | 9 => ⟨S256, .f32⟩
  | 10 => ⟨S256, .f32⟩
  | 11 => ⟨S256, .f32⟩
  | 12 => ⟨S_, .f32⟩
  | 13 => ⟨S_, .i1⟩
  | 14 => ⟨S_, .f32⟩
  | 15 => ⟨S_, .f32⟩
  | 16 => ⟨S256, .f32⟩
  | 17 => ⟨S256, .f32⟩
  | 18 => ⟨S1x256, .f32⟩
  | 19 => ⟨S50000x256, .f32⟩
  | 20 => ⟨S50000x256, .f32⟩
  | 21 => ⟨S_, .f32⟩
  | 22 => ⟨S256, .f32⟩
  | 23 => ⟨S256, .f32⟩
  | 24 => ⟨S256, .f32⟩
  | 25 => ⟨S1x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S1x256, .f32⟩
  | 32 => ⟨S50000x256, .f32⟩
  | 33 => ⟨S50000x256, .f32⟩
  | 34 => ⟨S_, .f32⟩
  | 35 => ⟨S50000x256, .f32⟩
  | 36 => ⟨S50000x256, .f32⟩
  | 37 => ⟨S50000x256, .f32⟩
  | 38 => ⟨S1x256, .f32⟩
  | 39 => ⟨S50000x256, .f32⟩
  | 40 => ⟨S50000x256, .f32⟩
  | 41 => ⟨S_, .f32⟩
  | 42 => ⟨S50000x256, .f32⟩
  | 43 => ⟨S50000x256, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S_, .f32⟩
  | 54 => ⟨S50000x256, .f32⟩
  | 55 => ⟨S800000x1, .i32⟩
  | 56 => ⟨S50000x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S_, .f32⟩
  | 63 => ⟨S256, .f32⟩
  | 64 => ⟨S_, .f32⟩
  | 65 => ⟨S256, .f32⟩
  | 66 => ⟨S256, .f32⟩
  | 67 => ⟨S_, .i32⟩
  | 68 => ⟨S_, .f32⟩
  | 69 => ⟨S256, .f32⟩
  | 70 => ⟨S1x256, .f32⟩
  | 71 => ⟨S_, .f32⟩
  | 72 => ⟨S1x256, .f32⟩
  | 73 => ⟨S1x256, .f32⟩
  | 74 => ⟨S50000x256, .f32⟩
  | 75 => ⟨S50000x256, .f32⟩
  | 76 => ⟨S50000x256, .f32⟩
  | 77 => ⟨S_, .f32⟩
  | 78 => ⟨S_, .f32⟩
  | 79 => ⟨S_, .f32⟩
  | 80 => ⟨S_, .f32⟩
  | 81 => ⟨S256, .f32⟩
  | 82 => ⟨S256, .f32⟩
  | 83 => ⟨S256, .f32⟩
  | 84 => ⟨S_, .f32⟩
  | 85 => ⟨S_, .i1⟩
  | 86 => ⟨S_, .f32⟩
  | 87 => ⟨S_, .f32⟩
  | 88 => ⟨S256, .f32⟩
  | 89 => ⟨S256, .f32⟩
  | 90 => ⟨S1x256, .f32⟩
  | 91 => ⟨S50000x256, .f32⟩
  | 92 => ⟨S50000x256, .f32⟩
  | 93 => ⟨S_, .f32⟩
  | 94 => ⟨S256, .f32⟩
  | 95 => ⟨S256, .f32⟩
  | 96 => ⟨S256, .f32⟩
  | 97 => ⟨S1x256, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S1x256, .f32⟩
  | 104 => ⟨S50000x256, .f32⟩
  | 105 => ⟨S50000x256, .f32⟩
  | 106 => ⟨S_, .f32⟩
  | 107 => ⟨S50000x256, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S50000x768, .f32⟩
  | 117 => ⟨S50000x768, .f32⟩
  | 118 => ⟨S1x768, .f32⟩
  | 119 => ⟨S50000x768, .f32⟩
  | 120 => ⟨S50000x768, .f32⟩
  | 121 => ⟨S_, .f32⟩
  | 122 => ⟨S50000x768, .f32⟩
  | 123 => ⟨S50000x768, .f32⟩
  | 124 => ⟨S50000x2, .f32⟩
  | 125 => ⟨S1x2, .f32⟩
  | 126 => ⟨S50000x2, .f32⟩
  | 127 => ⟨S50000x2, .f32⟩
  | _ => ⟨S50000x128, .f32⟩

abbrev hbmTy0_2 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x2, .f32⟩
  | 7 => ⟨S50000x2, .f32⟩
  | 8 => ⟨S50000x2, .f32⟩
  | 9 => ⟨S_, .f32⟩
  | 10 => ⟨S50000, .f32⟩
  | 11 => ⟨S50000x1, .f32⟩
  | 12 => ⟨S50000x2, .f32⟩
  | 13 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_4 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_call1_cst : Ref sig .tc := ⟨.hbm, 90, rfl⟩
abbrev main_call1_v0 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_call2_cst : Ref sig .tc := ⟨.hbm, 97, rfl⟩
abbrev main_call2_v0 : Ref sig .tc := ⟨.hbm, 98, rfl⟩
abbrev main_v43 : Ref sig .tc := ⟨.hbm, 99, rfl⟩
abbrev main_c_5 : Ref sig .tc := ⟨.hbm, 100, rfl⟩
abbrev main_v44 : Ref sig .tc := ⟨.hbm, 101, rfl⟩
abbrev main_v45 : Ref sig .tc := ⟨.hbm, 102, rfl⟩
abbrev main_c_6 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_7 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_8 : Ref sig .tc := ⟨.hbm, 118, rfl⟩
abbrev main_v59 : Ref sig .tc := ⟨.hbm, 119, rfl⟩
abbrev main_cst_9 : Ref sig .tc := ⟨.hbm, 120, rfl⟩
abbrev main_v60 : Ref sig .tc := ⟨.hbm, 121, rfl⟩
abbrev main_v61 : Ref sig .tc := ⟨.hbm, 122, rfl⟩
abbrev main_c_10 : Ref sig .tc := ⟨.hbm, 123, rfl⟩
abbrev main_call3_cst : Ref sig .tc := ⟨.hbm, 124, rfl⟩
abbrev main_call3_v0 : Ref sig .tc := ⟨.hbm, 125, rfl⟩
abbrev main_call3_v1 : Ref sig .tc := ⟨.hbm, 126, rfl⟩
abbrev main_call3_cst_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_v7 : Ref sig .tc := ⟨.hbm, 133, rfl⟩
abbrev main_call3_cst_1 : Ref sig .tc := ⟨.hbm, 134, rfl⟩
abbrev main_call3_v8 : Ref sig .tc := ⟨.hbm, 135, rfl⟩
abbrev main_call3_cst_2 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_cst_3 : Ref sig .tc := ⟨.hbm, 140, rfl⟩
abbrev main_call3_v12 : Ref sig .tc := ⟨.hbm, 141, rfl⟩
abbrev main_call3_cst_4 : Ref sig .tc := ⟨.hbm, 142, rfl⟩
abbrev main_call3_call0_v0 : Ref sig .tc := ⟨.hbm, 143, rfl⟩
abbrev main_call3_call0_v1 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_cst_11 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_call4_cst : Ref sig .tc := ⟨.hbm, 162, rfl⟩
abbrev main_call4_v0 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_call5_cst : Ref sig .tc := ⟨.hbm, 169, rfl⟩
abbrev main_call5_v0 : Ref sig .tc := ⟨.hbm, 170, rfl⟩
abbrev main_v83 : Ref sig .tc := ⟨.hbm, 171, rfl⟩
abbrev main_c_12 : Ref sig .tc := ⟨.hbm, 172, rfl⟩
abbrev main_v84 : Ref sig .tc := ⟨.hbm, 173, rfl⟩
abbrev main_v85 : Ref sig .tc := ⟨.hbm, 174, rfl⟩
abbrev main_c_13 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_14 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_cst_15 : Ref sig .tc := ⟨.hbm, 190, rfl⟩
abbrev main_v99 : Ref sig .tc := ⟨.hbm, 191, rfl⟩
abbrev main_cst_16 : Ref sig .tc := ⟨.hbm, 192, rfl⟩
abbrev main_v100 : Ref sig .tc := ⟨.hbm, 193, rfl⟩
abbrev main_v101 : Ref sig .tc := ⟨.hbm, 194, rfl⟩
abbrev main_c_17 : Ref sig .tc := ⟨.hbm, 195, rfl⟩
abbrev main_call6_cst : Ref sig .tc := ⟨.hbm, 196, rfl⟩
abbrev main_call6_v0 : Ref sig .tc := ⟨.hbm, 197, rfl⟩
abbrev main_call6_v1 : Ref sig .tc := ⟨.hbm, 198, rfl⟩
abbrev main_call6_cst_0 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_v6 : Ref sig .tc := ⟨.hbm, 204, rfl⟩
abbrev main_call6_v7 : Ref sig .tc := ⟨.hbm, 205, rfl⟩
abbrev main_call6_cst_1 : Ref sig .tc := ⟨.hbm, 206, rfl⟩
abbrev main_call6_v8 : Ref sig .tc := ⟨.hbm, 207, rfl⟩
abbrev main_call6_cst_2 : Ref sig .tc := ⟨.hbm, 208, rfl⟩
abbrev main_call6_v9 : Ref sig .tc := ⟨.hbm, 209, rfl⟩
abbrev main_call6_v10 : Ref sig .tc := ⟨.hbm, 210, rfl⟩
abbrev main_call6_v11 : Ref sig .tc := ⟨.hbm, 211, rfl⟩
abbrev main_call6_cst_3 : Ref sig .tc := ⟨.hbm, 212, rfl⟩
abbrev main_call6_v12 : Ref sig .tc := ⟨.hbm, 213, rfl⟩
abbrev main_call6_cst_4 : Ref sig .tc := ⟨.hbm, 214, rfl⟩
abbrev main_call6_call0_v0 : Ref sig .tc := ⟨.hbm, 215, rfl⟩
abbrev main_call6_call0_v1 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_cst_18 : Ref sig .tc := ⟨.hbm, 221, rfl⟩
abbrev main_v106 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_v111 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_call7_cst : Ref sig .tc := ⟨.hbm, 234, rfl⟩
abbrev main_call7_v0 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_call8_cst : Ref sig .tc := ⟨.hbm, 241, rfl⟩
abbrev main_call8_v0 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_call9_cst : Ref sig .tc := ⟨.hbm, 249, rfl⟩
abbrev main_call9_v0 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_cst_19 : Ref sig .tc := ⟨.hbm, 256, rfl⟩
abbrev main_v134 : Ref sig .tc := ⟨.hbm, 257, rfl⟩
abbrev main_cst_20 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_cst_21 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  concatenates_S50000x256_S50000x256_S50000x256_S50000x768_d1 : Shape.Concatenates [S50000x256, S50000x256, S50000x256] S50000x768 1
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  bcast_S_S50000x768 : S_.BroadcastsInDim S50000x768 (![] : Fin 0 → Fin S50000x768.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x768_S768x768_S50000x768_1_0_0_1_n_n_wf : DotDims.WF S50000x768 S768x768 S50000x768 [1] [0] [0] [1] [] []
  dot_S50000x768_S768x2_S50000x2_1_0_0_1_n_n_wf : DotDims.WF S50000x768 S768x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x768_S768x768_S50000x768_1_0_0_1_n_n : DotDims S50000x768 S768x768 S50000x768 where
  lhsContracting := [1]
  rhsContracting := [0]
  lhsNonContracting := [0]
  rhsNonContracting := [1]
  lhsBatch := []
  rhsBatch := []
  wf := dot_S50000x768_S768x768_S50000x768_1_0_0_1_n_n_wf
def dot_S50000x768_S768x2_S50000x2_1_0_0_1_n_n : DotDims S50000x768 S768x2 S50000x2 where
  lhsContracting := [1]
  rhsContracting := [0]
  lhsNonContracting := [0]
  rhsNonContracting := [1]
  lhsBatch := []
  rhsBatch := []
  wf := dot_S50000x768_S768x2_S50000x2_1_0_0_1_n_n_wf

class Facts : Prop extends Facts₀ where

variable [Facts]
-- ==== Proof.KBits.Call0.lean ====
/-
  The first layer's first linear map (custom_call 0): 25 row blocks of 2000 nodes. At each block the body reads the node features x and
  the neighbour sums agg (2000 x 128 each), the whole weight matrix (128 x 256) and the bias row (1 x 256), and writes
  (x + agg) . W + b, 2000 x 256, over the whole output block.
  Stated at any contents V of the buffers when the call is entered: what each window's block holds, what the body
  leaves in each output block, the body's triple, the call's proof data and its body obligation.
-/
import proofs.«121371_j46033459478999_1_alg».proof.Proof.Gen.Kernel.Launch
import proofs.«121371_j46033459478999_1_alg».proof.Proof.Gen.Kernel.Skeleton
import proofs.«121371_j46033459478999_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every row block, fetched there or not (a window whose block
    index never moves is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes: each buffer whole. -/
abbrev r0_S2000x128 : Rect S2000x128 := Rect.unit (s := S2000x128) ![0, 0] S2000x128.size inb_S2000x128_S2000x128_0_0
abbrev r0_S128x256 : Rect S128x256 := Rect.unit (s := S128x256) ![0, 0] S128x256.size inb_S128x256_S128x256_0_0
abbrev r0_S1x256 : Rect S1x256 := Rect.unit (s := S1x256) ![0, 0] S1x256.size inb_S1x256_S1x256_0_0
abbrev r0_S2000x256 : Rect S2000x256 := Rect.unit (s := S2000x256) ![0, 0] S2000x256.size inb_S2000x256_S2000x256_0_0

/-- Output window 4's block after the body, from the input blocks: its one whole store. -/
def out0_4 (x0 : Vec F S2000x128 .f32) (x1 : Vec F S2000x128 .f32) (x2 : Vec F S128x256 .bf16) (x3 : Vec F S1x256 .f32) : Vec F S2000x256 .f32 :=
  View.canon [⟨r0_S2000x256, k0_pay1 (View.ld x0 r0_S2000x128) (View.ld x1 r0_S2000x128) (View.ld x2 r0_S128x256) (View.ld x3 r0_S1x256)⟩]

/-- The one store covers the block. -/
theorem cover0_4 (p0 : Vec F S2000x256 .f32) (y : S2000x256.Idx) :
    ∃ pc ∈ ([⟨r0_S2000x256, p0⟩] : List (View.Piece (Elt F) S2000x256 .f32)), y ∈ pc.1.set :=
  View.cover_of_tiled [⟨r0_S2000x256, p0⟩] S2000x256.size (by rfl) y

set_option maxHeartbeats 1000000 in
/-- The body on whole staging memrefs: the inputs stay as read, each output ends at its `out0_w` of the inputs. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S2000x256 .f32) (harg5 : arg5.IsWhole)
    (x0 : Vec F S2000x128 .f32) (x1 : Vec F S2000x128 .f32) (x2 : Vec F S128x256 .bf16) (x3 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__linear1_kernel i arg1 harg1 arg2 harg2 arg3 harg3 arg4 harg4 arg5 harg5) K := by
  simp only [cc0__linear1_kernel_eq_skeleton]; unfold cc0__linear1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The call's proof data on core `c`: the arrays as the call finds them; after the body at row block `t` each
    input's buffer at its block and each output's at its `out0_w` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at row block `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any row block: the inputs' memrefs hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every row block. -/
theorem body_obligation0 (c : Dev nD) : BodyObligation (dat0 (F := F) V c) (defs₀ (F := F)) Variants.none () Set.univ := fun t => by
  rw [bigSep_W0, bigSep_W0]
  exact sound_body0 V c t

end Cert.Kernel.Calls

end
-- ==== Proof.KBits.Call1.lean ====
/-
  The first layer's normalisation and second linear map (custom_call 1): 25 row blocks of 2000 nodes. At each block the body reads
  h (2000 x 256), the column mean, the column variance, the scale and the shift (1 x 256 each), the weight matrix
  (256 x 256) and the bias row, and writes relu(relu((h - mean) * rsqrt(var + eps) * scale + shift) . W + b) over the whole
  output block.
  Stated at any contents V of the buffers when the call is entered: what each window's block holds, what the body
  leaves in each output block, the body's triple, the call's proof data and its body obligation.
-/
import proofs.«121371_j46033459478999_1_alg».proof.Proof.Gen.Kernel.Launch
import proofs.«121371_j46033459478999_1_alg».proof.Proof.Gen.Kernel.Skeleton
import proofs.«121371_j46033459478999_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every row block, fetched there or not (a window whose block
    index never moves is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes: each buffer whole. -/
abbrev r1_S2000x256 : Rect S2000x256 := Rect.unit (s := S2000x256) ![0, 0] S2000x256.size inb_S2000x256_S2000x256_0_0
abbrev r1_S1x256 : Rect S1x256 := Rect.unit (s := S1x256) ![0, 0] S1x256.size inb_S1x256_S1x256_0_0
abbrev r1_S256x256 : Rect S256x256 := Rect.unit (s := S256x256) ![0, 0] S256x256.size inb_S256x256_S256x256_0_0

/-- Output window 7's block after the body, from the input blocks: its one whole store. -/
def out1_7 (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  View.canon [⟨r1_S2000x256, k1_pay1 (View.ld x0 r1_S2000x256) (View.ld x1 r1_S1x256) (View.ld x2 r1_S1x256) (View.ld x3 r1_S1x256) (View.ld x4 r1_S1x256) (View.ld x5 r1_S256x256) (View.ld x6 r1_S1x256)⟩]

/-- The one store covers the block. -/
theorem cover1_7 (p0 : Vec F S2000x256 .f32) (y : S2000x256.Idx) :
    ∃ pc ∈ ([⟨r1_S2000x256, p0⟩] : List (View.Piece (Elt F) S2000x256 .f32)), y ∈ pc.1.set :=
  View.cover_of_tiled [⟨r1_S2000x256, p0⟩] S2000x256.size (by rfl) y

set_option maxHeartbeats 1000000 in
/-- The body on whole staging memrefs: the inputs stay as read, each output ends at its `out1_w` of the inputs. -/
theorem sound_kernel1 (c : Dev nD) (E : Set ℕ) (i : grid1.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__bn_relu_linear2_kernel i arg1 harg1 arg2 harg2 arg3 harg3 arg4 harg4 arg5 harg5 arg6 harg6 arg7 harg7 arg8 harg8) K := by
  simp only [cc1__bn_relu_linear2_kernel_eq_skeleton]; unfold cc1__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The call's proof data on core `c`: the arrays as the call finds them; after the body at row block `t` each
    input's buffer at its block and each output's at its `out1_w` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at row block `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any row block: the inputs' memrefs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every row block. -/
theorem body_obligation1 (c : Dev nD) : BodyObligation (dat1 (F := F) V c) (defs₀ (F := F)) Variants.none () Set.univ := fun t => by
  rw [bigSep_W1, bigSep_W1]
  exact sound_body1 V c t

end Cert.Kernel.Calls

end
-- ==== Proof.KBits.Call2.lean ====
/-
  The second layer's first linear map (custom_call 2): 25 row blocks of 2000 nodes. At each block the body reads the features h and the
  neighbour sums agg (2000 x 256 each), the whole weight matrix (256 x 256) and the bias row (1 x 256), and writes
  (h + agg) . W + b over the whole output block.
  Stated at any contents V of the buffers when the call is entered: what each window's block holds, what the body
  leaves in each output block, the body's triple, the call's proof data and its body obligation.
-/
import proofs.«121371_j46033459478999_1_alg».proof.Proof.Gen.Kernel.Launch
import proofs.«121371_j46033459478999_1_alg».proof.Proof.Gen.Kernel.Skeleton
import proofs.«121371_j46033459478999_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every row block, fetched there or not (a window whose block
    index never moves is fetched once and keeps its block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! The rectangles the body reads and writes: each buffer whole. -/
abbrev r2_S2000x256 : Rect S2000x256 := Rect.unit (s := S2000x256) ![0, 0] S2000x256.size inb_S2000x256_S2000x256_0_0
abbrev r2_S256x256 : Rect S256x256 := Rect.unit (s := S256x256) ![0, 0] S256x256.size inb_S256x256_S256x256_0_0
abbrev r2_S1x256 : Rect S1x256 := Rect.unit (s := S1x256) ![0, 0] S1x256.size inb_S1x256_S1x256_0_0

/-- Output window 4's block after the body, from the input blocks: its one whole store. -/
def out2_4 (x0 : Vec F S2000x256 .f32) (x1 : Vec F S2000x256 .f32) (x2 : Vec F S256x256 .bf16) (x3 : Vec F S1x256 .f32) : Vec F S2000x256 .f32 :=
  View.canon [⟨r2_S2000x256, k2_pay1 (View.ld x0 r2_S2000x256) (View.ld x1 r2_S2000x256) (View.ld x2 r2_S256x256) (View.ld x3 r2_S1x256)⟩]

/-- The one store covers the block. -/
theorem cover2_4 (p0 : Vec F S2000x256 .f32) (y : S2000x256.Idx) :
    ∃ pc ∈ ([⟨r2_S2000x256, p0⟩] : List (View.Piece (Elt F) S2000x256 .f32)), y ∈ pc.1.set :=
  View.cover_of_tiled [⟨r2_S2000x256, p0⟩] S2000x256.size (by rfl) y

set_option maxHeartbeats 1000000 in
/-- The body on whole staging memrefs: the inputs stay as read, each output ends at its `out2_w` of the inputs. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S256x256 .bf16) (x3 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__linear1_kernel i arg1 harg1 arg2 harg2 arg3 harg3 arg4 harg4 arg5 harg5) K := by
  simp only [cc2__linear1_kernel_eq_skeleton]; unfold cc2__linear1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The call's proof data on core `c`: the arrays as the call finds them; after the body at row block `t` each
    input's buffer at its block and each output's at its `out2_w` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at row block `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any row block: the inputs' memrefs hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every row block. -/
theorem body_obligation2 (c : Dev nD) : BodyObligation (dat2 (F := F) V c) (defs₀ (F := F)) Variants.none () Set.univ := fun t => by
  rw [bigSep_W2, bigSep_W2]
  exact sound_body2 V c t

end Cert.Kernel.Calls

end
-- ==== Proof.KBits.Call3.lean ====
/-
  The second layer's normalisation and second linear map (custom_call 3): 25 row blocks of 2000 nodes. At each block the body reads
  h (2000 x 256), the column mean, the column variance, the scale and the shift (1 x 256 each), the weight matrix
  (256 x 256) and the bias row, and writes relu(relu((h - mean) * rsqrt(var + eps) * scale + shift) . W + b) over the whole
  output block.
  Stated at any contents V of the buffers when the call is entered: what each window's block holds, what the body
  leaves in each output block, the body's triple, the call's proof data and its body obligation.
-/
import proofs.«121371_j46033459478999_1_alg».proof.Proof.Gen.Kernel.Launch
import proofs.«121371_j46033459478999_1_alg».proof.Proof.Gen.Kernel.Skeleton
import proofs.«121371_j46033459478999_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every row block, fetched there or not (a window whose block
    index never moves is fetched once and keeps its block). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! The rectangles the body reads and writes: each buffer whole. -/
abbrev r3_S2000x256 : Rect S2000x256 := Rect.unit (s := S2000x256) ![0, 0] S2000x256.size inb_S2000x256_S2000x256_0_0
abbrev r3_S1x256 : Rect S1x256 := Rect.unit (s := S1x256) ![0, 0] S1x256.size inb_S1x256_S1x256_0_0
abbrev r3_S256x256 : Rect S256x256 := Rect.unit (s := S256x256) ![0, 0] S256x256.size inb_S256x256_S256x256_0_0

/-- Output window 7's block after the body, from the input blocks: its one whole store. -/
def out3_7 (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  View.canon [⟨r3_S2000x256, k3_pay1 (View.ld x0 r3_S2000x256) (View.ld x1 r3_S1x256) (View.ld x2 r3_S1x256) (View.ld x3 r3_S1x256) (View.ld x4 r3_S1x256) (View.ld x5 r3_S256x256) (View.ld x6 r3_S1x256)⟩]

/-- The one store covers the block. -/
theorem cover3_7 (p0 : Vec F S2000x256 .f32) (y : S2000x256.Idx) :
    ∃ pc ∈ ([⟨r3_S2000x256, p0⟩] : List (View.Piece (Elt F) S2000x256 .f32)), y ∈ pc.1.set :=
  View.cover_of_tiled [⟨r3_S2000x256, p0⟩] S2000x256.size (by rfl) y

set_option maxHeartbeats 1000000 in
/-- The body on whole staging memrefs: the inputs stay as read, each output ends at its `out3_w` of the inputs. -/
theorem sound_kernel3 (c : Dev nD) (E : Set ℕ) (i : grid3.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__bn_relu_linear2_kernel i arg1 harg1 arg2 harg2 arg3 harg3 arg4 harg4 arg5 harg5 arg6 harg6 arg7 harg7 arg8 harg8) K := by
  simp only [cc3__bn_relu_linear2_kernel_eq_skeleton]; unfold cc3__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The call's proof data on core `c`: the arrays as the call finds them; after the body at row block `t` each
    input's buffer at its block and each output's at its `out3_w` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) :
    (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at row block `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any row block: the inputs' memrefs hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every row block. -/
theorem body_obligation3 (c : Dev nD) : BodyObligation (dat3 (F := F) V c) (defs₀ (F := F)) Variants.none () Set.univ := fun t => by
  rw [bigSep_W3, bigSep_W3]
  exact sound_body3 V c t

end Cert.Kernel.Calls

end
-- ==== Proof.KBits.Call4.lean ====
/-
  The third layer's first linear map (custom_call 4): 25 row blocks of 2000 nodes. At each block the body reads the features h and the
  neighbour sums agg (2000 x 256 each), the whole weight matrix (256 x 256) and the bias row (1 x 256), and writes
  (h + agg) . W + b over the whole output block.
  Stated at any contents V of the buffers when the call is entered: what each window's block holds, what the body
  leaves in each output block, the body's triple, the call's proof data and its body obligation.
-/
import proofs.«121371_j46033459478999_1_alg».proof.Proof.Gen.Kernel.Launch
import proofs.«121371_j46033459478999_1_alg».proof.Proof.Gen.Kernel.Skeleton
import proofs.«121371_j46033459478999_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every row block, fetched there or not (a window whose block
    index never moves is fetched once and keeps its block). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! The rectangles the body reads and writes: each buffer whole. -/
abbrev r4_S2000x256 : Rect S2000x256 := Rect.unit (s := S2000x256) ![0, 0] S2000x256.size inb_S2000x256_S2000x256_0_0
abbrev r4_S256x256 : Rect S256x256 := Rect.unit (s := S256x256) ![0, 0] S256x256.size inb_S256x256_S256x256_0_0
abbrev r4_S1x256 : Rect S1x256 := Rect.unit (s := S1x256) ![0, 0] S1x256.size inb_S1x256_S1x256_0_0

/-- Output window 4's block after the body, from the input blocks: its one whole store. -/
def out4_4 (x0 : Vec F S2000x256 .f32) (x1 : Vec F S2000x256 .f32) (x2 : Vec F S256x256 .bf16) (x3 : Vec F S1x256 .f32) : Vec F S2000x256 .f32 :=
  View.canon [⟨r4_S2000x256, k4_pay1 (View.ld x0 r4_S2000x256) (View.ld x1 r4_S2000x256) (View.ld x2 r4_S256x256) (View.ld x3 r4_S1x256)⟩]

/-- The one store covers the block. -/
theorem cover4_4 (p0 : Vec F S2000x256 .f32) (y : S2000x256.Idx) :
    ∃ pc ∈ ([⟨r4_S2000x256, p0⟩] : List (View.Piece (Elt F) S2000x256 .f32)), y ∈ pc.1.set :=
  View.cover_of_tiled [⟨r4_S2000x256, p0⟩] S2000x256.size (by rfl) y

set_option maxHeartbeats 1000000 in
/-- The body on whole staging memrefs: the inputs stay as read, each output ends at its `out4_w` of the inputs. -/
theorem sound_kernel4 (c : Dev nD) (E : Set ℕ) (i : grid4.Coords)
    (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S256x256 .bf16) (x3 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__linear1_kernel i arg1 harg1 arg2 harg2 arg3 harg3 arg4 harg4 arg5 harg5) K := by
  simp only [cc4__linear1_kernel_eq_skeleton]; unfold cc4__linear1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The call's proof data on core `c`: the arrays as the call finds them; after the body at row block `t` each
    input's buffer at its block and each output's at its `out4_w` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at row block `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any row block: the inputs' memrefs hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every row block. -/
theorem body_obligation4 (c : Dev nD) : BodyObligation (dat4 (F := F) V c) (defs₀ (F := F)) Variants.none () Set.univ := fun t => by
  rw [bigSep_W4, bigSep_W4]
  exact sound_body4 V c t

end Cert.Kernel.Calls

end
-- ==== Proof.KBits.Call5.lean ====
/-
  The third layer's normalisation and second linear map (custom_call 5): 25 row blocks of 2000 nodes. At each block the body reads
  h (2000 x 256), the column mean, the column variance, the scale and the shift (1 x 256 each), the weight matrix
  (256 x 256) and the bias row, and writes relu(relu((h - mean) * rsqrt(var + eps) * scale + shift) . W + b) over the whole
  output block.
  Stated at any contents V of the buffers when the call is entered: what each window's block holds, what the body
  leaves in each output block, the body's triple, the call's proof data and its body obligation.
-/
import proofs.«121371_j46033459478999_1_alg».proof.Proof.Gen.Kernel.Launch
import proofs.«121371_j46033459478999_1_alg».proof.Proof.Gen.Kernel.Skeleton
import proofs.«121371_j46033459478999_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every row block, fetched there or not (a window whose block
    index never moves is fetched once and keeps its block). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! The rectangles the body reads and writes: each buffer whole. -/
abbrev r5_S2000x256 : Rect S2000x256 := Rect.unit (s := S2000x256) ![0, 0] S2000x256.size inb_S2000x256_S2000x256_0_0
abbrev r5_S1x256 : Rect S1x256 := Rect.unit (s := S1x256) ![0, 0] S1x256.size inb_S1x256_S1x256_0_0
abbrev r5_S256x256 : Rect S256x256 := Rect.unit (s := S256x256) ![0, 0] S256x256.size inb_S256x256_S256x256_0_0

/-- Output window 7's block after the body, from the input blocks: its one whole store. -/
def out5_7 (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  View.canon [⟨r5_S2000x256, k5_pay1 (View.ld x0 r5_S2000x256) (View.ld x1 r5_S1x256) (View.ld x2 r5_S1x256) (View.ld x3 r5_S1x256) (View.ld x4 r5_S1x256) (View.ld x5 r5_S256x256) (View.ld x6 r5_S1x256)⟩]

/-- The one store covers the block. -/
theorem cover5_7 (p0 : Vec F S2000x256 .f32) (y : S2000x256.Idx) :
    ∃ pc ∈ ([⟨r5_S2000x256, p0⟩] : List (View.Piece (Elt F) S2000x256 .f32)), y ∈ pc.1.set :=
  View.cover_of_tiled [⟨r5_S2000x256, p0⟩] S2000x256.size (by rfl) y

set_option maxHeartbeats 1000000 in
/-- The body on whole staging memrefs: the inputs stay as read, each output ends at its `out5_w` of the inputs. -/
theorem sound_kernel5 (c : Dev nD) (E : Set ℕ) (i : grid5.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out5_7 x0 x1 x2 x3 x4 x5 x6)) -∗ K ⟨⟩))
      ⊢ wp frame (wpE (defs₀ (F := F)) Variants.none c none) E (cc5__bn_relu_linear2_kernel i arg1 harg1 arg2 harg2 arg3 harg3 arg4 harg4 arg5 harg5 arg6 harg6 arg7 harg7 arg8 harg8) K := by
  simp only [cc5__bn_relu_linear2_kernel_eq_skeleton]; unfold cc5__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The call's proof data on core `c`: the arrays as the call finds them; after the body at row block `t` each
    input's buffer at its block and each output's at its `out5_w` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) :
    (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at row block `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any row block: the inputs' memrefs hold their blocks, so the body's triple applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every row block. -/
theorem body_obligation5 (c : Dev nD) : BodyObligation (dat5 (F := F) V c) (defs₀ (F := F)) Variants.none () Set.univ := fun t => by
  rw [bigSep_W5, bigSep_W5]
  exact sound_body5 V c t

end Cert.Kernel.Calls

end
-- ==== Proof.KBits.Call6.lean ====
/-
  The readout (custom_call 6): 50 row blocks of 1000 nodes. At each block the body reads the three layers' features side by side
  (1000 x 768), the two weight matrices (768 x 768, 768 x 2) and the two bias rows, and writes the logits
  relu(h . W1 + b1) . W2 + b2 over the first output block and their softmax over the two columns over the second.
  Stated at any contents V of the buffers when the call is entered: what each window's block holds, what the body
  leaves in each output block, the body's triple, the call's proof data and its body obligation.
-/
import proofs.«121371_j46033459478999_1_alg».proof.Proof.Gen.Kernel.Launch
import proofs.«121371_j46033459478999_1_alg».proof.Proof.Gen.Kernel.Skeleton
import proofs.«121371_j46033459478999_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds its block at every row block, fetched there or not (a window whose block
    index never moves is fetched once and keeps its block). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! The rectangles the body reads and writes: each buffer whole. -/
abbrev r6_S1000x768 : Rect S1000x768 := Rect.unit (s := S1000x768) ![0, 0] S1000x768.size inb_S1000x768_S1000x768_0_0
abbrev r6_S768x768 : Rect S768x768 := Rect.unit (s := S768x768) ![0, 0] S768x768.size inb_S768x768_S768x768_0_0
abbrev r6_S1x768 : Rect S1x768 := Rect.unit (s := S1x768) ![0, 0] S1x768.size inb_S1x768_S1x768_0_0
abbrev r6_S768x2 : Rect S768x2 := Rect.unit (s := S768x2) ![0, 0] S768x2.size inb_S768x2_S768x2_0_0
abbrev r6_S1x2 : Rect S1x2 := Rect.unit (s := S1x2) ![0, 0] S1x2.size inb_S1x2_S1x2_0_0
abbrev r6_S1000x2 : Rect S1000x2 := Rect.unit (s := S1000x2) ![0, 0] S1000x2.size inb_S1000x2_S1000x2_0_0

/-- Output window 5's block after the body, from the input blocks: its one whole store. -/
def out6_5 (x0 : Vec F S1000x768 .f32) (x1 : Vec F S768x768 .bf16) (x2 : Vec F S1x768 .f32) (x3 : Vec F S768x2 .bf16) (x4 : Vec F S1x2 .f32) : Vec F S1000x2 .f32 :=
  View.canon [⟨r6_S1000x2, k6_pay1 (View.ld x0 r6_S1000x768) (View.ld x1 r6_S768x768) (View.ld x2 r6_S1x768) (View.ld x3 r6_S768x2) (View.ld x4 r6_S1x2)⟩]

/-- The one store covers the block. -/
theorem cover6_5 (p0 : Vec F S1000x2 .f32) (y : S1000x2.Idx) :
    ∃ pc ∈ ([⟨r6_S1000x2, p0⟩] : List (View.Piece (Elt F) S1000x2 .f32)), y ∈ pc.1.set :=
  View.cover_of_tiled [⟨r6_S1000x2, p0⟩] S1000x2.size (by rfl) y

/-- Output window 6's block after the body, from the input blocks: its one whole store. -/
def out6_6 (x0 : Vec F S1000x768 .f32) (x1 : Vec F S768x768 .bf16) (x2 : Vec F S1x768 .f32) (x3 : Vec F S768x2 .bf16) (x4 : Vec F S1x2 .f32) : Vec F S1000x2 .f32 :=
  View.canon [⟨r6_S1000x2, k6_pay2 (View.ld x0 r6_S1000x768) (View.ld x1 r6_S768x768) (View.ld x2 r6_S1x768) (View.ld x3 r6_S768x2) (View.ld x4 r6_S1x2)⟩]

/-- The one store covers the block. -/
theorem cover6_6 (p0 : Vec F S1000x2 .f32) (y : S1000x2.Idx) :
    ∃ pc ∈ ([⟨r6_S1000x2, p0⟩] : List (View.Piece (Elt F) S1000x2 .f32)), y ∈ pc.1.set :=
  View.cover_of_tiled [⟨r6_S1000x2, p0⟩] S1000x2.size (by rfl) y

set_option maxHeartbeats 1000000 in
/-- The body on whole staging memrefs: the inputs stay as read, each output ends at its `out6_w` of the inputs. -/
theorem sound_kernel6 (c : Dev nD) (E : Set ℕ) (i : grid6.Coords)
    (arg1 : Memref sig .tc .vmem S1000x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x2 .bf16) (harg4 : arg4.IsWhole) (arg5 : Memref sig .tc .vmem S1x2 .f32) (harg5 : arg5.IsWhole) (arg6 : Memref sig .tc .vmem S1000x2 .f32) (harg6 : arg6.IsWhole) (arg7 : Memref sig .tc .vmem S1000x2 .f32) (harg7 : arg7.IsWhole)
    (x0 : Vec F S1000x768 .f32) (x1 : Vec F S768x768 .bf16) (x2 : Vec F S1x768 .f32) (x3 : Vec F S768x2 .bf16) (x4 : Vec F S1x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out6_5 x0 x1 x2 x3 x4)
            ∗ owns (c : Thread nD τ) arg7 fullShare (out6_6 x0 x1 x2 x3 x4)) -∗ K ⟨⟩))
      ⊢ wp frame (wpE (defs₀ (F := F)) Variants.none c none) E (cc6__readout_kernel i arg1 harg1 arg2 harg2 arg3 harg3 arg4 harg4 arg5 harg5 arg6 harg6 arg7 harg7) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists _; isplitr
  swap; · iexact H6
  ipureintro
  exact View.read_writes_eq_canon _ _ _ (cover6_6 _)

/-- The call's proof data on core `c`: the arrays as the call finds them; after the body at row block `t` each
    input's buffer at its block and each output's at its `out6_w` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
    | ⟨6, _⟩ => out6_6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]
theorem after6_6 (c : Dev nD) (t : Fin cfg6.N) :
    (dat6 V c).after 6 t = out6_6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at row block `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any row block: the inputs' memrefs hold their blocks, so the body's triple applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every row block. -/
theorem body_obligation6 (c : Dev nD) : BodyObligation (dat6 (F := F) V c) (defs₀ (F := F)) Variants.none () Set.univ := fun t => by
  rw [bigSep_W6, bigSep_W6]
  exact sound_body6 V c t

end Cert.Kernel.Calls

end
-- ==== Proof.KBits.RunCond.lean ====
/-
  The whole program's run, given one record per pallas_call: every weakly fair execution of @main ends, nothing faults,
  and the final memory holds the two result arrays (the logits and their softmax) at what the last call leaves in
  them, and every argument array as launched. The contents of the buffers between two items of @main are the fold
  `V0 .. V20`: the launch memory, then each stretch of host operations applied, then each call's output arrays replaced
  by what the call leaves (`outs`).
-/
import proofs.«121371_j46033459478999_1_alg».proof.Proof.Gen.Kernel.Regions

set_option maxRecDepth 1520

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- Given, per call, a record entered from the fold's contents before it and left at the contents after it, the program
    runs to the end with the results at the last contents `V20` and the arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V17 m outs c) ∗ E 5 c) ⊢ R5.pre c)
    (hpost5 : ∀ c : Dev nD, R5.post c ⊢ iprop(StableHlo.held (c : Thread nD τ) (Pipeline.ucRefs τ sig) (V18 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c)) :
    θ_run defs (onTc (τ := τ) (main (F := F))) ⟨m, fun _ => 0, ρ⟩ (fun r => ∀ c : Dev nD,
      r.2.mem ((c.tc : Thread nD τ).loc main_v81_0) = V20 m outs c main_v81_0
      ∧ r.2.mem ((c.tc : Thread nD τ).loc main_v81_1) = V20 m outs c main_v81_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V20 m outs c))
    (hch := fun c => ⟨.rfl, hpre0 c, hpost0 c, .rfl, .rfl, hpre1 c, hpost1 c, hpre2 c, hpost2 c, .rfl, .rfl, hpre3 c, hpost3 c, hpre4 c, hpost4 c, .rfl, .rfl, hpre5 c, hpost5 c, hpre6 c, (hpost6 c).trans (sep_mono .rfl (hE7 c))⟩)
    (hinit := ?_) (QY := fun c s => s.mem ((c.tc : Thread nD τ).loc main_v81_0) = V20 m outs c main_v81_0 ∧ s.mem ((c.tc : Thread nD τ).loc main_v81_1) = V20 m outs c main_v81_1 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V20 m outs c) s') $$ [Hh HSI]
    · isplitl [Hh] <;> iassumption
    icases Hr with ⟨%h, HSI⟩
    imodintro
    isplitr
    · ipureintro
      exact ⟨h (Proc.devRef .tc main_v81_0) (Finset.mem_filter.mpr ⟨StableHlo.devRef_mem_tcRefs main_v81_0, by decide⟩),
        h (Proc.devRef .tc main_v81_1) (Finset.mem_filter.mpr ⟨StableHlo.devRef_mem_tcRefs main_v81_1, by decide⟩),
        (h (Proc.devRef .tc main_arg0) (Finset.mem_filter.mpr ⟨StableHlo.devRef_mem_tcRefs main_arg0, by decide⟩)).trans (V20_main_arg0 m outs c),
        (h (Proc.devRef .tc main_arg1) (Finset.mem_filter.mpr ⟨StableHlo.devRef_mem_tcRefs main_arg1, by decide⟩)).trans (V20_main_arg1 m outs c),
        (h (Proc.devRef .tc main_arg2) (Finset.mem_filter.mpr ⟨StableHlo.devRef_mem_tcRefs main_arg2, by decide⟩)).trans (V20_main_arg2 m outs c),
        (h (Proc.devRef .tc main_arg3) (Finset.mem_filter.mpr ⟨StableHlo.devRef_mem_tcRefs main_arg3, by decide⟩)).trans (V20_main_arg3 m outs c),
        (h (Proc.devRef .tc main_arg4) (Finset.mem_filter.mpr ⟨StableHlo.devRef_mem_tcRefs main_arg4, by decide⟩)).trans (V20_main_arg4 m outs c),
        (h (Proc.devRef .tc main_arg5) (Finset.mem_filter.mpr ⟨StableHlo.devRef_mem_tcRefs main_arg5, by decide⟩)).trans (V20_main_arg5 m outs c),
        (h (Proc.devRef .tc main_arg6) (Finset.mem_filter.mpr ⟨StableHlo.devRef_mem_tcRefs main_arg6, by decide⟩)).trans (V20_main_arg6 m outs c),
        (h (Proc.devRef .tc main_arg7) (Finset.mem_filter.mpr ⟨StableHlo.devRef_mem_tcRefs main_arg7, by decide⟩)).trans (V20_main_arg7 m outs c),
        (h (Proc.devRef .tc main_arg8) (Finset.mem_filter.mpr ⟨StableHlo.devRef_mem_tcRefs main_arg8, by decide⟩)).trans (V20_main_arg8 m outs c),
        (h (Proc.devRef .tc main_arg9) (Finset.mem_filter.mpr ⟨StableHlo.devRef_mem_tcRefs main_arg9, by decide⟩)).trans (V20_main_arg9 m outs c),
        (h (Proc.devRef .tc main_arg10) (Finset.mem_filter.mpr ⟨StableHlo.devRef_mem_tcRefs main_arg10, by decide⟩)).trans (V20_main_arg10 m outs c),
        (h (Proc.devRef .tc main_arg11) (Finset.mem_filter.mpr ⟨StableHlo.devRef_mem_tcRefs main_arg11, by decide⟩)).trans (V20_main_arg11 m outs c),
        (h (Proc.devRef .tc main_arg12) (Finset.mem_filter.mpr ⟨StableHlo.devRef_mem_tcRefs main_arg12, by decide⟩)).trans (V20_main_arg12 m outs c),
        (h (Proc.devRef .tc main_arg13) (Finset.mem_filter.mpr ⟨StableHlo.devRef_mem_tcRefs main_arg13, by decide⟩)).trans (V20_main_arg13 m outs c),
        (h (Proc.devRef .tc main_arg14) (Finset.mem_filter.mpr ⟨StableHlo.devRef_mem_tcRefs main_arg14, by decide⟩)).trans (V20_main_arg14 m outs c),
        (h (Proc.devRef .tc main_arg15) (Finset.mem_filter.mpr ⟨StableHlo.devRef_mem_tcRefs main_arg15, by decide⟩)).trans (V20_main_arg15 m outs c),
        (h (Proc.devRef .tc main_arg16) (Finset.mem_filter.mpr ⟨StableHlo.devRef_mem_tcRefs main_arg16, by decide⟩)).trans (V20_main_arg16 m outs c),
        (h (Proc.devRef .tc main_arg17) (Finset.mem_filter.mpr ⟨StableHlo.devRef_mem_tcRefs main_arg17, by decide⟩)).trans (V20_main_arg17 m outs c),
        (h (Proc.devRef .tc main_arg18) (Finset.mem_filter.mpr ⟨StableHlo.devRef_mem_tcRefs main_arg18, by decide⟩)).trans (V20_main_arg18 m outs c),
        (h (Proc.devRef .tc main_arg19) (Finset.mem_filter.mpr ⟨StableHlo.devRef_mem_tcRefs main_arg19, by decide⟩)).trans (V20_main_arg19 m outs c),
        (h (Proc.devRef .tc main_arg20) (Finset.mem_filter.mpr ⟨StableHlo.devRef_mem_tcRefs main_arg20, by decide⟩)).trans (V20_main_arg20 m outs c),
        (h (Proc.devRef .tc main_arg21) (Finset.mem_filter.mpr ⟨StableHlo.devRef_mem_tcRefs main_arg21, by decide⟩)).trans (V20_main_arg21 m outs c),
        (h (Proc.devRef .tc main_arg22) (Finset.mem_filter.mpr ⟨StableHlo.devRef_mem_tcRefs main_arg22, by decide⟩)).trans (V20_main_arg22 m outs c),
        (h (Proc.devRef .tc main_arg23) (Finset.mem_filter.mpr ⟨StableHlo.devRef_mem_tcRefs main_arg23, by decide⟩)).trans (V20_main_arg23 m outs c)⟩
    · iexact HSI

end Cert.Kernel.Calls

end
-- ==== Proof.KBits.Records.lean ====
/-
  The seven calls of the program as records over the contents of the buffers between the items of @main, and the
  program's run. `U1 .. U20` are those contents on one core: the launch memory after the first stretch of host
  operations, then alternately a call's output array replaced by what the call leaves in it (`resK_w`: the call's
  write-backs folded over its row blocks) and the next stretch of host operations applied. Each call is entered from
  every unscoped buffer at the contents before it and left at the contents after it; the generator register and the
  core's dues ride along unchanged.
-/
import proofs.«121371_j46033459478999_1_alg».proof.Proof.KBits.Call0
import proofs.«121371_j46033459478999_1_alg».proof.Proof.KBits.Call1
import proofs.«121371_j46033459478999_1_alg».proof.Proof.KBits.Call2
import proofs.«121371_j46033459478999_1_alg».proof.Proof.KBits.Call3
import proofs.«121371_j46033459478999_1_alg».proof.Proof.KBits.Call4
import proofs.«121371_j46033459478999_1_alg».proof.Proof.KBits.Call5
import proofs.«121371_j46033459478999_1_alg».proof.Proof.KBits.Call6
import proofs.«121371_j46033459478999_1_alg».proof.Proof.KBits.RunCond

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items, each call's outputs named -/

/-- After the first stretch of host operations. -/
abbrev U1 (c : Dev nD) : Valuation τ sig (Elt F) := StableHlo.after hostOps0 (fun b => m (c, b))
/-- What call 0 finds in the buffers. -/
abbrev ent0 : (c : Dev nD) → (b : Ref sig .tc) → Buf (Elt F) ((c : Thread nD τ).loc b) := fun c b => U1 m c b
/-- What call 0 leaves in `main_v16`: its write-backs folded over all its row blocks. -/
def res0_4 (c : Dev nD) : Buf (Elt F) ((c : Thread nD τ).loc main_v16) := (dat0 (ent0 m) c).arrAt 4 cfg0.N
abbrev U2 (c : Dev nD) : Valuation τ sig (Elt F) := Function.update (U1 m c) main_v16 (res0_4 m c)
abbrev ext0 : (c : Dev nD) → (b : Ref sig .tc) → Buf (Elt F) ((c : Thread nD τ).loc b) := fun c b => U2 m c b
abbrev U3 (c : Dev nD) : Valuation τ sig (Elt F) := StableHlo.after hostOps1 (U2 m c)
abbrev U4 (c : Dev nD) : Valuation τ sig (Elt F) := StableHlo.after hostOps1_1 (U3 m c)
abbrev U5 (c : Dev nD) : Valuation τ sig (Elt F) := StableHlo.after hostOps1_2 (U4 m c)
/-- What call 1 finds in the buffers. -/
abbrev ent1 : (c : Dev nD) → (b : Ref sig .tc) → Buf (Elt F) ((c : Thread nD τ).loc b) := fun c b => U5 m c b
/-- What call 1 leaves in `main_v27`: its write-backs folded over all its row blocks. -/
def res1_7 (c : Dev nD) : Buf (Elt F) ((c : Thread nD τ).loc main_v27) := (dat1 (ent1 m) c).arrAt 7 cfg1.N
abbrev U6 (c : Dev nD) : Valuation τ sig (Elt F) := Function.update (U5 m c) main_v27 (res1_7 m c)
abbrev ext1 : (c : Dev nD) → (b : Ref sig .tc) → Buf (Elt F) ((c : Thread nD τ).loc b) := fun c b => U6 m c b
abbrev U7 (c : Dev nD) : Valuation τ sig (Elt F) := StableHlo.after hostOps2 (U6 m c)
/-- What call 2 finds in the buffers. -/
abbrev ent2 : (c : Dev nD) → (b : Ref sig .tc) → Buf (Elt F) ((c : Thread nD τ).loc b) := fun c b => U7 m c b
/-- What call 2 leaves in `main_v40`: its write-backs folded over all its row blocks. -/
def res2_4 (c : Dev nD) : Buf (Elt F) ((c : Thread nD τ).loc main_v40) := (dat2 (ent2 m) c).arrAt 4 cfg2.N
abbrev U8 (c : Dev nD) : Valuation τ sig (Elt F) := Function.update (U7 m c) main_v40 (res2_4 m c)
abbrev ext2 : (c : Dev nD) → (b : Ref sig .tc) → Buf (Elt F) ((c : Thread nD τ).loc b) := fun c b => U8 m c b
abbrev U9 (c : Dev nD) : Valuation τ sig (Elt F) := StableHlo.after hostOps3 (U8 m c)
abbrev U10 (c : Dev nD) : Valuation τ sig (Elt F) := StableHlo.after hostOps3_1 (U9 m c)
abbrev U11 (c : Dev nD) : Valuation τ sig (Elt F) := StableHlo.after hostOps3_2 (U10 m c)
/-- What call 3 finds in the buffers. -/
abbrev ent3 : (c : Dev nD) → (b : Ref sig .tc) → Buf (Elt F) ((c : Thread nD τ).loc b) := fun c b => U11 m c b
/-- What call 3 leaves in `main_v51`: its write-backs folded over all its row blocks. -/
def res3_7 (c : Dev nD) : Buf (Elt F) ((c : Thread nD τ).loc main_v51) := (dat3 (ent3 m) c).arrAt 7 cfg3.N
abbrev U12 (c : Dev nD) : Valuation τ sig (Elt F) := Function.update (U11 m c) main_v51 (res3_7 m c)
abbrev ext3 : (c : Dev nD) → (b : Ref sig .tc) → Buf (Elt F) ((c : Thread nD τ).loc b) := fun c b => U12 m c b
abbrev U13 (c : Dev nD) : Valuation τ sig (Elt F) := StableHlo.after hostOps4 (U12 m c)
/-- What call 4 finds in the buffers. -/
abbrev ent4 : (c : Dev nD) → (b : Ref sig .tc) → Buf (Elt F) ((c : Thread nD τ).loc b) := fun c b => U13 m c b
/-- What call 4 leaves in `main_v64`: its write-backs folded over all its row blocks. -/
def res4_4 (c : Dev nD) : Buf (Elt F) ((c : Thread nD τ).loc main_v64) := (dat4 (ent4 m) c).arrAt 4 cfg4.N
abbrev U14 (c : Dev nD) : Valuation τ sig (Elt F) := Function.update (U13 m c) main_v64 (res4_4 m c)
abbrev ext4 : (c : Dev nD) → (b : Ref sig .tc) → Buf (Elt F) ((c : Thread nD τ).loc b) := fun c b => U14 m c b
abbrev U15 (c : Dev nD) : Valuation τ sig (Elt F) := StableHlo.after hostOps5 (U14 m c)
abbrev U16 (c : Dev nD) : Valuation τ sig (Elt F) := StableHlo.after hostOps5_1 (U15 m c)
abbrev U17 (c : Dev nD) : Valuation τ sig (Elt F) := StableHlo.after hostOps5_2 (U16 m c)
/-- What call 5 finds in the buffers. -/
abbrev ent5 : (c : Dev nD) → (b : Ref sig .tc) → Buf (Elt F) ((c : Thread nD τ).loc b) := fun c b => U17 m c b
/-- What call 5 leaves in `main_v75`: its write-backs folded over all its row blocks. -/
def res5_7 (c : Dev nD) : Buf (Elt F) ((c : Thread nD τ).loc main_v75) := (dat5 (ent5 m) c).arrAt 7 cfg5.N
abbrev U18 (c : Dev nD) : Valuation τ sig (Elt F) := Function.update (U17 m c) main_v75 (res5_7 m c)
abbrev ext5 : (c : Dev nD) → (b : Ref sig .tc) → Buf (Elt F) ((c : Thread nD τ).loc b) := fun c b => U18 m c b
abbrev U19 (c : Dev nD) : Valuation τ sig (Elt F) := StableHlo.after hostOps6 (U18 m c)
/-- What call 6 finds in the buffers. -/
abbrev ent6 : (c : Dev nD) → (b : Ref sig .tc) → Buf (Elt F) ((c : Thread nD τ).loc b) := fun c b => U19 m c b
/-- What call 6 leaves in `main_v81_0`: its write-backs folded over all its row blocks. -/
def res6_5 (c : Dev nD) : Buf (Elt F) ((c : Thread nD τ).loc main_v81_0) := (dat6 (ent6 m) c).arrAt 5 cfg6.N
/-- What call 6 leaves in `main_v81_1`: its write-backs folded over all its row blocks. -/
def res6_6 (c : Dev nD) : Buf (Elt F) ((c : Thread nD τ).loc main_v81_1) := (dat6 (ent6 m) c).arrAt 6 cfg6.N
abbrev U20 (c : Dev nD) : Valuation τ sig (Elt F) := Function.update (Function.update (U19 m c) main_v81_0 (res6_5 m c)) main_v81_1 (res6_6 m c)
abbrev ext6 : (c : Dev nD) → (b : Ref sig .tc) → Buf (Elt F) ((c : Thread nD τ).loc b) := fun c b => U20 m c b

/-- What the calls leave, as one family: at a call's output array what that call leaves, anywhere else the launch contents. -/
def outs : Outs (F := F) := fun _ r c =>
  if h : r = main_v16 then (h ▸ res0_4 m c : Buf (Elt F) ((c : Thread nD τ).loc r))
  else   if h : r = main_v27 then (h ▸ res1_7 m c : Buf (Elt F) ((c : Thread nD τ).loc r))
  else   if h : r = main_v40 then (h ▸ res2_4 m c : Buf (Elt F) ((c : Thread nD τ).loc r))
  else   if h : r = main_v51 then (h ▸ res3_7 m c : Buf (Elt F) ((c : Thread nD τ).loc r))
  else   if h : r = main_v64 then (h ▸ res4_4 m c : Buf (Elt F) ((c : Thread nD τ).loc r))
  else   if h : r = main_v75 then (h ▸ res5_7 m c : Buf (Elt F) ((c : Thread nD τ).loc r))
  else   if h : r = main_v81_0 then (h ▸ res6_5 m c : Buf (Elt F) ((c : Thread nD τ).loc r))
  else   if h : r = main_v81_1 then (h ▸ res6_6 m c : Buf (Elt F) ((c : Thread nD τ).loc r))
  else m (c, r)

theorem outs_main_v16 (J : ℕ) (c : Dev nD) : outs m J main_v16 c = res0_4 m c := by
  unfold outs; rw [dif_pos rfl]
theorem outs_main_v27 (J : ℕ) (c : Dev nD) : outs m J main_v27 c = res1_7 m c := by
  unfold outs; rw [dif_neg (by decide), dif_pos rfl]
theorem outs_main_v40 (J : ℕ) (c : Dev nD) : outs m J main_v40 c = res2_4 m c := by
  unfold outs; rw [dif_neg (by decide), dif_neg (by decide), dif_pos rfl]
theorem outs_main_v51 (J : ℕ) (c : Dev nD) : outs m J main_v51 c = res3_7 m c := by
  unfold outs; rw [dif_neg (by decide), dif_neg (by decide), dif_neg (by decide), dif_pos rfl]
theorem outs_main_v64 (J : ℕ) (c : Dev nD) : outs m J main_v64 c = res4_4 m c := by
  unfold outs; rw [dif_neg (by decide), dif_neg (by decide), dif_neg (by decide), dif_neg (by decide), dif_pos rfl]
theorem outs_main_v75 (J : ℕ) (c : Dev nD) : outs m J main_v75 c = res5_7 m c := by
  unfold outs; rw [dif_neg (by decide), dif_neg (by decide), dif_neg (by decide), dif_neg (by decide), dif_neg (by decide), dif_pos rfl]
theorem outs_main_v81_0 (J : ℕ) (c : Dev nD) : outs m J main_v81_0 c = res6_5 m c := by
  unfold outs; rw [dif_neg (by decide), dif_neg (by decide), dif_neg (by decide), dif_neg (by decide), dif_neg (by decide), dif_neg (by decide), dif_pos rfl]
theorem outs_main_v81_1 (J : ℕ) (c : Dev nD) : outs m J main_v81_1 c = res6_6 m c := by
  unfold outs; rw [dif_neg (by decide), dif_neg (by decide), dif_neg (by decide), dif_neg (by decide), dif_neg (by decide), dif_neg (by decide), dif_neg (by decide), dif_pos rfl]

/-! The generated fold at this family is `U`. -/
theorem V1_eq (c : Dev nD) : V1 m c = U1 m c := rfl
theorem V2_eq (c : Dev nD) : V2 m (outs m) c = U2 m c := by
  unfold V2; rw [V1_eq m c, outs_main_v16]
theorem V3_eq (c : Dev nD) : V3 m (outs m) c = U3 m c := by
  unfold V3; rw [V2_eq m c]
theorem V4_eq (c : Dev nD) : V4 m (outs m) c = U4 m c := by
  unfold V4; rw [V3_eq m c]
theorem V5_eq (c : Dev nD) : V5 m (outs m) c = U5 m c := by
  unfold V5; rw [V4_eq m c]
theorem V6_eq (c : Dev nD) : V6 m (outs m) c = U6 m c := by
  unfold V6; rw [V5_eq m c, outs_main_v27]
theorem V7_eq (c : Dev nD) : V7 m (outs m) c = U7 m c := by
  unfold V7; rw [V6_eq m c]
theorem V8_eq (c : Dev nD) : V8 m (outs m) c = U8 m c := by
  unfold V8; rw [V7_eq m c, outs_main_v40]
theorem V9_eq (c : Dev nD) : V9 m (outs m) c = U9 m c := by
  unfold V9; rw [V8_eq m c]
theorem V10_eq (c : Dev nD) : V10 m (outs m) c = U10 m c := by
  unfold V10; rw [V9_eq m c]
theorem V11_eq (c : Dev nD) : V11 m (outs m) c = U11 m c := by
  unfold V11; rw [V10_eq m c]
theorem V12_eq (c : Dev nD) : V12 m (outs m) c = U12 m c := by
  unfold V12; rw [V11_eq m c, outs_main_v51]
theorem V13_eq (c : Dev nD) : V13 m (outs m) c = U13 m c := by
  unfold V13; rw [V12_eq m c]
theorem V14_eq (c : Dev nD) : V14 m (outs m) c = U14 m c := by
  unfold V14; rw [V13_eq m c, outs_main_v64]
theorem V15_eq (c : Dev nD) : V15 m (outs m) c = U15 m c := by
  unfold V15; rw [V14_eq m c]
theorem V16_eq (c : Dev nD) : V16 m (outs m) c = U16 m c := by
  unfold V16; rw [V15_eq m c]
theorem V17_eq (c : Dev nD) : V17 m (outs m) c = U17 m c := by
  unfold V17; rw [V16_eq m c]
theorem V18_eq (c : Dev nD) : V18 m (outs m) c = U18 m c := by
  unfold V18; rw [V17_eq m c, outs_main_v75]
theorem V19_eq (c : Dev nD) : V19 m (outs m) c = U19 m c := by
  unfold V19; rw [V18_eq m c]
theorem V20_eq (c : Dev nD) : V20 m (outs m) c = U20 m c := by
  unfold V20; rw [V19_eq m c, outs_main_v81_0, outs_main_v81_1]

/-! ## Each call's arrays at its exit -/

theorem hF0_0 (c : Dev nD) : (dat0 (ent0 m) c).arrAt 0 cfg0.N = ext0 m c (Pipeline.arrRef spec0 0) := by
  rw [(dat0 (ent0 m) c).arrAt_in 0 rfl, A_eq0]
  exact (Function.update_of_ne (StableHlo.devRef_ne_of_ne (by decide)) _ _).symm
theorem hF0_1 (c : Dev nD) : (dat0 (ent0 m) c).arrAt 1 cfg0.N = ext0 m c (Pipeline.arrRef spec0 1) := by
  rw [(dat0 (ent0 m) c).arrAt_in 1 rfl, A_eq0]
  exact (Function.update_of_ne (StableHlo.devRef_ne_of_ne (by decide)) _ _).symm
theorem hF0_2 (c : Dev nD) : (dat0 (ent0 m) c).arrAt 2 cfg0.N = ext0 m c (Pipeline.arrRef spec0 2) := by
  rw [(dat0 (ent0 m) c).arrAt_in 2 rfl, A_eq0]
  exact (Function.update_of_ne (StableHlo.devRef_ne_of_ne (by decide)) _ _).symm
theorem hF0_3 (c : Dev nD) : (dat0 (ent0 m) c).arrAt 3 cfg0.N = ext0 m c (Pipeline.arrRef spec0 3) := by
  rw [(dat0 (ent0 m) c).arrAt_in 3 rfl, A_eq0]
  exact (Function.update_of_ne (StableHlo.devRef_ne_of_ne (by decide)) _ _).symm
theorem hF0_4 (c : Dev nD) : (dat0 (ent0 m) c).arrAt 4 cfg0.N = ext0 m c (Pipeline.arrRef spec0 4) := by
  show res0_4 m c = Function.update (U1 m c) (Proc.devRef .tc main_v16 : DevRef τ sig) (res0_4 m c) (Proc.devRef .tc main_v16 : DevRef τ sig)
  rw [Function.update_self]
/-- At call 0's exit each of its arrays holds what the call leaves: an input as entered, an output its write-backs. -/
theorem hF0 (c : Dev nD) (w : Fin cfg0.W) : (dat0 (ent0 m) c).arrAt w cfg0.N = ext0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
/-- and every other buffer what it held at entry. -/
theorem hrest0 (c : Dev nD) : ∀ b, b ∉ Finset.univ.image (Pipeline.arrRef spec0) → ext0 m c b = ent0 m c b := fun b hb =>
  Function.update_of_ne (StableHlo.devRef_ne_of_ne fun e => hb (Finset.mem_image.mpr ⟨4, Finset.mem_univ _, (show Pipeline.arrRef spec0 4 = main_v16 from rfl).trans e.symm⟩)) _ _
theorem hF1_0 (c : Dev nD) : (dat1 (ent1 m) c).arrAt 0 cfg1.N = ext1 m c (Pipeline.arrRef spec1 0) := by
  rw [(dat1 (ent1 m) c).arrAt_in 0 rfl, A_eq1]
  exact (Function.update_of_ne (StableHlo.devRef_ne_of_ne (by decide)) _ _).symm
theorem hF1_1 (c : Dev nD) : (dat1 (ent1 m) c).arrAt 1 cfg1.N = ext1 m c (Pipeline.arrRef spec1 1) := by
  rw [(dat1 (ent1 m) c).arrAt_in 1 rfl, A_eq1]
  exact (Function.update_of_ne (StableHlo.devRef_ne_of_ne (by decide)) _ _).symm
theorem hF1_2 (c : Dev nD) : (dat1 (ent1 m) c).arrAt 2 cfg1.N = ext1 m c (Pipeline.arrRef spec1 2) := by
  rw [(dat1 (ent1 m) c).arrAt_in 2 rfl, A_eq1]
  exact (Function.update_of_ne (StableHlo.devRef_ne_of_ne (by decide)) _ _).symm
theorem hF1_3 (c : Dev nD) : (dat1 (ent1 m) c).arrAt 3 cfg1.N = ext1 m c (Pipeline.arrRef spec1 3) := by
  rw [(dat1 (ent1 m) c).arrAt_in 3 rfl, A_eq1]
  exact (Function.update_of_ne (StableHlo.devRef_ne_of_ne (by decide)) _ _).symm
theorem hF1_4 (c : Dev nD) : (dat1 (ent1 m) c).arrAt 4 cfg1.N = ext1 m c (Pipeline.arrRef spec1 4) := by
  rw [(dat1 (ent1 m) c).arrAt_in 4 rfl, A_eq1]
  exact (Function.update_of_ne (StableHlo.devRef_ne_of_ne (by decide)) _ _).symm
theorem hF1_5 (c : Dev nD) : (dat1 (ent1 m) c).arrAt 5 cfg1.N = ext1 m c (Pipeline.arrRef spec1 5) := by
  rw [(dat1 (ent1 m) c).arrAt_in 5 rfl, A_eq1]
  exact (Function.update_of_ne (StableHlo.devRef_ne_of_ne (by decide)) _ _).symm
theorem hF1_6 (c : Dev nD) : (dat1 (ent1 m) c).arrAt 6 cfg1.N = ext1 m c (Pipeline.arrRef spec1 6) := by
  rw [(dat1 (ent1 m) c).arrAt_in 6 rfl, A_eq1]
  exact (Function.update_of_ne (StableHlo.devRef_ne_of_ne (by decide)) _ _).symm
theorem hF1_7 (c : Dev nD) : (dat1 (ent1 m) c).arrAt 7 cfg1.N = ext1 m c (Pipeline.arrRef spec1 7) := by
  show res1_7 m c = Function.update (U5 m c) (Proc.devRef .tc main_v27 : DevRef τ sig) (res1_7 m c) (Proc.devRef .tc main_v27 : DevRef τ sig)
  rw [Function.update_self]
/-- At call 1's exit each of its arrays holds what the call leaves: an input as entered, an output its write-backs. -/
theorem hF1 (c : Dev nD) (w : Fin cfg1.W) : (dat1 (ent1 m) c).arrAt w cfg1.N = ext1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
/-- and every other buffer what it held at entry. -/
theorem hrest1 (c : Dev nD) : ∀ b, b ∉ Finset.univ.image (Pipeline.arrRef spec1) → ext1 m c b = ent1 m c b := fun b hb =>
  Function.update_of_ne (StableHlo.devRef_ne_of_ne fun e => hb (Finset.mem_image.mpr ⟨7, Finset.mem_univ _, (show Pipeline.arrRef spec1 7 = main_v27 from rfl).trans e.symm⟩)) _ _
theorem hF2_0 (c : Dev nD) : (dat2 (ent2 m) c).arrAt 0 cfg2.N = ext2 m c (Pipeline.arrRef spec2 0) := by
  rw [(dat2 (ent2 m) c).arrAt_in 0 rfl, A_eq2]
  exact (Function.update_of_ne (StableHlo.devRef_ne_of_ne (by decide)) _ _).symm
theorem hF2_1 (c : Dev nD) : (dat2 (ent2 m) c).arrAt 1 cfg2.N = ext2 m c (Pipeline.arrRef spec2 1) := by
  rw [(dat2 (ent2 m) c).arrAt_in 1 rfl, A_eq2]
  exact (Function.update_of_ne (StableHlo.devRef_ne_of_ne (by decide)) _ _).symm
theorem hF2_2 (c : Dev nD) : (dat2 (ent2 m) c).arrAt 2 cfg2.N = ext2 m c (Pipeline.arrRef spec2 2) := by
  rw [(dat2 (ent2 m) c).arrAt_in 2 rfl, A_eq2]
  exact (Function.update_of_ne (StableHlo.devRef_ne_of_ne (by decide)) _ _).symm
theorem hF2_3 (c : Dev nD) : (dat2 (ent2 m) c).arrAt 3 cfg2.N = ext2 m c (Pipeline.arrRef spec2 3) := by
  rw [(dat2 (ent2 m) c).arrAt_in 3 rfl, A_eq2]
  exact (Function.update_of_ne (StableHlo.devRef_ne_of_ne (by decide)) _ _).symm
theorem hF2_4 (c : Dev nD) : (dat2 (ent2 m) c).arrAt 4 cfg2.N = ext2 m c (Pipeline.arrRef spec2 4) := by
  show res2_4 m c = Function.update (U7 m c) (Proc.devRef .tc main_v40 : DevRef τ sig) (res2_4 m c) (Proc.devRef .tc main_v40 : DevRef τ sig)
  rw [Function.update_self]
/-- At call 2's exit each of its arrays holds what the call leaves: an input as entered, an output its write-backs. -/
theorem hF2 (c : Dev nD) (w : Fin cfg2.W) : (dat2 (ent2 m) c).arrAt w cfg2.N = ext2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
/-- and every other buffer what it held at entry. -/
theorem hrest2 (c : Dev nD) : ∀ b, b ∉ Finset.univ.image (Pipeline.arrRef spec2) → ext2 m c b = ent2 m c b := fun b hb =>
  Function.update_of_ne (StableHlo.devRef_ne_of_ne fun e => hb (Finset.mem_image.mpr ⟨4, Finset.mem_univ _, (show Pipeline.arrRef spec2 4 = main_v40 from rfl).trans e.symm⟩)) _ _
theorem hF3_0 (c : Dev nD) : (dat3 (ent3 m) c).arrAt 0 cfg3.N = ext3 m c (Pipeline.arrRef spec3 0) := by
  rw [(dat3 (ent3 m) c).arrAt_in 0 rfl, A_eq3]
  exact (Function.update_of_ne (StableHlo.devRef_ne_of_ne (by decide)) _ _).symm
theorem hF3_1 (c : Dev nD) : (dat3 (ent3 m) c).arrAt 1 cfg3.N = ext3 m c (Pipeline.arrRef spec3 1) := by
  rw [(dat3 (ent3 m) c).arrAt_in 1 rfl, A_eq3]
  exact (Function.update_of_ne (StableHlo.devRef_ne_of_ne (by decide)) _ _).symm
theorem hF3_2 (c : Dev nD) : (dat3 (ent3 m) c).arrAt 2 cfg3.N = ext3 m c (Pipeline.arrRef spec3 2) := by
  rw [(dat3 (ent3 m) c).arrAt_in 2 rfl, A_eq3]
  exact (Function.update_of_ne (StableHlo.devRef_ne_of_ne (by decide)) _ _).symm
theorem hF3_3 (c : Dev nD) : (dat3 (ent3 m) c).arrAt 3 cfg3.N = ext3 m c (Pipeline.arrRef spec3 3) := by
  rw [(dat3 (ent3 m) c).arrAt_in 3 rfl, A_eq3]
  exact (Function.update_of_ne (StableHlo.devRef_ne_of_ne (by decide)) _ _).symm
theorem hF3_4 (c : Dev nD) : (dat3 (ent3 m) c).arrAt 4 cfg3.N = ext3 m c (Pipeline.arrRef spec3 4) := by
  rw [(dat3 (ent3 m) c).arrAt_in 4 rfl, A_eq3]
  exact (Function.update_of_ne (StableHlo.devRef_ne_of_ne (by decide)) _ _).symm
theorem hF3_5 (c : Dev nD) : (dat3 (ent3 m) c).arrAt 5 cfg3.N = ext3 m c (Pipeline.arrRef spec3 5) := by
  rw [(dat3 (ent3 m) c).arrAt_in 5 rfl, A_eq3]
  exact (Function.update_of_ne (StableHlo.devRef_ne_of_ne (by decide)) _ _).symm
theorem hF3_6 (c : Dev nD) : (dat3 (ent3 m) c).arrAt 6 cfg3.N = ext3 m c (Pipeline.arrRef spec3 6) := by
  rw [(dat3 (ent3 m) c).arrAt_in 6 rfl, A_eq3]
  exact (Function.update_of_ne (StableHlo.devRef_ne_of_ne (by decide)) _ _).symm
theorem hF3_7 (c : Dev nD) : (dat3 (ent3 m) c).arrAt 7 cfg3.N = ext3 m c (Pipeline.arrRef spec3 7) := by
  show res3_7 m c = Function.update (U11 m c) (Proc.devRef .tc main_v51 : DevRef τ sig) (res3_7 m c) (Proc.devRef .tc main_v51 : DevRef τ sig)
  rw [Function.update_self]
/-- At call 3's exit each of its arrays holds what the call leaves: an input as entered, an output its write-backs. -/
theorem hF3 (c : Dev nD) (w : Fin cfg3.W) : (dat3 (ent3 m) c).arrAt w cfg3.N = ext3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => hF3_7 m c
/-- and every other buffer what it held at entry. -/
theorem hrest3 (c : Dev nD) : ∀ b, b ∉ Finset.univ.image (Pipeline.arrRef spec3) → ext3 m c b = ent3 m c b := fun b hb =>
  Function.update_of_ne (StableHlo.devRef_ne_of_ne fun e => hb (Finset.mem_image.mpr ⟨7, Finset.mem_univ _, (show Pipeline.arrRef spec3 7 = main_v51 from rfl).trans e.symm⟩)) _ _
theorem hF4_0 (c : Dev nD) : (dat4 (ent4 m) c).arrAt 0 cfg4.N = ext4 m c (Pipeline.arrRef spec4 0) := by
  rw [(dat4 (ent4 m) c).arrAt_in 0 rfl, A_eq4]
  exact (Function.update_of_ne (StableHlo.devRef_ne_of_ne (by decide)) _ _).symm
theorem hF4_1 (c : Dev nD) : (dat4 (ent4 m) c).arrAt 1 cfg4.N = ext4 m c (Pipeline.arrRef spec4 1) := by
  rw [(dat4 (ent4 m) c).arrAt_in 1 rfl, A_eq4]
  exact (Function.update_of_ne (StableHlo.devRef_ne_of_ne (by decide)) _ _).symm
theorem hF4_2 (c : Dev nD) : (dat4 (ent4 m) c).arrAt 2 cfg4.N = ext4 m c (Pipeline.arrRef spec4 2) := by
  rw [(dat4 (ent4 m) c).arrAt_in 2 rfl, A_eq4]
  exact (Function.update_of_ne (StableHlo.devRef_ne_of_ne (by decide)) _ _).symm
theorem hF4_3 (c : Dev nD) : (dat4 (ent4 m) c).arrAt 3 cfg4.N = ext4 m c (Pipeline.arrRef spec4 3) := by
  rw [(dat4 (ent4 m) c).arrAt_in 3 rfl, A_eq4]
  exact (Function.update_of_ne (StableHlo.devRef_ne_of_ne (by decide)) _ _).symm
theorem hF4_4 (c : Dev nD) : (dat4 (ent4 m) c).arrAt 4 cfg4.N = ext4 m c (Pipeline.arrRef spec4 4) := by
  show res4_4 m c = Function.update (U13 m c) (Proc.devRef .tc main_v64 : DevRef τ sig) (res4_4 m c) (Proc.devRef .tc main_v64 : DevRef τ sig)
  rw [Function.update_self]
/-- At call 4's exit each of its arrays holds what the call leaves: an input as entered, an output its write-backs. -/
theorem hF4 (c : Dev nD) (w : Fin cfg4.W) : (dat4 (ent4 m) c).arrAt w cfg4.N = ext4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
/-- and every other buffer what it held at entry. -/
theorem hrest4 (c : Dev nD) : ∀ b, b ∉ Finset.univ.image (Pipeline.arrRef spec4) → ext4 m c b = ent4 m c b := fun b hb =>
  Function.update_of_ne (StableHlo.devRef_ne_of_ne fun e => hb (Finset.mem_image.mpr ⟨4, Finset.mem_univ _, (show Pipeline.arrRef spec4 4 = main_v64 from rfl).trans e.symm⟩)) _ _
theorem hF5_0 (c : Dev nD) : (dat5 (ent5 m) c).arrAt 0 cfg5.N = ext5 m c (Pipeline.arrRef spec5 0) := by
  rw [(dat5 (ent5 m) c).arrAt_in 0 rfl, A_eq5]
  exact (Function.update_of_ne (StableHlo.devRef_ne_of_ne (by decide)) _ _).symm
theorem hF5_1 (c : Dev nD) : (dat5 (ent5 m) c).arrAt 1 cfg5.N = ext5 m c (Pipeline.arrRef spec5 1) := by
  rw [(dat5 (ent5 m) c).arrAt_in 1 rfl, A_eq5]
  exact (Function.update_of_ne (StableHlo.devRef_ne_of_ne (by decide)) _ _).symm
theorem hF5_2 (c : Dev nD) : (dat5 (ent5 m) c).arrAt 2 cfg5.N = ext5 m c (Pipeline.arrRef spec5 2) := by
  rw [(dat5 (ent5 m) c).arrAt_in 2 rfl, A_eq5]
  exact (Function.update_of_ne (StableHlo.devRef_ne_of_ne (by decide)) _ _).symm
theorem hF5_3 (c : Dev nD) : (dat5 (ent5 m) c).arrAt 3 cfg5.N = ext5 m c (Pipeline.arrRef spec5 3) := by
  rw [(dat5 (ent5 m) c).arrAt_in 3 rfl, A_eq5]
  exact (Function.update_of_ne (StableHlo.devRef_ne_of_ne (by decide)) _ _).symm
theorem hF5_4 (c : Dev nD) : (dat5 (ent5 m) c).arrAt 4 cfg5.N = ext5 m c (Pipeline.arrRef spec5 4) := by
  rw [(dat5 (ent5 m) c).arrAt_in 4 rfl, A_eq5]
  exact (Function.update_of_ne (StableHlo.devRef_ne_of_ne (by decide)) _ _).symm
theorem hF5_5 (c : Dev nD) : (dat5 (ent5 m) c).arrAt 5 cfg5.N = ext5 m c (Pipeline.arrRef spec5 5) := by
  rw [(dat5 (ent5 m) c).arrAt_in 5 rfl, A_eq5]
  exact (Function.update_of_ne (StableHlo.devRef_ne_of_ne (by decide)) _ _).symm
theorem hF5_6 (c : Dev nD) : (dat5 (ent5 m) c).arrAt 6 cfg5.N = ext5 m c (Pipeline.arrRef spec5 6) := by
  rw [(dat5 (ent5 m) c).arrAt_in 6 rfl, A_eq5]
  exact (Function.update_of_ne (StableHlo.devRef_ne_of_ne (by decide)) _ _).symm
theorem hF5_7 (c : Dev nD) : (dat5 (ent5 m) c).arrAt 7 cfg5.N = ext5 m c (Pipeline.arrRef spec5 7) := by
  show res5_7 m c = Function.update (U17 m c) (Proc.devRef .tc main_v75 : DevRef τ sig) (res5_7 m c) (Proc.devRef .tc main_v75 : DevRef τ sig)
  rw [Function.update_self]
/-- At call 5's exit each of its arrays holds what the call leaves: an input as entered, an output its write-backs. -/
theorem hF5 (c : Dev nD) (w : Fin cfg5.W) : (dat5 (ent5 m) c).arrAt w cfg5.N = ext5 m c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c
  | ⟨6, _⟩ => hF5_6 m c
  | ⟨7, _⟩ => hF5_7 m c
/-- and every other buffer what it held at entry. -/
theorem hrest5 (c : Dev nD) : ∀ b, b ∉ Finset.univ.image (Pipeline.arrRef spec5) → ext5 m c b = ent5 m c b := fun b hb =>
  Function.update_of_ne (StableHlo.devRef_ne_of_ne fun e => hb (Finset.mem_image.mpr ⟨7, Finset.mem_univ _, (show Pipeline.arrRef spec5 7 = main_v75 from rfl).trans e.symm⟩)) _ _
theorem hF6_0 (c : Dev nD) : (dat6 (ent6 m) c).arrAt 0 cfg6.N = ext6 m c (Pipeline.arrRef spec6 0) := by
  rw [(dat6 (ent6 m) c).arrAt_in 0 rfl, A_eq6]
  exact ((Function.update_of_ne (StableHlo.devRef_ne_of_ne (by decide)) _ _).trans (Function.update_of_ne (StableHlo.devRef_ne_of_ne (by decide)) _ _)).symm
theorem hF6_1 (c : Dev nD) : (dat6 (ent6 m) c).arrAt 1 cfg6.N = ext6 m c (Pipeline.arrRef spec6 1) := by
  rw [(dat6 (ent6 m) c).arrAt_in 1 rfl, A_eq6]
  exact ((Function.update_of_ne (StableHlo.devRef_ne_of_ne (by decide)) _ _).trans (Function.update_of_ne (StableHlo.devRef_ne_of_ne (by decide)) _ _)).symm
theorem hF6_2 (c : Dev nD) : (dat6 (ent6 m) c).arrAt 2 cfg6.N = ext6 m c (Pipeline.arrRef spec6 2) := by
  rw [(dat6 (ent6 m) c).arrAt_in 2 rfl, A_eq6]
  exact ((Function.update_of_ne (StableHlo.devRef_ne_of_ne (by decide)) _ _).trans (Function.update_of_ne (StableHlo.devRef_ne_of_ne (by decide)) _ _)).symm
theorem hF6_3 (c : Dev nD) : (dat6 (ent6 m) c).arrAt 3 cfg6.N = ext6 m c (Pipeline.arrRef spec6 3) := by
  rw [(dat6 (ent6 m) c).arrAt_in 3 rfl, A_eq6]
  exact ((Function.update_of_ne (StableHlo.devRef_ne_of_ne (by decide)) _ _).trans (Function.update_of_ne (StableHlo.devRef_ne_of_ne (by decide)) _ _)).symm
theorem hF6_4 (c : Dev nD) : (dat6 (ent6 m) c).arrAt 4 cfg6.N = ext6 m c (Pipeline.arrRef spec6 4) := by
  rw [(dat6 (ent6 m) c).arrAt_in 4 rfl, A_eq6]
  exact ((Function.update_of_ne (StableHlo.devRef_ne_of_ne (by decide)) _ _).trans (Function.update_of_ne (StableHlo.devRef_ne_of_ne (by decide)) _ _)).symm
theorem hF6_5 (c : Dev nD) : (dat6 (ent6 m) c).arrAt 5 cfg6.N = ext6 m c (Pipeline.arrRef spec6 5) := by
  show res6_5 m c = Function.update (Function.update (U19 m c) (Proc.devRef .tc main_v81_0 : DevRef τ sig) (res6_5 m c)) (Proc.devRef .tc main_v81_1 : DevRef τ sig) (res6_6 m c) (Proc.devRef .tc main_v81_0 : DevRef τ sig)
  rw [Function.update_of_ne (StableHlo.devRef_ne_of_ne (by decide)), Function.update_self]
theorem hF6_6 (c : Dev nD) : (dat6 (ent6 m) c).arrAt 6 cfg6.N = ext6 m c (Pipeline.arrRef spec6 6) := by
  show res6_6 m c = Function.update (Function.update (U19 m c) (Proc.devRef .tc main_v81_0 : DevRef τ sig) (res6_5 m c)) (Proc.devRef .tc main_v81_1 : DevRef τ sig) (res6_6 m c) (Proc.devRef .tc main_v81_1 : DevRef τ sig)
  rw [Function.update_self]
/-- At call 6's exit each of its arrays holds what the call leaves: an input as entered, an output its write-backs. -/
theorem hF6 (c : Dev nD) (w : Fin cfg6.W) : (dat6 (ent6 m) c).arrAt w cfg6.N = ext6 m c (Pipeline.arrRef spec6 w) :=
  match w with
  | ⟨0, _⟩ => hF6_0 m c
  | ⟨1, _⟩ => hF6_1 m c
  | ⟨2, _⟩ => hF6_2 m c
  | ⟨3, _⟩ => hF6_3 m c
  | ⟨4, _⟩ => hF6_4 m c
  | ⟨5, _⟩ => hF6_5 m c
  | ⟨6, _⟩ => hF6_6 m c
/-- and every other buffer what it held at entry. -/
theorem hrest6 (c : Dev nD) : ∀ b, b ∉ Finset.univ.image (Pipeline.arrRef spec6) → ext6 m c b = ent6 m c b := fun b hb =>
  (Function.update_of_ne (StableHlo.devRef_ne_of_ne fun e => hb (Finset.mem_image.mpr ⟨6, Finset.mem_univ _, (show Pipeline.arrRef spec6 6 = main_v81_1 from rfl).trans e.symm⟩)) _ _).trans (Function.update_of_ne (StableHlo.devRef_ne_of_ne fun e => hb (Finset.mem_image.mpr ⟨5, Finset.mem_univ _, (show Pipeline.arrRef spec6 5 = main_v81_0 from rfl).trans e.symm⟩)) _ _)

/-! ## The proof data family and what rides beside the buffers -/

/-- Every call's proof data, each at the contents its call is entered from. -/
def pdats : (p : Fin 7) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
abbrev noVariants : Variants := Variants.none
/-- No core owes another anything: no level is assigned. -/
abbrev noLevels : GSem nD τ sig → Finset Unit := fun _ => ∅
abbrev lvZero : GSem nD τ sig → Unit → ℕ := fun _ _ => 0
/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## The calls as records -/

set_option backward.isDefEq.respectTransparency.types false in
/-- Call 0: entered from every unscoped buffer at `U1`, left at `U2`. Its arrays are split out of the unscoped
    buffers on entry and put back at their exit contents; the generator register goes into the call's invariant and
    comes back; nothing is owed; the kernel has no semaphore of its own. -/
def reg0 : RegionSeg (pcfgs (F := F)) adm (pdats m) () defs₀ noVariants noLevels lvZero 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noLevels lvZero 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at `U5`, left at `U6`. Its arrays are split out of the unscoped
    buffers on entry and put back at their exit contents; the generator register goes into the call's invariant and
    comes back; nothing is owed; the kernel has no semaphore of its own. -/
def reg1 : RegionSeg (pcfgs (F := F)) adm (pdats m) () defs₀ noVariants noLevels lvZero 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noLevels lvZero 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at `U7`, left at `U8`. Its arrays are split out of the unscoped
    buffers on entry and put back at their exit contents; the generator register goes into the call's invariant and
    comes back; nothing is owed; the kernel has no semaphore of its own. -/
def reg2 : RegionSeg (pcfgs (F := F)) adm (pdats m) () defs₀ noVariants noLevels lvZero 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ noLevels lvZero 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered from every unscoped buffer at `U11`, left at `U12`. Its arrays are split out of the unscoped
    buffers on entry and put back at their exit contents; the generator register goes into the call's invariant and
    comes back; nothing is owed; the kernel has no semaphore of its own. -/
def reg3 : RegionSeg (pcfgs (F := F)) adm (pdats m) () defs₀ noVariants noLevels lvZero 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ noLevels lvZero 3 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4: entered from every unscoped buffer at `U13`, left at `U14`. Its arrays are split out of the unscoped
    buffers on entry and put back at their exit contents; the generator register goes into the call's invariant and
    comes back; nothing is owed; the kernel has no semaphore of its own. -/
def reg4 : RegionSeg (pcfgs (F := F)) adm (pdats m) () defs₀ noVariants noLevels lvZero 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ noLevels lvZero 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5: entered from every unscoped buffer at `U17`, left at `U18`. Its arrays are split out of the unscoped
    buffers on entry and put back at their exit contents; the generator register goes into the call's invariant and
    comes back; nothing is owed; the kernel has no semaphore of its own. -/
def reg5 : RegionSeg (pcfgs (F := F)) adm (pdats m) () defs₀ noVariants noLevels lvZero 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ noLevels lvZero 5 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6: entered from every unscoped buffer at `U19`, left at `U20`. Its arrays are split out of the unscoped
    buffers on entry and put back at their exit contents; the generator register goes into the call's invariant and
    comes back; nothing is owed; the kernel has no semaphore of its own. -/
def reg6 : RegionSeg (pcfgs (F := F)) adm (pdats m) () defs₀ noVariants noLevels lvZero 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ noLevels lvZero 6 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Calls

end
-- ==== Proof.KBits.Run.lean ====
/-
  The program's run with its two results named, and its frame. Every weakly fair execution of @main ends without a
  fault; the final memory holds the logits at what the readout call leaves in its first output array, their softmax
  at what it leaves in its second, and every argument array as launched.
-/
import proofs.«121371_j46033459478999_1_alg».proof.Proof.KBits.Records

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last contents at the two result arrays are what the readout call leaves in them. -/
theorem U20_logits (c : Dev nD) : U20 m c main_v81_0 = res6_5 m c :=
  (Function.update_of_ne (StableHlo.devRef_ne_of_ne (by decide)) _ _).trans (Function.update_self _ _ _)
theorem U20_probs (c : Dev nD) : U20 m c main_v81_1 = res6_6 m c :=
  Function.update_self _ _ _

set_option backward.isDefEq.respectTransparency.types false in
/-- The run: the results at what the readout call leaves, the arguments as launched. -/
theorem run_main : θ_run defs (onTc (τ := τ) (main (F := F))) ⟨m, fun _ => 0, ρ⟩ (fun r => ∀ c : Dev nD,
      r.2.mem ((c.tc : Thread nD τ).loc main_v81_0) = res6_5 m c
      ∧ r.2.mem ((c.tc : Thread nD τ).loc main_v81_1) = res6_6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine (θ_run _ _ _).mono (fun r h c => ⟨(h c).1.trans ((congrFun (V20_eq m c) _).trans (U20_logits m c)),
      (h c).2.1.trans ((congrFun (V20_eq m c) _).trans (U20_probs m c)), (h c).2.2⟩)
    (run_cond m (EP := (emb₁ : Emb (URounds (GSem nD τ sig) Unit) 𝕄)) (ι := ()) (𝒱₀ := noVariants) (L := noLevels) (lv := lvZero) (hL := fun _ _ => rfl) (ρ := ρ) (outs := outs m) (pdats := pdats m)
      (O₀ := (0 : Dev nD → CellTallies nD τ sig Unit)) (G := fun _ => iprop(emp))
      (u₀ := initOf (Pipeline.cells cfgs cellOf_inj) (Pipeline.launchToks cfgs cellOf_inj))
      (hu₀ := ?hu) (E := fun _ c => R c) (hE0 := ?hE0) (hE7 := ?hE7)
      (reg0 m)
      (fun c => by rw [V1_eq]; exact .rfl)
      (fun c => by rw [V2_eq]; exact .rfl)
      (reg1 m)
      (fun c => by rw [V5_eq]; exact .rfl)
      (fun c => by rw [V6_eq]; exact .rfl)
      (reg2 m)
      (fun c => by rw [V7_eq]; exact .rfl)
      (fun c => by rw [V8_eq]; exact .rfl)
      (reg3 m)
      (fun c => by rw [V11_eq]; exact .rfl)
      (fun c => by rw [V12_eq]; exact .rfl)
      (reg4 m)
      (fun c => by rw [V13_eq]; exact .rfl)
      (fun c => by rw [V14_eq]; exact .rfl)
      (reg5 m)
      (fun c => by rw [V17_eq]; exact .rfl)
      (fun c => by rw [V18_eq]; exact .rfl)
      (reg6 m)
      (fun c => by rw [V19_eq]; exact .rfl)
      (fun c => by rw [V20_eq]; exact .rfl))
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach noLevels lvZero fun c => ?_
    iintro ⟨⟨-, HO, -, Hp, -⟩, -⟩
    imodintro
    isplitl [Hp]; · iexists _; iexact Hp
    iexists ∅; iexact HO
  case hE7 =>
    intro c
    iintro ⟨-, HO⟩
    iexact HO

/-- The frame: the program runs to the end, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run _ _ _).mono (fun _ h c => (h c).2.2) (run_main m ρ)

end Cert.Kernel.Calls

end
-- ==== Proof.KIdeal.Call0.lean ====
/-
  The first layer's first linear map (custom_call 0): 25 row blocks of 2000 nodes. At each block the body reads the node features x and
  the neighbour sums agg (2000 x 128 each), the whole weight matrix (128 x 256) and the bias row (1 x 256), and writes
  (x + agg) . W + b, 2000 x 256, over the whole output block.
  Stated at any contents V of the buffers when the call is entered: what each window's block holds, what the body
  leaves in each output block, the body's triple, the call's proof data and its body obligation.
-/
import proofs.«121371_j46033459478999_1_alg».proof.Proof.Gen.KernelIdeal.Launch
import proofs.«121371_j46033459478999_1_alg».proof.Proof.Gen.KernelIdeal.Skeleton
import proofs.«121371_j46033459478999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every row block, fetched there or not (a window whose block
    index never moves is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes: each buffer whole. -/
abbrev r0_S2000x128 : Rect S2000x128 := Rect.unit (s := S2000x128) ![0, 0] S2000x128.size inb_S2000x128_S2000x128_0_0
abbrev r0_S128x256 : Rect S128x256 := Rect.unit (s := S128x256) ![0, 0] S128x256.size inb_S128x256_S128x256_0_0
abbrev r0_S1x256 : Rect S1x256 := Rect.unit (s := S1x256) ![0, 0] S1x256.size inb_S1x256_S1x256_0_0
abbrev r0_S2000x256 : Rect S2000x256 := Rect.unit (s := S2000x256) ![0, 0] S2000x256.size inb_S2000x256_S2000x256_0_0

/-- Output window 4's block after the body, from the input blocks: its one whole store. -/
def out0_4 (x0 : Vec F S2000x128 .f32) (x1 : Vec F S2000x128 .f32) (x2 : Vec F S128x256 .bf16) (x3 : Vec F S1x256 .f32) : Vec F S2000x256 .f32 :=
  View.canon [⟨r0_S2000x256, k0_pay1 (View.ld x0 r0_S2000x128) (View.ld x1 r0_S2000x128) (View.ld x2 r0_S128x256) (View.ld x3 r0_S1x256)⟩]

/-- The one store covers the block. -/
theorem cover0_4 (p0 : Vec F S2000x256 .f32) (y : S2000x256.Idx) :
    ∃ pc ∈ ([⟨r0_S2000x256, p0⟩] : List (View.Piece (Elt F) S2000x256 .f32)), y ∈ pc.1.set :=
  View.cover_of_tiled [⟨r0_S2000x256, p0⟩] S2000x256.size (by rfl) y

set_option maxHeartbeats 1000000 in
/-- The body on whole staging memrefs: the inputs stay as read, each output ends at its `out0_w` of the inputs. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S2000x256 .f32) (harg5 : arg5.IsWhole)
    (x0 : Vec F S2000x128 .f32) (x1 : Vec F S2000x128 .f32) (x2 : Vec F S128x256 .bf16) (x3 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__linear1_kernel i arg1 harg1 arg2 harg2 arg3 harg3 arg4 harg4 arg5 harg5) K := by
  simp only [cc0__linear1_kernel_eq_skeleton]; unfold cc0__linear1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The call's proof data on core `c`: the arrays as the call finds them; after the body at row block `t` each
    input's buffer at its block and each output's at its `out0_w` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at row block `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any row block: the inputs' memrefs hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every row block. -/
theorem body_obligation0 (c : Dev nD) : BodyObligation (dat0 (F := F) V c) (defs₀ (F := F)) Variants.none () Set.univ := fun t => by
  rw [bigSep_W0, bigSep_W0]
  exact sound_body0 V c t

end Cert.KernelIdeal.Calls

end
-- ==== Proof.KIdeal.Call1.lean ====
/-
  The first layer's normalisation and second linear map (custom_call 1): 25 row blocks of 2000 nodes. At each block the body reads
  h (2000 x 256), the column mean, the column variance, the scale and the shift (1 x 256 each), the weight matrix
  (256 x 256) and the bias row, and writes relu(relu((h - mean) * rsqrt(var + eps) * scale + shift) . W + b) over the whole
  output block.
  Stated at any contents V of the buffers when the call is entered: what each window's block holds, what the body
  leaves in each output block, the body's triple, the call's proof data and its body obligation.
-/
import proofs.«121371_j46033459478999_1_alg».proof.Proof.Gen.KernelIdeal.Launch
import proofs.«121371_j46033459478999_1_alg».proof.Proof.Gen.KernelIdeal.Skeleton
import proofs.«121371_j46033459478999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every row block, fetched there or not (a window whose block
    index never moves is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes: each buffer whole. -/
abbrev r1_S2000x256 : Rect S2000x256 := Rect.unit (s := S2000x256) ![0, 0] S2000x256.size inb_S2000x256_S2000x256_0_0
abbrev r1_S1x256 : Rect S1x256 := Rect.unit (s := S1x256) ![0, 0] S1x256.size inb_S1x256_S1x256_0_0
abbrev r1_S256x256 : Rect S256x256 := Rect.unit (s := S256x256) ![0, 0] S256x256.size inb_S256x256_S256x256_0_0

/-- Output window 7's block after the body, from the input blocks: its one whole store. -/
def out1_7 (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  View.canon [⟨r1_S2000x256, k1_pay1 (View.ld x0 r1_S2000x256) (View.ld x1 r1_S1x256) (View.ld x2 r1_S1x256) (View.ld x3 r1_S1x256) (View.ld x4 r1_S1x256) (View.ld x5 r1_S256x256) (View.ld x6 r1_S1x256)⟩]

/-- The one store covers the block. -/
theorem cover1_7 (p0 : Vec F S2000x256 .f32) (y : S2000x256.Idx) :
    ∃ pc ∈ ([⟨r1_S2000x256, p0⟩] : List (View.Piece (Elt F) S2000x256 .f32)), y ∈ pc.1.set :=
  View.cover_of_tiled [⟨r1_S2000x256, p0⟩] S2000x256.size (by rfl) y

set_option maxHeartbeats 1000000 in
/-- The body on whole staging memrefs: the inputs stay as read, each output ends at its `out1_w` of the inputs. -/
theorem sound_kernel1 (c : Dev nD) (E : Set ℕ) (i : grid1.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__bn_relu_linear2_kernel i arg1 harg1 arg2 harg2 arg3 harg3 arg4 harg4 arg5 harg5 arg6 harg6 arg7 harg7 arg8 harg8) K := by
  simp only [cc1__bn_relu_linear2_kernel_eq_skeleton]; unfold cc1__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The call's proof data on core `c`: the arrays as the call finds them; after the body at row block `t` each
    input's buffer at its block and each output's at its `out1_w` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at row block `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any row block: the inputs' memrefs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every row block. -/
theorem body_obligation1 (c : Dev nD) : BodyObligation (dat1 (F := F) V c) (defs₀ (F := F)) Variants.none () Set.univ := fun t => by
  rw [bigSep_W1, bigSep_W1]
  exact sound_body1 V c t

end Cert.KernelIdeal.Calls

end
-- ==== Proof.KIdeal.Call2.lean ====
/-
  The second layer's first linear map (custom_call 2): 25 row blocks of 2000 nodes. At each block the body reads the features h and the
  neighbour sums agg (2000 x 256 each), the whole weight matrix (256 x 256) and the bias row (1 x 256), and writes
  (h + agg) . W + b over the whole output block.
  Stated at any contents V of the buffers when the call is entered: what each window's block holds, what the body
  leaves in each output block, the body's triple, the call's proof data and its body obligation.
-/
import proofs.«121371_j46033459478999_1_alg».proof.Proof.Gen.KernelIdeal.Launch
import proofs.«121371_j46033459478999_1_alg».proof.Proof.Gen.KernelIdeal.Skeleton
import proofs.«121371_j46033459478999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every row block, fetched there or not (a window whose block
    index never moves is fetched once and keeps its block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! The rectangles the body reads and writes: each buffer whole. -/
abbrev r2_S2000x256 : Rect S2000x256 := Rect.unit (s := S2000x256) ![0, 0] S2000x256.size inb_S2000x256_S2000x256_0_0
abbrev r2_S256x256 : Rect S256x256 := Rect.unit (s := S256x256) ![0, 0] S256x256.size inb_S256x256_S256x256_0_0
abbrev r2_S1x256 : Rect S1x256 := Rect.unit (s := S1x256) ![0, 0] S1x256.size inb_S1x256_S1x256_0_0

/-- Output window 4's block after the body, from the input blocks: its one whole store. -/
def out2_4 (x0 : Vec F S2000x256 .f32) (x1 : Vec F S2000x256 .f32) (x2 : Vec F S256x256 .bf16) (x3 : Vec F S1x256 .f32) : Vec F S2000x256 .f32 :=
  View.canon [⟨r2_S2000x256, k2_pay1 (View.ld x0 r2_S2000x256) (View.ld x1 r2_S2000x256) (View.ld x2 r2_S256x256) (View.ld x3 r2_S1x256)⟩]

/-- The one store covers the block. -/
theorem cover2_4 (p0 : Vec F S2000x256 .f32) (y : S2000x256.Idx) :
    ∃ pc ∈ ([⟨r2_S2000x256, p0⟩] : List (View.Piece (Elt F) S2000x256 .f32)), y ∈ pc.1.set :=
  View.cover_of_tiled [⟨r2_S2000x256, p0⟩] S2000x256.size (by rfl) y

set_option maxHeartbeats 1000000 in
/-- The body on whole staging memrefs: the inputs stay as read, each output ends at its `out2_w` of the inputs. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S256x256 .bf16) (x3 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__linear1_kernel i arg1 harg1 arg2 harg2 arg3 harg3 arg4 harg4 arg5 harg5) K := by
  simp only [cc2__linear1_kernel_eq_skeleton]; unfold cc2__linear1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The call's proof data on core `c`: the arrays as the call finds them; after the body at row block `t` each
    input's buffer at its block and each output's at its `out2_w` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at row block `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any row block: the inputs' memrefs hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every row block. -/
theorem body_obligation2 (c : Dev nD) : BodyObligation (dat2 (F := F) V c) (defs₀ (F := F)) Variants.none () Set.univ := fun t => by
  rw [bigSep_W2, bigSep_W2]
  exact sound_body2 V c t

end Cert.KernelIdeal.Calls

end
-- ==== Proof.KIdeal.Call3.lean ====
/-
  The second layer's normalisation and second linear map (custom_call 3): 25 row blocks of 2000 nodes. At each block the body reads
  h (2000 x 256), the column mean, the column variance, the scale and the shift (1 x 256 each), the weight matrix
  (256 x 256) and the bias row, and writes relu(relu((h - mean) * rsqrt(var + eps) * scale + shift) . W + b) over the whole
  output block.
  Stated at any contents V of the buffers when the call is entered: what each window's block holds, what the body
  leaves in each output block, the body's triple, the call's proof data and its body obligation.
-/
import proofs.«121371_j46033459478999_1_alg».proof.Proof.Gen.KernelIdeal.Launch
import proofs.«121371_j46033459478999_1_alg».proof.Proof.Gen.KernelIdeal.Skeleton
import proofs.«121371_j46033459478999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every row block, fetched there or not (a window whose block
    index never moves is fetched once and keeps its block). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! The rectangles the body reads and writes: each buffer whole. -/
abbrev r3_S2000x256 : Rect S2000x256 := Rect.unit (s := S2000x256) ![0, 0] S2000x256.size inb_S2000x256_S2000x256_0_0
abbrev r3_S1x256 : Rect S1x256 := Rect.unit (s := S1x256) ![0, 0] S1x256.size inb_S1x256_S1x256_0_0
abbrev r3_S256x256 : Rect S256x256 := Rect.unit (s := S256x256) ![0, 0] S256x256.size inb_S256x256_S256x256_0_0

/-- Output window 7's block after the body, from the input blocks: its one whole store. -/
def out3_7 (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  View.canon [⟨r3_S2000x256, k3_pay1 (View.ld x0 r3_S2000x256) (View.ld x1 r3_S1x256) (View.ld x2 r3_S1x256) (View.ld x3 r3_S1x256) (View.ld x4 r3_S1x256) (View.ld x5 r3_S256x256) (View.ld x6 r3_S1x256)⟩]

/-- The one store covers the block. -/
theorem cover3_7 (p0 : Vec F S2000x256 .f32) (y : S2000x256.Idx) :
    ∃ pc ∈ ([⟨r3_S2000x256, p0⟩] : List (View.Piece (Elt F) S2000x256 .f32)), y ∈ pc.1.set :=
  View.cover_of_tiled [⟨r3_S2000x256, p0⟩] S2000x256.size (by rfl) y

set_option maxHeartbeats 1000000 in
/-- The body on whole staging memrefs: the inputs stay as read, each output ends at its `out3_w` of the inputs. -/
theorem sound_kernel3 (c : Dev nD) (E : Set ℕ) (i : grid3.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__bn_relu_linear2_kernel i arg1 harg1 arg2 harg2 arg3 harg3 arg4 harg4 arg5 harg5 arg6 harg6 arg7 harg7 arg8 harg8) K := by
  simp only [cc3__bn_relu_linear2_kernel_eq_skeleton]; unfold cc3__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The call's proof data on core `c`: the arrays as the call finds them; after the body at row block `t` each
    input's buffer at its block and each output's at its `out3_w` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) :
    (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at row block `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any row block: the inputs' memrefs hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every row block. -/
theorem body_obligation3 (c : Dev nD) : BodyObligation (dat3 (F := F) V c) (defs₀ (F := F)) Variants.none () Set.univ := fun t => by
  rw [bigSep_W3, bigSep_W3]
  exact sound_body3 V c t

end Cert.KernelIdeal.Calls

end
-- ==== Proof.KIdeal.Call4.lean ====
/-
  The third layer's first linear map (custom_call 4): 25 row blocks of 2000 nodes. At each block the body reads the features h and the
  neighbour sums agg (2000 x 256 each), the whole weight matrix (256 x 256) and the bias row (1 x 256), and writes
  (h + agg) . W + b over the whole output block.
  Stated at any contents V of the buffers when the call is entered: what each window's block holds, what the body
  leaves in each output block, the body's triple, the call's proof data and its body obligation.
-/
import proofs.«121371_j46033459478999_1_alg».proof.Proof.Gen.KernelIdeal.Launch
import proofs.«121371_j46033459478999_1_alg».proof.Proof.Gen.KernelIdeal.Skeleton
import proofs.«121371_j46033459478999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every row block, fetched there or not (a window whose block
    index never moves is fetched once and keeps its block). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! The rectangles the body reads and writes: each buffer whole. -/
abbrev r4_S2000x256 : Rect S2000x256 := Rect.unit (s := S2000x256) ![0, 0] S2000x256.size inb_S2000x256_S2000x256_0_0
abbrev r4_S256x256 : Rect S256x256 := Rect.unit (s := S256x256) ![0, 0] S256x256.size inb_S256x256_S256x256_0_0
abbrev r4_S1x256 : Rect S1x256 := Rect.unit (s := S1x256) ![0, 0] S1x256.size inb_S1x256_S1x256_0_0

/-- Output window 4's block after the body, from the input blocks: its one whole store. -/
def out4_4 (x0 : Vec F S2000x256 .f32) (x1 : Vec F S2000x256 .f32) (x2 : Vec F S256x256 .bf16) (x3 : Vec F S1x256 .f32) : Vec F S2000x256 .f32 :=
  View.canon [⟨r4_S2000x256, k4_pay1 (View.ld x0 r4_S2000x256) (View.ld x1 r4_S2000x256) (View.ld x2 r4_S256x256) (View.ld x3 r4_S1x256)⟩]

/-- The one store covers the block. -/
theorem cover4_4 (p0 : Vec F S2000x256 .f32) (y : S2000x256.Idx) :
    ∃ pc ∈ ([⟨r4_S2000x256, p0⟩] : List (View.Piece (Elt F) S2000x256 .f32)), y ∈ pc.1.set :=
  View.cover_of_tiled [⟨r4_S2000x256, p0⟩] S2000x256.size (by rfl) y

set_option maxHeartbeats 1000000 in
/-- The body on whole staging memrefs: the inputs stay as read, each output ends at its `out4_w` of the inputs. -/
theorem sound_kernel4 (c : Dev nD) (E : Set ℕ) (i : grid4.Coords)
    (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S256x256 .bf16) (x3 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__linear1_kernel i arg1 harg1 arg2 harg2 arg3 harg3 arg4 harg4 arg5 harg5) K := by
  simp only [cc4__linear1_kernel_eq_skeleton]; unfold cc4__linear1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The call's proof data on core `c`: the arrays as the call finds them; after the body at row block `t` each
    input's buffer at its block and each output's at its `out4_w` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at row block `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any row block: the inputs' memrefs hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every row block. -/
theorem body_obligation4 (c : Dev nD) : BodyObligation (dat4 (F := F) V c) (defs₀ (F := F)) Variants.none () Set.univ := fun t => by
  rw [bigSep_W4, bigSep_W4]
  exact sound_body4 V c t

end Cert.KernelIdeal.Calls

end
-- ==== Proof.KIdeal.Call5.lean ====
/-
  The third layer's normalisation and second linear map (custom_call 5): 25 row blocks of 2000 nodes. At each block the body reads
  h (2000 x 256), the column mean, the column variance, the scale and the shift (1 x 256 each), the weight matrix
  (256 x 256) and the bias row, and writes relu(relu((h - mean) * rsqrt(var + eps) * scale + shift) . W + b) over the whole
  output block.
  Stated at any contents V of the buffers when the call is entered: what each window's block holds, what the body
  leaves in each output block, the body's triple, the call's proof data and its body obligation.
-/
import proofs.«121371_j46033459478999_1_alg».proof.Proof.Gen.KernelIdeal.Launch
import proofs.«121371_j46033459478999_1_alg».proof.Proof.Gen.KernelIdeal.Skeleton
import proofs.«121371_j46033459478999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every row block, fetched there or not (a window whose block
    index never moves is fetched once and keeps its block). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! The rectangles the body reads and writes: each buffer whole. -/
abbrev r5_S2000x256 : Rect S2000x256 := Rect.unit (s := S2000x256) ![0, 0] S2000x256.size inb_S2000x256_S2000x256_0_0
abbrev r5_S1x256 : Rect S1x256 := Rect.unit (s := S1x256) ![0, 0] S1x256.size inb_S1x256_S1x256_0_0
abbrev r5_S256x256 : Rect S256x256 := Rect.unit (s := S256x256) ![0, 0] S256x256.size inb_S256x256_S256x256_0_0

/-- Output window 7's block after the body, from the input blocks: its one whole store. -/
def out5_7 (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  View.canon [⟨r5_S2000x256, k5_pay1 (View.ld x0 r5_S2000x256) (View.ld x1 r5_S1x256) (View.ld x2 r5_S1x256) (View.ld x3 r5_S1x256) (View.ld x4 r5_S1x256) (View.ld x5 r5_S256x256) (View.ld x6 r5_S1x256)⟩]

/-- The one store covers the block. -/
theorem cover5_7 (p0 : Vec F S2000x256 .f32) (y : S2000x256.Idx) :
    ∃ pc ∈ ([⟨r5_S2000x256, p0⟩] : List (View.Piece (Elt F) S2000x256 .f32)), y ∈ pc.1.set :=
  View.cover_of_tiled [⟨r5_S2000x256, p0⟩] S2000x256.size (by rfl) y

set_option maxHeartbeats 1000000 in
/-- The body on whole staging memrefs: the inputs stay as read, each output ends at its `out5_w` of the inputs. -/
theorem sound_kernel5 (c : Dev nD) (E : Set ℕ) (i : grid5.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out5_7 x0 x1 x2 x3 x4 x5 x6)) -∗ K ⟨⟩))
      ⊢ wp frame (wpE (defs₀ (F := F)) Variants.none c none) E (cc5__bn_relu_linear2_kernel i arg1 harg1 arg2 harg2 arg3 harg3 arg4 harg4 arg5 harg5 arg6 harg6 arg7 harg7 arg8 harg8) K := by
  simp only [cc5__bn_relu_linear2_kernel_eq_skeleton]; unfold cc5__bn_relu_linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The call's proof data on core `c`: the arrays as the call finds them; after the body at row block `t` each
    input's buffer at its block and each output's at its `out5_w` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) :
    (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at row block `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any row block: the inputs' memrefs hold their blocks, so the body's triple applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every row block. -/
theorem body_obligation5 (c : Dev nD) : BodyObligation (dat5 (F := F) V c) (defs₀ (F := F)) Variants.none () Set.univ := fun t => by
  rw [bigSep_W5, bigSep_W5]
  exact sound_body5 V c t

end Cert.KernelIdeal.Calls

end
-- ==== Proof.KIdeal.Call6.lean ====
/-
  The readout (custom_call 6): 50 row blocks of 1000 nodes. At each block the body reads the three layers' features side by side
  (1000 x 768), the two weight matrices (768 x 768, 768 x 2) and the two bias rows, and writes the logits
  relu(h . W1 + b1) . W2 + b2 over the first output block and their softmax over the two columns over the second.
  Stated at any contents V of the buffers when the call is entered: what each window's block holds, what the body
  leaves in each output block, the body's triple, the call's proof data and its body obligation.
-/
import proofs.«121371_j46033459478999_1_alg».proof.Proof.Gen.KernelIdeal.Launch
import proofs.«121371_j46033459478999_1_alg».proof.Proof.Gen.KernelIdeal.Skeleton
import proofs.«121371_j46033459478999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's staging buffer holds its block at every row block, fetched there or not (a window whose block
    index never moves is fetched once and keeps its block). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! The rectangles the body reads and writes: each buffer whole. -/
abbrev r6_S1000x768 : Rect S1000x768 := Rect.unit (s := S1000x768) ![0, 0] S1000x768.size inb_S1000x768_S1000x768_0_0
abbrev r6_S768x768 : Rect S768x768 := Rect.unit (s := S768x768) ![0, 0] S768x768.size inb_S768x768_S768x768_0_0
abbrev r6_S1x768 : Rect S1x768 := Rect.unit (s := S1x768) ![0, 0] S1x768.size inb_S1x768_S1x768_0_0
abbrev r6_S768x2 : Rect S768x2 := Rect.unit (s := S768x2) ![0, 0] S768x2.size inb_S768x2_S768x2_0_0
abbrev r6_S1x2 : Rect S1x2 := Rect.unit (s := S1x2) ![0, 0] S1x2.size inb_S1x2_S1x2_0_0
abbrev r6_S1000x2 : Rect S1000x2 := Rect.unit (s := S1000x2) ![0, 0] S1000x2.size inb_S1000x2_S1000x2_0_0

/-- Output window 5's block after the body, from the input blocks: its one whole store. -/
def out6_5 (x0 : Vec F S1000x768 .f32) (x1 : Vec F S768x768 .bf16) (x2 : Vec F S1x768 .f32) (x3 : Vec F S768x2 .bf16) (x4 : Vec F S1x2 .f32) : Vec F S1000x2 .f32 :=
  View.canon [⟨r6_S1000x2, k6_pay1 (View.ld x0 r6_S1000x768) (View.ld x1 r6_S768x768) (View.ld x2 r6_S1x768) (View.ld x3 r6_S768x2) (View.ld x4 r6_S1x2)⟩]

/-- The one store covers the block. -/
theorem cover6_5 (p0 : Vec F S1000x2 .f32) (y : S1000x2.Idx) :
    ∃ pc ∈ ([⟨r6_S1000x2, p0⟩] : List (View.Piece (Elt F) S1000x2 .f32)), y ∈ pc.1.set :=
  View.cover_of_tiled [⟨r6_S1000x2, p0⟩] S1000x2.size (by rfl) y

/-- Output window 6's block after the body, from the input blocks: its one whole store. -/
def out6_6 (x0 : Vec F S1000x768 .f32) (x1 : Vec F S768x768 .bf16) (x2 : Vec F S1x768 .f32) (x3 : Vec F S768x2 .bf16) (x4 : Vec F S1x2 .f32) : Vec F S1000x2 .f32 :=
  View.canon [⟨r6_S1000x2, k6_pay2 (View.ld x0 r6_S1000x768) (View.ld x1 r6_S768x768) (View.ld x2 r6_S1x768) (View.ld x3 r6_S768x2) (View.ld x4 r6_S1x2)⟩]

/-- The one store covers the block. -/
theorem cover6_6 (p0 : Vec F S1000x2 .f32) (y : S1000x2.Idx) :
    ∃ pc ∈ ([⟨r6_S1000x2, p0⟩] : List (View.Piece (Elt F) S1000x2 .f32)), y ∈ pc.1.set :=
  View.cover_of_tiled [⟨r6_S1000x2, p0⟩] S1000x2.size (by rfl) y

set_option maxHeartbeats 1000000 in
/-- The body on whole staging memrefs: the inputs stay as read, each output ends at its `out6_w` of the inputs. -/
theorem sound_kernel6 (c : Dev nD) (E : Set ℕ) (i : grid6.Coords)
    (arg1 : Memref sig .tc .vmem S1000x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x2 .bf16) (harg4 : arg4.IsWhole) (arg5 : Memref sig .tc .vmem S1x2 .f32) (harg5 : arg5.IsWhole) (arg6 : Memref sig .tc .vmem S1000x2 .f32) (harg6 : arg6.IsWhole) (arg7 : Memref sig .tc .vmem S1000x2 .f32) (harg7 : arg7.IsWhole)
    (x0 : Vec F S1000x768 .f32) (x1 : Vec F S768x768 .bf16) (x2 : Vec F S1x768 .f32) (x3 : Vec F S768x2 .bf16) (x4 : Vec F S1x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out6_5 x0 x1 x2 x3 x4)
            ∗ owns (c : Thread nD τ) arg7 fullShare (out6_6 x0 x1 x2 x3 x4)) -∗ K ⟨⟩))
      ⊢ wp frame (wpE (defs₀ (F := F)) Variants.none c none) E (cc6__readout_kernel i arg1 harg1 arg2 harg2 arg3 harg3 arg4 harg4 arg5 harg5 arg6 harg6 arg7 harg7) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists _; isplitr
  swap; · iexact H6
  ipureintro
  exact View.read_writes_eq_canon _ _ _ (cover6_6 _)

/-- The call's proof data on core `c`: the arrays as the call finds them; after the body at row block `t` each
    input's buffer at its block and each output's at its `out6_w` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
    | ⟨6, _⟩ => out6_6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]
theorem after6_6 (c : Dev nD) (t : Fin cfg6.N) :
    (dat6 V c).after 6 t = out6_6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at row block `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any row block: the inputs' memrefs hold their blocks, so the body's triple applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every row block. -/
theorem body_obligation6 (c : Dev nD) : BodyObligation (dat6 (F := F) V c) (defs₀ (F := F)) Variants.none () Set.univ := fun t => by
  rw [bigSep_W6, bigSep_W6]
  exact sound_body6 V c t

end Cert.KernelIdeal.Calls

end
-- ==== Proof.KIdeal.RunCond.lean ====
/-
  The whole program's run, given one record per pallas_call: every weakly fair execution of @main ends, nothing faults,
  and the final memory holds the two result arrays (the logits and their softmax) at what the last call leaves in
  them, and every argument array as launched. The contents of the buffers between two items of @main are the fold
  `V0 .. V20`: the launch memory, then each stretch of host operations applied, then each call's output arrays replaced
  by what the call leaves (`outs`).
-/
import proofs.«121371_j46033459478999_1_alg».proof.Proof.Gen.KernelIdeal.Regions

set_option maxRecDepth 1520

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- Given, per call, a record entered from the fold's contents before it and left at the contents after it, the program
    runs to the end with the results at the last contents `V20` and the arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V17 m outs c) ∗ E 5 c) ⊢ R5.pre c)
    (hpost5 : ∀ c : Dev nD, R5.post c ⊢ iprop(StableHlo.held (c : Thread nD τ) (Pipeline.ucRefs τ sig) (V18 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c)) :
    θ_run defs (onTc (τ := τ) (main (F := F))) ⟨m, fun _ => 0, ρ⟩ (fun r => ∀ c : Dev nD,
      r.2.mem ((c.tc : Thread nD τ).loc main_v81_0) = V20 m outs c main_v81_0
      ∧ r.2.mem ((c.tc : Thread nD τ).loc main_v81_1) = V20 m outs c main_v81_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V20 m outs c))
    (hch := fun c => ⟨.rfl, hpre0 c, hpost0 c, .rfl, .rfl, hpre1 c, hpost1 c, hpre2 c, hpost2 c, .rfl, .rfl, hpre3 c, hpost3 c, hpre4 c, hpost4 c, .rfl, .rfl, hpre5 c, hpost5 c, hpre6 c, (hpost6 c).trans (sep_mono .rfl (hE7 c))⟩)
    (hinit := ?_) (QY := fun c s => s.mem ((c.tc : Thread nD τ).loc main_v81_0) = V20 m outs c main_v81_0 ∧ s.mem ((c.tc : Thread nD τ).loc main_v81_1) = V20 m outs c main_v81_1 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V20 m outs c) s') $$ [Hh HSI]
    · isplitl [Hh] <;> iassumption
    icases Hr with ⟨%h, HSI⟩
    imodintro
    isplitr
    · ipureintro
      exact ⟨h (Proc.devRef .tc main_v81_0) (Finset.mem_filter.mpr ⟨StableHlo.devRef_mem_tcRefs main_v81_0, by decide⟩),
        h (Proc.devRef .tc main_v81_1) (Finset.mem_filter.mpr ⟨StableHlo.devRef_mem_tcRefs main_v81_1, by decide⟩),
        (h (Proc.devRef .tc main_arg0) (Finset.mem_filter.mpr ⟨StableHlo.devRef_mem_tcRefs main_arg0, by decide⟩)).trans (V20_main_arg0 m outs c),
        (h (Proc.devRef .tc main_arg1) (Finset.mem_filter.mpr ⟨StableHlo.devRef_mem_tcRefs main_arg1, by decide⟩)).trans (V20_main_arg1 m outs c),
        (h (Proc.devRef .tc main_arg2) (Finset.mem_filter.mpr ⟨StableHlo.devRef_mem_tcRefs main_arg2, by decide⟩)).trans (V20_main_arg2 m outs c),
        (h (Proc.devRef .tc main_arg3) (Finset.mem_filter.mpr ⟨StableHlo.devRef_mem_tcRefs main_arg3, by decide⟩)).trans (V20_main_arg3 m outs c),
        (h (Proc.devRef .tc main_arg4) (Finset.mem_filter.mpr ⟨StableHlo.devRef_mem_tcRefs main_arg4, by decide⟩)).trans (V20_main_arg4 m outs c),
        (h (Proc.devRef .tc main_arg5) (Finset.mem_filter.mpr ⟨StableHlo.devRef_mem_tcRefs main_arg5, by decide⟩)).trans (V20_main_arg5 m outs c),
        (h (Proc.devRef .tc main_arg6) (Finset.mem_filter.mpr ⟨StableHlo.devRef_mem_tcRefs main_arg6, by decide⟩)).trans (V20_main_arg6 m outs c),
        (h (Proc.devRef .tc main_arg7) (Finset.mem_filter.mpr ⟨StableHlo.devRef_mem_tcRefs main_arg7, by decide⟩)).trans (V20_main_arg7 m outs c),
        (h (Proc.devRef .tc main_arg8) (Finset.mem_filter.mpr ⟨StableHlo.devRef_mem_tcRefs main_arg8, by decide⟩)).trans (V20_main_arg8 m outs c),
        (h (Proc.devRef .tc main_arg9) (Finset.mem_filter.mpr ⟨StableHlo.devRef_mem_tcRefs main_arg9, by decide⟩)).trans (V20_main_arg9 m outs c),
        (h (Proc.devRef .tc main_arg10) (Finset.mem_filter.mpr ⟨StableHlo.devRef_mem_tcRefs main_arg10, by decide⟩)).trans (V20_main_arg10 m outs c),
        (h (Proc.devRef .tc main_arg11) (Finset.mem_filter.mpr ⟨StableHlo.devRef_mem_tcRefs main_arg11, by decide⟩)).trans (V20_main_arg11 m outs c),
        (h (Proc.devRef .tc main_arg12) (Finset.mem_filter.mpr ⟨StableHlo.devRef_mem_tcRefs main_arg12, by decide⟩)).trans (V20_main_arg12 m outs c),
        (h (Proc.devRef .tc main_arg13) (Finset.mem_filter.mpr ⟨StableHlo.devRef_mem_tcRefs main_arg13, by decide⟩)).trans (V20_main_arg13 m outs c),
        (h (Proc.devRef .tc main_arg14) (Finset.mem_filter.mpr ⟨StableHlo.devRef_mem_tcRefs main_arg14, by decide⟩)).trans (V20_main_arg14 m outs c),
        (h (Proc.devRef .tc main_arg15) (Finset.mem_filter.mpr ⟨StableHlo.devRef_mem_tcRefs main_arg15, by decide⟩)).trans (V20_main_arg15 m outs c),
        (h (Proc.devRef .tc main_arg16) (Finset.mem_filter.mpr ⟨StableHlo.devRef_mem_tcRefs main_arg16, by decide⟩)).trans (V20_main_arg16 m outs c),
        (h (Proc.devRef .tc main_arg17) (Finset.mem_filter.mpr ⟨StableHlo.devRef_mem_tcRefs main_arg17, by decide⟩)).trans (V20_main_arg17 m outs c),
        (h (Proc.devRef .tc main_arg18) (Finset.mem_filter.mpr ⟨StableHlo.devRef_mem_tcRefs main_arg18, by decide⟩)).trans (V20_main_arg18 m outs c),
        (h (Proc.devRef .tc main_arg19) (Finset.mem_filter.mpr ⟨StableHlo.devRef_mem_tcRefs main_arg19, by decide⟩)).trans (V20_main_arg19 m outs c),
        (h (Proc.devRef .tc main_arg20) (Finset.mem_filter.mpr ⟨StableHlo.devRef_mem_tcRefs main_arg20, by decide⟩)).trans (V20_main_arg20 m outs c),
        (h (Proc.devRef .tc main_arg21) (Finset.mem_filter.mpr ⟨StableHlo.devRef_mem_tcRefs main_arg21, by decide⟩)).trans (V20_main_arg21 m outs c),
        (h (Proc.devRef .tc main_arg22) (Finset.mem_filter.mpr ⟨StableHlo.devRef_mem_tcRefs main_arg22, by decide⟩)).trans (V20_main_arg22 m outs c),
        (h (Proc.devRef .tc main_arg23) (Finset.mem_filter.mpr ⟨StableHlo.devRef_mem_tcRefs main_arg23, by decide⟩)).trans (V20_main_arg23 m outs c)⟩
    · iexact HSI

end Cert.KernelIdeal.Calls

end
-- ==== Proof.KIdeal.Records.lean ====
/-
  The seven calls of the program as records over the contents of the buffers between the items of @main, and the
  program's run. `U1 .. U20` are those contents on one core: the launch memory after the first stretch of host
  operations, then alternately a call's output array replaced by what the call leaves in it (`resK_w`: the call's
  write-backs folded over its row blocks) and the next stretch of host operations applied. Each call is entered from
  every unscoped buffer at the contents before it and left at the contents after it; the generator register and the
  core's dues ride along unchanged.
-/
import proofs.«121371_j46033459478999_1_alg».proof.Proof.KIdeal.Call0
import proofs.«121371_j46033459478999_1_alg».proof.Proof.KIdeal.Call1
import proofs.«121371_j46033459478999_1_alg».proof.Proof.KIdeal.Call2
import proofs.«121371_j46033459478999_1_alg».proof.Proof.KIdeal.Call3
import proofs.«121371_j46033459478999_1_alg».proof.Proof.KIdeal.Call4
import proofs.«121371_j46033459478999_1_alg».proof.Proof.KIdeal.Call5
import proofs.«121371_j46033459478999_1_alg».proof.Proof.KIdeal.Call6
import proofs.«121371_j46033459478999_1_alg».proof.Proof.KIdeal.RunCond

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items, each call's outputs named -/

/-- After the first stretch of host operations. -/
abbrev U1 (c : Dev nD) : Valuation τ sig (Elt F) := StableHlo.after hostOps0 (fun b => m (c, b))
/-- What call 0 finds in the buffers. -/
abbrev ent0 : (c : Dev nD) → (b : Ref sig .tc) → Buf (Elt F) ((c : Thread nD τ).loc b) := fun c b => U1 m c b
/-- What call 0 leaves in `main_v16`: its write-backs folded over all its row blocks. -/
def res0_4 (c : Dev nD) : Buf (Elt F) ((c : Thread nD τ).loc main_v16) := (dat0 (ent0 m) c).arrAt 4 cfg0.N
abbrev U2 (c : Dev nD) : Valuation τ sig (Elt F) := Function.update (U1 m c) main_v16 (res0_4 m c)
abbrev ext0 : (c : Dev nD) → (b : Ref sig .tc) → Buf (Elt F) ((c : Thread nD τ).loc b) := fun c b => U2 m c b
abbrev U3 (c : Dev nD) : Valuation τ sig (Elt F) := StableHlo.after hostOps1 (U2 m c)
abbrev U4 (c : Dev nD) : Valuation τ sig (Elt F) := StableHlo.after hostOps1_1 (U3 m c)
abbrev U5 (c : Dev nD) : Valuation τ sig (Elt F) := StableHlo.after hostOps1_2 (U4 m c)
/-- What call 1 finds in the buffers. -/
abbrev ent1 : (c : Dev nD) → (b : Ref sig .tc) → Buf (Elt F) ((c : Thread nD τ).loc b) := fun c b => U5 m c b
/-- What call 1 leaves in `main_v27`: its write-backs folded over all its row blocks. -/
def res1_7 (c : Dev nD) : Buf (Elt F) ((c : Thread nD τ).loc main_v27) := (dat1 (ent1 m) c).arrAt 7 cfg1.N
abbrev U6 (c : Dev nD) : Valuation τ sig (Elt F) := Function.update (U5 m c) main_v27 (res1_7 m c)
abbrev ext1 : (c : Dev nD) → (b : Ref sig .tc) → Buf (Elt F) ((c : Thread nD τ).loc b) := fun c b => U6 m c b
abbrev U7 (c : Dev nD) : Valuation τ sig (Elt F) := StableHlo.after hostOps2 (U6 m c)
/-- What call 2 finds in the buffers. -/
abbrev ent2 : (c : Dev nD) → (b : Ref sig .tc) → Buf (Elt F) ((c : Thread nD τ).loc b) := fun c b => U7 m c b
/-- What call 2 leaves in `main_v40`: its write-backs folded over all its row blocks. -/
def res2_4 (c : Dev nD) : Buf (Elt F) ((c : Thread nD τ).loc main_v40) := (dat2 (ent2 m) c).arrAt 4 cfg2.N
abbrev U8 (c : Dev nD) : Valuation τ sig (Elt F) := Function.update (U7 m c) main_v40 (res2_4 m c)
abbrev ext2 : (c : Dev nD) → (b : Ref sig .tc) → Buf (Elt F) ((c : Thread nD τ).loc b) := fun c b => U8 m c b
abbrev U9 (c : Dev nD) : Valuation τ sig (Elt F) := StableHlo.after hostOps3 (U8 m c)
abbrev U10 (c : Dev nD) : Valuation τ sig (Elt F) := StableHlo.after hostOps3_1 (U9 m c)
abbrev U11 (c : Dev nD) : Valuation τ sig (Elt F) := StableHlo.after hostOps3_2 (U10 m c)
/-- What call 3 finds in the buffers. -/
abbrev ent3 : (c : Dev nD) → (b : Ref sig .tc) → Buf (Elt F) ((c : Thread nD τ).loc b) := fun c b => U11 m c b
/-- What call 3 leaves in `main_v51`: its write-backs folded over all its row blocks. -/
def res3_7 (c : Dev nD) : Buf (Elt F) ((c : Thread nD τ).loc main_v51) := (dat3 (ent3 m) c).arrAt 7 cfg3.N
abbrev U12 (c : Dev nD) : Valuation τ sig (Elt F) := Function.update (U11 m c) main_v51 (res3_7 m c)
abbrev ext3 : (c : Dev nD) → (b : Ref sig .tc) → Buf (Elt F) ((c : Thread nD τ).loc b) := fun c b => U12 m c b
abbrev U13 (c : Dev nD) : Valuation τ sig (Elt F) := StableHlo.after hostOps4 (U12 m c)
/-- What call 4 finds in the buffers. -/
abbrev ent4 : (c : Dev nD) → (b : Ref sig .tc) → Buf (Elt F) ((c : Thread nD τ).loc b) := fun c b => U13 m c b
/-- What call 4 leaves in `main_v64`: its write-backs folded over all its row blocks. -/
def res4_4 (c : Dev nD) : Buf (Elt F) ((c : Thread nD τ).loc main_v64) := (dat4 (ent4 m) c).arrAt 4 cfg4.N
abbrev U14 (c : Dev nD) : Valuation τ sig (Elt F) := Function.update (U13 m c) main_v64 (res4_4 m c)
abbrev ext4 : (c : Dev nD) → (b : Ref sig .tc) → Buf (Elt F) ((c : Thread nD τ).loc b) := fun c b => U14 m c b
abbrev U15 (c : Dev nD) : Valuation τ sig (Elt F) := StableHlo.after hostOps5 (U14 m c)
abbrev U16 (c : Dev nD) : Valuation τ sig (Elt F) := StableHlo.after hostOps5_1 (U15 m c)
abbrev U17 (c : Dev nD) : Valuation τ sig (Elt F) := StableHlo.after hostOps5_2 (U16 m c)
/-- What call 5 finds in the buffers. -/
abbrev ent5 : (c : Dev nD) → (b : Ref sig .tc) → Buf (Elt F) ((c : Thread nD τ).loc b) := fun c b => U17 m c b
/-- What call 5 leaves in `main_v75`: its write-backs folded over all its row blocks. -/
def res5_7 (c : Dev nD) : Buf (Elt F) ((c : Thread nD τ).loc main_v75) := (dat5 (ent5 m) c).arrAt 7 cfg5.N
abbrev U18 (c : Dev nD) : Valuation τ sig (Elt F) := Function.update (U17 m c) main_v75 (res5_7 m c)
abbrev ext5 : (c : Dev nD) → (b : Ref sig .tc) → Buf (Elt F) ((c : Thread nD τ).loc b) := fun c b => U18 m c b
abbrev U19 (c : Dev nD) : Valuation τ sig (Elt F) := StableHlo.after hostOps6 (U18 m c)
/-- What call 6 finds in the buffers. -/
abbrev ent6 : (c : Dev nD) → (b : Ref sig .tc) → Buf (Elt F) ((c : Thread nD τ).loc b) := fun c b => U19 m c b
/-- What call 6 leaves in `main_v81_0`: its write-backs folded over all its row blocks. -/
def res6_5 (c : Dev nD) : Buf (Elt F) ((c : Thread nD τ).loc main_v81_0) := (dat6 (ent6 m) c).arrAt 5 cfg6.N
/-- What call 6 leaves in `main_v81_1`: its write-backs folded over all its row blocks. -/
def res6_6 (c : Dev nD) : Buf (Elt F) ((c : Thread nD τ).loc main_v81_1) := (dat6 (ent6 m) c).arrAt 6 cfg6.N
abbrev U20 (c : Dev nD) : Valuation τ sig (Elt F) := Function.update (Function.update (U19 m c) main_v81_0 (res6_5 m c)) main_v81_1 (res6_6 m c)
abbrev ext6 : (c : Dev nD) → (b : Ref sig .tc) → Buf (Elt F) ((c : Thread nD τ).loc b) := fun c b => U20 m c b

/-- What the calls leave, as one family: at a call's output array what that call leaves, anywhere else the launch contents. -/
def outs : Outs (F := F) := fun _ r c =>
  if h : r = main_v16 then (h ▸ res0_4 m c : Buf (Elt F) ((c : Thread nD τ).loc r))
  else   if h : r = main_v27 then (h ▸ res1_7 m c : Buf (Elt F) ((c : Thread nD τ).loc r))
  else   if h : r = main_v40 then (h ▸ res2_4 m c : Buf (Elt F) ((c : Thread nD τ).loc r))
  else   if h : r = main_v51 then (h ▸ res3_7 m c : Buf (Elt F) ((c : Thread nD τ).loc r))
  else   if h : r = main_v64 then (h ▸ res4_4 m c : Buf (Elt F) ((c : Thread nD τ).loc r))
  else   if h : r = main_v75 then (h ▸ res5_7 m c : Buf (Elt F) ((c : Thread nD τ).loc r))
  else   if h : r = main_v81_0 then (h ▸ res6_5 m c : Buf (Elt F) ((c : Thread nD τ).loc r))
  else   if h : r = main_v81_1 then (h ▸ res6_6 m c : Buf (Elt F) ((c : Thread nD τ).loc r))
  else m (c, r)

theorem outs_main_v16 (J : ℕ) (c : Dev nD) : outs m J main_v16 c = res0_4 m c := by
  unfold outs; rw [dif_pos rfl]
theorem outs_main_v27 (J : ℕ) (c : Dev nD) : outs m J main_v27 c = res1_7 m c := by
  unfold outs; rw [dif_neg (by decide), dif_pos rfl]
theorem outs_main_v40 (J : ℕ) (c : Dev nD) : outs m J main_v40 c = res2_4 m c := by
  unfold outs; rw [dif_neg (by decide), dif_neg (by decide), dif_pos rfl]
theorem outs_main_v51 (J : ℕ) (c : Dev nD) : outs m J main_v51 c = res3_7 m c := by
  unfold outs; rw [dif_neg (by decide), dif_neg (by decide), dif_neg (by decide), dif_pos rfl]
theorem outs_main_v64 (J : ℕ) (c : Dev nD) : outs m J main_v64 c = res4_4 m c := by
  unfold outs; rw [dif_neg (by decide), dif_neg (by decide), dif_neg (by decide), dif_neg (by decide), dif_pos rfl]
theorem outs_main_v75 (J : ℕ) (c : Dev nD) : outs m J main_v75 c = res5_7 m c := by
  unfold outs; rw [dif_neg (by decide), dif_neg (by decide), dif_neg (by decide), dif_neg (by decide), dif_neg (by decide), dif_pos rfl]
theorem outs_main_v81_0 (J : ℕ) (c : Dev nD) : outs m J main_v81_0 c = res6_5 m c := by
  unfold outs; rw [dif_neg (by decide), dif_neg (by decide), dif_neg (by decide), dif_neg (by decide), dif_neg (by decide), dif_neg (by decide), dif_pos rfl]
theorem outs_main_v81_1 (J : ℕ) (c : Dev nD) : outs m J main_v81_1 c = res6_6 m c := by
  unfold outs; rw [dif_neg (by decide), dif_neg (by decide), dif_neg (by decide), dif_neg (by decide), dif_neg (by decide), dif_neg (by decide), dif_neg (by decide), dif_pos rfl]

/-! The generated fold at this family is `U`. -/
theorem V1_eq (c : Dev nD) : V1 m c = U1 m c := rfl
theorem V2_eq (c : Dev nD) : V2 m (outs m) c = U2 m c := by
  unfold V2; rw [V1_eq m c, outs_main_v16]
theorem V3_eq (c : Dev nD) : V3 m (outs m) c = U3 m c := by
  unfold V3; rw [V2_eq m c]
theorem V4_eq (c : Dev nD) : V4 m (outs m) c = U4 m c := by
  unfold V4; rw [V3_eq m c]
theorem V5_eq (c : Dev nD) : V5 m (outs m) c = U5 m c := by
  unfold V5; rw [V4_eq m c]
theorem V6_eq (c : Dev nD) : V6 m (outs m) c = U6 m c := by
  unfold V6; rw [V5_eq m c, outs_main_v27]
theorem V7_eq (c : Dev nD) : V7 m (outs m) c = U7 m c := by
  unfold V7; rw [V6_eq m c]
theorem V8_eq (c : Dev nD) : V8 m (outs m) c = U8 m c := by
  unfold V8; rw [V7_eq m c, outs_main_v40]
theorem V9_eq (c : Dev nD) : V9 m (outs m) c = U9 m c := by
  unfold V9; rw [V8_eq m c]
theorem V10_eq (c : Dev nD) : V10 m (outs m) c = U10 m c := by
  unfold V10; rw [V9_eq m c]
theorem V11_eq (c : Dev nD) : V11 m (outs m) c = U11 m c := by
  unfold V11; rw [V10_eq m c]
theorem V12_eq (c : Dev nD) : V12 m (outs m) c = U12 m c := by
  unfold V12; rw [V11_eq m c, outs_main_v51]
theorem V13_eq (c : Dev nD) : V13 m (outs m) c = U13 m c := by
  unfold V13; rw [V12_eq m c]
theorem V14_eq (c : Dev nD) : V14 m (outs m) c = U14 m c := by
  unfold V14; rw [V13_eq m c, outs_main_v64]
theorem V15_eq (c : Dev nD) : V15 m (outs m) c = U15 m c := by
  unfold V15; rw [V14_eq m c]
theorem V16_eq (c : Dev nD) : V16 m (outs m) c = U16 m c := by
  unfold V16; rw [V15_eq m c]
theorem V17_eq (c : Dev nD) : V17 m (outs m) c = U17 m c := by
  unfold V17; rw [V16_eq m c]
theorem V18_eq (c : Dev nD) : V18 m (outs m) c = U18 m c := by
  unfold V18; rw [V17_eq m c, outs_main_v75]
theorem V19_eq (c : Dev nD) : V19 m (outs m) c = U19 m c := by
  unfold V19; rw [V18_eq m c]
theorem V20_eq (c : Dev nD) : V20 m (outs m) c = U20 m c := by
  unfold V20; rw [V19_eq m c, outs_main_v81_0, outs_main_v81_1]

/-! ## Each call's arrays at its exit -/

theorem hF0_0 (c : Dev nD) : (dat0 (ent0 m) c).arrAt 0 cfg0.N = ext0 m c (Pipeline.arrRef spec0 0) := by
  rw [(dat0 (ent0 m) c).arrAt_in 0 rfl, A_eq0]
  exact (Function.update_of_ne (StableHlo.devRef_ne_of_ne (by decide)) _ _).symm
theorem hF0_1 (c : Dev nD) : (dat0 (ent0 m) c).arrAt 1 cfg0.N = ext0 m c (Pipeline.arrRef spec0 1) := by
  rw [(dat0 (ent0 m) c).arrAt_in 1 rfl, A_eq0]
  exact (Function.update_of_ne (StableHlo.devRef_ne_of_ne (by decide)) _ _).symm
theorem hF0_2 (c : Dev nD) : (dat0 (ent0 m) c).arrAt 2 cfg0.N = ext0 m c (Pipeline.arrRef spec0 2) := by
  rw [(dat0 (ent0 m) c).arrAt_in 2 rfl, A_eq0]
  exact (Function.update_of_ne (StableHlo.devRef_ne_of_ne (by decide)) _ _).symm
theorem hF0_3 (c : Dev nD) : (dat0 (ent0 m) c).arrAt 3 cfg0.N = ext0 m c (Pipeline.arrRef spec0 3) := by
  rw [(dat0 (ent0 m) c).arrAt_in 3 rfl, A_eq0]
  exact (Function.update_of_ne (StableHlo.devRef_ne_of_ne (by decide)) _ _).symm
theorem hF0_4 (c : Dev nD) : (dat0 (ent0 m) c).arrAt 4 cfg0.N = ext0 m c (Pipeline.arrRef spec0 4) := by
  show res0_4 m c = Function.update (U1 m c) (Proc.devRef .tc main_v16 : DevRef τ sig) (res0_4 m c) (Proc.devRef .tc main_v16 : DevRef τ sig)
  rw [Function.update_self]
/-- At call 0's exit each of its arrays holds what the call leaves: an input as entered, an output its write-backs. -/
theorem hF0 (c : Dev nD) (w : Fin cfg0.W) : (dat0 (ent0 m) c).arrAt w cfg0.N = ext0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
/-- and every other buffer what it held at entry. -/
theorem hrest0 (c : Dev nD) : ∀ b, b ∉ Finset.univ.image (Pipeline.arrRef spec0) → ext0 m c b = ent0 m c b := fun b hb =>
  Function.update_of_ne (StableHlo.devRef_ne_of_ne fun e => hb (Finset.mem_image.mpr ⟨4, Finset.mem_univ _, (show Pipeline.arrRef spec0 4 = main_v16 from rfl).trans e.symm⟩)) _ _
theorem hF1_0 (c : Dev nD) : (dat1 (ent1 m) c).arrAt 0 cfg1.N = ext1 m c (Pipeline.arrRef spec1 0) := by
  rw [(dat1 (ent1 m) c).arrAt_in 0 rfl, A_eq1]
  exact (Function.update_of_ne (StableHlo.devRef_ne_of_ne (by decide)) _ _).symm
theorem hF1_1 (c : Dev nD) : (dat1 (ent1 m) c).arrAt 1 cfg1.N = ext1 m c (Pipeline.arrRef spec1 1) := by
  rw [(dat1 (ent1 m) c).arrAt_in 1 rfl, A_eq1]
  exact (Function.update_of_ne (StableHlo.devRef_ne_of_ne (by decide)) _ _).symm
theorem hF1_2 (c : Dev nD) : (dat1 (ent1 m) c).arrAt 2 cfg1.N = ext1 m c (Pipeline.arrRef spec1 2) := by
  rw [(dat1 (ent1 m) c).arrAt_in 2 rfl, A_eq1]
  exact (Function.update_of_ne (StableHlo.devRef_ne_of_ne (by decide)) _ _).symm
theorem hF1_3 (c : Dev nD) : (dat1 (ent1 m) c).arrAt 3 cfg1.N = ext1 m c (Pipeline.arrRef spec1 3) := by
  rw [(dat1 (ent1 m) c).arrAt_in 3 rfl, A_eq1]
  exact (Function.update_of_ne (StableHlo.devRef_ne_of_ne (by decide)) _ _).symm
theorem hF1_4 (c : Dev nD) : (dat1 (ent1 m) c).arrAt 4 cfg1.N = ext1 m c (Pipeline.arrRef spec1 4) := by
  rw [(dat1 (ent1 m) c).arrAt_in 4 rfl, A_eq1]
  exact (Function.update_of_ne (StableHlo.devRef_ne_of_ne (by decide)) _ _).symm
theorem hF1_5 (c : Dev nD) : (dat1 (ent1 m) c).arrAt 5 cfg1.N = ext1 m c (Pipeline.arrRef spec1 5) := by
  rw [(dat1 (ent1 m) c).arrAt_in 5 rfl, A_eq1]
  exact (Function.update_of_ne (StableHlo.devRef_ne_of_ne (by decide)) _ _).symm
theorem hF1_6 (c : Dev nD) : (dat1 (ent1 m) c).arrAt 6 cfg1.N = ext1 m c (Pipeline.arrRef spec1 6) := by
  rw [(dat1 (ent1 m) c).arrAt_in 6 rfl, A_eq1]
  exact (Function.update_of_ne (StableHlo.devRef_ne_of_ne (by decide)) _ _).symm
theorem hF1_7 (c : Dev nD) : (dat1 (ent1 m) c).arrAt 7 cfg1.N = ext1 m c (Pipeline.arrRef spec1 7) := by
  show res1_7 m c = Function.update (U5 m c) (Proc.devRef .tc main_v27 : DevRef τ sig) (res1_7 m c) (Proc.devRef .tc main_v27 : DevRef τ sig)
  rw [Function.update_self]
/-- At call 1's exit each of its arrays holds what the call leaves: an input as entered, an output its write-backs. -/
theorem hF1 (c : Dev nD) (w : Fin cfg1.W) : (dat1 (ent1 m) c).arrAt w cfg1.N = ext1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
/-- and every other buffer what it held at entry. -/
theorem hrest1 (c : Dev nD) : ∀ b, b ∉ Finset.univ.image (Pipeline.arrRef spec1) → ext1 m c b = ent1 m c b := fun b hb =>
  Function.update_of_ne (StableHlo.devRef_ne_of_ne fun e => hb (Finset.mem_image.mpr ⟨7, Finset.mem_univ _, (show Pipeline.arrRef spec1 7 = main_v27 from rfl).trans e.symm⟩)) _ _
theorem hF2_0 (c : Dev nD) : (dat2 (ent2 m) c).arrAt 0 cfg2.N = ext2 m c (Pipeline.arrRef spec2 0) := by
  rw [(dat2 (ent2 m) c).arrAt_in 0 rfl, A_eq2]
  exact (Function.update_of_ne (StableHlo.devRef_ne_of_ne (by decide)) _ _).symm
theorem hF2_1 (c : Dev nD) : (dat2 (ent2 m) c).arrAt 1 cfg2.N = ext2 m c (Pipeline.arrRef spec2 1) := by
  rw [(dat2 (ent2 m) c).arrAt_in 1 rfl, A_eq2]
  exact (Function.update_of_ne (StableHlo.devRef_ne_of_ne (by decide)) _ _).symm
theorem hF2_2 (c : Dev nD) : (dat2 (ent2 m) c).arrAt 2 cfg2.N = ext2 m c (Pipeline.arrRef spec2 2) := by
  rw [(dat2 (ent2 m) c).arrAt_in 2 rfl, A_eq2]
  exact (Function.update_of_ne (StableHlo.devRef_ne_of_ne (by decide)) _ _).symm
theorem hF2_3 (c : Dev nD) : (dat2 (ent2 m) c).arrAt 3 cfg2.N = ext2 m c (Pipeline.arrRef spec2 3) := by
  rw [(dat2 (ent2 m) c).arrAt_in 3 rfl, A_eq2]
  exact (Function.update_of_ne (StableHlo.devRef_ne_of_ne (by decide)) _ _).symm
theorem hF2_4 (c : Dev nD) : (dat2 (ent2 m) c).arrAt 4 cfg2.N = ext2 m c (Pipeline.arrRef spec2 4) := by
  show res2_4 m c = Function.update (U7 m c) (Proc.devRef .tc main_v40 : DevRef τ sig) (res2_4 m c) (Proc.devRef .tc main_v40 : DevRef τ sig)
  rw [Function.update_self]
/-- At call 2's exit each of its arrays holds what the call leaves: an input as entered, an output its write-backs. -/
theorem hF2 (c : Dev nD) (w : Fin cfg2.W) : (dat2 (ent2 m) c).arrAt w cfg2.N = ext2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
/-- and every other buffer what it held at entry. -/
theorem hrest2 (c : Dev nD) : ∀ b, b ∉ Finset.univ.image (Pipeline.arrRef spec2) → ext2 m c b = ent2 m c b := fun b hb =>
  Function.update_of_ne (StableHlo.devRef_ne_of_ne fun e => hb (Finset.mem_image.mpr ⟨4, Finset.mem_univ _, (show Pipeline.arrRef spec2 4 = main_v40 from rfl).trans e.symm⟩)) _ _
theorem hF3_0 (c : Dev nD) : (dat3 (ent3 m) c).arrAt 0 cfg3.N = ext3 m c (Pipeline.arrRef spec3 0) := by
  rw [(dat3 (ent3 m) c).arrAt_in 0 rfl, A_eq3]
  exact (Function.update_of_ne (StableHlo.devRef_ne_of_ne (by decide)) _ _).symm
theorem hF3_1 (c : Dev nD) : (dat3 (ent3 m) c).arrAt 1 cfg3.N = ext3 m c (Pipeline.arrRef spec3 1) := by
  rw [(dat3 (ent3 m) c).arrAt_in 1 rfl, A_eq3]
  exact (Function.update_of_ne (StableHlo.devRef_ne_of_ne (by decide)) _ _).symm
theorem hF3_2 (c : Dev nD) : (dat3 (ent3 m) c).arrAt 2 cfg3.N = ext3 m c (Pipeline.arrRef spec3 2) := by
  rw [(dat3 (ent3 m) c).arrAt_in 2 rfl, A_eq3]
  exact (Function.update_of_ne (StableHlo.devRef_ne_of_ne (by decide)) _ _).symm
theorem hF3_3 (c : Dev nD) : (dat3 (ent3 m) c).arrAt 3 cfg3.N = ext3 m c (Pipeline.arrRef spec3 3) := by
  rw [(dat3 (ent3 m) c).arrAt_in 3 rfl, A_eq3]
  exact (Function.update_of_ne (StableHlo.devRef_ne_of_ne (by decide)) _ _).symm
theorem hF3_4 (c : Dev nD) : (dat3 (ent3 m) c).arrAt 4 cfg3.N = ext3 m c (Pipeline.arrRef spec3 4) := by
  rw [(dat3 (ent3 m) c).arrAt_in 4 rfl, A_eq3]
  exact (Function.update_of_ne (StableHlo.devRef_ne_of_ne (by decide)) _ _).symm
theorem hF3_5 (c : Dev nD) : (dat3 (ent3 m) c).arrAt 5 cfg3.N = ext3 m c (Pipeline.arrRef spec3 5) := by
  rw [(dat3 (ent3 m) c).arrAt_in 5 rfl, A_eq3]
  exact (Function.update_of_ne (StableHlo.devRef_ne_of_ne (by decide)) _ _).symm
theorem hF3_6 (c : Dev nD) : (dat3 (ent3 m) c).arrAt 6 cfg3.N = ext3 m c (Pipeline.arrRef spec3 6) := by
  rw [(dat3 (ent3 m) c).arrAt_in 6 rfl, A_eq3]
  exact (Function.update_of_ne (StableHlo.devRef_ne_of_ne (by decide)) _ _).symm
theorem hF3_7 (c : Dev nD) : (dat3 (ent3 m) c).arrAt 7 cfg3.N = ext3 m c (Pipeline.arrRef spec3 7) := by
  show res3_7 m c = Function.update (U11 m c) (Proc.devRef .tc main_v51 : DevRef τ sig) (res3_7 m c) (Proc.devRef .tc main_v51 : DevRef τ sig)
  rw [Function.update_self]
/-- At call 3's exit each of its arrays holds what the call leaves: an input as entered, an output its write-backs. -/
theorem hF3 (c : Dev nD) (w : Fin cfg3.W) : (dat3 (ent3 m) c).arrAt w cfg3.N = ext3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => hF3_7 m c
/-- and every other buffer what it held at entry. -/
theorem hrest3 (c : Dev nD) : ∀ b, b ∉ Finset.univ.image (Pipeline.arrRef spec3) → ext3 m c b = ent3 m c b := fun b hb =>
  Function.update_of_ne (StableHlo.devRef_ne_of_ne fun e => hb (Finset.mem_image.mpr ⟨7, Finset.mem_univ _, (show Pipeline.arrRef spec3 7 = main_v51 from rfl).trans e.symm⟩)) _ _
theorem hF4_0 (c : Dev nD) : (dat4 (ent4 m) c).arrAt 0 cfg4.N = ext4 m c (Pipeline.arrRef spec4 0) := by
  rw [(dat4 (ent4 m) c).arrAt_in 0 rfl, A_eq4]
  exact (Function.update_of_ne (StableHlo.devRef_ne_of_ne (by decide)) _ _).symm
theorem hF4_1 (c : Dev nD) : (dat4 (ent4 m) c).arrAt 1 cfg4.N = ext4 m c (Pipeline.arrRef spec4 1) := by
  rw [(dat4 (ent4 m) c).arrAt_in 1 rfl, A_eq4]
  exact (Function.update_of_ne (StableHlo.devRef_ne_of_ne (by decide)) _ _).symm
theorem hF4_2 (c : Dev nD) : (dat4 (ent4 m) c).arrAt 2 cfg4.N = ext4 m c (Pipeline.arrRef spec4 2) := by
  rw [(dat4 (ent4 m) c).arrAt_in 2 rfl, A_eq4]
  exact (Function.update_of_ne (StableHlo.devRef_ne_of_ne (by decide)) _ _).symm
theorem hF4_3 (c : Dev nD) : (dat4 (ent4 m) c).arrAt 3 cfg4.N = ext4 m c (Pipeline.arrRef spec4 3) := by
  rw [(dat4 (ent4 m) c).arrAt_in 3 rfl, A_eq4]
  exact (Function.update_of_ne (StableHlo.devRef_ne_of_ne (by decide)) _ _).symm
theorem hF4_4 (c : Dev nD) : (dat4 (ent4 m) c).arrAt 4 cfg4.N = ext4 m c (Pipeline.arrRef spec4 4) := by
  show res4_4 m c = Function.update (U13 m c) (Proc.devRef .tc main_v64 : DevRef τ sig) (res4_4 m c) (Proc.devRef .tc main_v64 : DevRef τ sig)
  rw [Function.update_self]
/-- At call 4's exit each of its arrays holds what the call leaves: an input as entered, an output its write-backs. -/
theorem hF4 (c : Dev nD) (w : Fin cfg4.W) : (dat4 (ent4 m) c).arrAt w cfg4.N = ext4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
/-- and every other buffer what it held at entry. -/
theorem hrest4 (c : Dev nD) : ∀ b, b ∉ Finset.univ.image (Pipeline.arrRef spec4) → ext4 m c b = ent4 m c b := fun b hb =>
  Function.update_of_ne (StableHlo.devRef_ne_of_ne fun e => hb (Finset.mem_image.mpr ⟨4, Finset.mem_univ _, (show Pipeline.arrRef spec4 4 = main_v64 from rfl).trans e.symm⟩)) _ _
theorem hF5_0 (c : Dev nD) : (dat5 (ent5 m) c).arrAt 0 cfg5.N = ext5 m c (Pipeline.arrRef spec5 0) := by
  rw [(dat5 (ent5 m) c).arrAt_in 0 rfl, A_eq5]
  exact (Function.update_of_ne (StableHlo.devRef_ne_of_ne (by decide)) _ _).symm
theorem hF5_1 (c : Dev nD) : (dat5 (ent5 m) c).arrAt 1 cfg5.N = ext5 m c (Pipeline.arrRef spec5 1) := by
  rw [(dat5 (ent5 m) c).arrAt_in 1 rfl, A_eq5]
  exact (Function.update_of_ne (StableHlo.devRef_ne_of_ne (by decide)) _ _).symm
theorem hF5_2 (c : Dev nD) : (dat5 (ent5 m) c).arrAt 2 cfg5.N = ext5 m c (Pipeline.arrRef spec5 2) := by
  rw [(dat5 (ent5 m) c).arrAt_in 2 rfl, A_eq5]
  exact (Function.update_of_ne (StableHlo.devRef_ne_of_ne (by decide)) _ _).symm
theorem hF5_3 (c : Dev nD) : (dat5 (ent5 m) c).arrAt 3 cfg5.N = ext5 m c (Pipeline.arrRef spec5 3) := by
  rw [(dat5 (ent5 m) c).arrAt_in 3 rfl, A_eq5]
  exact (Function.update_of_ne (StableHlo.devRef_ne_of_ne (by decide)) _ _).symm
theorem hF5_4 (c : Dev nD) : (dat5 (ent5 m) c).arrAt 4 cfg5.N = ext5 m c (Pipeline.arrRef spec5 4) := by
  rw [(dat5 (ent5 m) c).arrAt_in 4 rfl, A_eq5]
  exact (Function.update_of_ne (StableHlo.devRef_ne_of_ne (by decide)) _ _).symm
theorem hF5_5 (c : Dev nD) : (dat5 (ent5 m) c).arrAt 5 cfg5.N = ext5 m c (Pipeline.arrRef spec5 5) := by
  rw [(dat5 (ent5 m) c).arrAt_in 5 rfl, A_eq5]
  exact (Function.update_of_ne (StableHlo.devRef_ne_of_ne (by decide)) _ _).symm
theorem hF5_6 (c : Dev nD) : (dat5 (ent5 m) c).arrAt 6 cfg5.N = ext5 m c (Pipeline.arrRef spec5 6) := by
  rw [(dat5 (ent5 m) c).arrAt_in 6 rfl, A_eq5]
  exact (Function.update_of_ne (StableHlo.devRef_ne_of_ne (by decide)) _ _).symm
theorem hF5_7 (c : Dev nD) : (dat5 (ent5 m) c).arrAt 7 cfg5.N = ext5 m c (Pipeline.arrRef spec5 7) := by
  show res5_7 m c = Function.update (U17 m c) (Proc.devRef .tc main_v75 : DevRef τ sig) (res5_7 m c) (Proc.devRef .tc main_v75 : DevRef τ sig)
  rw [Function.update_self]
/-- At call 5's exit each of its arrays holds what the call leaves: an input as entered, an output its write-backs. -/
theorem hF5 (c : Dev nD) (w : Fin cfg5.W) : (dat5 (ent5 m) c).arrAt w cfg5.N = ext5 m c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c
  | ⟨6, _⟩ => hF5_6 m c
  | ⟨7, _⟩ => hF5_7 m c
/-- and every other buffer what it held at entry. -/
theorem hrest5 (c : Dev nD) : ∀ b, b ∉ Finset.univ.image (Pipeline.arrRef spec5) → ext5 m c b = ent5 m c b := fun b hb =>
  Function.update_of_ne (StableHlo.devRef_ne_of_ne fun e => hb (Finset.mem_image.mpr ⟨7, Finset.mem_univ _, (show Pipeline.arrRef spec5 7 = main_v75 from rfl).trans e.symm⟩)) _ _
theorem hF6_0 (c : Dev nD) : (dat6 (ent6 m) c).arrAt 0 cfg6.N = ext6 m c (Pipeline.arrRef spec6 0) := by
  rw [(dat6 (ent6 m) c).arrAt_in 0 rfl, A_eq6]
  exact ((Function.update_of_ne (StableHlo.devRef_ne_of_ne (by decide)) _ _).trans (Function.update_of_ne (StableHlo.devRef_ne_of_ne (by decide)) _ _)).symm
theorem hF6_1 (c : Dev nD) : (dat6 (ent6 m) c).arrAt 1 cfg6.N = ext6 m c (Pipeline.arrRef spec6 1) := by
  rw [(dat6 (ent6 m) c).arrAt_in 1 rfl, A_eq6]
  exact ((Function.update_of_ne (StableHlo.devRef_ne_of_ne (by decide)) _ _).trans (Function.update_of_ne (StableHlo.devRef_ne_of_ne (by decide)) _ _)).symm
theorem hF6_2 (c : Dev nD) : (dat6 (ent6 m) c).arrAt 2 cfg6.N = ext6 m c (Pipeline.arrRef spec6 2) := by
  rw [(dat6 (ent6 m) c).arrAt_in 2 rfl, A_eq6]
  exact ((Function.update_of_ne (StableHlo.devRef_ne_of_ne (by decide)) _ _).trans (Function.update_of_ne (StableHlo.devRef_ne_of_ne (by decide)) _ _)).symm
theorem hF6_3 (c : Dev nD) : (dat6 (ent6 m) c).arrAt 3 cfg6.N = ext6 m c (Pipeline.arrRef spec6 3) := by
  rw [(dat6 (ent6 m) c).arrAt_in 3 rfl, A_eq6]
  exact ((Function.update_of_ne (StableHlo.devRef_ne_of_ne (by decide)) _ _).trans (Function.update_of_ne (StableHlo.devRef_ne_of_ne (by decide)) _ _)).symm
theorem hF6_4 (c : Dev nD) : (dat6 (ent6 m) c).arrAt 4 cfg6.N = ext6 m c (Pipeline.arrRef spec6 4) := by
  rw [(dat6 (ent6 m) c).arrAt_in 4 rfl, A_eq6]
  exact ((Function.update_of_ne (StableHlo.devRef_ne_of_ne (by decide)) _ _).trans (Function.update_of_ne (StableHlo.devRef_ne_of_ne (by decide)) _ _)).symm
theorem hF6_5 (c : Dev nD) : (dat6 (ent6 m) c).arrAt 5 cfg6.N = ext6 m c (Pipeline.arrRef spec6 5) := by
  show res6_5 m c = Function.update (Function.update (U19 m c) (Proc.devRef .tc main_v81_0 : DevRef τ sig) (res6_5 m c)) (Proc.devRef .tc main_v81_1 : DevRef τ sig) (res6_6 m c) (Proc.devRef .tc main_v81_0 : DevRef τ sig)
  rw [Function.update_of_ne (StableHlo.devRef_ne_of_ne (by decide)), Function.update_self]
theorem hF6_6 (c : Dev nD) : (dat6 (ent6 m) c).arrAt 6 cfg6.N = ext6 m c (Pipeline.arrRef spec6 6) := by
  show res6_6 m c = Function.update (Function.update (U19 m c) (Proc.devRef .tc main_v81_0 : DevRef τ sig) (res6_5 m c)) (Proc.devRef .tc main_v81_1 : DevRef τ sig) (res6_6 m c) (Proc.devRef .tc main_v81_1 : DevRef τ sig)
  rw [Function.update_self]
/-- At call 6's exit each of its arrays holds what the call leaves: an input as entered, an output its write-backs. -/
theorem hF6 (c : Dev nD) (w : Fin cfg6.W) : (dat6 (ent6 m) c).arrAt w cfg6.N = ext6 m c (Pipeline.arrRef spec6 w) :=
  match w with
  | ⟨0, _⟩ => hF6_0 m c
  | ⟨1, _⟩ => hF6_1 m c
  | ⟨2, _⟩ => hF6_2 m c
  | ⟨3, _⟩ => hF6_3 m c
  | ⟨4, _⟩ => hF6_4 m c
  | ⟨5, _⟩ => hF6_5 m c
  | ⟨6, _⟩ => hF6_6 m c
/-- and every other buffer what it held at entry. -/
theorem hrest6 (c : Dev nD) : ∀ b, b ∉ Finset.univ.image (Pipeline.arrRef spec6) → ext6 m c b = ent6 m c b := fun b hb =>
  (Function.update_of_ne (StableHlo.devRef_ne_of_ne fun e => hb (Finset.mem_image.mpr ⟨6, Finset.mem_univ _, (show Pipeline.arrRef spec6 6 = main_v81_1 from rfl).trans e.symm⟩)) _ _).trans (Function.update_of_ne (StableHlo.devRef_ne_of_ne fun e => hb (Finset.mem_image.mpr ⟨5, Finset.mem_univ _, (show Pipeline.arrRef spec6 5 = main_v81_0 from rfl).trans e.symm⟩)) _ _)

/-! ## The proof data family and what rides beside the buffers -/

/-- Every call's proof data, each at the contents its call is entered from. -/
def pdats : (p : Fin 7) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
abbrev noVariants : Variants := Variants.none
/-- No core owes another anything: no level is assigned. -/
abbrev noLevels : GSem nD τ sig → Finset Unit := fun _ => ∅
abbrev lvZero : GSem nD τ sig → Unit → ℕ := fun _ _ => 0
/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## The calls as records -/

set_option backward.isDefEq.respectTransparency.types false in
/-- Call 0: entered from every unscoped buffer at `U1`, left at `U2`. Its arrays are split out of the unscoped
    buffers on entry and put back at their exit contents; the generator register goes into the call's invariant and
    comes back; nothing is owed; the kernel has no semaphore of its own. -/
def reg0 : RegionSeg (pcfgs (F := F)) adm (pdats m) () defs₀ noVariants noLevels lvZero 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noLevels lvZero 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at `U5`, left at `U6`. Its arrays are split out of the unscoped
    buffers on entry and put back at their exit contents; the generator register goes into the call's invariant and
    comes back; nothing is owed; the kernel has no semaphore of its own. -/
def reg1 : RegionSeg (pcfgs (F := F)) adm (pdats m) () defs₀ noVariants noLevels lvZero 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noLevels lvZero 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at `U7`, left at `U8`. Its arrays are split out of the unscoped
    buffers on entry and put back at their exit contents; the generator register goes into the call's invariant and
    comes back; nothing is owed; the kernel has no semaphore of its own. -/
def reg2 : RegionSeg (pcfgs (F := F)) adm (pdats m) () defs₀ noVariants noLevels lvZero 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ noLevels lvZero 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered from every unscoped buffer at `U11`, left at `U12`. Its arrays are split out of the unscoped
    buffers on entry and put back at their exit contents; the generator register goes into the call's invariant and
    comes back; nothing is owed; the kernel has no semaphore of its own. -/
def reg3 : RegionSeg (pcfgs (F := F)) adm (pdats m) () defs₀ noVariants noLevels lvZero 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ noLevels lvZero 3 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4: entered from every unscoped buffer at `U13`, left at `U14`. Its arrays are split out of the unscoped
    buffers on entry and put back at their exit contents; the generator register goes into the call's invariant and
    comes back; nothing is owed; the kernel has no semaphore of its own. -/
def reg4 : RegionSeg (pcfgs (F := F)) adm (pdats m) () defs₀ noVariants noLevels lvZero 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ noLevels lvZero 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5: entered from every unscoped buffer at `U17`, left at `U18`. Its arrays are split out of the unscoped
    buffers on entry and put back at their exit contents; the generator register goes into the call's invariant and
    comes back; nothing is owed; the kernel has no semaphore of its own. -/
def reg5 : RegionSeg (pcfgs (F := F)) adm (pdats m) () defs₀ noVariants noLevels lvZero 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ noLevels lvZero 5 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6: entered from every unscoped buffer at `U19`, left at `U20`. Its arrays are split out of the unscoped
    buffers on entry and put back at their exit contents; the generator register goes into the call's invariant and
    comes back; nothing is owed; the kernel has no semaphore of its own. -/
def reg6 : RegionSeg (pcfgs (F := F)) adm (pdats m) () defs₀ noVariants noLevels lvZero 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ noLevels lvZero 6 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KIdeal.Run.lean ====
/-
  The program's run with its two results named, and its frame. Every weakly fair execution of @main ends without a
  fault; the final memory holds the logits at what the readout call leaves in its first output array, their softmax
  at what it leaves in its second, and every argument array as launched.
-/
import proofs.«121371_j46033459478999_1_alg».proof.Proof.KIdeal.Records

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last contents at the two result arrays are what the readout call leaves in them. -/
theorem U20_logits (c : Dev nD) : U20 m c main_v81_0 = res6_5 m c :=
  (Function.update_of_ne (StableHlo.devRef_ne_of_ne (by decide)) _ _).trans (Function.update_self _ _ _)
theorem U20_probs (c : Dev nD) : U20 m c main_v81_1 = res6_6 m c :=
  Function.update_self _ _ _

set_option backward.isDefEq.respectTransparency.types false in
/-- The run: the results at what the readout call leaves, the arguments as launched. -/
theorem run_main : θ_run defs (onTc (τ := τ) (main (F := F))) ⟨m, fun _ => 0, ρ⟩ (fun r => ∀ c : Dev nD,
      r.2.mem ((c.tc : Thread nD τ).loc main_v81_0) = res6_5 m c
      ∧ r.2.mem ((c.tc : Thread nD τ).loc main_v81_1) = res6_6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine (θ_run _ _ _).mono (fun r h c => ⟨(h c).1.trans ((congrFun (V20_eq m c) _).trans (U20_logits m c)),
      (h c).2.1.trans ((congrFun (V20_eq m c) _).trans (U20_probs m c)), (h c).2.2⟩)
    (run_cond m (EP := (emb₁ : Emb (URounds (GSem nD τ sig) Unit) 𝕄)) (ι := ()) (𝒱₀ := noVariants) (L := noLevels) (lv := lvZero) (hL := fun _ _ => rfl) (ρ := ρ) (outs := outs m) (pdats := pdats m)
      (O₀ := (0 : Dev nD → CellTallies nD τ sig Unit)) (G := fun _ => iprop(emp))
      (u₀ := initOf (Pipeline.cells cfgs cellOf_inj) (Pipeline.launchToks cfgs cellOf_inj))
      (hu₀ := ?hu) (E := fun _ c => R c) (hE0 := ?hE0) (hE7 := ?hE7)
      (reg0 m)
      (fun c => by rw [V1_eq]; exact .rfl)
      (fun c => by rw [V2_eq]; exact .rfl)
      (reg1 m)
      (fun c => by rw [V5_eq]; exact .rfl)
      (fun c => by rw [V6_eq]; exact .rfl)
      (reg2 m)
      (fun c => by rw [V7_eq]; exact .rfl)
      (fun c => by rw [V8_eq]; exact .rfl)
      (reg3 m)
      (fun c => by rw [V11_eq]; exact .rfl)
      (fun c => by rw [V12_eq]; exact .rfl)
      (reg4 m)
      (fun c => by rw [V13_eq]; exact .rfl)
      (fun c => by rw [V14_eq]; exact .rfl)
      (reg5 m)
      (fun c => by rw [V17_eq]; exact .rfl)
      (fun c => by rw [V18_eq]; exact .rfl)
      (reg6 m)
      (fun c => by rw [V19_eq]; exact .rfl)
      (fun c => by rw [V20_eq]; exact .rfl))
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach noLevels lvZero fun c => ?_
    iintro ⟨⟨-, HO, -, Hp, -⟩, -⟩
    imodintro
    isplitl [Hp]; · iexists _; iexact Hp
    iexists ∅; iexact HO
  case hE7 =>
    intro c
    iintro ⟨-, HO⟩
    iexact HO

/-- The frame: the program runs to the end, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run _ _ _).mono (fun _ h c => (h c).2.2) (run_main m ρ)

end Cert.KernelIdeal.Calls

end
-- ==== Proof.Ref.Stages.lean ====
/- The reference network as pure functions of arrays, one definition per stage: three graph-convolution
   layers (neighbour aggregation, a linear map, normalisation over the node axis with scale, shift and
   rectifier, a second linear map with rectifier), the three layers' outputs side by side, two readout
   maps, and the row-wise softmax. Every stage is written with exactly the host operations the printed
   program applies, so that the program's run produces these terms without any arithmetic being opened. -/
import proofs.«121371_j46033459478999_1_alg».proof.Proof.Gen.ReferenceIdeal
import Idealize.ShloMosaic.PureOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The edge list -/

/-- Row 0 of the edge list: for every edge, the node it leaves. -/
def edgeSrc (e : IVec S2x800000 32) : IVec S800000 32 :=
  shapeCast S800000 (extractStridedSlice S1x800000 ![0, 0] e slices_S2x800000_S1x800000_0_0) shapeCasts_S1x800000_S800000

/-- Row 1 of the edge list: for every edge, the node it enters. -/
def edgeDst (e : IVec S2x800000 32) : IVec S800000 32 :=
  shapeCast S800000 (extractStridedSlice S1x800000 ![1, 0] e slices_S2x800000_S1x800000_1_0) shapeCasts_S1x800000_S800000

/-- Node numbers as a column of gather indices: a negative number counts from the end, so the node count
    50000 is added to it; the others are kept. -/
def wrapIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Node numbers as a column of scatter indices, unchanged. -/
def idxCol (r : IVec S800000 32) : IVec S800000x1 32 :=
  broadcastInDim S800000x1 ![0] bcast_S800000_S800000x1_0 r

/-! ## Neighbour aggregation -/

/-- The rows gathered along the edges, on 128 features: for every edge, the row of the node it leaves. -/
def neighbourRows128 (x : FVec F S50000x128 .f32) (src : IVec S800000 32) : FVec F S800000x128 .f32 :=
  Host.gather gather_S50000x128_S800000x1_S800000x128_1_0_n_n_0_1_1128 x (wrapIdx src)

/-- Every node's row plus the sum of the edge rows `u` of the edges entering the node (a scatter-add onto zeros). -/
def addNeighbours128 (x : FVec F S50000x128 .f32) (dst : IVec S800000 32) (u : FVec F S800000x128 .f32) :
    FVec F S50000x128 .f32 :=
  addf x
    (Host.scatterAdd scatter_S50000x128_S800000x1_S800000x128_1_0_0_1
      (broadcastInDim S50000x128 ![] bcast_S_S50000x128 (constant S_ .f32 0x00000000#32)) (idxCol dst) u)

/-- On 128 features: every node's row plus the sum, over the edges entering the node, of the row of the node
    the edge leaves. -/
def aggregate128 (x : FVec F S50000x128 .f32) (src dst : IVec S800000 32) : FVec F S50000x128 .f32 :=
  addNeighbours128 x dst (neighbourRows128 x src)

/-- The rows gathered along the edges, on 256 features. -/
def neighbourRows256 (h : FVec F S50000x256 .f32) (src : IVec S800000 32) : FVec F S800000x256 .f32 :=
  Host.gather gather_S50000x256_S800000x1_S800000x256_1_0_n_n_0_1_1256 h (wrapIdx src)

/-- Every node's row plus the sum of the edge rows `u` of the edges entering the node, on 256 features. -/
def addNeighbours256 (h : FVec F S50000x256 .f32) (dst : IVec S800000 32) (u : FVec F S800000x256 .f32) :
    FVec F S50000x256 .f32 :=
  addf h
    (Host.scatterAdd scatter_S50000x256_S800000x1_S800000x256_1_0_0_1
      (broadcastInDim S50000x256 ![] bcast_S_S50000x256 (constant S_ .f32 0x00000000#32)) (idxCol dst) u)

/-- The aggregation on 256 features. -/
def aggregate256 (h : FVec F S50000x256 .f32) (src dst : IVec S800000 32) : FVec F S50000x256 .f32 :=
  addNeighbours256 h dst (neighbourRows256 h src)

/-! ## Linear maps -/

/-- A vector of 256 entries repeated on each of the 50000 rows. -/
def rows256 (b : FVec F S256 .f32) : FVec F S50000x256 .f32 :=
  broadcastInDim S50000x256 ![0, 1] bcast_S1x256_S50000x256_0_1 (broadcastInDim S1x256 ![1] bcast_S256_S1x256_1 b)

/-- The matrix product with a 128 × 256 weight matrix, plus the bias on every row. -/
def linear128 (a : FVec F S50000x128 .f32) (w : FVec F S128x256 .f32) (b : FVec F S256 .f32) : FVec F S50000x256 .f32 :=
  addf (Host.dotGeneral dot_S50000x128_S128x256_S50000x256_1_0_0_1_n_n none a w) (rows256 b)

/-- The matrix product with a 256 × 256 weight matrix, plus the bias on every row. -/
def linear256 (a : FVec F S50000x256 .f32) (w : FVec F S256x256 .f32) (b : FVec F S256 .f32) : FVec F S50000x256 .f32 :=
  addf (Host.dotGeneral dot_S50000x256_S256x256_S50000x256_1_0_0_1_n_n none a w) (rows256 b)

/-- The rectifier: the larger of each entry and zero. -/
def relu256 (z : FVec F S50000x256 .f32) : FVec F S50000x256 .f32 :=
  maximumf z (broadcastInDim S50000x256 ![] bcast_S_S50000x256 (constant S_ .f32 0x00000000#32))

/-- The rectifier on 768 features. -/
def relu768 (z : FVec F S50000x768 .f32) : FVec F S50000x768 .f32 :=
  maximumf z (broadcastInDim S50000x768 ![] bcast_S_S50000x768 (constant S_ .f32 0x00000000#32))

/-! ## Statistics over the node axis -/

/-- The sum of each column over the 50000 rows. -/
def colSum (z : FVec F S50000x256 .f32) : FVec F S256 .f32 :=
  Host.reduceAdd z (constant S_ .f32 0x00000000#32) reducesTo_S50000x256_S256_d0 h_S_

/-- The mean of each column: its sum divided by the row count 50000. -/
def colMean (z : FVec F S50000x256 .f32) : FVec F S256 .f32 :=
  Host.divf (colSum z) (broadcastInDim S256 ![] bcast_S_S256 (constant S_ .f32 0x47435000#32))

/-- The rows less the column mean, the mean taken as a row of 256 entries before it is repeated. -/
def centred (z : FVec F S50000x256 .f32) : FVec F S50000x256 .f32 :=
  subf z (broadcastInDim S50000x256 ![0, 1] bcast_S1x256_S50000x256_0_1
    (Host.divf (broadcastInDim S1x256 ![1] bcast_S256_S1x256_1 (colSum z))
      (broadcastInDim S1x256 ![] bcast_S_S1x256 (constant S_ .f32 0x47435000#32))))

/-- The divisor of the variance: the row count 50000 less the correction. -/
def varCount (ddof : IVec S_ 32) : FVec F S_ .f32 :=
  subf (constant S_ .f32 0x47435000#32) (sitofp .f32 ddof)

/-- The variance of each column: the sum of the squared deviations from the column mean divided by the row
    count less the correction; not-a-number where that divisor is not positive. -/
def colVar (z : FVec F S50000x256 .f32) (ddof : IVec S_ 32) : FVec F S256 .f32 :=
  select (broadcastInDim S256 ![] bcast_S_S256 (cmpf .ogt (varCount (F := F) ddof) (constant S_ .f32 0x00000000#32)))
    (Host.divf
      (Host.reduceAdd (mulf (centred z) (centred z)) (constant S_ .f32 0x00000000#32) reducesTo_S50000x256_S256_d0 h_S_)
      (broadcastInDim S256 ![] bcast_S_S256 (varCount ddof)))
    (broadcastInDim S256 ![] bcast_S_S256 (constant S_ .f32 0x7FC00000#32))

/-- Normalise, scale, shift, rectify: the rows less the mean `μ`, times the reciprocal square root of the
    variance `v` plus the small constant, times the scale `g`, plus the shift `be`, then the rectifier. -/
def normScaleShiftRelu (z : FVec F S50000x256 .f32) (μ v g be : FVec F S256 .f32) : FVec F S50000x256 .f32 :=
  relu256
    (addf
      (mulf
        (mulf (subf z (rows256 μ))
          (rows256 (Host.rsqrt (addf v (broadcastInDim S256 ![] bcast_S_S256 (constant S_ .f32 0x3727C5AC#32))))))
        (rows256 g))
      (rows256 be))

/-- The normalisation with the statistics of the array itself (mean and uncorrected variance over the nodes). -/
def batchNormRelu (z : FVec F S50000x256 .f32) (g be : FVec F S256 .f32) : FVec F S50000x256 .f32 :=
  normScaleShiftRelu z (colMean z) (colVar z (constantI S_ 32 0#32)) g be

/-! ## The layers -/

/-- What follows the aggregation in every layer: normalise the first linear map's output, then the second
    linear map and the rectifier. -/
def mlpTail (z : FVec F S50000x256 .f32) (g be : FVec F S256 .f32) (w2 : FVec F S256x256 .f32) (b2 : FVec F S256 .f32) :
    FVec F S50000x256 .f32 :=
  relu256 (linear256 (batchNormRelu z g be) w2 b2)

/-- The first layer, on the 128 input features. -/
def ginLayer128 (x : FVec F S50000x128 .f32) (src dst : IVec S800000 32) (w1 : FVec F S128x256 .f32)
    (b1 g be : FVec F S256 .f32) (w2 : FVec F S256x256 .f32) (b2 : FVec F S256 .f32) : FVec F S50000x256 .f32 :=
  mlpTail (linear128 (aggregate128 x src dst) w1 b1) g be w2 b2

/-- The second and third layers, on 256 features. -/
def ginLayer256 (h : FVec F S50000x256 .f32) (src dst : IVec S800000 32) (w1 : FVec F S256x256 .f32)
    (b1 g be : FVec F S256 .f32) (w2 : FVec F S256x256 .f32) (b2 : FVec F S256 .f32) : FVec F S50000x256 .f32 :=
  mlpTail (linear256 (aggregate256 h src dst) w1 b1) g be w2 b2

/-! ## The readout -/

/-- The three layers' outputs side by side: 768 features. -/
def concat3 (h1 h2 h3 : FVec F S50000x256 .f32) : FVec F S50000x768 .f32 :=
  concatenate S50000x768 1 [⟨S50000x256, h1⟩, ⟨S50000x256, h2⟩, ⟨S50000x256, h3⟩]
    concatenates_S50000x256_S50000x256_S50000x256_S50000x768_d1

/-- The first readout map: 768 → 768, bias, rectifier. -/
def readoutHidden (h : FVec F S50000x768 .f32) (w : FVec F S768x768 .f32) (b : FVec F S768 .f32) : FVec F S50000x768 .f32 :=
  relu768
    (addf (Host.dotGeneral dot_S50000x768_S768x768_S50000x768_1_0_0_1_n_n none h w)
      (broadcastInDim S50000x768 ![0, 1] bcast_S1x768_S50000x768_0_1 (broadcastInDim S1x768 ![1] bcast_S768_S1x768_1 b)))

/-- The second readout map: 768 → 2, bias. -/
def readoutLogits (h : FVec F S50000x768 .f32) (w : FVec F S768x2 .f32) (b : FVec F S2 .f32) : FVec F S50000x2 .f32 :=
  addf (Host.dotGeneral dot_S50000x768_S768x2_S50000x2_1_0_0_1_n_n none h w)
    (broadcastInDim S50000x2 ![0, 1] bcast_S1x2_S50000x2_0_1 (broadcastInDim S1x2 ![1] bcast_S2_S1x2_1 b))

/-- One value per row repeated on the row's two entries. -/
def perRow2 (r : FVec F S50000 .f32) : FVec F S50000x2 .f32 :=
  broadcastInDim S50000x2 ![0, 1] bcast_S50000x1_S50000x2_0_1 (broadcastInDim S50000x1 ![0] bcast_S50000_S50000x1_0 r)

/-- The exponential of each entry less its row's maximum (the maximum taken from minus infinity). -/
def expShifted (l : FVec F S50000x2 .f32) : FVec F S50000x2 .f32 :=
  Host.exp
    (subf l
      (perRow2
        (maximumf (broadcastInDim S50000 ![] bcast_S_S50000 (constant S_ .f32 0xFF800000#32))
          (Host.reduce FloatOps.maximumf l (constant S_ .f32 0xFF800000#32) reducesTo_S50000x2_S50000_d1 h_S_))))

/-- The softmax over each row's two entries. -/
def softmax2 (l : FVec F S50000x2 .f32) : FVec F S50000x2 .f32 :=
  Host.divf (expShifted l)
    (perRow2 (Host.reduceAdd (expShifted l) (constant S_ .f32 0x00000000#32) reducesTo_S50000x2_S50000_d1 h_S_))

end Cert.ReferenceIdeal.RefRun

end
-- ==== Proof.Ref.Ops.lean ====
/- The reference program's @main as lists of its host operations, the outlined functions' operations written at
   their call sites over each call's own buffers. The 246 operations are cut into fifteen consecutive stretches,
   one per stage of the network (the edge list and the first aggregation; a linear map with the column mean; the
   column variance; the normalisation with its rectifier; the second linear map with the next layer's gather; …;
   the readout and the softmax), and @main is the straight line of their concatenation. -/
import proofs.«121371_j46033459478999_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge list, the wrapped gather indices, and the first aggregation (gather, scatter-add onto zeros, add). -/
abbrev w1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)) ]

/-- Layer 1: the first linear map, its column mean, and the variance's correction (the integer zero). -/
abbrev w2 : List (HloOp τ sig (Elt F)) :=
  [ StableHlo.binary main_v14 main_arg2 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S50000x256 ![0, 1] bcast_S1x256_S50000x256_0_1 : (⟨S1x256, .f32⟩ : BufTy).Contents (Elt F) → (⟨S50000x256, .f32⟩ : BufTy).Contents (Elt F)),
    StableHlo.binary main_v15 main_v17 main_v18 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.binary main_v18 main_cst_1 main_v19 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v20 (broadcastInDim S256 ![] bcast_S_S256 : (⟨S_, .f32⟩ : BufTy).Contents (Elt F) → (⟨S256, .f32⟩ : BufTy).Contents (Elt F)),
    StableHlo.binary main_v19 main_v20 main_v21 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32) ]

/-- Layer 1: the column variance (the variance function's operations, its select last). -/
abbrev w3 : List (HloOp τ sig (Elt F)) :=
  [ StableHlo.TRef.nullary main_call0.cst (constant S_ .f32 0x00000000#32),
    StableHlo.TRef.binary (.of main_v18) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v18) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- Layer 1: normalise, scale, shift, and the rectifier. -/
abbrev w4 : List (HloOp τ sig (Elt F)) :=
  [ StableHlo.unary main_v21 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S50000x256 ![0, 1] bcast_S1x256_S50000x256_0_1 : (⟨S1x256, .f32⟩ : BufTy).Contents (Elt F) → (⟨S50000x256, .f32⟩ : BufTy).Contents (Elt F)),
    StableHlo.binary main_v18 main_v24 main_v25 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v26 (broadcastInDim S256 ![] bcast_S_S256 : (⟨S_, .f32⟩ : BufTy).Contents (Elt F) → (⟨S256, .f32⟩ : BufTy).Contents (Elt F)),
    StableHlo.binary main_v22 main_v26 main_v27 (addf : (⟨S256, .f32⟩ : BufTy).Contents (Elt F) → (⟨S256, .f32⟩ : BufTy).Contents (Elt F) → (⟨S256, .f32⟩ : BufTy).Contents (Elt F)),
    StableHlo.unary main_v27 main_v28 (Host.rsqrt : (⟨S256, .f32⟩ : BufTy).Contents (Elt F) → (⟨S256, .f32⟩ : BufTy).Contents (Elt F)),
    StableHlo.unary main_v28 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S50000x256 ![0, 1] bcast_S1x256_S50000x256_0_1 : (⟨S1x256, .f32⟩ : BufTy).Contents (Elt F) → (⟨S50000x256, .f32⟩ : BufTy).Contents (Elt F)),
    StableHlo.binary main_v25 main_v30 main_v31 (mulf : (⟨S50000x256, .f32⟩ : BufTy).Contents (Elt F) → (⟨S50000x256, .f32⟩ : BufTy).Contents (Elt F) → (⟨S50000x256, .f32⟩ : BufTy).Contents (Elt F)),
    StableHlo.unary main_arg4 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S50000x256 ![0, 1] bcast_S1x256_S50000x256_0_1 : (⟨S1x256, .f32⟩ : BufTy).Contents (Elt F) → (⟨S50000x256, .f32⟩ : BufTy).Contents (Elt F)),
    StableHlo.binary main_v31 main_v33 main_v34 (mulf : (⟨S50000x256, .f32⟩ : BufTy).Contents (Elt F) → (⟨S50000x256, .f32⟩ : BufTy).Contents (Elt F) → (⟨S50000x256, .f32⟩ : BufTy).Contents (Elt F)),
    StableHlo.unary main_arg5 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v36 main_v37 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v37) main_call1.v0 main_call1.v1 maximumf ]

/-- Layer 1: the second linear map and its rectifier; then layer 2's gather of neighbour rows. -/
abbrev w5 : List (HloOp τ sig (Elt F)) :=
  [ StableHlo.binary main_v38 main_arg6 main_v39 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v42) main_call2.v0 main_call2.v1 maximumf,
    StableHlo.nullary main_c_5 (constantI S_ 32 0#32),
    StableHlo.unary main_c_5 main_v44 (broadcastInDim S800000 ![] bcast_S_S800000 : (⟨S_, .i32⟩ : BufTy).Contents (Elt F) → (⟨S800000, .i32⟩ : BufTy).Contents (Elt F)),
    StableHlo.binary main_v1 main_v44 main_v45 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v46 (broadcastInDim S800000 ![] bcast_S_S800000 : (⟨S_, .i32⟩ : BufTy).Contents (Elt F) → (⟨S800000, .i32⟩ : BufTy).Contents (Elt F)),
    StableHlo.binary main_v1 main_v46 main_v47 (addi : (⟨S800000, .i32⟩ : BufTy).Contents (Elt F) → (⟨S800000, .i32⟩ : BufTy).Contents (Elt F) → (⟨S800000, .i32⟩ : BufTy).Contents (Elt F)),
    StableHlo.ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v48 main_v49 (broadcastInDim S800000x1 ![0] bcast_S800000_S800000x1_0 : (⟨S800000, .i32⟩ : BufTy).Contents (Elt F) → (⟨S800000x1, .i32⟩ : BufTy).Contents (Elt F)),
    StableHlo.binary main_v43 main_v49 main_v50 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) ]

/-- Layer 2: the scatter-add and the sum with the node's own row, the first linear map, its column mean, the correction. -/
abbrev w6 : List (HloOp τ sig (Elt F)) :=
  [ StableHlo.nullary main_cst_7 (constant S_ .f32 0x00000000#32),
    StableHlo.unary main_cst_7 main_v51 (broadcastInDim S50000x256 ![] bcast_S_S50000x256 : (⟨S_, .f32⟩ : BufTy).Contents (Elt F) → (⟨S50000x256, .f32⟩ : BufTy).Contents (Elt F)),
    StableHlo.unary main_v3 main_v52 (broadcastInDim S800000x1 ![0] bcast_S800000_S800000x1_0 : (⟨S800000, .i32⟩ : BufTy).Contents (Elt F) → (⟨S800000x1, .i32⟩ : BufTy).Contents (Elt F)),
    StableHlo.ternary main_v51 main_v52 main_v50 main_v53 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v43 main_v53 main_v54 (addf : (⟨S50000x256, .f32⟩ : BufTy).Contents (Elt F) → (⟨S50000x256, .f32⟩ : BufTy).Contents (Elt F) → (⟨S50000x256, .f32⟩ : BufTy).Contents (Elt F)),
    StableHlo.binary main_v54 main_arg8 main_v55 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg9 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v57 main_v58 (addf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.binary main_v58 main_cst_8 main_v59 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v60 (broadcastInDim S256 ![] bcast_S_S256 : (⟨S_, .f32⟩ : BufTy).Contents (Elt F) → (⟨S256, .f32⟩ : BufTy).Contents (Elt F)),
    StableHlo.binary main_v59 main_v60 main_v61 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32) ]

/-- Layer 2: the column variance. -/
abbrev w7 : List (HloOp τ sig (Elt F)) :=
  [ StableHlo.TRef.nullary main_call3.cst (constant S_ .f32 0x00000000#32),
    StableHlo.TRef.binary (.of main_v58) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (.of main_v58) main_call3.v4 main_call3.v5 subf,
    StableHlo.TRef.binary main_call3.v5 main_call3.v5 main_call3.v6 mulf,
    StableHlo.TRef.unary (.of main_c_10) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b) ]

/-- Layer 2: normalise, scale, shift, and the rectifier. -/
abbrev w8 : List (HloOp τ sig (Elt F)) :=
  [ StableHlo.unary main_v61 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v64 main_v65 (subf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3727C5AC#32),
    StableHlo.unary main_cst_11 main_v66 (broadcastInDim S256 ![] bcast_S_S256 : (⟨S_, .f32⟩ : BufTy).Contents (Elt F) → (⟨S256, .f32⟩ : BufTy).Contents (Elt F)),
    StableHlo.binary main_v62 main_v66 main_v67 (addf : (⟨S256, .f32⟩ : BufTy).Contents (Elt F) → (⟨S256, .f32⟩ : BufTy).Contents (Elt F) → (⟨S256, .f32⟩ : BufTy).Contents (Elt F)),
    StableHlo.unary main_v67 main_v68 (Host.rsqrt : (⟨S256, .f32⟩ : BufTy).Contents (Elt F) → (⟨S256, .f32⟩ : BufTy).Contents (Elt F)),
    StableHlo.unary main_v68 main_v69 (broadcastInDim S1x256 ![1] bcast_S256_S1x256_1 : (⟨S256, .f32⟩ : BufTy).Contents (Elt F) → (⟨S1x256, .f32⟩ : BufTy).Contents (Elt F)),
    StableHlo.unary main_v69 main_v70 (broadcastInDim S50000x256 ![0, 1] bcast_S1x256_S50000x256_0_1 : (⟨S1x256, .f32⟩ : BufTy).Contents (Elt F) → (⟨S50000x256, .f32⟩ : BufTy).Contents (Elt F)),
    StableHlo.binary main_v65 main_v70 main_v71 (mulf : (⟨S50000x256, .f32⟩ : BufTy).Contents (Elt F) → (⟨S50000x256, .f32⟩ : BufTy).Contents (Elt F) → (⟨S50000x256, .f32⟩ : BufTy).Contents (Elt F)),
    StableHlo.unary main_arg10 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S50000x256 ![0, 1] bcast_S1x256_S50000x256_0_1 : (⟨S1x256, .f32⟩ : BufTy).Contents (Elt F) → (⟨S50000x256, .f32⟩ : BufTy).Contents (Elt F)),
    StableHlo.binary main_v71 main_v73 main_v74 (mulf : (⟨S50000x256, .f32⟩ : BufTy).Contents (Elt F) → (⟨S50000x256, .f32⟩ : BufTy).Contents (Elt F) → (⟨S50000x256, .f32⟩ : BufTy).Contents (Elt F)),
    StableHlo.unary main_arg11 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S50000x256 ![0, 1] bcast_S1x256_S50000x256_0_1 : (⟨S1x256, .f32⟩ : BufTy).Contents (Elt F) → (⟨S50000x256, .f32⟩ : BufTy).Contents (Elt F)),
    StableHlo.binary main_v74 main_v76 main_v77 (addf : (⟨S50000x256, .f32⟩ : BufTy).Contents (Elt F) → (⟨S50000x256, .f32⟩ : BufTy).Contents (Elt F) → (⟨S50000x256, .f32⟩ : BufTy).Contents (Elt F)),
    StableHlo.TRef.nullary main_call4.cst (constant S_ .f32 0x00000000#32),
    StableHlo.TRef.unary main_call4.cst main_call4.v0 (broadcastInDim S50000x256 ![] bcast_S_S50000x256),
    StableHlo.TRef.binary (.of main_v77) main_call4.v0 main_call4.v1 maximumf ]

/-- Layer 2: the second linear map and its rectifier; then layer 3's gather of neighbour rows. -/
abbrev w9 : List (HloOp τ sig (Elt F)) :=
  [ StableHlo.binary main_v78 main_arg12 main_v79 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S50000x256 ![0, 1] bcast_S1x256_S50000x256_0_1 : (⟨S1x256, .f32⟩ : BufTy).Contents (Elt F) → (⟨S50000x256, .f32⟩ : BufTy).Contents (Elt F)),
    StableHlo.binary main_v79 main_v81 main_v82 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v82) main_call5.v0 main_call5.v1 maximumf,
    StableHlo.nullary main_c_12 (constantI S_ 32 0#32),
    StableHlo.unary main_c_12 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v83 main_v89 main_v90 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) ]

/-- Layer 3: the scatter-add and the sum, the first linear map, the column sum and the row count. -/
abbrev w10 : List (HloOp τ sig (Elt F)) :=
  [ StableHlo.nullary main_cst_14 (constant S_ .f32 0x00000000#32),
    StableHlo.unary main_cst_14 main_v91 (broadcastInDim S50000x256 ![] bcast_S_S50000x256 : (⟨S_, .f32⟩ : BufTy).Contents (Elt F) → (⟨S50000x256, .f32⟩ : BufTy).Contents (Elt F)),
    StableHlo.unary main_v3 main_v92 (broadcastInDim S800000x1 ![0] bcast_S800000_S800000x1_0 : (⟨S800000, .i32⟩ : BufTy).Contents (Elt F) → (⟨S800000x1, .i32⟩ : BufTy).Contents (Elt F)),
    StableHlo.ternary main_v91 main_v92 main_v90 main_v93 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v83 main_v93 main_v94 (addf : (⟨S50000x256, .f32⟩ : BufTy).Contents (Elt F) → (⟨S50000x256, .f32⟩ : BufTy).Contents (Elt F) → (⟨S50000x256, .f32⟩ : BufTy).Contents (Elt F)),
    StableHlo.binary main_v94 main_arg14 main_v95 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg15 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v95 main_v97 main_v98 (addf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x00000000#32),
    StableHlo.binary main_v98 main_cst_15 main_v99 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_16 (constant S_ .f32 0x47435000#32),
    StableHlo.unary main_cst_16 main_v100 (broadcastInDim S256 ![] bcast_S_S256 : (⟨S_, .f32⟩ : BufTy).Contents (Elt F) → (⟨S256, .f32⟩ : BufTy).Contents (Elt F)) ]

/-- Layer 3: the column mean, the correction, and the column variance. -/
abbrev w11 : List (HloOp τ sig (Elt F)) :=
  [ StableHlo.binary main_v99 main_v100 main_v101 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call6.cst (constant S_ .f32 0x00000000#32),
    StableHlo.TRef.binary (.of main_v98) main_call6.cst main_call6.v0 (fun x v => Host.reduceAdd x v reducesTo_S50000x256_S256_d0 h_S_),
    StableHlo.TRef.unary main_call6.v0 main_call6.v1 (broadcastInDim S1x256 ![1] bcast_S256_S1x256_1),
    StableHlo.TRef.nullary main_call6.cst_0 (constant S_ .f32 0x47435000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S50000x256 ![0, 1] bcast_S1x256_S50000x256_0_1),
    StableHlo.TRef.binary (.of main_v98) main_call6.v4 main_call6.v5 subf,
    StableHlo.TRef.binary main_call6.v5 main_call6.v5 main_call6.v6 mulf,
    StableHlo.TRef.unary (.of main_c_17) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b) ]

/-- Layer 3: normalise, scale, shift, and the rectifier. -/
abbrev w12 : List (HloOp τ sig (Elt F)) :=
  [ StableHlo.unary main_v101 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v104 main_v105 (subf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x3727C5AC#32),
    StableHlo.unary main_cst_18 main_v106 (broadcastInDim S256 ![] bcast_S_S256 : (⟨S_, .f32⟩ : BufTy).Contents (Elt F) → (⟨S256, .f32⟩ : BufTy).Contents (Elt F)),
    StableHlo.binary main_v102 main_v106 main_v107 (addf : (⟨S256, .f32⟩ : BufTy).Contents (Elt F) → (⟨S256, .f32⟩ : BufTy).Contents (Elt F) → (⟨S256, .f32⟩ : BufTy).Contents (Elt F)),
    StableHlo.unary main_v107 main_v108 (Host.rsqrt : (⟨S256, .f32⟩ : BufTy).Contents (Elt F) → (⟨S256, .f32⟩ : BufTy).Contents (Elt F)),
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v105 main_v110 main_v111 (mulf : (⟨S50000x256, .f32⟩ : BufTy).Contents (Elt F) → (⟨S50000x256, .f32⟩ : BufTy).Contents (Elt F) → (⟨S50000x256, .f32⟩ : BufTy).Contents (Elt F)),
    StableHlo.unary main_arg16 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v113 main_v114 (mulf : (⟨S50000x256, .f32⟩ : BufTy).Contents (Elt F) → (⟨S50000x256, .f32⟩ : BufTy).Contents (Elt F) → (⟨S50000x256, .f32⟩ : BufTy).Contents (Elt F)),
    StableHlo.unary main_arg17 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v114 main_v116 main_v117 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (.of main_v117) main_call7.v0 main_call7.v1 maximumf ]

/-- Layer 3: the second linear map and its rectifier. -/
abbrev w13 : List (HloOp τ sig (Elt F)) :=
  [ StableHlo.binary main_v118 main_arg18 main_v119 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg19 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S50000x256 ![0, 1] bcast_S1x256_S50000x256_0_1 : (⟨S1x256, .f32⟩ : BufTy).Contents (Elt F) → (⟨S50000x256, .f32⟩ : BufTy).Contents (Elt F)),
    StableHlo.binary main_v119 main_v121 main_v122 (addf : (⟨S50000x256, .f32⟩ : BufTy).Contents (Elt F) → (⟨S50000x256, .f32⟩ : BufTy).Contents (Elt F) → (⟨S50000x256, .f32⟩ : BufTy).Contents (Elt F)),
    StableHlo.TRef.nullary main_call8.cst (constant S_ .f32 0x00000000#32),
    StableHlo.TRef.unary main_call8.cst main_call8.v0 (broadcastInDim S50000x256 ![] bcast_S_S50000x256),
    StableHlo.TRef.binary (.of main_v122) main_call8.v0 main_call8.v1 maximumf ]

/-- The three layers' outputs side by side, the first readout map and its rectifier. -/
abbrev w14 : List (HloOp τ sig (Elt F)) :=
  [ StableHlo.nary ![main_v43, main_v83, main_v123] main_v124 (fun u => concatenate S50000x768 1 [⟨S50000x256, u 0⟩, ⟨S50000x256, u 1⟩, ⟨S50000x256, u 2⟩] concatenates_S50000x256_S50000x256_S50000x256_S50000x768_d1),
    StableHlo.binary main_v124 main_arg20 main_v125 ((fun l r => Host.dotGeneral dot_S50000x768_S768x768_S50000x768_1_0_0_1_n_n none l r) : (⟨S50000x768, .f32⟩ : BufTy).Contents (Elt F) → (⟨S768x768, .f32⟩ : BufTy).Contents (Elt F) → (⟨S50000x768, .f32⟩ : BufTy).Contents (Elt F)),
    StableHlo.unary main_arg21 main_v126 (broadcastInDim S1x768 ![1] bcast_S768_S1x768_1 : (⟨S768, .f32⟩ : BufTy).Contents (Elt F) → (⟨S1x768, .f32⟩ : BufTy).Contents (Elt F)),
    StableHlo.unary main_v126 main_v127 (broadcastInDim S50000x768 ![0, 1] bcast_S1x768_S50000x768_0_1 : (⟨S1x768, .f32⟩ : BufTy).Contents (Elt F) → (⟨S50000x768, .f32⟩ : BufTy).Contents (Elt F)),
    StableHlo.binary main_v125 main_v127 main_v128 (addf : (⟨S50000x768, .f32⟩ : BufTy).Contents (Elt F) → (⟨S50000x768, .f32⟩ : BufTy).Contents (Elt F) → (⟨S50000x768, .f32⟩ : BufTy).Contents (Elt F)),
    StableHlo.TRef.nullary main_call9.cst (constant S_ .f32 0x00000000#32),
    StableHlo.TRef.unary main_call9.cst main_call9.v0 (broadcastInDim S50000x768 ![] bcast_S_S50000x768),
    StableHlo.TRef.binary (.of main_v128) main_call9.v0 main_call9.v1 maximumf ]

/-- The second readout map (the logits) and the softmax over each row. -/
abbrev w15 : List (HloOp τ sig (Elt F)) :=
  [ StableHlo.binary main_v129 main_arg22 main_v130 ((fun l r => Host.dotGeneral dot_S50000x768_S768x2_S50000x2_1_0_0_1_n_n none l r) : (⟨S50000x768, .f32⟩ : BufTy).Contents (Elt F) → (⟨S768x2, .f32⟩ : BufTy).Contents (Elt F) → (⟨S50000x2, .f32⟩ : BufTy).Contents (Elt F)),
    StableHlo.unary main_arg23 main_v131 (broadcastInDim S1x2 ![1] bcast_S2_S1x2_1 : (⟨S2, .f32⟩ : BufTy).Contents (Elt F) → (⟨S1x2, .f32⟩ : BufTy).Contents (Elt F)),
    StableHlo.unary main_v131 main_v132 (broadcastInDim S50000x2 ![0, 1] bcast_S1x2_S50000x2_0_1 : (⟨S1x2, .f32⟩ : BufTy).Contents (Elt F) → (⟨S50000x2, .f32⟩ : BufTy).Contents (Elt F)),
    StableHlo.binary main_v130 main_v132 main_v133 (addf : (⟨S50000x2, .f32⟩ : BufTy).Contents (Elt F) → (⟨S50000x2, .f32⟩ : BufTy).Contents (Elt F) → (⟨S50000x2, .f32⟩ : BufTy).Contents (Elt F)),
    StableHlo.nullary main_cst_19 (constant S_ .f32 0xFF800000#32),
    StableHlo.binary main_v133 main_cst_19 main_v134 ((fun x v => Host.reduce FloatOps.maximumf x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.nullary main_cst_20 (constant S_ .f32 0xFF800000#32),
    StableHlo.unary main_cst_20 main_v135 (broadcastInDim S50000 ![] bcast_S_S50000 : (⟨S_, .f32⟩ : BufTy).Contents (Elt F) → (⟨S50000, .f32⟩ : BufTy).Contents (Elt F)),
    StableHlo.binary main_v135 main_v134 main_v136 (maximumf : (⟨S50000, .f32⟩ : BufTy).Contents (Elt F) → (⟨S50000, .f32⟩ : BufTy).Contents (Elt F) → (⟨S50000, .f32⟩ : BufTy).Contents (Elt F)),
    StableHlo.unary main_v136 main_v137 (broadcastInDim S50000x1 ![0] bcast_S50000_S50000x1_0 : (⟨S50000, .f32⟩ : BufTy).Contents (Elt F) → (⟨S50000x1, .f32⟩ : BufTy).Contents (Elt F)),
    StableHlo.unary main_v137 main_v138 (broadcastInDim S50000x2 ![0, 1] bcast_S50000x1_S50000x2_0_1 : (⟨S50000x1, .f32⟩ : BufTy).Contents (Elt F) → (⟨S50000x2, .f32⟩ : BufTy).Contents (Elt F)),
    StableHlo.binary main_v133 main_v138 main_v139 (subf : (⟨S50000x2, .f32⟩ : BufTy).Contents (Elt F) → (⟨S50000x2, .f32⟩ : BufTy).Contents (Elt F) → (⟨S50000x2, .f32⟩ : BufTy).Contents (Elt F)),
    StableHlo.unary main_v139 main_v140 (Host.exp : (⟨S50000x2, .f32⟩ : BufTy).Contents (Elt F) → (⟨S50000x2, .f32⟩ : BufTy).Contents (Elt F)),
    StableHlo.nullary main_cst_21 (constant S_ .f32 0x00000000#32),
    StableHlo.binary main_v140 main_cst_21 main_v141 ((fun x v => Host.reduceAdd x v reducesTo_S50000x2_S50000_d1 h_S_) : (⟨S50000x2, .f32⟩ : BufTy).Contents (Elt F) → (⟨S_, .f32⟩ : BufTy).Contents (Elt F) → (⟨S50000, .f32⟩ : BufTy).Contents (Elt F)),
    StableHlo.unary main_v141 main_v142 (broadcastInDim S50000x1 ![0] bcast_S50000_S50000x1_0 : (⟨S50000, .f32⟩ : BufTy).Contents (Elt F) → (⟨S50000x1, .f32⟩ : BufTy).Contents (Elt F)),
    StableHlo.unary main_v142 main_v143 (broadcastInDim S50000x2 ![0, 1] bcast_S50000x1_S50000x2_0_1 : (⟨S50000x1, .f32⟩ : BufTy).Contents (Elt F) → (⟨S50000x2, .f32⟩ : BufTy).Contents (Elt F)),
    StableHlo.binary main_v140 main_v143 main_v144 (Host.divf : (⟨S50000x2, .f32⟩ : BufTy).Contents (Elt F) → (⟨S50000x2, .f32⟩ : BufTy).Contents (Elt F) → (⟨S50000x2, .f32⟩ : BufTy).Contents (Elt F)) ]

/-- The operations of @main's first part. -/
abbrev ops0 : List (HloOp τ sig (Elt F)) := w1 ++ (w2 ++ (w3 ++ (w4 ++ w5)))
/-- The operations of @main's second part. -/
abbrev ops1 : List (HloOp τ sig (Elt F)) := w6 ++ (w7 ++ (w8 ++ (w9 ++ w10)))
/-- The operations of @main's third part. -/
abbrev ops2 : List (HloOp τ sig (Elt F)) := w11 ++ (w12 ++ (w13 ++ (w14 ++ w15)))
/-- @main's 246 operations, in order. -/
abbrev ops : List (HloOp τ sig (Elt F)) := ops0 ++ (ops1 ++ ops2)

/-! Each part of @main is the straight line of its operations: the outlined functions unfold at their calls, and both
    sides are one chain of steps once the sequencing is re-associated. -/

set_option maxRecDepth 8192 in
set_option maxHeartbeats 4000000 in
theorem main_part0_eq (c : Dev nD) : main_part0 (F := F) c = seq ops0 := by
  simp only [main_part0, fn_var.body, fn_where.body, fn_relu.body, ops0, w1, w2, w3, w4, w5, List.cons_append, List.nil_append,
    seq, bind_assoc, pure_bind]
  rfl

set_option maxRecDepth 8192 in
set_option maxHeartbeats 4000000 in
theorem main_part1_eq (c : Dev nD) : main_part1 (F := F) c = seq ops1 := by
  simp only [main_part1, fn_var.body, fn_where.body, fn_relu.body, ops1, w6, w7, w8, w9, w10, List.cons_append, List.nil_append,
    seq, bind_assoc, pure_bind]
  rfl

set_option maxRecDepth 8192 in
set_option maxHeartbeats 4000000 in
theorem main_part2_eq (c : Dev nD) : main_part2 (F := F) c = seq ops2 := by
  simp only [main_part2, fn_var.body, fn_where.body, fn_relu.body, fn_relu_0.body, ops2, w11, w12, w13, w14, w15, List.cons_append,
    List.nil_append, seq, bind_assoc, pure_bind]

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only. -/
theorem w1_sub : (w1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem w2_sub : (w2 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub ..⟩
theorem w3_sub : (w3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem w4_sub : (w4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem w5_sub : (w5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem w6_sub : (w6 : List (HloOp τ sig (Elt F))).Forall fun op => op.bufs ⊆ tcRefs τ sig :=
  ⟨nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem w7_sub : (w7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem w8_sub : (w8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem w9_sub : (w9 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem w10_sub : (w10 : List (HloOp τ sig (Elt F))).Forall fun op => op.bufs ⊆ tcRefs τ sig :=
  ⟨nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub ..⟩
theorem w11_sub : (w11 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem w12_sub : (w12 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem w13_sub : (w13 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem w14_sub : (w14 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
theorem w15_sub : (w15 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, ops0, ops1, ops2, List.mem_append] at h
    rcases h with (h | h | h | h | h) | (h | h | h | h | h) | (h | h | h | h | h)
    exacts [List.forall_iff_forall_mem.mp w1_sub op h,
      List.forall_iff_forall_mem.mp w2_sub op h,
      List.forall_iff_forall_mem.mp w3_sub op h,
      List.forall_iff_forall_mem.mp w4_sub op h,
      List.forall_iff_forall_mem.mp w5_sub op h,
      List.forall_iff_forall_mem.mp w6_sub op h,
      List.forall_iff_forall_mem.mp w7_sub op h,
      List.forall_iff_forall_mem.mp w8_sub op h,
      List.forall_iff_forall_mem.mp w9_sub op h,
      List.forall_iff_forall_mem.mp w10_sub op h,
      List.forall_iff_forall_mem.mp w11_sub op h,
      List.forall_iff_forall_mem.mp w12_sub op h,
      List.forall_iff_forall_mem.mp w13_sub op h,
      List.forall_iff_forall_mem.mp w14_sub op h,
      List.forall_iff_forall_mem.mp w15_sub op h]

end Cert.ReferenceIdeal.RefRun

end
-- ==== Proof.Ref.Writes.lean ====
/- Which buffers each stretch of @main's operations writes: every operation writes exactly its result buffer, so a
   buffer that is not among a stretch's results keeps its contents through the stretch. -/
import proofs.«121371_j46033459478999_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation's written set is the singleton of its result buffer, which is in the stretch's list. -/
local macro "writes_one" : tactic =>
  `(tactic| (simp only [nullary_writes, unary_writes, binary_writes, ternary_writes, reshape_writes, nary_writes,
      Finset.singleton_subset_iff, List.mem_toFinset]; exact List.mem_map_of_mem (by decide)))

/-- The concatenation of two stretches leaves a buffer the contents the second leaves from what the first left. -/
theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-- The buffers stretch `w1` writes. -/
abbrev w1_W : List (Ref sig .tc) :=
  [main_v0, main_v1, main_v2, main_v3, main_c, main_v4, main_v5, main_c_0, main_v6, main_v7, main_v8, main_v9, main_v10, main_cst, main_v11, main_v12, main_v13, main_v14]
theorem w1_writes : (w1 : List (HloOp τ sig (Elt F))).Forall fun op =>
    op.writes ⊆ (w1_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one
theorem w1_keep (V : Valuation τ sig (Elt F)) (r : Ref sig .tc) (h : r ∉ w1_W) :
    after w1 V (Proc.devRef .tc r) = V (Proc.devRef .tc r) :=
  after_of_writes_sub w1 V w1_writes h

/-- The buffers stretch `w2` writes. -/
abbrev w2_W : List (Ref sig .tc) :=
  [main_v15, main_v16, main_v17, main_v18, main_cst_1, main_v19, main_cst_2, main_v20, main_v21, main_c_3]
theorem w2_writes : (w2 : List (HloOp τ sig (Elt F))).Forall fun op =>
    op.writes ⊆ (w2_W.map (Proc.devRef (τ := τ) .tc)).toFinset := by
  simp only [List.Forall]
  refine ⟨?_, ?_, ?_, ?_, ?_, ?_, ?_, ?_, ?_, ?_⟩ <;> writes_one
theorem w2_keep (V : Valuation τ sig (Elt F)) (r : Ref sig .tc) (h : r ∉ w2_W) :
    after w2 V (Proc.devRef .tc r) = V (Proc.devRef .tc r) :=
  after_of_writes_sub w2 V w2_writes h

/-- The buffers stretch `w3` writes. -/
abbrev w3_W : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v22]
theorem w3_writes : (w3 : List (HloOp τ sig (Elt F))).Forall fun op =>
    op.writes ⊆ (w3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_one
theorem w3_keep (V : Valuation τ sig (Elt F)) (r : Ref sig .tc) (h : r ∉ w3_W) :
    after w3 V (Proc.devRef .tc r) = V (Proc.devRef .tc r) :=
  after_of_writes_sub w3 V w3_writes h

/-- The buffers stretch `w4` writes. -/
abbrev w4_W : List (Ref sig .tc) :=
  [main_v23, main_v24, main_v25, main_cst_4, main_v26, main_v27, main_v28, main_v29, main_v30, main_v31, main_v32, main_v33, main_v34, main_v35, main_v36, main_v37, main_call1_cst, main_call1_v0, main_v38]
theorem w4_writes : (w4 : List (HloOp τ sig (Elt F))).Forall fun op =>
    op.writes ⊆ (w4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one
theorem w4_keep (V : Valuation τ sig (Elt F)) (r : Ref sig .tc) (h : r ∉ w4_W) :
    after w4 V (Proc.devRef .tc r) = V (Proc.devRef .tc r) :=
  after_of_writes_sub w4 V w4_writes h

/-- The buffers stretch `w5` writes. -/
abbrev w5_W : List (Ref sig .tc) :=
  [main_v39, main_v40, main_v41, main_v42, main_call2_cst, main_call2_v0, main_v43, main_c_5, main_v44, main_v45, main_c_6, main_v46, main_v47, main_v48, main_v49, main_v50]
theorem w5_writes : (w5 : List (HloOp τ sig (Elt F))).Forall fun op =>
    op.writes ⊆ (w5_W.map (Proc.devRef (τ := τ) .tc)).toFinset := by
  simp only [List.Forall]
  refine ⟨?_, ?_, ?_, ?_, ?_, ?_, ?_, ?_, ?_, ?_, ?_, ?_, ?_, ?_, ?_, ?_⟩ <;> writes_one
theorem w5_keep (V : Valuation τ sig (Elt F)) (r : Ref sig .tc) (h : r ∉ w5_W) :
    after w5 V (Proc.devRef .tc r) = V (Proc.devRef .tc r) :=
  after_of_writes_sub w5 V w5_writes h

/-- The buffers stretch `w6` writes. -/
abbrev w6_W : List (Ref sig .tc) :=
  [main_cst_7, main_v51, main_v52, main_v53, main_v54, main_v55, main_v56, main_v57, main_v58, main_cst_8, main_v59, main_cst_9, main_v60, main_v61, main_c_10]
theorem w6_writes : (w6 : List (HloOp τ sig (Elt F))).Forall fun op =>
    op.writes ⊆ (w6_W.map (Proc.devRef (τ := τ) .tc)).toFinset := by
  simp only [List.Forall]
  refine ⟨?_, ?_, ?_, ?_, ?_, ?_, ?_, ?_, ?_, ?_, ?_, ?_, ?_, ?_, ?_⟩ <;> writes_one
theorem w6_keep (V : Valuation τ sig (Elt F)) (r : Ref sig .tc) (h : r ∉ w6_W) :
    after w6 V (Proc.devRef .tc r) = V (Proc.devRef .tc r) :=
  after_of_writes_sub w6 V w6_writes h

/-- The buffers stretch `w7` writes. -/
abbrev w7_W : List (Ref sig .tc) :=
  [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v62]
theorem w7_writes : (w7 : List (HloOp τ sig (Elt F))).Forall fun op =>
    op.writes ⊆ (w7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_one
theorem w7_keep (V : Valuation τ sig (Elt F)) (r : Ref sig .tc) (h : r ∉ w7_W) :
    after w7 V (Proc.devRef .tc r) = V (Proc.devRef .tc r) :=
  after_of_writes_sub w7 V w7_writes h

/-- The buffers stretch `w8` writes. -/
abbrev w8_W : List (Ref sig .tc) :=
  [main_v63, main_v64, main_v65, main_cst_11, main_v66, main_v67, main_v68, main_v69, main_v70, main_v71, main_v72, main_v73, main_v74, main_v75, main_v76, main_v77, main_call4_cst, main_call4_v0, main_v78]
theorem w8_writes : (w8 : List (HloOp τ sig (Elt F))).Forall fun op =>
    op.writes ⊆ (w8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one
theorem w8_keep (V : Valuation τ sig (Elt F)) (r : Ref sig .tc) (h : r ∉ w8_W) :
    after w8 V (Proc.devRef .tc r) = V (Proc.devRef .tc r) :=
  after_of_writes_sub w8 V w8_writes h

/-- The buffers stretch `w9` writes. -/
abbrev w9_W : List (Ref sig .tc) :=
  [main_v79, main_v80, main_v81, main_v82, main_call5_cst, main_call5_v0, main_v83, main_c_12, main_v84, main_v85, main_c_13, main_v86, main_v87, main_v88, main_v89, main_v90]
theorem w9_writes : (w9 : List (HloOp τ sig (Elt F))).Forall fun op =>
    op.writes ⊆ (w9_W.map (Proc.devRef (τ := τ) .tc)).toFinset := by
  simp only [List.Forall]
  refine ⟨?_, ?_, ?_, ?_, ?_, ?_, ?_, ?_, ?_, ?_, ?_, ?_, ?_, ?_, ?_, ?_⟩ <;> writes_one
theorem w9_keep (V : Valuation τ sig (Elt F)) (r : Ref sig .tc) (h : r ∉ w9_W) :
    after w9 V (Proc.devRef .tc r) = V (Proc.devRef .tc r) :=
  after_of_writes_sub w9 V w9_writes h

/-- The buffers stretch `w10` writes. -/
abbrev w10_W : List (Ref sig .tc) :=
  [main_cst_14, main_v91, main_v92, main_v93, main_v94, main_v95, main_v96, main_v97, main_v98, main_cst_15, main_v99, main_cst_16, main_v100]
theorem w10_writes : (w10 : List (HloOp τ sig (Elt F))).Forall fun op =>
    op.writes ⊆ (w10_W.map (Proc.devRef (τ := τ) .tc)).toFinset := by
  simp only [List.Forall]
  refine ⟨?_, ?_, ?_, ?_, ?_, ?_, ?_, ?_, ?_, ?_, ?_, ?_, ?_⟩ <;> writes_one
theorem w10_keep (V : Valuation τ sig (Elt F)) (r : Ref sig .tc) (h : r ∉ w10_W) :
    after w10 V (Proc.devRef .tc r) = V (Proc.devRef .tc r) :=
  after_of_writes_sub w10 V w10_writes h

/-- The buffers stretch `w11` writes. -/
abbrev w11_W : List (Ref sig .tc) :=
  [main_v101, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v102]
theorem w11_writes : (w11 : List (HloOp τ sig (Elt F))).Forall fun op =>
    op.writes ⊆ (w11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;> writes_one
theorem w11_keep (V : Valuation τ sig (Elt F)) (r : Ref sig .tc) (h : r ∉ w11_W) :
    after w11 V (Proc.devRef .tc r) = V (Proc.devRef .tc r) :=
  after_of_writes_sub w11 V w11_writes h

/-- The buffers stretch `w12` writes. -/
abbrev w12_W : List (Ref sig .tc) :=
  [main_v103, main_v104, main_v105, main_cst_18, main_v106, main_v107, main_v108, main_v109, main_v110, main_v111, main_v112, main_v113, main_v114, main_v115, main_v116, main_v117, main_call7_cst, main_call7_v0, main_v118]
theorem w12_writes : (w12 : List (HloOp τ sig (Elt F))).Forall fun op =>
    op.writes ⊆ (w12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_one
theorem w12_keep (V : Valuation τ sig (Elt F)) (r : Ref sig .tc) (h : r ∉ w12_W) :
    after w12 V (Proc.devRef .tc r) = V (Proc.devRef .tc r) :=
  after_of_writes_sub w12 V w12_writes h

/-- The buffers stretch `w13` writes. -/
abbrev w13_W : List (Ref sig .tc) :=
  [main_v119, main_v120, main_v121, main_v122, main_call8_cst, main_call8_v0, main_v123]
theorem w13_writes : (w13 : List (HloOp τ sig (Elt F))).Forall fun op =>
    op.writes ⊆ (w13_W.map (Proc.devRef (τ := τ) .tc)).toFinset := by
  simp only [List.Forall]
  refine ⟨?_, ?_, ?_, ?_, ?_, ?_, ?_⟩ <;> writes_one
theorem w13_keep (V : Valuation τ sig (Elt F)) (r : Ref sig .tc) (h : r ∉ w13_W) :
    after w13 V (Proc.devRef .tc r) = V (Proc.devRef .tc r) :=
  after_of_writes_sub w13 V w13_writes h

/-- The buffers stretch `w14` writes. -/
abbrev w14_W : List (Ref sig .tc) :=
  [main_v124, main_v125, main_v126, main_v127, main_v128, main_call9_cst, main_call9_v0, main_v129]
theorem w14_writes : (w14 : List (HloOp τ sig (Elt F))).Forall fun op =>
    op.writes ⊆ (w14_W.map (Proc.devRef (τ := τ) .tc)).toFinset := by
  simp only [List.Forall]
  refine ⟨?_, ?_, ?_, ?_, ?_, ?_, ?_, ?_⟩ <;> writes_one
theorem w14_keep (V : Valuation τ sig (Elt F)) (r : Ref sig .tc) (h : r ∉ w14_W) :
    after w14 V (Proc.devRef .tc r) = V (Proc.devRef .tc r) :=
  after_of_writes_sub w14 V w14_writes h

/-- The buffers stretch `w15` writes. -/
abbrev w15_W : List (Ref sig .tc) :=
  [main_v130, main_v131, main_v132, main_v133, main_cst_19, main_v134, main_cst_20, main_v135, main_v136, main_v137, main_v138, main_v139, main_v140, main_cst_21, main_v141, main_v142, main_v143, main_v144]
theorem w15_writes : (w15 : List (HloOp τ sig (Elt F))).Forall fun op =>
    op.writes ⊆ (w15_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one
theorem w15_keep (V : Valuation τ sig (Elt F)) (r : Ref sig .tc) (h : r ∉ w15_W) :
    after w15 V (Proc.devRef .tc r) = V (Proc.devRef .tc r) :=
  after_of_writes_sub w15 V w15_writes h

end Cert.ReferenceIdeal.RefRun

end
-- ==== Proof.Ref.WinA.lean ====
/- What each stretch of @main's operations leaves in the buffers later stretches read, from ANY contents `V` of the
   device's buffers: the stage function of the network applied to the contents of the stretch's input buffers.
   Each statement opens no arithmetic: the operations' results are composed and the stage function is unfolded. -/
import proofs.«121371_j46033459478999_1_alg».proof.Proof.Ref.Stages
import proofs.«121371_j46033459478999_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Layer 1 -/

theorem w1_src (V : Valuation τ sig (Elt F)) :
    after w1 V (main_v1 : DevRef τ sig)
      = edgeSrc (V (main_arg1 : DevRef τ sig)) := by
  simp only [w1]
  after_results_simp <;> rfl
theorem w1_dst (V : Valuation τ sig (Elt F)) :
    after w1 V (main_v3 : DevRef τ sig)
      = edgeDst (V (main_arg1 : DevRef τ sig)) := by
  simp only [w1]
  after_results_simp <;> rfl
theorem w1_agg (V : Valuation τ sig (Elt F)) :
    after w1 V (main_v14 : DevRef τ sig)
      = aggregate128 (V (main_arg0 : DevRef τ sig)) (edgeSrc (V (main_arg1 : DevRef τ sig))) (edgeDst (V (main_arg1 : DevRef τ sig))) := by
  simp only [w1]
  after_results_simp <;> rfl
theorem w2_lin (V : Valuation τ sig (Elt F)) :
    after w2 V (main_v18 : DevRef τ sig)
      = linear128 (V (main_v14 : DevRef τ sig)) (V (main_arg2 : DevRef τ sig)) (V (main_arg3 : DevRef τ sig)) := by
  simp only [w2]
  after_results_simp <;> rfl
theorem w2_mean (V : Valuation τ sig (Elt F)) :
    after w2 V (main_v21 : DevRef τ sig)
      = colMean (linear128 (V (main_v14 : DevRef τ sig)) (V (main_arg2 : DevRef τ sig)) (V (main_arg3 : DevRef τ sig))) := by
  simp only [w2]
  after_results_simp <;> rfl
theorem w2_ddof (V : Valuation τ sig (Elt F)) :
    after w2 V (main_c_3 : DevRef τ sig)
      = constantI S_ 32 0#32 := by
  simp only [w2]
  after_results_simp <;> rfl
theorem w3_var (V : Valuation τ sig (Elt F)) :
    after w3 V (main_v22 : DevRef τ sig)
      = colVar (V (main_v18 : DevRef τ sig)) (V (main_c_3 : DevRef τ sig)) := by
  simp only [w3]
  after_results_simp <;> rfl
theorem w4_norm (V : Valuation τ sig (Elt F)) :
    after w4 V (main_v38 : DevRef τ sig)
      = normScaleShiftRelu (V (main_v18 : DevRef τ sig)) (V (main_v21 : DevRef τ sig)) (V (main_v22 : DevRef τ sig)) (V (main_arg4 : DevRef τ sig)) (V (main_arg5 : DevRef τ sig)) := by
  simp only [w4]
  after_results_simp <;> rfl
theorem w5_out (V : Valuation τ sig (Elt F)) :
    after w5 V (main_v43 : DevRef τ sig)
      = relu256 (linear256 (V (main_v38 : DevRef τ sig)) (V (main_arg6 : DevRef τ sig)) (V (main_arg7 : DevRef τ sig))) := by
  simp only [w5]
  after_results_simp <;> rfl
theorem w5_rows (V : Valuation τ sig (Elt F)) :
    after w5 V (main_v50 : DevRef τ sig)
      = neighbourRows256 (relu256 (linear256 (V (main_v38 : DevRef τ sig)) (V (main_arg6 : DevRef τ sig)) (V (main_arg7 : DevRef τ sig)))) (V (main_v1 : DevRef τ sig)) := by
  simp only [w5]
  after_results_simp <;> rfl

end Cert.ReferenceIdeal.RefRun

end
-- ==== Proof.Ref.WinB.lean ====
/- The second layer's stretches, from any contents of the device's buffers (see the first layer's module). -/
import proofs.«121371_j46033459478999_1_alg».proof.Proof.Ref.Stages
import proofs.«121371_j46033459478999_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Layer 2 -/

theorem w6_lin (V : Valuation τ sig (Elt F)) :
    after w6 V (main_v58 : DevRef τ sig)
      = linear256 (addNeighbours256 (V (main_v43 : DevRef τ sig)) (V (main_v3 : DevRef τ sig)) (V (main_v50 : DevRef τ sig))) (V (main_arg8 : DevRef τ sig)) (V (main_arg9 : DevRef τ sig)) := by
  simp only [w6]
  after_results_simp <;> rfl
theorem w6_mean (V : Valuation τ sig (Elt F)) :
    after w6 V (main_v61 : DevRef τ sig)
      = colMean (linear256 (addNeighbours256 (V (main_v43 : DevRef τ sig)) (V (main_v3 : DevRef τ sig)) (V (main_v50 : DevRef τ sig))) (V (main_arg8 : DevRef τ sig)) (V (main_arg9 : DevRef τ sig))) := by
  simp only [w6]
  after_results_simp <;> rfl
theorem w6_ddof (V : Valuation τ sig (Elt F)) :
    after w6 V (main_c_10 : DevRef τ sig)
      = constantI S_ 32 0#32 := by
  simp only [w6]
  after_results_simp <;> rfl
theorem w7_var (V : Valuation τ sig (Elt F)) :
    after w7 V (main_v62 : DevRef τ sig)
      = colVar (V (main_v58 : DevRef τ sig)) (V (main_c_10 : DevRef τ sig)) := by
  simp only [w7]
  after_results_simp <;> rfl
theorem w8_norm (V : Valuation τ sig (Elt F)) :
    after w8 V (main_v78 : DevRef τ sig)
      = normScaleShiftRelu (V (main_v58 : DevRef τ sig)) (V (main_v61 : DevRef τ sig)) (V (main_v62 : DevRef τ sig)) (V (main_arg10 : DevRef τ sig)) (V (main_arg11 : DevRef τ sig)) := by
  simp only [w8]
  after_results_simp <;> rfl
theorem w9_out (V : Valuation τ sig (Elt F)) :
    after w9 V (main_v83 : DevRef τ sig)
      = relu256 (linear256 (V (main_v78 : DevRef τ sig)) (V (main_arg12 : DevRef τ sig)) (V (main_arg13 : DevRef τ sig))) := by
  simp only [w9]
  after_results_simp <;> rfl
theorem w9_rows (V : Valuation τ sig (Elt F)) :
    after w9 V (main_v90 : DevRef τ sig)
      = neighbourRows256 (relu256 (linear256 (V (main_v78 : DevRef τ sig)) (V (main_arg12 : DevRef τ sig)) (V (main_arg13 : DevRef τ sig)))) (V (main_v1 : DevRef τ sig)) := by
  simp only [w9]
  after_results_simp <;> rfl

end Cert.ReferenceIdeal.RefRun

end
-- ==== Proof.Ref.WinC.lean ====
/- The third layer's stretches, the readout and the softmax, from any contents of the device's buffers (see the
   first layer's module). -/
import proofs.«121371_j46033459478999_1_alg».proof.Proof.Ref.Stages
import proofs.«121371_j46033459478999_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Layer 3 -/

theorem w10_lin (V : Valuation τ sig (Elt F)) :
    after w10 V (main_v98 : DevRef τ sig)
      = linear256 (addNeighbours256 (V (main_v83 : DevRef τ sig)) (V (main_v3 : DevRef τ sig)) (V (main_v90 : DevRef τ sig))) (V (main_arg14 : DevRef τ sig)) (V (main_arg15 : DevRef τ sig)) := by
  simp only [w10]
  after_results_simp <;> rfl
theorem w10_sum (V : Valuation τ sig (Elt F)) :
    after w10 V (main_v99 : DevRef τ sig)
      = colSum (linear256 (addNeighbours256 (V (main_v83 : DevRef τ sig)) (V (main_v3 : DevRef τ sig)) (V (main_v90 : DevRef τ sig))) (V (main_arg14 : DevRef τ sig)) (V (main_arg15 : DevRef τ sig))) := by
  simp only [w10]
  after_results_simp <;> rfl
theorem w10_count (V : Valuation τ sig (Elt F)) :
    after w10 V (main_v100 : DevRef τ sig)
      = broadcastInDim S256 ![] bcast_S_S256 (constant S_ .f32 0x47435000#32) := by
  simp only [w10]
  after_results_simp <;> rfl
theorem w11_mean (V : Valuation τ sig (Elt F)) :
    after w11 V (main_v101 : DevRef τ sig)
      = Host.divf (V (main_v99 : DevRef τ sig)) (V (main_v100 : DevRef τ sig)) := by
  simp only [w11]
  after_results_simp <;> rfl
theorem w11_var (V : Valuation τ sig (Elt F)) :
    after w11 V (main_v102 : DevRef τ sig)
      = colVar (V (main_v98 : DevRef τ sig)) (constantI S_ 32 0#32) := by
  simp only [w11]
  after_results_simp <;> rfl
theorem w12_norm (V : Valuation τ sig (Elt F)) :
    after w12 V (main_v118 : DevRef τ sig)
      = normScaleShiftRelu (V (main_v98 : DevRef τ sig)) (V (main_v101 : DevRef τ sig)) (V (main_v102 : DevRef τ sig)) (V (main_arg16 : DevRef τ sig)) (V (main_arg17 : DevRef τ sig)) := by
  simp only [w12]
  after_results_simp <;> rfl
theorem w13_out (V : Valuation τ sig (Elt F)) :
    after w13 V (main_v123 : DevRef τ sig)
      = relu256 (linear256 (V (main_v118 : DevRef τ sig)) (V (main_arg18 : DevRef τ sig)) (V (main_arg19 : DevRef τ sig))) := by
  simp only [w13]
  after_results_simp <;> rfl

/-! ## The readout -/

theorem w14_hidden (V : Valuation τ sig (Elt F)) :
    after w14 V (main_v129 : DevRef τ sig)
      = readoutHidden (concat3 (V (main_v43 : DevRef τ sig)) (V (main_v83 : DevRef τ sig)) (V (main_v123 : DevRef τ sig))) (V (main_arg20 : DevRef τ sig)) (V (main_arg21 : DevRef τ sig)) := by
  simp only [w14]
  after_results_simp <;> rfl
theorem w15_logits (V : Valuation τ sig (Elt F)) :
    after w15 V (main_v133 : DevRef τ sig)
      = readoutLogits (V (main_v129 : DevRef τ sig)) (V (main_arg22 : DevRef τ sig)) (V (main_arg23 : DevRef τ sig)) := by
  simp only [w15]
  after_results_simp <;> rfl
theorem w15_probs (V : Valuation τ sig (Elt F)) :
    after w15 V (main_v144 : DevRef τ sig)
      = softmax2 (readoutLogits (V (main_v129 : DevRef τ sig)) (V (main_arg22 : DevRef τ sig)) (V (main_arg23 : DevRef τ sig))) := by
  simp only [w15]
  after_results_simp <;> rfl

end Cert.ReferenceIdeal.RefRun

end
-- ==== Proof.Ref.Run.lean ====
/- The reference program's run. The contents of the device's buffers are followed through the fifteen stretches of
   @main's operations: after each stretch every buffer still to be read holds the corresponding stage of the network
   applied to the argument arrays, and a buffer no operation writes (each of the 24 arguments) holds what it held at
   the launch. The run theorem then reads the two result buffers and the arguments off the final contents. -/
import proofs.«121371_j46033459478999_1_alg».proof.Proof.Ref.Stages
import proofs.«121371_j46033459478999_1_alg».proof.Proof.Ref.Ops
import proofs.«121371_j46033459478999_1_alg».proof.Proof.Ref.Writes
import proofs.«121371_j46033459478999_1_alg».proof.Proof.Ref.WinA
import proofs.«121371_j46033459478999_1_alg».proof.Proof.Ref.WinB
import proofs.«121371_j46033459478999_1_alg».proof.Proof.Ref.WinC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The network's values from given contents of the argument buffers -/

/-- The edges' source nodes. -/
def srcOf (V0 : Valuation τ sig (Elt F)) : IVec S800000 32 := edgeSrc (V0 (main_arg1 : DevRef τ sig))
/-- The edges' destination nodes. -/
def dstOf (V0 : Valuation τ sig (Elt F)) : IVec S800000 32 := edgeDst (V0 (main_arg1 : DevRef τ sig))
/-- Layer 1's first linear map of the aggregated input. -/
def lin1Of (V0 : Valuation τ sig (Elt F)) : FVec F S50000x256 .f32 :=
  linear128 (aggregate128 (V0 (main_arg0 : DevRef τ sig)) (srcOf V0) (dstOf V0)) (V0 (main_arg2 : DevRef τ sig)) (V0 (main_arg3 : DevRef τ sig))
/-- Layer 1's output. -/
def h1Of (V0 : Valuation τ sig (Elt F)) : FVec F S50000x256 .f32 :=
  mlpTail (lin1Of V0) (V0 (main_arg4 : DevRef τ sig)) (V0 (main_arg5 : DevRef τ sig)) (V0 (main_arg6 : DevRef τ sig)) (V0 (main_arg7 : DevRef τ sig))
/-- Layer 2's first linear map of the aggregated layer-1 output. -/
def lin2Of (V0 : Valuation τ sig (Elt F)) : FVec F S50000x256 .f32 :=
  linear256 (aggregate256 (h1Of V0) (srcOf V0) (dstOf V0)) (V0 (main_arg8 : DevRef τ sig)) (V0 (main_arg9 : DevRef τ sig))
/-- Layer 2's output. -/
def h2Of (V0 : Valuation τ sig (Elt F)) : FVec F S50000x256 .f32 :=
  mlpTail (lin2Of V0) (V0 (main_arg10 : DevRef τ sig)) (V0 (main_arg11 : DevRef τ sig)) (V0 (main_arg12 : DevRef τ sig)) (V0 (main_arg13 : DevRef τ sig))
/-- Layer 3's first linear map of the aggregated layer-2 output. -/
def lin3Of (V0 : Valuation τ sig (Elt F)) : FVec F S50000x256 .f32 :=
  linear256 (aggregate256 (h2Of V0) (srcOf V0) (dstOf V0)) (V0 (main_arg14 : DevRef τ sig)) (V0 (main_arg15 : DevRef τ sig))
/-- Layer 3's output. -/
def h3Of (V0 : Valuation τ sig (Elt F)) : FVec F S50000x256 .f32 :=
  mlpTail (lin3Of V0) (V0 (main_arg16 : DevRef τ sig)) (V0 (main_arg17 : DevRef τ sig)) (V0 (main_arg18 : DevRef τ sig)) (V0 (main_arg19 : DevRef τ sig))
/-- The logits: the two readout maps of the three layers' outputs side by side. -/
def logitsOf (V0 : Valuation τ sig (Elt F)) : FVec F S50000x2 .f32 :=
  readoutLogits (readoutHidden (concat3 (h1Of V0) (h2Of V0) (h3Of V0)) (V0 (main_arg20 : DevRef τ sig)) (V0 (main_arg21 : DevRef τ sig))) (V0 (main_arg22 : DevRef τ sig)) (V0 (main_arg23 : DevRef τ sig))
/-- The class probabilities: the softmax of the logits. -/
def probsOf (V0 : Valuation τ sig (Elt F)) : FVec F S50000x2 .f32 := softmax2 (logitsOf V0)

/-- The logits as a function of the launch memory's 24 argument arrays on device `c`. -/
def logits (m : (ℓ : Loc nD τ sig) → Buf (Elt F) ℓ) (c : Dev nD) : FVec F S50000x2 .f32 := logitsOf (launchContents m c)
/-- The class probabilities as a function of the launch memory's 24 argument arrays on device `c`. -/
def probs (m : (ℓ : Loc nD τ sig) → Buf (Elt F) ℓ) (c : Dev nD) : FVec F S50000x2 .f32 := probsOf (launchContents m c)

/-! ## The contents after each stretch -/

/-- The device's buffer contents at the launch. -/
def val0 (V0 : Valuation τ sig (Elt F)) : Valuation τ sig (Elt F) := V0
/-- The contents after the first 1 stretch. -/
def val1 (V0 : Valuation τ sig (Elt F)) : Valuation τ sig (Elt F) := after w1 (val0 V0)
/-- The contents after the first 2 stretches. -/
def val2 (V0 : Valuation τ sig (Elt F)) : Valuation τ sig (Elt F) := after w2 (val1 V0)
/-- The contents after the first 3 stretches. -/
def val3 (V0 : Valuation τ sig (Elt F)) : Valuation τ sig (Elt F) := after w3 (val2 V0)
/-- The contents after the first 4 stretches. -/
def val4 (V0 : Valuation τ sig (Elt F)) : Valuation τ sig (Elt F) := after w4 (val3 V0)
/-- The contents after the first 5 stretches. -/
def val5 (V0 : Valuation τ sig (Elt F)) : Valuation τ sig (Elt F) := after w5 (val4 V0)
/-- The contents after the first 6 stretches. -/
def val6 (V0 : Valuation τ sig (Elt F)) : Valuation τ sig (Elt F) := after w6 (val5 V0)
/-- The contents after the first 7 stretches. -/
def val7 (V0 : Valuation τ sig (Elt F)) : Valuation τ sig (Elt F) := after w7 (val6 V0)
/-- The contents after the first 8 stretches. -/
def val8 (V0 : Valuation τ sig (Elt F)) : Valuation τ sig (Elt F) := after w8 (val7 V0)
/-- The contents after the first 9 stretches. -/
def val9 (V0 : Valuation τ sig (Elt F)) : Valuation τ sig (Elt F) := after w9 (val8 V0)
/-- The contents after the first 10 stretches. -/
def val10 (V0 : Valuation τ sig (Elt F)) : Valuation τ sig (Elt F) := after w10 (val9 V0)
/-- The contents after the first 11 stretches. -/
def val11 (V0 : Valuation τ sig (Elt F)) : Valuation τ sig (Elt F) := after w11 (val10 V0)
/-- The contents after the first 12 stretches. -/
def val12 (V0 : Valuation τ sig (Elt F)) : Valuation τ sig (Elt F) := after w12 (val11 V0)
/-- The contents after the first 13 stretches. -/
def val13 (V0 : Valuation τ sig (Elt F)) : Valuation τ sig (Elt F) := after w13 (val12 V0)
/-- The contents after the first 14 stretches. -/
def val14 (V0 : Valuation τ sig (Elt F)) : Valuation τ sig (Elt F) := after w14 (val13 V0)
/-- The contents after the first 15 stretches. -/
def val15 (V0 : Valuation τ sig (Elt F)) : Valuation τ sig (Elt F) := after w15 (val14 V0)

/-- The whole line is the stretches in order. -/
theorem after_ops (V0 : Valuation τ sig (Elt F)) : after ops V0 = val15 V0 := by
  simp only [ops, ops0, ops1, ops2, after_app]
  rfl

/-! A buffer a stretch does not write keeps its contents through it; one that none of the first `k` stretches writes
    holds after them what it held at the launch. -/
theorem val1_keep (V0 : Valuation τ sig (Elt F)) (r : Ref sig .tc) (h : r ∉ w1_W) :
    val1 V0 (Proc.devRef .tc r) = val0 V0 (Proc.devRef .tc r) := w1_keep (val0 V0) r h
theorem val2_keep (V0 : Valuation τ sig (Elt F)) (r : Ref sig .tc) (h : r ∉ w2_W) :
    val2 V0 (Proc.devRef .tc r) = val1 V0 (Proc.devRef .tc r) := w2_keep (val1 V0) r h
theorem val3_keep (V0 : Valuation τ sig (Elt F)) (r : Ref sig .tc) (h : r ∉ w3_W) :
    val3 V0 (Proc.devRef .tc r) = val2 V0 (Proc.devRef .tc r) := w3_keep (val2 V0) r h
theorem val4_keep (V0 : Valuation τ sig (Elt F)) (r : Ref sig .tc) (h : r ∉ w4_W) :
    val4 V0 (Proc.devRef .tc r) = val3 V0 (Proc.devRef .tc r) := w4_keep (val3 V0) r h
theorem val5_keep (V0 : Valuation τ sig (Elt F)) (r : Ref sig .tc) (h : r ∉ w5_W) :
    val5 V0 (Proc.devRef .tc r) = val4 V0 (Proc.devRef .tc r) := w5_keep (val4 V0) r h
theorem val6_keep (V0 : Valuation τ sig (Elt F)) (r : Ref sig .tc) (h : r ∉ w6_W) :
    val6 V0 (Proc.devRef .tc r) = val5 V0 (Proc.devRef .tc r) := w6_keep (val5 V0) r h
theorem val7_keep (V0 : Valuation τ sig (Elt F)) (r : Ref sig .tc) (h : r ∉ w7_W) :
    val7 V0 (Proc.devRef .tc r) = val6 V0 (Proc.devRef .tc r) := w7_keep (val6 V0) r h
theorem val8_keep (V0 : Valuation τ sig (Elt F)) (r : Ref sig .tc) (h : r ∉ w8_W) :
    val8 V0 (Proc.devRef .tc r) = val7 V0 (Proc.devRef .tc r) := w8_keep (val7 V0) r h
theorem val9_keep (V0 : Valuation τ sig (Elt F)) (r : Ref sig .tc) (h : r ∉ w9_W) :
    val9 V0 (Proc.devRef .tc r) = val8 V0 (Proc.devRef .tc r) := w9_keep (val8 V0) r h
theorem val10_keep (V0 : Valuation τ sig (Elt F)) (r : Ref sig .tc) (h : r ∉ w10_W) :
    val10 V0 (Proc.devRef .tc r) = val9 V0 (Proc.devRef .tc r) := w10_keep (val9 V0) r h
theorem val11_keep (V0 : Valuation τ sig (Elt F)) (r : Ref sig .tc) (h : r ∉ w11_W) :
    val11 V0 (Proc.devRef .tc r) = val10 V0 (Proc.devRef .tc r) := w11_keep (val10 V0) r h
theorem val12_keep (V0 : Valuation τ sig (Elt F)) (r : Ref sig .tc) (h : r ∉ w12_W) :
    val12 V0 (Proc.devRef .tc r) = val11 V0 (Proc.devRef .tc r) := w12_keep (val11 V0) r h
theorem val13_keep (V0 : Valuation τ sig (Elt F)) (r : Ref sig .tc) (h : r ∉ w13_W) :
    val13 V0 (Proc.devRef .tc r) = val12 V0 (Proc.devRef .tc r) := w13_keep (val12 V0) r h
theorem val14_keep (V0 : Valuation τ sig (Elt F)) (r : Ref sig .tc) (h : r ∉ w14_W) :
    val14 V0 (Proc.devRef .tc r) = val13 V0 (Proc.devRef .tc r) := w14_keep (val13 V0) r h
theorem val15_keep (V0 : Valuation τ sig (Elt F)) (r : Ref sig .tc) (h : r ∉ w15_W) :
    val15 V0 (Proc.devRef .tc r) = val14 V0 (Proc.devRef .tc r) := w15_keep (val14 V0) r h

/-- The buffers the first stretch writes. -/
abbrev upto1 : List (Ref sig .tc) := w1_W
/-- The buffers the first 2 stretches write. -/
abbrev upto2 : List (Ref sig .tc) := upto1 ++ w2_W
/-- The buffers the first 3 stretches write. -/
abbrev upto3 : List (Ref sig .tc) := upto2 ++ w3_W
/-- The buffers the first 4 stretches write. -/
abbrev upto4 : List (Ref sig .tc) := upto3 ++ w4_W
/-- The buffers the first 5 stretches write. -/
abbrev upto5 : List (Ref sig .tc) := upto4 ++ w5_W
/-- The buffers the first 6 stretches write. -/
abbrev upto6 : List (Ref sig .tc) := upto5 ++ w6_W
/-- The buffers the first 7 stretches write. -/
abbrev upto7 : List (Ref sig .tc) := upto6 ++ w7_W
/-- The buffers the first 8 stretches write. -/
abbrev upto8 : List (Ref sig .tc) := upto7 ++ w8_W
/-- The buffers the first 9 stretches write. -/
abbrev upto9 : List (Ref sig .tc) := upto8 ++ w9_W
/-- The buffers the first 10 stretches write. -/
abbrev upto10 : List (Ref sig .tc) := upto9 ++ w10_W
/-- The buffers the first 11 stretches write. -/
abbrev upto11 : List (Ref sig .tc) := upto10 ++ w11_W
/-- The buffers the first 12 stretches write. -/
abbrev upto12 : List (Ref sig .tc) := upto11 ++ w12_W
/-- The buffers the first 13 stretches write. -/
abbrev upto13 : List (Ref sig .tc) := upto12 ++ w13_W
/-- The buffers the first 14 stretches write. -/
abbrev upto14 : List (Ref sig .tc) := upto13 ++ w14_W
/-- The buffers the first 15 stretches write. -/
abbrev upto15 : List (Ref sig .tc) := upto14 ++ w15_W

theorem keep1 (V0 : Valuation τ sig (Elt F)) (r : Ref sig .tc) (h : r ∉ upto1) :
    val1 V0 (Proc.devRef .tc r) = V0 (Proc.devRef .tc r) := val1_keep V0 r h
theorem keep2 (V0 : Valuation τ sig (Elt F)) (r : Ref sig .tc) (h : r ∉ upto2) :
    val2 V0 (Proc.devRef .tc r) = V0 (Proc.devRef .tc r) :=
  (val2_keep V0 r fun hm => h (List.mem_append_right _ hm)).trans (keep1 V0 r fun hm => h (List.mem_append_left _ hm))
theorem keep3 (V0 : Valuation τ sig (Elt F)) (r : Ref sig .tc) (h : r ∉ upto3) :
    val3 V0 (Proc.devRef .tc r) = V0 (Proc.devRef .tc r) :=
  (val3_keep V0 r fun hm => h (List.mem_append_right _ hm)).trans (keep2 V0 r fun hm => h (List.mem_append_left _ hm))
theorem keep4 (V0 : Valuation τ sig (Elt F)) (r : Ref sig .tc) (h : r ∉ upto4) :
    val4 V0 (Proc.devRef .tc r) = V0 (Proc.devRef .tc r) :=
  (val4_keep V0 r fun hm => h (List.mem_append_right _ hm)).trans (keep3 V0 r fun hm => h (List.mem_append_left _ hm))
theorem keep5 (V0 : Valuation τ sig (Elt F)) (r : Ref sig .tc) (h : r ∉ upto5) :
    val5 V0 (Proc.devRef .tc r) = V0 (Proc.devRef .tc r) :=
  (val5_keep V0 r fun hm => h (List.mem_append_right _ hm)).trans (keep4 V0 r fun hm => h (List.mem_append_left _ hm))
theorem keep6 (V0 : Valuation τ sig (Elt F)) (r : Ref sig .tc) (h : r ∉ upto6) :
    val6 V0 (Proc.devRef .tc r) = V0 (Proc.devRef .tc r) :=
  (val6_keep V0 r fun hm => h (List.mem_append_right _ hm)).trans (keep5 V0 r fun hm => h (List.mem_append_left _ hm))
theorem keep7 (V0 : Valuation τ sig (Elt F)) (r : Ref sig .tc) (h : r ∉ upto7) :
    val7 V0 (Proc.devRef .tc r) = V0 (Proc.devRef .tc r) :=
  (val7_keep V0 r fun hm => h (List.mem_append_right _ hm)).trans (keep6 V0 r fun hm => h (List.mem_append_left _ hm))
theorem keep8 (V0 : Valuation τ sig (Elt F)) (r : Ref sig .tc) (h : r ∉ upto8) :
    val8 V0 (Proc.devRef .tc r) = V0 (Proc.devRef .tc r) :=
  (val8_keep V0 r fun hm => h (List.mem_append_right _ hm)).trans (keep7 V0 r fun hm => h (List.mem_append_left _ hm))
theorem keep9 (V0 : Valuation τ sig (Elt F)) (r : Ref sig .tc) (h : r ∉ upto9) :
    val9 V0 (Proc.devRef .tc r) = V0 (Proc.devRef .tc r) :=
  (val9_keep V0 r fun hm => h (List.mem_append_right _ hm)).trans (keep8 V0 r fun hm => h (List.mem_append_left _ hm))
theorem keep10 (V0 : Valuation τ sig (Elt F)) (r : Ref sig .tc) (h : r ∉ upto10) :
    val10 V0 (Proc.devRef .tc r) = V0 (Proc.devRef .tc r) :=
  (val10_keep V0 r fun hm => h (List.mem_append_right _ hm)).trans (keep9 V0 r fun hm => h (List.mem_append_left _ hm))
theorem keep11 (V0 : Valuation τ sig (Elt F)) (r : Ref sig .tc) (h : r ∉ upto11) :
    val11 V0 (Proc.devRef .tc r) = V0 (Proc.devRef .tc r) :=
  (val11_keep V0 r fun hm => h (List.mem_append_right _ hm)).trans (keep10 V0 r fun hm => h (List.mem_append_left _ hm))
theorem keep12 (V0 : Valuation τ sig (Elt F)) (r : Ref sig .tc) (h : r ∉ upto12) :
    val12 V0 (Proc.devRef .tc r) = V0 (Proc.devRef .tc r) :=
  (val12_keep V0 r fun hm => h (List.mem_append_right _ hm)).trans (keep11 V0 r fun hm => h (List.mem_append_left _ hm))
theorem keep13 (V0 : Valuation τ sig (Elt F)) (r : Ref sig .tc) (h : r ∉ upto13) :
    val13 V0 (Proc.devRef .tc r) = V0 (Proc.devRef .tc r) :=
  (val13_keep V0 r fun hm => h (List.mem_append_right _ hm)).trans (keep12 V0 r fun hm => h (List.mem_append_left _ hm))
theorem keep14 (V0 : Valuation τ sig (Elt F)) (r : Ref sig .tc) (h : r ∉ upto14) :
    val14 V0 (Proc.devRef .tc r) = V0 (Proc.devRef .tc r) :=
  (val14_keep V0 r fun hm => h (List.mem_append_right _ hm)).trans (keep13 V0 r fun hm => h (List.mem_append_left _ hm))
theorem keep15 (V0 : Valuation τ sig (Elt F)) (r : Ref sig .tc) (h : r ∉ upto15) :
    val15 V0 (Proc.devRef .tc r) = V0 (Proc.devRef .tc r) :=
  (val15_keep V0 r fun hm => h (List.mem_append_right _ hm)).trans (keep14 V0 r fun hm => h (List.mem_append_left _ hm))

/-! ## What the buffers hold after each stretch -/

/-! ### Layer 1 -/
theorem val1_src (V0 : Valuation τ sig (Elt F)) :
    val1 V0 (main_v1 : DevRef τ sig) = srcOf V0 := w1_src (val0 V0)
theorem val1_dst (V0 : Valuation τ sig (Elt F)) :
    val1 V0 (main_v3 : DevRef τ sig) = dstOf V0 := w1_dst (val0 V0)
theorem val1_agg (V0 : Valuation τ sig (Elt F)) :
    val1 V0 (main_v14 : DevRef τ sig) = aggregate128 (V0 (main_arg0 : DevRef τ sig)) (srcOf V0) (dstOf V0) := w1_agg (val0 V0)

theorem val2_src (V0 : Valuation τ sig (Elt F)) :
    val2 V0 (main_v1 : DevRef τ sig) = srcOf V0 :=
  (val2_keep V0 main_v1 (by decide)).trans (val1_src V0)
theorem val2_dst (V0 : Valuation τ sig (Elt F)) :
    val2 V0 (main_v3 : DevRef τ sig) = dstOf V0 :=
  (val2_keep V0 main_v3 (by decide)).trans (val1_dst V0)
theorem val2_lin1 (V0 : Valuation τ sig (Elt F)) :
    val2 V0 (main_v18 : DevRef τ sig) = lin1Of V0 := by
  unfold val2
  rw [w2_lin, val1_agg, keep1 V0 main_arg2 (by decide), keep1 V0 main_arg3 (by decide)] <;> rfl
theorem val2_mean1 (V0 : Valuation τ sig (Elt F)) :
    val2 V0 (main_v21 : DevRef τ sig) = colMean (lin1Of V0) := by
  unfold val2
  rw [w2_mean, val1_agg, keep1 V0 main_arg2 (by decide), keep1 V0 main_arg3 (by decide)] <;> rfl
theorem val2_ddof1 (V0 : Valuation τ sig (Elt F)) :
    val2 V0 (main_c_3 : DevRef τ sig) = constantI S_ 32 0#32 := w2_ddof (val1 V0)

theorem val3_src (V0 : Valuation τ sig (Elt F)) :
    val3 V0 (main_v1 : DevRef τ sig) = srcOf V0 :=
  (val3_keep V0 main_v1 (by decide)).trans (val2_src V0)
theorem val3_dst (V0 : Valuation τ sig (Elt F)) :
    val3 V0 (main_v3 : DevRef τ sig) = dstOf V0 :=
  (val3_keep V0 main_v3 (by decide)).trans (val2_dst V0)
theorem val3_lin1 (V0 : Valuation τ sig (Elt F)) :
    val3 V0 (main_v18 : DevRef τ sig) = lin1Of V0 :=
  (val3_keep V0 main_v18 (by decide)).trans (val2_lin1 V0)
theorem val3_mean1 (V0 : Valuation τ sig (Elt F)) :
    val3 V0 (main_v21 : DevRef τ sig) = colMean (lin1Of V0) :=
  (val3_keep V0 main_v21 (by decide)).trans (val2_mean1 V0)
theorem val3_var1 (V0 : Valuation τ sig (Elt F)) :
    val3 V0 (main_v22 : DevRef τ sig) = colVar (lin1Of V0) (constantI S_ 32 0#32) := by
  unfold val3
  rw [w3_var, val2_lin1, val2_ddof1] <;> rfl

theorem val4_src (V0 : Valuation τ sig (Elt F)) :
    val4 V0 (main_v1 : DevRef τ sig) = srcOf V0 :=
  (val4_keep V0 main_v1 (by decide)).trans (val3_src V0)
theorem val4_dst (V0 : Valuation τ sig (Elt F)) :
    val4 V0 (main_v3 : DevRef τ sig) = dstOf V0 :=
  (val4_keep V0 main_v3 (by decide)).trans (val3_dst V0)
theorem val4_norm1 (V0 : Valuation τ sig (Elt F)) :
    val4 V0 (main_v38 : DevRef τ sig) = batchNormRelu (lin1Of V0) (V0 (main_arg4 : DevRef τ sig)) (V0 (main_arg5 : DevRef τ sig)) := by
  unfold val4
  rw [w4_norm, val3_lin1, val3_mean1, val3_var1, keep3 V0 main_arg4 (by decide), keep3 V0 main_arg5 (by decide)] <;> rfl

theorem val5_src (V0 : Valuation τ sig (Elt F)) :
    val5 V0 (main_v1 : DevRef τ sig) = srcOf V0 :=
  (val5_keep V0 main_v1 (by decide)).trans (val4_src V0)
theorem val5_dst (V0 : Valuation τ sig (Elt F)) :
    val5 V0 (main_v3 : DevRef τ sig) = dstOf V0 :=
  (val5_keep V0 main_v3 (by decide)).trans (val4_dst V0)
theorem val5_h1 (V0 : Valuation τ sig (Elt F)) :
    val5 V0 (main_v43 : DevRef τ sig) = h1Of V0 := by
  unfold val5
  rw [w5_out, val4_norm1, keep4 V0 main_arg6 (by decide), keep4 V0 main_arg7 (by decide)] <;> rfl
theorem val5_rows1 (V0 : Valuation τ sig (Elt F)) :
    val5 V0 (main_v50 : DevRef τ sig) = neighbourRows256 (h1Of V0) (srcOf V0) := by
  unfold val5
  rw [w5_rows, val4_norm1, keep4 V0 main_arg6 (by decide), keep4 V0 main_arg7 (by decide), val4_src] <;> rfl

/-! ### Layer 2 -/
theorem val6_src (V0 : Valuation τ sig (Elt F)) :
    val6 V0 (main_v1 : DevRef τ sig) = srcOf V0 :=
  (val6_keep V0 main_v1 (by decide)).trans (val5_src V0)
theorem val6_dst (V0 : Valuation τ sig (Elt F)) :
    val6 V0 (main_v3 : DevRef τ sig) = dstOf V0 :=
  (val6_keep V0 main_v3 (by decide)).trans (val5_dst V0)
theorem val6_h1 (V0 : Valuation τ sig (Elt F)) :
    val6 V0 (main_v43 : DevRef τ sig) = h1Of V0 :=
  (val6_keep V0 main_v43 (by decide)).trans (val5_h1 V0)
theorem val6_lin2 (V0 : Valuation τ sig (Elt F)) :
    val6 V0 (main_v58 : DevRef τ sig) = lin2Of V0 := by
  unfold val6
  rw [w6_lin, val5_h1, val5_dst, val5_rows1, keep5 V0 main_arg8 (by decide), keep5 V0 main_arg9 (by decide)] <;> rfl
theorem val6_mean2 (V0 : Valuation τ sig (Elt F)) :
    val6 V0 (main_v61 : DevRef τ sig) = colMean (lin2Of V0) := by
  unfold val6
  rw [w6_mean, val5_h1, val5_dst, val5_rows1, keep5 V0 main_arg8 (by decide), keep5 V0 main_arg9 (by decide)] <;> rfl
theorem val6_ddof2 (V0 : Valuation τ sig (Elt F)) :
    val6 V0 (main_c_10 : DevRef τ sig) = constantI S_ 32 0#32 := w6_ddof (val5 V0)

theorem val7_src (V0 : Valuation τ sig (Elt F)) :
    val7 V0 (main_v1 : DevRef τ sig) = srcOf V0 :=
  (val7_keep V0 main_v1 (by decide)).trans (val6_src V0)
theorem val7_dst (V0 : Valuation τ sig (Elt F)) :
    val7 V0 (main_v3 : DevRef τ sig) = dstOf V0 :=
  (val7_keep V0 main_v3 (by decide)).trans (val6_dst V0)
theorem val7_h1 (V0 : Valuation τ sig (Elt F)) :
    val7 V0 (main_v43 : DevRef τ sig) = h1Of V0 :=
  (val7_keep V0 main_v43 (by decide)).trans (val6_h1 V0)
theorem val7_lin2 (V0 : Valuation τ sig (Elt F)) :
    val7 V0 (main_v58 : DevRef τ sig) = lin2Of V0 :=
  (val7_keep V0 main_v58 (by decide)).trans (val6_lin2 V0)
theorem val7_mean2 (V0 : Valuation τ sig (Elt F)) :
    val7 V0 (main_v61 : DevRef τ sig) = colMean (lin2Of V0) :=
  (val7_keep V0 main_v61 (by decide)).trans (val6_mean2 V0)
theorem val7_var2 (V0 : Valuation τ sig (Elt F)) :
    val7 V0 (main_v62 : DevRef τ sig) = colVar (lin2Of V0) (constantI S_ 32 0#32) := by
  unfold val7
  rw [w7_var, val6_lin2, val6_ddof2] <;> rfl

theorem val8_src (V0 : Valuation τ sig (Elt F)) :
    val8 V0 (main_v1 : DevRef τ sig) = srcOf V0 :=
  (val8_keep V0 main_v1 (by decide)).trans (val7_src V0)
theorem val8_dst (V0 : Valuation τ sig (Elt F)) :
    val8 V0 (main_v3 : DevRef τ sig) = dstOf V0 :=
  (val8_keep V0 main_v3 (by decide)).trans (val7_dst V0)
theorem val8_h1 (V0 : Valuation τ sig (Elt F)) :
    val8 V0 (main_v43 : DevRef τ sig) = h1Of V0 :=
  (val8_keep V0 main_v43 (by decide)).trans (val7_h1 V0)
theorem val8_norm2 (V0 : Valuation τ sig (Elt F)) :
    val8 V0 (main_v78 : DevRef τ sig) = batchNormRelu (lin2Of V0) (V0 (main_arg10 : DevRef τ sig)) (V0 (main_arg11 : DevRef τ sig)) := by
  unfold val8
  rw [w8_norm, val7_lin2, val7_mean2, val7_var2, keep7 V0 main_arg10 (by decide), keep7 V0 main_arg11 (by decide)] <;> rfl

theorem val9_dst (V0 : Valuation τ sig (Elt F)) :
    val9 V0 (main_v3 : DevRef τ sig) = dstOf V0 :=
  (val9_keep V0 main_v3 (by decide)).trans (val8_dst V0)
theorem val9_h1 (V0 : Valuation τ sig (Elt F)) :
    val9 V0 (main_v43 : DevRef τ sig) = h1Of V0 :=
  (val9_keep V0 main_v43 (by decide)).trans (val8_h1 V0)
theorem val9_h2 (V0 : Valuation τ sig (Elt F)) :
    val9 V0 (main_v83 : DevRef τ sig) = h2Of V0 := by
  unfold val9
  rw [w9_out, val8_norm2, keep8 V0 main_arg12 (by decide), keep8 V0 main_arg13 (by decide)] <;> rfl
theorem val9_rows2 (V0 : Valuation τ sig (Elt F)) :
    val9 V0 (main_v90 : DevRef τ sig) = neighbourRows256 (h2Of V0) (srcOf V0) := by
  unfold val9
  rw [w9_rows, val8_norm2, keep8 V0 main_arg12 (by decide), keep8 V0 main_arg13 (by decide), val8_src] <;> rfl

/-! ### Layer 3 -/
theorem val10_h1 (V0 : Valuation τ sig (Elt F)) :
    val10 V0 (main_v43 : DevRef τ sig) = h1Of V0 :=
  (val10_keep V0 main_v43 (by decide)).trans (val9_h1 V0)
theorem val10_h2 (V0 : Valuation τ sig (Elt F)) :
    val10 V0 (main_v83 : DevRef τ sig) = h2Of V0 :=
  (val10_keep V0 main_v83 (by decide)).trans (val9_h2 V0)
theorem val10_lin3 (V0 : Valuation τ sig (Elt F)) :
    val10 V0 (main_v98 : DevRef τ sig) = lin3Of V0 := by
  unfold val10
  rw [w10_lin, val9_h2, val9_dst, val9_rows2, keep9 V0 main_arg14 (by decide), keep9 V0 main_arg15 (by decide)] <;> rfl
theorem val10_sum3 (V0 : Valuation τ sig (Elt F)) :
    val10 V0 (main_v99 : DevRef τ sig) = colSum (lin3Of V0) := by
  unfold val10
  rw [w10_sum, val9_h2, val9_dst, val9_rows2, keep9 V0 main_arg14 (by decide), keep9 V0 main_arg15 (by decide)] <;> rfl
theorem val10_count3 (V0 : Valuation τ sig (Elt F)) :
    val10 V0 (main_v100 : DevRef τ sig) = broadcastInDim S256 ![] bcast_S_S256 (constant S_ .f32 0x47435000#32) := w10_count (val9 V0)

theorem val11_h1 (V0 : Valuation τ sig (Elt F)) :
    val11 V0 (main_v43 : DevRef τ sig) = h1Of V0 :=
  (val11_keep V0 main_v43 (by decide)).trans (val10_h1 V0)
theorem val11_h2 (V0 : Valuation τ sig (Elt F)) :
    val11 V0 (main_v83 : DevRef τ sig) = h2Of V0 :=
  (val11_keep V0 main_v83 (by decide)).trans (val10_h2 V0)
theorem val11_lin3 (V0 : Valuation τ sig (Elt F)) :
    val11 V0 (main_v98 : DevRef τ sig) = lin3Of V0 :=
  (val11_keep V0 main_v98 (by decide)).trans (val10_lin3 V0)
theorem val11_mean3 (V0 : Valuation τ sig (Elt F)) :
    val11 V0 (main_v101 : DevRef τ sig) = colMean (lin3Of V0) := by
  unfold val11
  rw [w11_mean, val10_sum3, val10_count3] <;> rfl
theorem val11_var3 (V0 : Valuation τ sig (Elt F)) :
    val11 V0 (main_v102 : DevRef τ sig) = colVar (lin3Of V0) (constantI S_ 32 0#32) := by
  unfold val11
  rw [w11_var, val10_lin3] <;> rfl

theorem val12_h1 (V0 : Valuation τ sig (Elt F)) :
    val12 V0 (main_v43 : DevRef τ sig) = h1Of V0 :=
  (val12_keep V0 main_v43 (by decide)).trans (val11_h1 V0)
theorem val12_h2 (V0 : Valuation τ sig (Elt F)) :
    val12 V0 (main_v83 : DevRef τ sig) = h2Of V0 :=
  (val12_keep V0 main_v83 (by decide)).trans (val11_h2 V0)
theorem val12_norm3 (V0 : Valuation τ sig (Elt F)) :
    val12 V0 (main_v118 : DevRef τ sig) = batchNormRelu (lin3Of V0) (V0 (main_arg16 : DevRef τ sig)) (V0 (main_arg17 : DevRef τ sig)) := by
  unfold val12
  rw [w12_norm, val11_lin3, val11_mean3, val11_var3, keep11 V0 main_arg16 (by decide), keep11 V0 main_arg17 (by decide)] <;> rfl

theorem val13_h1 (V0 : Valuation τ sig (Elt F)) :
    val13 V0 (main_v43 : DevRef τ sig) = h1Of V0 :=
  (val13_keep V0 main_v43 (by decide)).trans (val12_h1 V0)
theorem val13_h2 (V0 : Valuation τ sig (Elt F)) :
    val13 V0 (main_v83 : DevRef τ sig) = h2Of V0 :=
  (val13_keep V0 main_v83 (by decide)).trans (val12_h2 V0)
theorem val13_h3 (V0 : Valuation τ sig (Elt F)) :
    val13 V0 (main_v123 : DevRef τ sig) = h3Of V0 := by
  unfold val13
  rw [w13_out, val12_norm3, keep12 V0 main_arg18 (by decide), keep12 V0 main_arg19 (by decide)] <;> rfl

/-! ### The readout -/
theorem val14_hidden (V0 : Valuation τ sig (Elt F)) :
    val14 V0 (main_v129 : DevRef τ sig) = readoutHidden (concat3 (h1Of V0) (h2Of V0) (h3Of V0)) (V0 (main_arg20 : DevRef τ sig)) (V0 (main_arg21 : DevRef τ sig)) := by
  unfold val14
  rw [w14_hidden, val13_h1, val13_h2, val13_h3, keep13 V0 main_arg20 (by decide), keep13 V0 main_arg21 (by decide)] <;> rfl
theorem val15_logits (V0 : Valuation τ sig (Elt F)) :
    val15 V0 (main_v133 : DevRef τ sig) = logitsOf V0 := by
  unfold val15
  rw [w15_logits, val14_hidden, keep14 V0 main_arg22 (by decide), keep14 V0 main_arg23 (by decide)] <;> rfl
theorem val15_probs (V0 : Valuation τ sig (Elt F)) :
    val15 V0 (main_v144 : DevRef τ sig) = probsOf V0 := by
  unfold val15
  rw [w15_probs, val14_hidden, keep14 V0 main_arg22 (by decide), keep14 V0 main_arg23 (by decide)] <;> rfl

/-! ## The run -/

/-- On every device, for any float values, from any memory with zero counters: every weakly fair execution of @main
    terminates with the logits and the class probabilities of the 24 argument arrays in the two result buffers, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v133) = logits m c ∧ r.2.mem ((c.tc : Thread nD τ).loc main_v144) = probs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨⟨(h c main_v133).trans (by simp only [after_ops]; exact val15_logits (launchContents m c)),
      (h c main_v144).trans (by simp only [after_ops]; exact val15_probs (launchContents m c))⟩,
      (h c main_arg0).trans (by simp only [after_ops]; exact keep15 (launchContents m c) main_arg0 (by decide)),
      (h c main_arg1).trans (by simp only [after_ops]; exact keep15 (launchContents m c) main_arg1 (by decide)),
      (h c main_arg2).trans (by simp only [after_ops]; exact keep15 (launchContents m c) main_arg2 (by decide)),
      (h c main_arg3).trans (by simp only [after_ops]; exact keep15 (launchContents m c) main_arg3 (by decide)),
      (h c main_arg4).trans (by simp only [after_ops]; exact keep15 (launchContents m c) main_arg4 (by decide)),
      (h c main_arg5).trans (by simp only [after_ops]; exact keep15 (launchContents m c) main_arg5 (by decide)),
      (h c main_arg6).trans (by simp only [after_ops]; exact keep15 (launchContents m c) main_arg6 (by decide)),
      (h c main_arg7).trans (by simp only [after_ops]; exact keep15 (launchContents m c) main_arg7 (by decide)),
      (h c main_arg8).trans (by simp only [after_ops]; exact keep15 (launchContents m c) main_arg8 (by decide)),
      (h c main_arg9).trans (by simp only [after_ops]; exact keep15 (launchContents m c) main_arg9 (by decide)),
      (h c main_arg10).trans (by simp only [after_ops]; exact keep15 (launchContents m c) main_arg10 (by decide)),
      (h c main_arg11).trans (by simp only [after_ops]; exact keep15 (launchContents m c) main_arg11 (by decide)),
      (h c main_arg12).trans (by simp only [after_ops]; exact keep15 (launchContents m c) main_arg12 (by decide)),
      (h c main_arg13).trans (by simp only [after_ops]; exact keep15 (launchContents m c) main_arg13 (by decide)),
      (h c main_arg14).trans (by simp only [after_ops]; exact keep15 (launchContents m c) main_arg14 (by decide)),
      (h c main_arg15).trans (by simp only [after_ops]; exact keep15 (launchContents m c) main_arg15 (by decide)),
      (h c main_arg16).trans (by simp only [after_ops]; exact keep15 (launchContents m c) main_arg16 (by decide)),
      (h c main_arg17).trans (by simp only [after_ops]; exact keep15 (launchContents m c) main_arg17 (by decide)),
      (h c main_arg18).trans (by simp only [after_ops]; exact keep15 (launchContents m c) main_arg18 (by decide)),
      (h c main_arg19).trans (by simp only [after_ops]; exact keep15 (launchContents m c) main_arg19 (by decide)),
      (h c main_arg20).trans (by simp only [after_ops]; exact keep15 (launchContents m c) main_arg20 (by decide)),
      (h c main_arg21).trans (by simp only [after_ops]; exact keep15 (launchContents m c) main_arg21 (by decide)),
      (h c main_arg22).trans (by simp only [after_ops]; exact keep15 (launchContents m c) main_arg22 (by decide)),
      (h c main_arg23).trans (by simp only [after_ops]; exact keep15 (launchContents m c) main_arg23 (by decide))⟩)
    (run_seq scopedRefs_eq scopedSems_eq defs main (fun _ => ops) main_eq (fun _ => ops_sub) m ρ)

end Cert.ReferenceIdeal.RefRun

end
-- ==== Proof.Ref.Frame.lean ====
/- The run's two results spelt out as pure terms of the 24 argument arrays of the launch memory, and the reference's
   frame (it runs to its end and leaves its arguments unchanged) as a consequence of the run. -/
import proofs.«121371_j46033459478999_1_alg».proof.Proof.Ref.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The results as terms of the argument arrays -/

/-- The aggregation on 128 features as a function of the features and the edge list. -/
def aggregateEdges128 (x : FVec F S50000x128 .f32) (e : IVec S2x800000 32) : FVec F S50000x128 .f32 :=
  aggregate128 x (edgeSrc e) (edgeDst e)

/-- The aggregation on 256 features as a function of the features and the edge list. -/
def aggregateEdges256 (h : FVec F S50000x256 .f32) (e : IVec S2x800000 32) : FVec F S50000x256 .f32 :=
  aggregate256 h (edgeSrc e) (edgeDst e)

/-- Layer 1's output from the launch memory's arrays. -/
def hidden1 (m : (ℓ : Loc nD τ sig) → Buf (Elt F) ℓ) (c : Dev nD) : FVec F S50000x256 .f32 :=
  mlpTail (linear128 (aggregateEdges128 (m ((c.tc : Thread nD τ).loc main_arg0)) (m ((c.tc : Thread nD τ).loc main_arg1))) (m ((c.tc : Thread nD τ).loc main_arg2)) (m ((c.tc : Thread nD τ).loc main_arg3)))
    (m ((c.tc : Thread nD τ).loc main_arg4)) (m ((c.tc : Thread nD τ).loc main_arg5)) (m ((c.tc : Thread nD τ).loc main_arg6)) (m ((c.tc : Thread nD τ).loc main_arg7))

/-- Layer 2's output from the launch memory's arrays. -/
def hidden2 (m : (ℓ : Loc nD τ sig) → Buf (Elt F) ℓ) (c : Dev nD) : FVec F S50000x256 .f32 :=
  mlpTail (linear256 (aggregateEdges256 (hidden1 m c) (m ((c.tc : Thread nD τ).loc main_arg1))) (m ((c.tc : Thread nD τ).loc main_arg8)) (m ((c.tc : Thread nD τ).loc main_arg9)))
    (m ((c.tc : Thread nD τ).loc main_arg10)) (m ((c.tc : Thread nD τ).loc main_arg11)) (m ((c.tc : Thread nD τ).loc main_arg12)) (m ((c.tc : Thread nD τ).loc main_arg13))

/-- Layer 3's output from the launch memory's arrays. -/
def hidden3 (m : (ℓ : Loc nD τ sig) → Buf (Elt F) ℓ) (c : Dev nD) : FVec F S50000x256 .f32 :=
  mlpTail (linear256 (aggregateEdges256 (hidden2 m c) (m ((c.tc : Thread nD τ).loc main_arg1))) (m ((c.tc : Thread nD τ).loc main_arg14)) (m ((c.tc : Thread nD τ).loc main_arg15)))
    (m ((c.tc : Thread nD τ).loc main_arg16)) (m ((c.tc : Thread nD τ).loc main_arg17)) (m ((c.tc : Thread nD τ).loc main_arg18)) (m ((c.tc : Thread nD τ).loc main_arg19))

/-- The logits are the two readout maps of the three layers' outputs side by side. -/
theorem logits_eq (m : (ℓ : Loc nD τ sig) → Buf (Elt F) ℓ) (c : Dev nD) :
    logits m c
      = readoutLogits (readoutHidden (concat3 (hidden1 m c) (hidden2 m c) (hidden3 m c)) (m ((c.tc : Thread nD τ).loc main_arg20)) (m ((c.tc : Thread nD τ).loc main_arg21)))
          (m ((c.tc : Thread nD τ).loc main_arg22)) (m ((c.tc : Thread nD τ).loc main_arg23)) := rfl

/-- The class probabilities are the softmax of the logits. -/
theorem probs_eq (m : (ℓ : Loc nD τ sig) → Buf (Elt F) ℓ) (c : Dev nD) : probs m c = softmax2 (logits m c) := rfl

/-! ## The frame -/

/-- The reference's frame at the exact reals: it runs to its end, nothing faults, and the 24 arguments end unchanged. -/
theorem frame_ri (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => (h c).2) (run (F := Ideal) m g)

end Cert.ReferenceIdeal.RefRun

end
-- ==== Proof.KRead.Keep.lean ====
/-
  What a stretch of host operations, or a call, leaves alone. Between the items of the program the contents of a buffer
  change only where a host operation writes its result or a call writes its output array; everywhere else they are what
  they were one item earlier. The lemmas below say so item by item, for the contents `U1 .. U19` between the items, and
  say what a call's output array holds right after the call.
-/
import proofs.«121371_j46033459478999_1_alg».proof.Proof.KIdeal.Records
import proofs.«121371_j46033459478999_1_alg».proof.Proof.Gen.KernelIdeal.Regions

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- A buffer the stretch before contents 1 does not write keeps its contents. -/
theorem U1_of (r : Ref sig .tc) (h : r ∉ hostOps0_W) : U1 m c r = m (c, Proc.devRef .tc r) :=
  StableHlo.after_of_writes_sub hostOps0 _ hostOps0_writes h
/-- A buffer other than the call's output array keeps its contents across the call. -/
theorem U2_of (r : Ref sig .tc) (h : r ≠ main_v16) : U2 m c r = U1 m c r :=
  Function.update_of_ne (StableHlo.devRef_ne_of_ne h) _ _
/-- The call's output array holds what the call leaves in it. -/
theorem U2_self : U2 m c main_v16 = res0_4 m c :=
  Function.update_self _ _ _
/-- A buffer the stretch before contents 3 does not write keeps its contents. -/
theorem U3_of (r : Ref sig .tc) (h : r ∉ hostOps1_W) : U3 m c r = U2 m c r :=
  StableHlo.after_of_writes_sub hostOps1 _ hostOps1_writes h
/-- A buffer the stretch before contents 4 does not write keeps its contents. -/
theorem U4_of (r : Ref sig .tc) (h : r ∉ hostOps1_1_W) : U4 m c r = U3 m c r :=
  StableHlo.after_of_writes_sub hostOps1_1 _ hostOps1_1_writes h
/-- A buffer the stretch before contents 5 does not write keeps its contents. -/
theorem U5_of (r : Ref sig .tc) (h : r ∉ hostOps1_2_W) : U5 m c r = U4 m c r :=
  StableHlo.after_of_writes_sub hostOps1_2 _ hostOps1_2_writes h
/-- A buffer other than the call's output array keeps its contents across the call. -/
theorem U6_of (r : Ref sig .tc) (h : r ≠ main_v27) : U6 m c r = U5 m c r :=
  Function.update_of_ne (StableHlo.devRef_ne_of_ne h) _ _
/-- The call's output array holds what the call leaves in it. -/
theorem U6_self : U6 m c main_v27 = res1_7 m c :=
  Function.update_self _ _ _
/-- A buffer the stretch before contents 7 does not write keeps its contents. -/
theorem U7_of (r : Ref sig .tc) (h : r ∉ hostOps2_W) : U7 m c r = U6 m c r :=
  StableHlo.after_of_writes_sub hostOps2 _ hostOps2_writes h
/-- A buffer other than the call's output array keeps its contents across the call. -/
theorem U8_of (r : Ref sig .tc) (h : r ≠ main_v40) : U8 m c r = U7 m c r :=
  Function.update_of_ne (StableHlo.devRef_ne_of_ne h) _ _
/-- The call's output array holds what the call leaves in it. -/
theorem U8_self : U8 m c main_v40 = res2_4 m c :=
  Function.update_self _ _ _
/-- A buffer the stretch before contents 9 does not write keeps its contents. -/
theorem U9_of (r : Ref sig .tc) (h : r ∉ hostOps3_W) : U9 m c r = U8 m c r :=
  StableHlo.after_of_writes_sub hostOps3 _ hostOps3_writes h
/-- A buffer the stretch before contents 10 does not write keeps its contents. -/
theorem U10_of (r : Ref sig .tc) (h : r ∉ hostOps3_1_W) : U10 m c r = U9 m c r :=
  StableHlo.after_of_writes_sub hostOps3_1 _ hostOps3_1_writes h
/-- A buffer the stretch before contents 11 does not write keeps its contents. -/
theorem U11_of (r : Ref sig .tc) (h : r ∉ hostOps3_2_W) : U11 m c r = U10 m c r :=
  StableHlo.after_of_writes_sub hostOps3_2 _ hostOps3_2_writes h
/-- A buffer other than the call's output array keeps its contents across the call. -/
theorem U12_of (r : Ref sig .tc) (h : r ≠ main_v51) : U12 m c r = U11 m c r :=
  Function.update_of_ne (StableHlo.devRef_ne_of_ne h) _ _
/-- The call's output array holds what the call leaves in it. -/
theorem U12_self : U12 m c main_v51 = res3_7 m c :=
  Function.update_self _ _ _
/-- A buffer the stretch before contents 13 does not write keeps its contents. -/
theorem U13_of (r : Ref sig .tc) (h : r ∉ hostOps4_W) : U13 m c r = U12 m c r :=
  StableHlo.after_of_writes_sub hostOps4 _ hostOps4_writes h
/-- A buffer other than the call's output array keeps its contents across the call. -/
theorem U14_of (r : Ref sig .tc) (h : r ≠ main_v64) : U14 m c r = U13 m c r :=
  Function.update_of_ne (StableHlo.devRef_ne_of_ne h) _ _
/-- The call's output array holds what the call leaves in it. -/
theorem U14_self : U14 m c main_v64 = res4_4 m c :=
  Function.update_self _ _ _
/-- A buffer the stretch before contents 15 does not write keeps its contents. -/
theorem U15_of (r : Ref sig .tc) (h : r ∉ hostOps5_W) : U15 m c r = U14 m c r :=
  StableHlo.after_of_writes_sub hostOps5 _ hostOps5_writes h
/-- A buffer the stretch before contents 16 does not write keeps its contents. -/
theorem U16_of (r : Ref sig .tc) (h : r ∉ hostOps5_1_W) : U16 m c r = U15 m c r :=
  StableHlo.after_of_writes_sub hostOps5_1 _ hostOps5_1_writes h
/-- A buffer the stretch before contents 17 does not write keeps its contents. -/
theorem U17_of (r : Ref sig .tc) (h : r ∉ hostOps5_2_W) : U17 m c r = U16 m c r :=
  StableHlo.after_of_writes_sub hostOps5_2 _ hostOps5_2_writes h
/-- A buffer other than the call's output array keeps its contents across the call. -/
theorem U18_of (r : Ref sig .tc) (h : r ≠ main_v75) : U18 m c r = U17 m c r :=
  Function.update_of_ne (StableHlo.devRef_ne_of_ne h) _ _
/-- The call's output array holds what the call leaves in it. -/
theorem U18_self : U18 m c main_v75 = res5_7 m c :=
  Function.update_self _ _ _
/-- A buffer the stretch before contents 19 does not write keeps its contents. -/
theorem U19_of (r : Ref sig .tc) (h : r ∉ hostOps6_W) : U19 m c r = U18 m c r :=
  StableHlo.after_of_writes_sub hostOps6 _ hostOps6_writes h

end Cert.KernelIdeal.Calls

end
-- ==== Proof.KRead.Stages.lean ====
/-
  The host stretches of the program as pure functions of the arrays they read.

  Between two calls the program computes, on whole arrays: the neighbour aggregate of a feature array over the edge list
  (each edge's source row, a negative source wrapped by the number of nodes, gathered and added into the edge's
  destination row of a zero array); the column means of an array (column sums from zero, divided by the row count);
  the column variances (the squared deviations from the column means summed from zero and divided by the row count less
  the correction, selected against the correction's sign); the three layers' outputs laid side by side; and two layout maps:
  a weight matrix's change of float format, and a vector of n entries read as one row.
-/
import proofs.«121371_j46033459478999_1_alg».proof.Proof.Gen.KernelIdeal
import Idealize.ShloMosaic.Lib.ValueIdx
import Idealize.ShloMosaic.Lib.ValueLayout

noncomputable section

namespace Cert.KernelIdeal.Calls

open Cert.KernelIdeal Cert.KernelIdeal.Facts₀
open Idealize.ShloMosaic Idealize.ShloMosaic.ValueIdx

variable {F : FTy → Type} [FloatOps F]

/-! ## The edge list -/

/-- The edges' source nodes: row 0 of the edge index, as a vector. -/
def srcK (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination nodes: row 1 of the edge index, as a vector. -/
def dstK (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A negative node index wrapped by the number of nodes. -/
def wrapK (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-! ## The neighbour aggregate -/

/-- The rows of `x` at the edges' (wrapped) sources, added into the edges' destination rows of a zero array: 128 columns. -/
def aggOf128 (x : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0 (wrapK s)))

/-- The first layer's aggregate, from the features and the edge index. -/
def aggK128 (x : (⟨S50000x128, .f32⟩ : BufTy).Contents (Elt F)) (ei : (⟨S2x800000, .i32⟩ : BufTy).Contents (Elt F)) : (⟨S50000x128, .f32⟩ : BufTy).Contents (Elt F) :=
  aggOf128 x (srcK ei) (dstK ei)

/-- The same over 256 columns. -/
def aggOf256 (h : (⟨S50000x256, .f32⟩ : BufTy).Contents (Elt F)) (s d : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0 (wrapK s)))

/-- A later layer's aggregate, from the previous layer's output and the edge index. -/
def aggK256 (h : (⟨S50000x256, .f32⟩ : BufTy).Contents (Elt F)) (ei : (⟨S2x800000, .i32⟩ : BufTy).Contents (Elt F)) : (⟨S50000x256, .f32⟩ : BufTy).Contents (Elt F) :=
  aggOf256 h (srcK ei) (dstK ei)

/-! ## The column statistics -/

/-- The column means: the column sums from zero over the row count. -/
def meanK (a : (⟨S50000x256, .f32⟩ : BufTy).Contents (Elt F)) : (⟨S256, .f32⟩ : BufTy).Contents (Elt F) :=
  Host.divf (Host.reduceAdd a (constant (F := F) S_ .f32 0x00000000#32) reducesTo_S50000x256_S256_d0 h_S_)
    (broadcastInDim S256 ![] bcast_S_S256 (constant (F := F) S_ .f32 0x47435000#32))

/-- The deviations from the column means, as the variance computes them (the mean as one row, repeated down the rows). -/
def centeredK (a : (⟨S50000x256, .f32⟩ : BufTy).Contents (Elt F)) : (⟨S50000x256, .f32⟩ : BufTy).Contents (Elt F) :=
  subf a (broadcastInDim S50000x256 ![0, 1] bcast_S1x256_S50000x256_0_1
    (Host.divf
      (broadcastInDim S1x256 ![1] bcast_S256_S1x256_1
        (Host.reduceAdd a (constant (F := F) S_ .f32 0x00000000#32) reducesTo_S50000x256_S256_d0 h_S_))
      (broadcastInDim S1x256 ![] bcast_S_S1x256 (constant (F := F) S_ .f32 0x47435000#32))))

/-- The row count less the correction `k`. -/
def dofK (k : (⟨S_, .i32⟩ : BufTy).Contents (Elt F)) : (⟨S_, .f32⟩ : BufTy).Contents (Elt F) :=
  subf (constant (F := F) S_ .f32 0x47435000#32) (sitofp .f32 k)

/-- The column variances with correction `k`: the summed squared deviations over the row count less `k` where that is
    positive, the not-a-number pattern elsewhere. -/
def varOf (a : (⟨S50000x256, .f32⟩ : BufTy).Contents (Elt F)) (k : (⟨S_, .i32⟩ : BufTy).Contents (Elt F)) : (⟨S256, .f32⟩ : BufTy).Contents (Elt F) :=
  select (broadcastInDim S256 ![] bcast_S_S256 (cmpf .ogt (dofK k) (constant (F := F) S_ .f32 0x00000000#32)))
    (Host.divf
      (Host.reduceAdd (mulf (centeredK a) (centeredK a)) (constant (F := F) S_ .f32 0x00000000#32)
        reducesTo_S50000x256_S256_d0 h_S_)
      (broadcastInDim S256 ![] bcast_S_S256 (dofK k)))
    (broadcastInDim S256 ![] bcast_S_S256 (id (constant (F := F) S_ .f32 0x7FC00000#32)))

/-- The column variances as the program takes them: correction zero. -/
def varK (a : (⟨S50000x256, .f32⟩ : BufTy).Contents (Elt F)) : (⟨S256, .f32⟩ : BufTy).Contents (Elt F) :=
  varOf a (constantI S_ 32 0#32)

/-! ## The readout's input -/

/-- The three layers' outputs side by side. -/
def concatK (h1 h2 h3 : (⟨S50000x256, .f32⟩ : BufTy).Contents (Elt F)) : (⟨S50000x768, .f32⟩ : BufTy).Contents (Elt F) :=
  concatenate S50000x768 1 [⟨S50000x256, h1⟩, ⟨S50000x256, h2⟩, ⟨S50000x256, h3⟩]
    concatenates_S50000x256_S50000x256_S50000x256_S50000x768_d1

/-! ## The layout maps -/

/-- A weight matrix's change of float format. -/
def wcast {S : Shape} (W : (⟨S, .f32⟩ : BufTy).Contents (Elt F)) : (⟨S, .bf16⟩ : BufTy).Contents (Elt F) := truncf .bf16 W bitsLt_bf16_f32

/-- 256 entries read as one row. -/
def brow256 (b : (⟨S256, .f32⟩ : BufTy).Contents (Elt F)) : (⟨S1x256, .f32⟩ : BufTy).Contents (Elt F) := shapeCast S1x256 b shapeCasts_S256_S1x256
/-- 768 entries read as one row. -/
def brow768 (b : (⟨S768, .f32⟩ : BufTy).Contents (Elt F)) : (⟨S1x768, .f32⟩ : BufTy).Contents (Elt F) := shapeCast S1x768 b shapeCasts_S768_S1x768
/-- 2 entries read as one row. -/
def brow2 (b : (⟨S2, .f32⟩ : BufTy).Contents (Elt F)) : (⟨S1x2, .f32⟩ : BufTy).Contents (Elt F) := shapeCast S1x2 b shapeCasts_S2_S1x2

/-! ## The layout maps at an index, on extended reals -/

/-- The change of float format is the identity on extended reals. -/
theorem wcast_apply {S : Shape} (W : FVec Ideal S .f32) (i : S.Idx) : wcast (F := Ideal) W i = W i := rfl

theorem brow256_apply (b : FVec Ideal S256 .f32) (q : Fin 256) : brow256 (F := Ideal) b (ix2 (0 : Fin 1) q) = b (ix1 q) :=
  shapeCast_a_1a_apply b shapeCasts_S256_S1x256 0 q
theorem brow768_apply (b : FVec Ideal S768 .f32) (q : Fin 768) : brow768 (F := Ideal) b (ix2 (0 : Fin 1) q) = b (ix1 q) :=
  shapeCast_a_1a_apply b shapeCasts_S768_S1x768 0 q
theorem brow2_apply (b : FVec Ideal S2 .f32) (q : Fin 2) : brow2 (F := Ideal) b (ix2 (0 : Fin 1) q) = b (ix1 q) :=
  shapeCast_a_1a_apply b shapeCasts_S2_S1x2 0 q

end Cert.KernelIdeal.Calls

end
-- ==== Proof.KRead.Ops0.lean ====
/-
  The first stretch of host operations read at the arrays the first call's windows stage, from any contents `W` of the
  buffers before it: the aggregate of the features over the edge list, the first weight matrix in the narrower float
  format, the first bias as a row; and the two halves of the edge index, which later stretches read again.
-/
import proofs.«121371_j46033459478999_1_alg».proof.Proof.Gen.KernelIdeal.Launch
import proofs.«121371_j46033459478999_1_alg».proof.Proof.KRead.Stages
import Idealize.ShloMosaic.Lib.StableHlo.Run

set_option maxHeartbeats 1000000

noncomputable section

namespace Cert.KernelIdeal.Calls

open Cert.KernelIdeal Cert.KernelIdeal.Gen
open Idealize.ShloMosaic Idealize.ShloMosaic.TcCoe Idealize.ShloMosaic.StableHlo

variable {F : FTy → Type} [FloatOps F] (W : Valuation τ sig (Elt F))
/-- The edges' sources. -/
theorem ops0_v1 : StableHlo.after hostOps0 W main_v1 = srcK (W main_arg1) := by
  dsimp only [hostOps0]
  after_results_simp <;> rfl
/-- The edges' destinations. -/
theorem ops0_v3 : StableHlo.after hostOps0 W main_v3 = dstK (W main_arg1) := by
  dsimp only [hostOps0]
  after_results_simp <;> rfl
/-- The aggregate of the features. -/
theorem ops0_v13 : StableHlo.after hostOps0 W main_v13 = aggK128 (W main_arg0) (W main_arg1) := by
  dsimp only [hostOps0]
  after_results_simp <;> rfl
/-- The first weight matrix, narrowed. -/
theorem ops0_v14 : StableHlo.after hostOps0 W main_v14 = wcast (W main_arg2) := by
  dsimp only [hostOps0]
  after_results_simp <;> rfl
/-- The first bias as a row. -/
theorem ops0_v15 : StableHlo.after hostOps0 W main_v15 = brow256 (W main_arg3) := by
  dsimp only [hostOps0]
  after_results_simp <;> rfl

end Cert.KernelIdeal.Calls

end
-- ==== Proof.KRead.At1.lean ====
/-
  What the first call's windows find in their arrays: the features as launched, their aggregate over the edge list, the
  first weight matrix narrowed, the first bias as a row.
-/
import proofs.«121371_j46033459478999_1_alg».proof.Proof.KRead.Keep
import proofs.«121371_j46033459478999_1_alg».proof.Proof.KRead.Ops0

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The features are as launched. -/
theorem U1_arg0 : U1 m c main_arg0 = m (c, Proc.devRef .tc main_arg0) :=
  U1_of m c main_arg0 (by decide)
/-- The aggregate of the features. -/
theorem U1_v13 : U1 m c main_v13 = aggK128 (m (c, Proc.devRef .tc main_arg0)) (m (c, Proc.devRef .tc main_arg1)) :=
  ops0_v13 (V0 m c)
/-- The first weight matrix, narrowed. -/
theorem U1_v14 : U1 m c main_v14 = wcast (m (c, Proc.devRef .tc main_arg2)) :=
  ops0_v14 (V0 m c)
/-- The first bias as a row. -/
theorem U1_v15 : U1 m c main_v15 = brow256 (m (c, Proc.devRef .tc main_arg3)) :=
  ops0_v15 (V0 m c)
/-- The edges' sources. -/
theorem U1_v1 : U1 m c main_v1 = srcK (m (c, Proc.devRef .tc main_arg1)) :=
  ops0_v1 (V0 m c)
/-- The edges' destinations. -/
theorem U1_v3 : U1 m c main_v3 = dstK (m (c, Proc.devRef .tc main_arg1)) :=
  ops0_v3 (V0 m c)

end Cert.KernelIdeal.Calls

end
-- ==== Proof.KRead.Ops1.lean ====
/-
  The three stretches of host operations before call 1, read at the arrays that call's windows stage, from any
  contents `W` of the buffers before each stretch: the column means and the column variances of the previous call's
  output, each as a row; the scale, the shift and the second bias as rows; the second weight matrix in the narrower float
  format.
-/
import proofs.«121371_j46033459478999_1_alg».proof.Proof.Gen.KernelIdeal.Launch
import proofs.«121371_j46033459478999_1_alg».proof.Proof.KRead.Stages
import Idealize.ShloMosaic.Lib.StableHlo.Run

set_option maxHeartbeats 1000000

noncomputable section

namespace Cert.KernelIdeal.Calls

open Cert.KernelIdeal Cert.KernelIdeal.Gen
open Idealize.ShloMosaic Idealize.ShloMosaic.TcCoe Idealize.ShloMosaic.StableHlo

variable {F : FTy → Type} [FloatOps F] (W : Valuation τ sig (Elt F))
/-- The column means of call 0's output. -/
theorem ops1_v19 : StableHlo.after hostOps1 W main_v19 = meanK (W main_v16) := by
  dsimp only [hostOps1]
  after_results_simp <;> rfl
/-- The variance's correction: zero. -/
theorem ops1_c_3 : StableHlo.after hostOps1 W main_c_3 = constantI S_ 32 0#32 := by
  dsimp only [hostOps1]
  after_results_simp <;> rfl
/-- The column variances of call 0's output, at the correction found in the buffers. -/
theorem ops1_1_v20 : StableHlo.after hostOps1_1 W main_v20 = varOf (W main_v16) (W main_c_3) := by
  dsimp only [hostOps1_1]
  after_results_simp <;> rfl
/-- The second weight matrix, narrowed. -/
theorem ops1_2_v21 : StableHlo.after hostOps1_2 W main_v21 = wcast (W main_arg6) := by
  dsimp only [hostOps1_2]
  after_results_simp <;> rfl
/-- The means as a row. -/
theorem ops1_2_v22 : StableHlo.after hostOps1_2 W main_v22 = brow256 (W main_v19) := by
  dsimp only [hostOps1_2]
  after_results_simp <;> rfl
/-- The variances as a row. -/
theorem ops1_2_v23 : StableHlo.after hostOps1_2 W main_v23 = brow256 (W main_v20) := by
  dsimp only [hostOps1_2]
  after_results_simp <;> rfl
/-- The scale as a row. -/
theorem ops1_2_v24 : StableHlo.after hostOps1_2 W main_v24 = brow256 (W main_arg4) := by
  dsimp only [hostOps1_2]
  after_results_simp <;> rfl
/-- The shift as a row. -/
theorem ops1_2_v25 : StableHlo.after hostOps1_2 W main_v25 = brow256 (W main_arg5) := by
  dsimp only [hostOps1_2]
  after_results_simp <;> rfl
/-- The second bias as a row. -/
theorem ops1_2_v26 : StableHlo.after hostOps1_2 W main_v26 = brow256 (W main_arg7) := by
  dsimp only [hostOps1_2]
  after_results_simp <;> rfl

end Cert.KernelIdeal.Calls

end
-- ==== Proof.KRead.At5.lean ====
/-
  What call 1's windows find in their arrays: the previous call's output, its column means and column variances as
  rows, the scale, the shift and the second bias as launched, as rows, and the second weight matrix as launched, narrowed.
-/
import proofs.«121371_j46033459478999_1_alg».proof.Proof.KRead.Keep
import proofs.«121371_j46033459478999_1_alg».proof.Proof.KRead.Ops1

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The previous call's output. -/
theorem U5_v16 : U5 m c main_v16 = res0_4 m c :=
  ((U5_of m c main_v16 (by decide)).trans ((U4_of m c main_v16 (by decide)).trans ((U3_of m c main_v16 (by decide)).trans (U2_self m c))))
/-- Its column means as a row. -/
theorem U5_v22 : U5 m c main_v22 = brow256 (meanK (res0_4 m c)) :=
  (ops1_2_v22 (U4 m c)).trans (congrArg brow256 ((U4_of m c main_v19 (by decide)).trans ((ops1_v19 (U2 m c)).trans (congrArg meanK (U2_self m c)))))
/-- Its column variances as a row. -/
theorem U5_v23 : U5 m c main_v23 = brow256 (varK (res0_4 m c)) :=
  (ops1_2_v23 (U4 m c)).trans (congrArg brow256 ((ops1_1_v20 (U3 m c)).trans
      (congrArg₂ varOf ((U3_of m c main_v16 (by decide)).trans (U2_self m c)) (ops1_c_3 (U2 m c)))))
/-- The scale as a row. -/
theorem U5_v24 : U5 m c main_v24 = brow256 (m (c, Proc.devRef .tc main_arg4)) :=
  (ops1_2_v24 (U4 m c)).trans (congrArg brow256 ((U4_of m c main_arg4 (by decide)).trans ((U3_of m c main_arg4 (by decide)).trans ((U2_of m c main_arg4 (by decide)).trans (U1_of m c main_arg4 (by decide))))))
/-- The shift as a row. -/
theorem U5_v25 : U5 m c main_v25 = brow256 (m (c, Proc.devRef .tc main_arg5)) :=
  (ops1_2_v25 (U4 m c)).trans (congrArg brow256 ((U4_of m c main_arg5 (by decide)).trans ((U3_of m c main_arg5 (by decide)).trans ((U2_of m c main_arg5 (by decide)).trans (U1_of m c main_arg5 (by decide))))))
/-- The second weight matrix, narrowed. -/
theorem U5_v21 : U5 m c main_v21 = wcast (m (c, Proc.devRef .tc main_arg6)) :=
  (ops1_2_v21 (U4 m c)).trans (congrArg wcast ((U4_of m c main_arg6 (by decide)).trans ((U3_of m c main_arg6 (by decide)).trans ((U2_of m c main_arg6 (by decide)).trans (U1_of m c main_arg6 (by decide))))))
/-- The second bias as a row. -/
theorem U5_v26 : U5 m c main_v26 = brow256 (m (c, Proc.devRef .tc main_arg7)) :=
  (ops1_2_v26 (U4 m c)).trans (congrArg brow256 ((U4_of m c main_arg7 (by decide)).trans ((U3_of m c main_arg7 (by decide)).trans ((U2_of m c main_arg7 (by decide)).trans (U1_of m c main_arg7 (by decide))))))

end Cert.KernelIdeal.Calls

end
-- ==== Proof.KRead.Ops2.lean ====
/-
  The stretch of host operations before call 2, read at the arrays that call's windows stage, from any contents `W` of
  the buffers before it: the aggregate of the previous layer's output over the edge list (the two halves of the edge index
  as the first stretch left them), the next weight matrix in the narrower float format, the next bias as a row.
-/
import proofs.«121371_j46033459478999_1_alg».proof.Proof.Gen.KernelIdeal.Launch
import proofs.«121371_j46033459478999_1_alg».proof.Proof.KRead.Stages
import Idealize.ShloMosaic.Lib.StableHlo.Run

set_option maxHeartbeats 1000000

noncomputable section

namespace Cert.KernelIdeal.Calls

open Cert.KernelIdeal Cert.KernelIdeal.Gen
open Idealize.ShloMosaic Idealize.ShloMosaic.TcCoe Idealize.ShloMosaic.StableHlo

variable {F : FTy → Type} [FloatOps F] (W : Valuation τ sig (Elt F))
/-- The aggregate of the previous layer's output. -/
theorem ops2_v37 : StableHlo.after hostOps2 W main_v37 = aggOf256 (W main_v27) (W main_v1) (W main_v3) := by
  dsimp only [hostOps2]
  after_results_simp <;> rfl
/-- The weight matrix, narrowed. -/
theorem ops2_v38 : StableHlo.after hostOps2 W main_v38 = wcast (W main_arg8) := by
  dsimp only [hostOps2]
  after_results_simp <;> rfl
/-- The bias as a row. -/
theorem ops2_v39 : StableHlo.after hostOps2 W main_v39 = brow256 (W main_arg9) := by
  dsimp only [hostOps2]
  after_results_simp <;> rfl

end Cert.KernelIdeal.Calls

end
-- ==== Proof.KRead.At7.lean ====
/-
  What call 2's windows find in their arrays: the previous call's output, its aggregate over the edge list (the edge
  index as launched), the next weight matrix as launched, narrowed, and the next bias as launched, as a row.
-/
import proofs.«121371_j46033459478999_1_alg».proof.Proof.KRead.Keep
import proofs.«121371_j46033459478999_1_alg».proof.Proof.KRead.Ops2
import proofs.«121371_j46033459478999_1_alg».proof.Proof.KRead.Ops0

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

private theorem congr3 {α β γ δ : Sort _} (f : α → β → γ → δ) {a a' : α} {b b' : β} {e e' : γ} (ha : a = a') (hb : b = b')
    (he : e = e') : f a b e = f a' b' e' := by subst ha hb he; rfl

/-- The previous call's output. -/
theorem U7_v27 : U7 m c main_v27 = res1_7 m c :=
  ((U7_of m c main_v27 (by decide)).trans (U6_self m c))
/-- Its aggregate over the edge list. -/
theorem U7_v37 : U7 m c main_v37 = aggK256 (res1_7 m c) (m (c, Proc.devRef .tc main_arg1)) :=
  (ops2_v37 (U6 m c)).trans (congr3 aggOf256 (U6_self m c)
      ((U6_of m c main_v1 (by decide)).trans ((U5_of m c main_v1 (by decide)).trans ((U4_of m c main_v1 (by decide)).trans ((U3_of m c main_v1 (by decide)).trans ((U2_of m c main_v1 (by decide)).trans (ops0_v1 (V0 m c)))))))
      ((U6_of m c main_v3 (by decide)).trans ((U5_of m c main_v3 (by decide)).trans ((U4_of m c main_v3 (by decide)).trans ((U3_of m c main_v3 (by decide)).trans ((U2_of m c main_v3 (by decide)).trans (ops0_v3 (V0 m c))))))))
/-- The weight matrix, narrowed. -/
theorem U7_v38 : U7 m c main_v38 = wcast (m (c, Proc.devRef .tc main_arg8)) :=
  (ops2_v38 (U6 m c)).trans (congrArg wcast ((U6_of m c main_arg8 (by decide)).trans ((U5_of m c main_arg8 (by decide)).trans ((U4_of m c main_arg8 (by decide)).trans ((U3_of m c main_arg8 (by decide)).trans ((U2_of m c main_arg8 (by decide)).trans (U1_of m c main_arg8 (by decide))))))))
/-- The bias as a row. -/
theorem U7_v39 : U7 m c main_v39 = brow256 (m (c, Proc.devRef .tc main_arg9)) :=
  (ops2_v39 (U6 m c)).trans (congrArg brow256 ((U6_of m c main_arg9 (by decide)).trans ((U5_of m c main_arg9 (by decide)).trans ((U4_of m c main_arg9 (by decide)).trans ((U3_of m c main_arg9 (by decide)).trans ((U2_of m c main_arg9 (by decide)).trans (U1_of m c main_arg9 (by decide))))))))

end Cert.KernelIdeal.Calls

end
-- ==== Proof.KRead.Ops3.lean ====
/-
  The three stretches of host operations before call 3, read at the arrays that call's windows stage, from any
  contents `W` of the buffers before each stretch: the column means and the column variances of the previous call's
  output, each as a row; the scale, the shift and the second bias as rows; the second weight matrix in the narrower float
  format.
-/
import proofs.«121371_j46033459478999_1_alg».proof.Proof.Gen.KernelIdeal.Launch
import proofs.«121371_j46033459478999_1_alg».proof.Proof.KRead.Stages
import Idealize.ShloMosaic.Lib.StableHlo.Run

set_option maxHeartbeats 1000000

noncomputable section

namespace Cert.KernelIdeal.Calls

open Cert.KernelIdeal Cert.KernelIdeal.Gen
open Idealize.ShloMosaic Idealize.ShloMosaic.TcCoe Idealize.ShloMosaic.StableHlo

variable {F : FTy → Type} [FloatOps F] (W : Valuation τ sig (Elt F))
/-- The column means of call 2's output. -/
theorem ops3_v43 : StableHlo.after hostOps3 W main_v43 = meanK (W main_v40) := by
  dsimp only [hostOps3]
  after_results_simp <;> rfl
/-- The variance's correction: zero. -/
theorem ops3_c_9 : StableHlo.after hostOps3 W main_c_9 = constantI S_ 32 0#32 := by
  dsimp only [hostOps3]
  after_results_simp <;> rfl
/-- The column variances of call 2's output, at the correction found in the buffers. -/
theorem ops3_1_v44 : StableHlo.after hostOps3_1 W main_v44 = varOf (W main_v40) (W main_c_9) := by
  dsimp only [hostOps3_1]
  after_results_simp <;> rfl
/-- The second weight matrix, narrowed. -/
theorem ops3_2_v45 : StableHlo.after hostOps3_2 W main_v45 = wcast (W main_arg12) := by
  dsimp only [hostOps3_2]
  after_results_simp <;> rfl
/-- The means as a row. -/
theorem ops3_2_v46 : StableHlo.after hostOps3_2 W main_v46 = brow256 (W main_v43) := by
  dsimp only [hostOps3_2]
  after_results_simp <;> rfl
/-- The variances as a row. -/
theorem ops3_2_v47 : StableHlo.after hostOps3_2 W main_v47 = brow256 (W main_v44) := by
  dsimp only [hostOps3_2]
  after_results_simp <;> rfl
/-- The scale as a row. -/
theorem ops3_2_v48 : StableHlo.after hostOps3_2 W main_v48 = brow256 (W main_arg10) := by
  dsimp only [hostOps3_2]
  after_results_simp <;> rfl
/-- The shift as a row. -/
theorem ops3_2_v49 : StableHlo.after hostOps3_2 W main_v49 = brow256 (W main_arg11) := by
  dsimp only [hostOps3_2]
  after_results_simp <;> rfl
/-- The second bias as a row. -/
theorem ops3_2_v50 : StableHlo.after hostOps3_2 W main_v50 = brow256 (W main_arg13) := by
  dsimp only [hostOps3_2]
  after_results_simp <;> rfl

end Cert.KernelIdeal.Calls

end
-- ==== Proof.KRead.At11.lean ====
/-
  What call 3's windows find in their arrays: the previous call's output, its column means and column variances as
  rows, the scale, the shift and the second bias as launched, as rows, and the second weight matrix as launched, narrowed.
-/
import proofs.«121371_j46033459478999_1_alg».proof.Proof.KRead.Keep
import proofs.«121371_j46033459478999_1_alg».proof.Proof.KRead.Ops3

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The previous call's output. -/
theorem U11_v40 : U11 m c main_v40 = res2_4 m c :=
  ((U11_of m c main_v40 (by decide)).trans ((U10_of m c main_v40 (by decide)).trans ((U9_of m c main_v40 (by decide)).trans (U8_self m c))))
/-- Its column means as a row. -/
theorem U11_v46 : U11 m c main_v46 = brow256 (meanK (res2_4 m c)) :=
  (ops3_2_v46 (U10 m c)).trans (congrArg brow256 ((U10_of m c main_v43 (by decide)).trans ((ops3_v43 (U8 m c)).trans (congrArg meanK (U8_self m c)))))
/-- Its column variances as a row. -/
theorem U11_v47 : U11 m c main_v47 = brow256 (varK (res2_4 m c)) :=
  (ops3_2_v47 (U10 m c)).trans (congrArg brow256 ((ops3_1_v44 (U9 m c)).trans
      (congrArg₂ varOf ((U9_of m c main_v40 (by decide)).trans (U8_self m c)) (ops3_c_9 (U8 m c)))))
/-- The scale as a row. -/
theorem U11_v48 : U11 m c main_v48 = brow256 (m (c, Proc.devRef .tc main_arg10)) :=
  (ops3_2_v48 (U10 m c)).trans (congrArg brow256 ((U10_of m c main_arg10 (by decide)).trans ((U9_of m c main_arg10 (by decide)).trans ((U8_of m c main_arg10 (by decide)).trans ((U7_of m c main_arg10 (by decide)).trans ((U6_of m c main_arg10 (by decide)).trans ((U5_of m c main_arg10 (by decide)).trans ((U4_of m c main_arg10 (by decide)).trans ((U3_of m c main_arg10 (by decide)).trans ((U2_of m c main_arg10 (by decide)).trans (U1_of m c main_arg10 (by decide))))))))))))
/-- The shift as a row. -/
theorem U11_v49 : U11 m c main_v49 = brow256 (m (c, Proc.devRef .tc main_arg11)) :=
  (ops3_2_v49 (U10 m c)).trans (congrArg brow256 ((U10_of m c main_arg11 (by decide)).trans ((U9_of m c main_arg11 (by decide)).trans ((U8_of m c main_arg11 (by decide)).trans ((U7_of m c main_arg11 (by decide)).trans ((U6_of m c main_arg11 (by decide)).trans ((U5_of m c main_arg11 (by decide)).trans ((U4_of m c main_arg11 (by decide)).trans ((U3_of m c main_arg11 (by decide)).trans ((U2_of m c main_arg11 (by decide)).trans (U1_of m c main_arg11 (by decide))))))))))))
/-- The second weight matrix, narrowed. -/
theorem U11_v45 : U11 m c main_v45 = wcast (m (c, Proc.devRef .tc main_arg12)) :=
  (ops3_2_v45 (U10 m c)).trans (congrArg wcast ((U10_of m c main_arg12 (by decide)).trans ((U9_of m c main_arg12 (by decide)).trans ((U8_of m c main_arg12 (by decide)).trans ((U7_of m c main_arg12 (by decide)).trans ((U6_of m c main_arg12 (by decide)).trans ((U5_of m c main_arg12 (by decide)).trans ((U4_of m c main_arg12 (by decide)).trans ((U3_of m c main_arg12 (by decide)).trans ((U2_of m c main_arg12 (by decide)).trans (U1_of m c main_arg12 (by decide))))))))))))
/-- The second bias as a row. -/
theorem U11_v50 : U11 m c main_v50 = brow256 (m (c, Proc.devRef .tc main_arg13)) :=
  (ops3_2_v50 (U10 m c)).trans (congrArg brow256 ((U10_of m c main_arg13 (by decide)).trans ((U9_of m c main_arg13 (by decide)).trans ((U8_of m c main_arg13 (by decide)).trans ((U7_of m c main_arg13 (by decide)).trans ((U6_of m c main_arg13 (by decide)).trans ((U5_of m c main_arg13 (by decide)).trans ((U4_of m c main_arg13 (by decide)).trans ((U3_of m c main_arg13 (by decide)).trans ((U2_of m c main_arg13 (by decide)).trans (U1_of m c main_arg13 (by decide))))))))))))

end Cert.KernelIdeal.Calls

end
-- ==== Proof.KRead.Ops4.lean ====
/-
  The stretch of host operations before call 4, read at the arrays that call's windows stage, from any contents `W` of
  the buffers before it: the aggregate of the previous layer's output over the edge list (the two halves of the edge index
  as the first stretch left them), the next weight matrix in the narrower float format, the next bias as a row.
-/
import proofs.«121371_j46033459478999_1_alg».proof.Proof.Gen.KernelIdeal.Launch
import proofs.«121371_j46033459478999_1_alg».proof.Proof.KRead.Stages
import Idealize.ShloMosaic.Lib.StableHlo.Run

set_option maxHeartbeats 1000000

noncomputable section

namespace Cert.KernelIdeal.Calls

open Cert.KernelIdeal Cert.KernelIdeal.Gen
open Idealize.ShloMosaic Idealize.ShloMosaic.TcCoe Idealize.ShloMosaic.StableHlo

variable {F : FTy → Type} [FloatOps F] (W : Valuation τ sig (Elt F))
/-- The aggregate of the previous layer's output. -/
theorem ops4_v61 : StableHlo.after hostOps4 W main_v61 = aggOf256 (W main_v51) (W main_v1) (W main_v3) := by
  dsimp only [hostOps4]
  after_results_simp <;> rfl
/-- The weight matrix, narrowed. -/
theorem ops4_v62 : StableHlo.after hostOps4 W main_v62 = wcast (W main_arg14) := by
  dsimp only [hostOps4]
  after_results_simp <;> rfl
/-- The bias as a row. -/
theorem ops4_v63 : StableHlo.after hostOps4 W main_v63 = brow256 (W main_arg15) := by
  dsimp only [hostOps4]
  after_results_simp <;> rfl

end Cert.KernelIdeal.Calls

end
-- ==== Proof.KRead.At13.lean ====
/-
  What call 4's windows find in their arrays: the previous call's output, its aggregate over the edge list (the edge
  index as launched), the next weight matrix as launched, narrowed, and the next bias as launched, as a row.
-/
import proofs.«121371_j46033459478999_1_alg».proof.Proof.KRead.Keep
import proofs.«121371_j46033459478999_1_alg».proof.Proof.KRead.Ops4
import proofs.«121371_j46033459478999_1_alg».proof.Proof.KRead.Ops0

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

private theorem congr3 {α β γ δ : Sort _} (f : α → β → γ → δ) {a a' : α} {b b' : β} {e e' : γ} (ha : a = a') (hb : b = b')
    (he : e = e') : f a b e = f a' b' e' := by subst ha hb he; rfl

/-- The previous call's output. -/
theorem U13_v51 : U13 m c main_v51 = res3_7 m c :=
  ((U13_of m c main_v51 (by decide)).trans (U12_self m c))
/-- Its aggregate over the edge list. -/
theorem U13_v61 : U13 m c main_v61 = aggK256 (res3_7 m c) (m (c, Proc.devRef .tc main_arg1)) :=
  (ops4_v61 (U12 m c)).trans (congr3 aggOf256 (U12_self m c)
      ((U12_of m c main_v1 (by decide)).trans ((U11_of m c main_v1 (by decide)).trans ((U10_of m c main_v1 (by decide)).trans ((U9_of m c main_v1 (by decide)).trans ((U8_of m c main_v1 (by decide)).trans ((U7_of m c main_v1 (by decide)).trans ((U6_of m c main_v1 (by decide)).trans ((U5_of m c main_v1 (by decide)).trans ((U4_of m c main_v1 (by decide)).trans ((U3_of m c main_v1 (by decide)).trans ((U2_of m c main_v1 (by decide)).trans (ops0_v1 (V0 m c)))))))))))))
      ((U12_of m c main_v3 (by decide)).trans ((U11_of m c main_v3 (by decide)).trans ((U10_of m c main_v3 (by decide)).trans ((U9_of m c main_v3 (by decide)).trans ((U8_of m c main_v3 (by decide)).trans ((U7_of m c main_v3 (by decide)).trans ((U6_of m c main_v3 (by decide)).trans ((U5_of m c main_v3 (by decide)).trans ((U4_of m c main_v3 (by decide)).trans ((U3_of m c main_v3 (by decide)).trans ((U2_of m c main_v3 (by decide)).trans (ops0_v3 (V0 m c))))))))))))))
/-- The weight matrix, narrowed. -/
theorem U13_v62 : U13 m c main_v62 = wcast (m (c, Proc.devRef .tc main_arg14)) :=
  (ops4_v62 (U12 m c)).trans (congrArg wcast ((U12_of m c main_arg14 (by decide)).trans ((U11_of m c main_arg14 (by decide)).trans ((U10_of m c main_arg14 (by decide)).trans ((U9_of m c main_arg14 (by decide)).trans ((U8_of m c main_arg14 (by decide)).trans ((U7_of m c main_arg14 (by decide)).trans ((U6_of m c main_arg14 (by decide)).trans ((U5_of m c main_arg14 (by decide)).trans ((U4_of m c main_arg14 (by decide)).trans ((U3_of m c main_arg14 (by decide)).trans ((U2_of m c main_arg14 (by decide)).trans (U1_of m c main_arg14 (by decide))))))))))))))
/-- The bias as a row. -/
theorem U13_v63 : U13 m c main_v63 = brow256 (m (c, Proc.devRef .tc main_arg15)) :=
  (ops4_v63 (U12 m c)).trans (congrArg brow256 ((U12_of m c main_arg15 (by decide)).trans ((U11_of m c main_arg15 (by decide)).trans ((U10_of m c main_arg15 (by decide)).trans ((U9_of m c main_arg15 (by decide)).trans ((U8_of m c main_arg15 (by decide)).trans ((U7_of m c main_arg15 (by decide)).trans ((U6_of m c main_arg15 (by decide)).trans ((U5_of m c main_arg15 (by decide)).trans ((U4_of m c main_arg15 (by decide)).trans ((U3_of m c main_arg15 (by decide)).trans ((U2_of m c main_arg15 (by decide)).trans (U1_of m c main_arg15 (by decide))))))))))))))

end Cert.KernelIdeal.Calls

end
-- ==== Proof.KRead.Ops5.lean ====
/-
  The three stretches of host operations before call 5, read at the arrays that call's windows stage, from any
  contents `W` of the buffers before each stretch: the column means and the column variances of the previous call's
  output, each as a row; the scale, the shift and the second bias as rows; the second weight matrix in the narrower float
  format.
-/
import proofs.«121371_j46033459478999_1_alg».proof.Proof.Gen.KernelIdeal.Launch
import proofs.«121371_j46033459478999_1_alg».proof.Proof.KRead.Stages
import Idealize.ShloMosaic.Lib.StableHlo.Run

set_option maxHeartbeats 1000000

noncomputable section

namespace Cert.KernelIdeal.Calls

open Cert.KernelIdeal Cert.KernelIdeal.Gen
open Idealize.ShloMosaic Idealize.ShloMosaic.TcCoe Idealize.ShloMosaic.StableHlo

variable {F : FTy → Type} [FloatOps F] (W : Valuation τ sig (Elt F))
/-- The column means of call 4's output. -/
theorem ops5_v67 : StableHlo.after hostOps5 W main_v67 = meanK (W main_v64) := by
  dsimp only [hostOps5]
  after_results_simp <;> rfl
/-- The variance's correction: zero. -/
theorem ops5_c_15 : StableHlo.after hostOps5 W main_c_15 = constantI S_ 32 0#32 := by
  dsimp only [hostOps5]
  after_results_simp <;> rfl
/-- The column variances of call 4's output, at the correction found in the buffers. -/
theorem ops5_1_v68 : StableHlo.after hostOps5_1 W main_v68 = varOf (W main_v64) (W main_c_15) := by
  dsimp only [hostOps5_1]
  after_results_simp <;> rfl
/-- The second weight matrix, narrowed. -/
theorem ops5_2_v69 : StableHlo.after hostOps5_2 W main_v69 = wcast (W main_arg18) := by
  dsimp only [hostOps5_2]
  after_results_simp <;> rfl
/-- The means as a row. -/
theorem ops5_2_v70 : StableHlo.after hostOps5_2 W main_v70 = brow256 (W main_v67) := by
  dsimp only [hostOps5_2]
  after_results_simp <;> rfl
/-- The variances as a row. -/
theorem ops5_2_v71 : StableHlo.after hostOps5_2 W main_v71 = brow256 (W main_v68) := by
  dsimp only [hostOps5_2]
  after_results_simp <;> rfl
/-- The scale as a row. -/
theorem ops5_2_v72 : StableHlo.after hostOps5_2 W main_v72 = brow256 (W main_arg16) := by
  dsimp only [hostOps5_2]
  after_results_simp <;> rfl
/-- The shift as a row. -/
theorem ops5_2_v73 : StableHlo.after hostOps5_2 W main_v73 = brow256 (W main_arg17) := by
  dsimp only [hostOps5_2]
  after_results_simp <;> rfl
/-- The second bias as a row. -/
theorem ops5_2_v74 : StableHlo.after hostOps5_2 W main_v74 = brow256 (W main_arg19) := by
  dsimp only [hostOps5_2]
  after_results_simp <;> rfl

end Cert.KernelIdeal.Calls

end
-- ==== Proof.KRead.At17.lean ====
/-
  What call 5's windows find in their arrays: the previous call's output, its column means and column variances as
  rows, the scale, the shift and the second bias as launched, as rows, and the second weight matrix as launched, narrowed.
-/
import proofs.«121371_j46033459478999_1_alg».proof.Proof.KRead.Keep
import proofs.«121371_j46033459478999_1_alg».proof.Proof.KRead.Ops5

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The previous call's output. -/
theorem U17_v64 : U17 m c main_v64 = res4_4 m c :=
  ((U17_of m c main_v64 (by decide)).trans ((U16_of m c main_v64 (by decide)).trans ((U15_of m c main_v64 (by decide)).trans (U14_self m c))))
/-- Its column means as a row. -/
theorem U17_v70 : U17 m c main_v70 = brow256 (meanK (res4_4 m c)) :=
  (ops5_2_v70 (U16 m c)).trans (congrArg brow256 ((U16_of m c main_v67 (by decide)).trans ((ops5_v67 (U14 m c)).trans (congrArg meanK (U14_self m c)))))
/-- Its column variances as a row. -/
theorem U17_v71 : U17 m c main_v71 = brow256 (varK (res4_4 m c)) :=
  (ops5_2_v71 (U16 m c)).trans (congrArg brow256 ((ops5_1_v68 (U15 m c)).trans
      (congrArg₂ varOf ((U15_of m c main_v64 (by decide)).trans (U14_self m c)) (ops5_c_15 (U14 m c)))))
/-- The scale as a row. -/
theorem U17_v72 : U17 m c main_v72 = brow256 (m (c, Proc.devRef .tc main_arg16)) :=
  (ops5_2_v72 (U16 m c)).trans (congrArg brow256 ((U16_of m c main_arg16 (by decide)).trans ((U15_of m c main_arg16 (by decide)).trans ((U14_of m c main_arg16 (by decide)).trans ((U13_of m c main_arg16 (by decide)).trans ((U12_of m c main_arg16 (by decide)).trans ((U11_of m c main_arg16 (by decide)).trans ((U10_of m c main_arg16 (by decide)).trans ((U9_of m c main_arg16 (by decide)).trans ((U8_of m c main_arg16 (by decide)).trans ((U7_of m c main_arg16 (by decide)).trans ((U6_of m c main_arg16 (by decide)).trans ((U5_of m c main_arg16 (by decide)).trans ((U4_of m c main_arg16 (by decide)).trans ((U3_of m c main_arg16 (by decide)).trans ((U2_of m c main_arg16 (by decide)).trans (U1_of m c main_arg16 (by decide))))))))))))))))))
/-- The shift as a row. -/
theorem U17_v73 : U17 m c main_v73 = brow256 (m (c, Proc.devRef .tc main_arg17)) :=
  (ops5_2_v73 (U16 m c)).trans (congrArg brow256 ((U16_of m c main_arg17 (by decide)).trans ((U15_of m c main_arg17 (by decide)).trans ((U14_of m c main_arg17 (by decide)).trans ((U13_of m c main_arg17 (by decide)).trans ((U12_of m c main_arg17 (by decide)).trans ((U11_of m c main_arg17 (by decide)).trans ((U10_of m c main_arg17 (by decide)).trans ((U9_of m c main_arg17 (by decide)).trans ((U8_of m c main_arg17 (by decide)).trans ((U7_of m c main_arg17 (by decide)).trans ((U6_of m c main_arg17 (by decide)).trans ((U5_of m c main_arg17 (by decide)).trans ((U4_of m c main_arg17 (by decide)).trans ((U3_of m c main_arg17 (by decide)).trans ((U2_of m c main_arg17 (by decide)).trans (U1_of m c main_arg17 (by decide))))))))))))))))))
/-- The second weight matrix, narrowed. -/
theorem U17_v69 : U17 m c main_v69 = wcast (m (c, Proc.devRef .tc main_arg18)) :=
  (ops5_2_v69 (U16 m c)).trans (congrArg wcast ((U16_of m c main_arg18 (by decide)).trans ((U15_of m c main_arg18 (by decide)).trans ((U14_of m c main_arg18 (by decide)).trans ((U13_of m c main_arg18 (by decide)).trans ((U12_of m c main_arg18 (by decide)).trans ((U11_of m c main_arg18 (by decide)).trans ((U10_of m c main_arg18 (by decide)).trans ((U9_of m c main_arg18 (by decide)).trans ((U8_of m c main_arg18 (by decide)).trans ((U7_of m c main_arg18 (by decide)).trans ((U6_of m c main_arg18 (by decide)).trans ((U5_of m c main_arg18 (by decide)).trans ((U4_of m c main_arg18 (by decide)).trans ((U3_of m c main_arg18 (by decide)).trans ((U2_of m c main_arg18 (by decide)).trans (U1_of m c main_arg18 (by decide))))))))))))))))))
/-- The second bias as a row. -/
theorem U17_v74 : U17 m c main_v74 = brow256 (m (c, Proc.devRef .tc main_arg19)) :=
  (ops5_2_v74 (U16 m c)).trans (congrArg brow256 ((U16_of m c main_arg19 (by decide)).trans ((U15_of m c main_arg19 (by decide)).trans ((U14_of m c main_arg19 (by decide)).trans ((U13_of m c main_arg19 (by decide)).trans ((U12_of m c main_arg19 (by decide)).trans ((U11_of m c main_arg19 (by decide)).trans ((U10_of m c main_arg19 (by decide)).trans ((U9_of m c main_arg19 (by decide)).trans ((U8_of m c main_arg19 (by decide)).trans ((U7_of m c main_arg19 (by decide)).trans ((U6_of m c main_arg19 (by decide)).trans ((U5_of m c main_arg19 (by decide)).trans ((U4_of m c main_arg19 (by decide)).trans ((U3_of m c main_arg19 (by decide)).trans ((U2_of m c main_arg19 (by decide)).trans (U1_of m c main_arg19 (by decide))))))))))))))))))

end Cert.KernelIdeal.Calls

end
-- ==== Proof.KRead.Ops6.lean ====
/-
  The last stretch of host operations, read at the arrays the readout call's windows stage, from any contents `W` of the
  buffers before it: the three layers' outputs side by side, the two readout weight matrices in the narrower float
  format, the two readout biases as rows.
-/
import proofs.«121371_j46033459478999_1_alg».proof.Proof.Gen.KernelIdeal.Launch
import proofs.«121371_j46033459478999_1_alg».proof.Proof.KRead.Stages
import Idealize.ShloMosaic.Lib.StableHlo.Run

set_option maxHeartbeats 1000000

noncomputable section

namespace Cert.KernelIdeal.Calls

open Cert.KernelIdeal Cert.KernelIdeal.Gen
open Idealize.ShloMosaic Idealize.ShloMosaic.TcCoe Idealize.ShloMosaic.StableHlo

variable {F : FTy → Type} [FloatOps F] (W : Valuation τ sig (Elt F))
/-- The three layers' outputs side by side. -/
theorem ops6_v76 : StableHlo.after hostOps6 W main_v76 = concatK (W main_v27) (W main_v51) (W main_v75) := by
  dsimp only [hostOps6]
  after_results_simp <;> rfl
/-- The first readout weight matrix, narrowed. -/
theorem ops6_v77 : StableHlo.after hostOps6 W main_v77 = wcast (W main_arg20) := by
  dsimp only [hostOps6]
  after_results_simp <;> rfl
/-- The second readout weight matrix, narrowed. -/
theorem ops6_v78 : StableHlo.after hostOps6 W main_v78 = wcast (W main_arg22) := by
  dsimp only [hostOps6]
  after_results_simp <;> rfl
/-- The first readout bias as a row. -/
theorem ops6_v79 : StableHlo.after hostOps6 W main_v79 = brow768 (W main_arg21) := by
  dsimp only [hostOps6]
  after_results_simp <;> rfl
/-- The second readout bias as a row. -/
theorem ops6_v80 : StableHlo.after hostOps6 W main_v80 = brow2 (W main_arg23) := by
  dsimp only [hostOps6]
  after_results_simp <;> rfl

end Cert.KernelIdeal.Calls

end
-- ==== Proof.KRead.At19.lean ====
/-
  What the readout call's windows find in their arrays: the three layers' outputs side by side, the two readout weight
  matrices as launched, narrowed, and the two readout biases as launched, as rows.
-/
import proofs.«121371_j46033459478999_1_alg».proof.Proof.KRead.Keep
import proofs.«121371_j46033459478999_1_alg».proof.Proof.KRead.Ops6

noncomputable section

namespace Cert.KernelIdeal.Calls

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

private theorem congr3 {α β γ δ : Sort _} (f : α → β → γ → δ) {a a' : α} {b b' : β} {e e' : γ} (ha : a = a') (hb : b = b')
    (he : e = e') : f a b e = f a' b' e' := by subst ha hb he; rfl

/-- The three layers' outputs side by side. -/
theorem U19_v76 : U19 m c main_v76 = concatK (res1_7 m c) (res3_7 m c) (res5_7 m c) :=
  (ops6_v76 (U18 m c)).trans (congr3 concatK
      ((U18_of m c main_v27 (by decide)).trans ((U17_of m c main_v27 (by decide)).trans ((U16_of m c main_v27 (by decide)).trans ((U15_of m c main_v27 (by decide)).trans ((U14_of m c main_v27 (by decide)).trans ((U13_of m c main_v27 (by decide)).trans ((U12_of m c main_v27 (by decide)).trans ((U11_of m c main_v27 (by decide)).trans ((U10_of m c main_v27 (by decide)).trans ((U9_of m c main_v27 (by decide)).trans ((U8_of m c main_v27 (by decide)).trans ((U7_of m c main_v27 (by decide)).trans (U6_self m c)))))))))))))
      ((U18_of m c main_v51 (by decide)).trans ((U17_of m c main_v51 (by decide)).trans ((U16_of m c main_v51 (by decide)).trans ((U15_of m c main_v51 (by decide)).trans ((U14_of m c main_v51 (by decide)).trans ((U13_of m c main_v51 (by decide)).trans (U12_self m c)))))))
      (U18_self m c))
/-- The first readout weight matrix, narrowed. -/
theorem U19_v77 : U19 m c main_v77 = wcast (m (c, Proc.devRef .tc main_arg20)) :=
  (ops6_v77 (U18 m c)).trans (congrArg wcast ((U18_of m c main_arg20 (by decide)).trans ((U17_of m c main_arg20 (by decide)).trans ((U16_of m c main_arg20 (by decide)).trans ((U15_of m c main_arg20 (by decide)).trans ((U14_of m c main_arg20 (by decide)).trans ((U13_of m c main_arg20 (by decide)).trans ((U12_of m c main_arg20 (by decide)).trans ((U11_of m c main_arg20 (by decide)).trans ((U10_of m c main_arg20 (by decide)).trans ((U9_of m c main_arg20 (by decide)).trans ((U8_of m c main_arg20 (by decide)).trans ((U7_of m c main_arg20 (by decide)).trans ((U6_of m c main_arg20 (by decide)).trans ((U5_of m c main_arg20 (by decide)).trans ((U4_of m c main_arg20 (by decide)).trans ((U3_of m c main_arg20 (by decide)).trans ((U2_of m c main_arg20 (by decide)).trans (U1_of m c main_arg20 (by decide))))))))))))))))))))
/-- The first readout bias as a row. -/
theorem U19_v79 : U19 m c main_v79 = brow768 (m (c, Proc.devRef .tc main_arg21)) :=
  (ops6_v79 (U18 m c)).trans (congrArg brow768 ((U18_of m c main_arg21 (by decide)).trans ((U17_of m c main_arg21 (by decide)).trans ((U16_of m c main_arg21 (by decide)).trans ((U15_of m c main_arg21 (by decide)).trans ((U14_of m c main_arg21 (by decide)).trans ((U13_of m c main_arg21 (by decide)).trans ((U12_of m c main_arg21 (by decide)).trans ((U11_of m c main_arg21 (by decide)).trans ((U10_of m c main_arg21 (by decide)).trans ((U9_of m c main_arg21 (by decide)).trans ((U8_of m c main_arg21 (by decide)).trans ((U7_of m c main_arg21 (by decide)).trans ((U6_of m c main_arg21 (by decide)).trans ((U5_of m c main_arg21 (by decide)).trans ((U4_of m c main_arg21 (by decide)).trans ((U3_of m c main_arg21 (by decide)).trans ((U2_of m c main_arg21 (by decide)).trans (U1_of m c main_arg21 (by decide))))))))))))))))))))
/-- The second readout weight matrix, narrowed. -/
theorem U19_v78 : U19 m c main_v78 = wcast (m (c, Proc.devRef .tc main_arg22)) :=
  (ops6_v78 (U18 m c)).trans (congrArg wcast ((U18_of m c main_arg22 (by decide)).trans ((U17_of m c main_arg22 (by decide)).trans ((U16_of m c main_arg22 (by decide)).trans ((U15_of m c main_arg22 (by decide)).trans ((U14_of m c main_arg22 (by decide)).trans ((U13_of m c main_arg22 (by decide)).trans ((U12_of m c main_arg22 (by decide)).trans ((U11_of m c main_arg22 (by decide)).trans ((U10_of m c main_arg22 (by decide)).trans ((U9_of m c main_arg22 (by decide)).trans ((U8_of m c main_arg22 (by decide)).trans ((U7_of m c main_arg22 (by decide)).trans ((U6_of m c main_arg22 (by decide)).trans ((U5_of m c main_arg22 (by decide)).trans ((U4_of m c main_arg22 (by decide)).trans ((U3_of m c main_arg22 (by decide)).trans ((U2_of m c main_arg22 (by decide)).trans (U1_of m c main_arg22 (by decide))))))))))))))))))))
/-- The second readout bias as a row. -/
theorem U19_v80 : U19 m c main_v80 = brow2 (m (c, Proc.devRef .tc main_arg23)) :=
  (ops6_v80 (U18 m c)).trans (congrArg brow2 ((U18_of m c main_arg23 (by decide)).trans ((U17_of m c main_arg23 (by decide)).trans ((U16_of m c main_arg23 (by decide)).trans ((U15_of m c main_arg23 (by decide)).trans ((U14_of m c main_arg23 (by decide)).trans ((U13_of m c main_arg23 (by decide)).trans ((U12_of m c main_arg23 (by decide)).trans ((U11_of m c main_arg23 (by decide)).trans ((U10_of m c main_arg23 (by decide)).trans ((U9_of m c main_arg23 (by decide)).trans ((U8_of m c main_arg23 (by decide)).trans ((U7_of m c main_arg23 (by decide)).trans ((U6_of m c main_arg23 (by decide)).trans ((U5_of m c main_arg23 (by decide)).trans ((U4_of m c main_arg23 (by decide)).trans ((U3_of m c main_arg23 (by decide)).trans ((U2_of m c main_arg23 (by decide)).trans (U1_of m c main_arg23 (by decide))))))))))))))))))))

end Cert.KernelIdeal.Calls

end
-- ==== Proof.Val.Spec.lean ====
/-
  The network's three row functions, index by index, on the extended reals.

  Every layer of the network acts on the rows of its input independently: row `r` of the result is a function of row `r`
  of the input and of the layer's weights alone. The functions below are therefore stated for ONE row, given as a function
  of its column, so that the same formula reads a row of a block of rows and the same row of the whole array.

  * `linRow`     : the sum of a row and its aggregate, times a weight matrix, plus a bias:
                     `(∑ k, (x k + agg k) * W k q) + b q`.
  * `bnLinRow`   : the row normalized column by column with a mean, a variance and the stabilizer `eps`, scaled, shifted
                     and clipped at zero, then times a weight matrix, plus a bias, clipped at zero again.
  * `logitRow`   : two affine maps with a clip at zero between them.
  * `softmaxRow` : the exponentials of a row's entries less the row's maximum, each divided by their sum.
-/
import Idealize.ShloMosaic.PureOps.Ideal
import Idealize.ShloMosaic.Lib.ValueIdx

noncomputable section

open scoped BigOperators

namespace Cert.BodyMath

open Idealize.ShloMosaic

/-- The stabilizer added to a variance before the reciprocal square root: the binary32 number nearest `1e-5`. -/
def eps : EReal := Ideal.ofBits .f32 0x3727C5AC#32

/-- The binary32 pattern of minus infinity, the value a row's maximum is folded from. -/
def negInf : EReal := Ideal.ofBits .f32 0xFF800000#32

/-- A row plus its aggregate, times a weight matrix, plus a bias, at column `q`. -/
def linRow {K Q : ℕ} (x agg : Fin K → EReal) (W : Fin K → Fin Q → EReal) (b : Fin Q → EReal) (q : Fin Q) : EReal :=
  (∑ k : Fin K, (x k + agg k) * W k q) + b q

/-- One normalized, scaled, shifted and clipped entry of a row: `max ((h - mean) * rsqrt (var + eps) * gamma + beta) 0`. -/
def bnEntry (h mean var gamma beta : EReal) : EReal :=
  max ((h - mean) * Ideal.rsqrt (var + eps) * gamma + beta) 0

/-- A row normalized, scaled, shifted and clipped entry by entry, times a weight matrix, plus a bias, clipped at zero, at
    column `q`. -/
def bnLinRow {K Q : ℕ} (h mean var gamma beta : Fin K → EReal) (W : Fin K → Fin Q → EReal) (b : Fin Q → EReal)
    (q : Fin Q) : EReal :=
  max ((∑ k : Fin K, bnEntry (h k) (mean k) (var k) (gamma k) (beta k) * W k q) + b q) 0

/-- The hidden layer of the readout at column `m`: an affine map of the row, clipped at zero. -/
def hiddenRow {K M : ℕ} (h : Fin K → EReal) (W1 : Fin K → Fin M → EReal) (b1 : Fin M → EReal) (m : Fin M) : EReal :=
  max ((∑ k : Fin K, h k * W1 k m) + b1 m) 0

/-- The readout's logits at column `q`: an affine map of the hidden layer. -/
def logitRow {K M Q : ℕ} (h : Fin K → EReal) (W1 : Fin K → Fin M → EReal) (b1 : Fin M → EReal)
    (W2 : Fin M → Fin Q → EReal) (b2 : Fin Q → EReal) (q : Fin Q) : EReal :=
  (∑ m : Fin M, hiddenRow h W1 b1 m * W2 m q) + b2 q

/-- A row's maximum, folded from minus infinity (and compared with it once more, as both programs do). -/
def rowMax {Q : ℕ} (z : Fin Q → EReal) : EReal :=
  max negInf ((Finset.univ : Finset (Fin Q)).fold max negInf z)

/-- The softmax of a row at column `q`: `exp (z q - max z)` over the sum of these exponentials. -/
def softmaxRow {Q : ℕ} (z : Fin Q → EReal) (q : Fin Q) : EReal :=
  Ideal.div (Ideal.exp (z q - rowMax z)) (∑ c : Fin Q, Ideal.exp (z c - rowMax z))

end Cert.BodyMath

end
-- ==== Proof.Val.Layout.lean ====
/-
  Layout operations of rank-two arrays read at an index written by its coordinates.

  A product of an [R, K] array with a [K, Q] array contracted over the one shared axis is, at (p, c), the sum over
  `k : Fin K` of the left operand at (p, k) times the right one at (k, c). A bias of Q entries broadcast to one row and then
  down R rows reads, at (r, q), entry q. A column of R entries (a row maximum, a row sum) broadcast across Q columns reads,
  at (r, q), entry r. A reduction of an [R, Q] array along its second axis ranges, at row r, over the entries (r, c).
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.BodyMath

open Idealize.ShloMosaic Idealize.ShloMosaic.ValueIdx

/-! ## A contraction over one shared axis -/

/-- The contraction sum of a dot with one contracted axis, re-indexed by that axis's coordinate. The four hypotheses say
    where the operand indices read the result index and the contraction index; each printed record proves them by
    unfolding its literal axis lists. -/
theorem dot_plain_sum {R K Q : ℕ} (D : DotDims ⟨2, ![R, K]⟩ ⟨2, ![K, Q]⟩ ⟨2, ![R, Q]⟩)
    (hr : D.contr.rank = 1) (hs : D.contr.size ⟨0, by omega⟩ = K)
    (hl0 : ∀ (j : (⟨2, ![R, Q]⟩ : Shape).Idx) (k : D.contr.Idx), (D.lhsIdx j k 0).val = (j 0).val)
    (hl1 : ∀ (j : (⟨2, ![R, Q]⟩ : Shape).Idx) (k : D.contr.Idx), (D.lhsIdx j k 1).val = (k ⟨0, by omega⟩).val)
    (hr0 : ∀ (j : (⟨2, ![R, Q]⟩ : Shape).Idx) (k : D.contr.Idx), (D.rhsIdx j k 0).val = (k ⟨0, by omega⟩).val)
    (hr1 : ∀ (j : (⟨2, ![R, Q]⟩ : Shape).Idx) (k : D.contr.Idx), (D.rhsIdx j k 1).val = (j 1).val)
    (l : (⟨2, ![R, K]⟩ : Shape).Idx → EReal) (r : (⟨2, ![K, Q]⟩ : Shape).Idx → EReal) (p : Fin R) (c : Fin Q) :
    ∑ k : D.contr.Idx, l (D.lhsIdx (ix2 p c) k) * r (D.rhsIdx (ix2 p c) k) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-! ## A bias broadcast to a row and down the rows -/

/-- Q entries laid as one row and repeated down R rows read, at (r, q), entry q. -/
theorem bcast_row_apply {α : Type} {R Q : ℕ} (b : (⟨1, ![Q]⟩ : Shape).Idx → α)
    (h1 : (⟨1, ![Q]⟩ : Shape).BroadcastsInDim ⟨2, ![1, Q]⟩ ![1])
    (h2 : (⟨2, ![1, Q]⟩ : Shape).BroadcastsInDim ⟨2, ![R, Q]⟩ ![0, 1]) (r : Fin R) (q : Fin Q) :
    broadcastInDim ⟨2, ![R, Q]⟩ ![0, 1] h2 (broadcastInDim ⟨2, ![1, Q]⟩ ![1] h1 b) (ix2 r q) = b (ix1 q) := by
  have hq : q.val = if Q = 1 then 0 else q.val := by
    split
    · have := q.isLt; omega
    · rfl
  refine (broadcastInDim_apply ![0, 1] h2 _ (ix2 r q) (ix2 (0 : Fin 1) q) fun a => ?_).trans ?_
  · match a with
    | ⟨0, _⟩ => rfl
    | ⟨1, _⟩ => exact hq
  · refine broadcastInDim_apply ![1] h1 b (ix2 (0 : Fin 1) q) (ix1 q) fun a => ?_
    match a with
    | ⟨0, _⟩ => exact hq

/-- A scalar broadcast to any shape reads the scalar (restated with the scalar's one index spelt `ix0`). -/
theorem bcast_scalar_apply {α : Type} {T : Shape} (h : (⟨0, ![]⟩ : Shape).BroadcastsInDim T ![])
    (x : (⟨0, ![]⟩ : Shape).Idx → α) (j : T.Idx) : broadcastInDim T ![] h x j = x ix0 :=
  broadcastInDim_scalar_apply h x j

/-! ## A column broadcast across the columns -/

/-- R entries laid as one column and repeated across Q columns read, at (r, q), entry r: the host's spelling. -/
theorem bcast_col_apply {α : Type} {R Q : ℕ} (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, Q]⟩ ![0, 1]) (r : Fin R) (q : Fin Q) :
    broadcastInDim ⟨2, ![R, Q]⟩ ![0, 1] h2 (broadcastInDim ⟨2, ![R, 1]⟩ ![0] h1 v) (ix2 r q) = v (ix1 r) := by
  have hrr : r.val = if R = 1 then 0 else r.val := by
    split
    · have := r.isLt; omega
    · rfl
  refine (broadcastInDim_apply ![0, 1] h2 _ (ix2 r q) (ix2 r (0 : Fin 1)) fun a => ?_).trans ?_
  · match a with
    | ⟨0, _⟩ => exact hrr
    | ⟨1, _⟩ => rfl
  · refine broadcastInDim_apply ![0] h1 v (ix2 r (0 : Fin 1)) (ix1 r) fun a => ?_
    match a with
    | ⟨0, _⟩ => exact hrr

/-- The same column in the vector unit's spelling: R entries cast to an [R, 1] column and broadcast to [R, Q]. -/
theorem castcol_bcast_apply {α : Type} {R Q : ℕ} (v : (⟨1, ![R]⟩ : Shape).Idx → α)
    (h1 : (⟨1, ![R]⟩ : Shape).ShapeCasts ⟨2, ![R, 1]⟩)
    (h2 : (⟨2, ![R, 1]⟩ : Shape).Broadcasts ⟨2, ![R, Q]⟩) (r : Fin R) (q : Fin Q) :
    broadcastTo ⟨2, ![R, Q]⟩ (shapeCast ⟨2, ![R, 1]⟩ v h1) h2 (ix2 r q) = v (ix1 r) := by
  have hrr : r.val = if R = 1 then 0 else r.val := by
    split
    · have := r.isLt; omega
    · rfl
  refine (broadcastTo_apply _ h2 (ix2 r q) (ix2 r (0 : Fin 1)) fun a => ?_).trans ?_
  · match a with
    | ⟨0, _⟩ => exact hrr
    | ⟨1, _⟩ => rfl
  · refine shapeCast_apply v h1 (ix2 r (0 : Fin 1)) (ix1 r) ?_
    rw [Shape.rowMajor_val_two, Shape.rowMajor_val_one]
    show r.val = r.val * 1 + 0
    omega

/-! ## A reduction along the second axis -/

/-- The index a reduction along the second axis reads at row r and position c is (r, c). -/
theorem lift_row {R Q : ℕ} (h : Shape.Reduces ⟨2, ![R, Q]⟩ [1] ⟨1, ![R]⟩) (r : Fin R) (c : Fin Q) :
    h.lift (ix1 r) c = ix2 r c :=
  funext fun a => Fin.ext (by match a with | ⟨0, _⟩ => rfl | ⟨1, _⟩ => rfl)

end Cert.BodyMath

end
-- ==== Proof.Val.K0.lean ====
/-
  The first linear map's block body at an index: entry (p, q) of the block is the sum over the 128 input columns of
  (x + agg) at (p, k) times the weight at (k, q), plus the bias at q. The change of float format before the product is the
  identity on extended reals, and the product accumulates into a zero block, so nothing else is left of the body.
-/
import proofs.«121371_j46033459478999_1_alg».proof.Proof.Gen.KernelIdeal.Skeleton
import proofs.«121371_j46033459478999_1_alg».proof.Proof.Val.Spec
import proofs.«121371_j46033459478999_1_alg».proof.Proof.Val.Layout

noncomputable section

open scoped BigOperators

namespace Cert.BodyMath.K0

open Idealize.ShloMosaic Idealize.ShloMosaic.ValueIdx Cert.KernelIdeal

/-- The [2000,128] × [128,256] block product into a zero accumulator, at (p, c). -/
theorem mm_apply (l : FVec Ideal S2000x128 .bf16) (r : FVec Ideal S128x256 .bf16) (p : Fin 2000) (c : Fin 256) :
    matmul dot_S2000x128_S128x256_S2000x256_1_0_0_1_n_n none l r (constant S2000x256 .f32 0x00000000#32) (ix2 p c)
      = ∑ k : Fin 128, l (ix2 p k) * r (ix2 k c) :=
  (Ideal.matmul_constant_zero_apply dot_S2000x128_S128x256_S2000x256_1_0_0_1_n_n none l r (ix2 p c)).trans
    (dot_plain_sum dot_S2000x128_S128x256_S2000x256_1_0_0_1_n_n rfl rfl
    (fun j k => by
      unfold DotDims.lhsIdx
      rw [dif_neg (show ¬(0 : Fin S2000x128.rank) ∈ dot_S2000x128_S128x256_S2000x256_1_0_0_1_n_n.lhsBatch by decide),
        dif_pos (show (0 : Fin S2000x128.rank) ∈ dot_S2000x128_S128x256_S2000x256_1_0_0_1_n_n.lhsNonContracting by decide)]
      rfl)
    (fun j k => dot_S2000x128_S128x256_S2000x256_1_0_0_1_n_n.lhsIdx_val_of_single rfl j k)
    (fun j k => dot_S2000x128_S128x256_S2000x256_1_0_0_1_n_n.rhsIdx_val_of_single rfl j k)
    (fun j k => by
      unfold DotDims.rhsIdx
      rw [dif_neg (show ¬(1 : Fin S128x256.rank) ∈ dot_S2000x128_S128x256_S2000x256_1_0_0_1_n_n.rhsBatch by decide),
        dif_pos (show (1 : Fin S128x256.rank) ∈ dot_S2000x128_S128x256_S2000x256_1_0_0_1_n_n.rhsNonContracting by decide)]
      rfl)
    l r p c)

/-- The first linear map's block at (p, q): `linRow` of row p of the two input blocks, the weights and the bias row. -/
theorem k0_pay1_apply (v0 v1 : FVec Ideal S2000x128 .f32) (v5 : FVec Ideal S128x256 .bf16) (v8 : FVec Ideal S1x256 .f32)
    (p : Fin 2000) (q : Fin 256) :
    Gen.k0_pay1 (F := Ideal) v0 v1 v5 v8 (ix2 p q)
      = linRow (fun k => v0 (ix2 p k)) (fun k => v1 (ix2 p k)) (fun k c => v5 (ix2 k c))
          (fun c => v8 (ix2 (0 : Fin 1) c)) q := by
  unfold Gen.k0_pay1 linRow
  simp only [shapeCast_self]
  refine congrArg₂ (· + ·) ((mm_apply _ _ p q).trans ?_) (broadcastTo_1b_ab_apply _ _ p q)
  rfl

end Cert.BodyMath.K0

end
-- ==== Proof.KIdeal.Val0.lean ====
/-
  What the call leaves in its output array, as one function of the arrays it finds: entry (r, q) is the sum over the
  128 input columns of (h + agg) at (r, k) times the weight at (k, q), plus the bias at q.
  Row block t writes rows 2000 t .. 2000 t + 1999, each from the same rows of the row-blocked input and from the whole of the other
  inputs, so every block is the restriction of one whole-array function; the 25 blocks cover the 50000 rows.
-/
import proofs.«121371_j46033459478999_1_alg».proof.Proof.KIdeal.Call0
import proofs.«121371_j46033459478999_1_alg».proof.Proof.Val.K0
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.BodyMath
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The whole output array, from the whole input arrays. -/
def lin0 (a0 : FVec Ideal S50000x128 .f32) (a1 : FVec Ideal S50000x128 .f32) (a2 : FVec Ideal S128x256 .bf16) (a3 : FVec Ideal S1x256 .f32) : FVec Ideal S50000x256 .f32 :=
  fun i => linRow (fun k : Fin 128 => a0 (ix2 (i 0) k)) (fun k : Fin 128 => a1 (ix2 (i 0) k)) (fun (k : Fin 128) (q : Fin 256) => a2 (ix2 k q)) (fun q : Fin 256 => a3 (ix2 (0 : Fin 1) q)) (i 1)

/-- The block indices, decided over the 25 row blocks: the row-blocked windows sit at row block t, column block 0; every
    other window stays at block (0, 0). -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

/-- The row-blocked input's block entry (p, k) is the array's entry in row 2000 t + p. -/
theorem read0_0 (c : Dev nD) (t : Fin cfg0.N) (p : Fin 2000) (k : Fin 128) (r : Fin 50000)
    (hr : r.val = t.val * 2000 + 1 * p.val) :
    iblk0 V c 0 t (ix2 p k) = V c main_arg0 (ix2 r k) := by
  obtain ⟨e00, e01, e10, e11, e20, e21, e30, e31, e40, e41⟩ := idx_facts0 t
  show V c main_arg0 (((cfg0.win 0).blk t).view.emb (ix2 p k)) = _
  refine congrArg _ ?_
  funext a; apply Fin.ext
  match a with
  | ⟨0, _⟩ => show win0_0.index t (0 : Fin 2) * 2000 + 1 * p.val = r.val; omega
  | ⟨1, _⟩ => show win0_0.index t (1 : Fin 2) * 128 + 1 * k.val = k.val; omega
/-- The row-blocked input's block entry (p, k) is the array's entry in row 2000 t + p. -/
theorem read0_1 (c : Dev nD) (t : Fin cfg0.N) (p : Fin 2000) (k : Fin 128) (r : Fin 50000)
    (hr : r.val = t.val * 2000 + 1 * p.val) :
    iblk0 V c 1 t (ix2 p k) = V c main_v13 (ix2 r k) := by
  obtain ⟨e00, e01, e10, e11, e20, e21, e30, e31, e40, e41⟩ := idx_facts0 t
  show V c main_v13 (((cfg0.win 1).blk t).view.emb (ix2 p k)) = _
  refine congrArg _ ?_
  funext a; apply Fin.ext
  match a with
  | ⟨0, _⟩ => show win0_1.index t (0 : Fin 2) * 2000 + 1 * p.val = r.val; omega
  | ⟨1, _⟩ => show win0_1.index t (1 : Fin 2) * 128 + 1 * k.val = k.val; omega
/-- This window's block is its whole array. -/
theorem read0_2 (c : Dev nD) (t : Fin cfg0.N) (k : Fin 128) (q : Fin 256) :
    iblk0 V c 2 t (ix2 k q) = V c main_v14 (ix2 k q) := by
  obtain ⟨e00, e01, e10, e11, e20, e21, e30, e31, e40, e41⟩ := idx_facts0 t
  show V c main_v14 (((cfg0.win 2).blk t).view.emb (ix2 k q)) = _
  refine congrArg _ ?_
  funext a; apply Fin.ext
  match a with
  | ⟨0, _⟩ => show win0_2.index t (0 : Fin 2) * 128 + 1 * k.val = k.val; omega
  | ⟨1, _⟩ => show win0_2.index t (1 : Fin 2) * 256 + 1 * q.val = q.val; omega
/-- This window's block is its whole array. -/
theorem read0_3 (c : Dev nD) (t : Fin cfg0.N) (k : Fin 1) (q : Fin 256) :
    iblk0 V c 3 t (ix2 k q) = V c main_v15 (ix2 k q) := by
  obtain ⟨e00, e01, e10, e11, e20, e21, e30, e31, e40, e41⟩ := idx_facts0 t
  show V c main_v15 (((cfg0.win 3).blk t).view.emb (ix2 k q)) = _
  refine congrArg _ ?_
  funext a; apply Fin.ext
  match a with
  | ⟨0, _⟩ => show win0_3.index t (0 : Fin 2) * 1 + 1 * k.val = k.val; omega
  | ⟨1, _⟩ => show win0_3.index t (1 : Fin 2) * 256 + 1 * q.val = q.val; omega

/-- What row block t writes back to output window 4 is block t of `lin0` of the arrays the call finds. -/
theorem flushed0_4 (c : Dev nD) (t : Fin cfg0.N) :
    (dat0 V c).flushed 4 t = ((cfg0.win 4).blk t).view.read (Elt Ideal) (lin0 (V c main_arg0) (V c main_v13) (V c main_v14) (V c main_v15)) := by
  show (cfg0.win 4).cut (grid0.coords t) ((dat0 V c).after 4 t) = _
  rw [after0_4]
  unfold out0_4
  rw [View.canon_unit_zero zeroOffsets0]
  simp only [View.ld_unit_zero (S := S2000x128) zeroOffsets0, View.ld_unit_zero (S := S128x256) zeroOffsets0, View.ld_unit_zero (S := S1x256) zeroOffsets0]
  obtain ⟨e00, e01, e10, e11, e20, e21, e30, e31, e40, e41⟩ := idx_facts0 t
  funext j
  obtain ⟨p, q, rfl⟩ : ∃ (p : Fin 2000) (q : Fin 256), j = ix2 p q := ⟨j 0, j 1, eq_ix2 j⟩
  refine (K0.k0_pay1_apply (iblk0 V c 0 t) (iblk0 V c 1 t) (iblk0 V c 2 t) (iblk0 V c 3 t) p q).trans ?_
  show _ = lin0 (V c main_arg0) (V c main_v13) (V c main_v14) (V c main_v15) (((cfg0.win 4).blk t).view.emb (ix2 p q))
  unfold lin0
  have hrow : ((((cfg0.win 4).blk t).view.emb (ix2 p q)) 0).val = t.val * 2000 + 1 * p.val := by
    show win0_4.index t (0 : Fin 2) * 2000 + 1 * p.val = _; rw [e40]
  have hcol : (((cfg0.win 4).blk t).view.emb (ix2 p q)) 1 = q := by
    apply Fin.ext; show win0_4.index t (1 : Fin 2) * 256 + 1 * q.val = q.val; omega
  rw [hcol]
  simp only [read0_0 V c t p _ _ hrow, read0_1 V c t p _ _ hrow, read0_2 V c t, read0_3 V c t]

/-- An index of output array 4 is in row block t's block iff its row is in that block's range. -/
theorem mem_blk0_4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v16).slice (win0_4.rect t)).set ↔ _
  rw [View.set_slice_whole, Rect.mem_set_unit]
  exact Iff.rfl

/-- Every index of output array 4 is in the block of the row block its row falls in. -/
theorem cover0_4' (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_4 _, ?_⟩
  rw [mem_blk0_4]
  obtain ⟨e00, e01, e10, e11, e20, e21, e30, e31, e40, e41⟩ := idx_facts0 ⟨(i 0).val / 2000, by rw [hN]; omega⟩
  intro a
  match a with
  | ⟨0, _⟩ => show win0_4.index _ (0 : Fin 2) * 2000 ≤ (i 0).val ∧ (i 0).val < win0_4.index _ (0 : Fin 2) * 2000 + 2000; rw [e40]; show (i 0).val / 2000 * 2000 ≤ (i 0).val ∧ (i 0).val < (i 0).val / 2000 * 2000 + 2000; omega
  | ⟨1, _⟩ => show win0_4.index _ (1 : Fin 2) * 256 ≤ (i 1).val ∧ (i 1).val < win0_4.index _ (1 : Fin 2) * 256 + 256; omega

/-- Output array 4 after the call is `lin0` of the arrays the call finds. -/
theorem final0_4 (c : Dev nD) :
    (dat0 V c).arrAt 4 cfg0.N = lin0 (V c main_arg0) (V c main_v13) (V c main_v14) (V c main_v15) :=
  (dat0 V c).arrAt_eq_of_cover 4 _ (fun t _ => flushed0_4 V c t) cover0_4'

end Cert.KernelIdeal.Calls

end
-- ==== Proof.Val.K1.lean ====
/-
  The normalize-clip-multiply block body at an index. Entry (p, k) of the normalized block is
  `max ((h - mean) * rsqrt (var + eps) * gamma + beta) 0` with the four row vectors read at column k; entry (p, q) of the
  result is the sum over the 256 columns of that entry times the weight at (k, q), plus the bias at q, clipped at zero.
-/
import proofs.«121371_j46033459478999_1_alg».proof.Proof.Gen.KernelIdeal.Skeleton
import proofs.«121371_j46033459478999_1_alg».proof.Proof.Val.Spec
import proofs.«121371_j46033459478999_1_alg».proof.Proof.Val.Layout

noncomputable section

open scoped BigOperators

namespace Cert.BodyMath.K1

open Idealize.ShloMosaic Idealize.ShloMosaic.ValueIdx Cert.KernelIdeal

/-- The [2000,256] × [256,256] block product into a zero accumulator, at (p, c). -/
theorem mm_apply (l : FVec Ideal S2000x256 .bf16) (r : FVec Ideal S256x256 .bf16) (p : Fin 2000) (c : Fin 256) :
    matmul dot_S2000x256_S256x256_S2000x256_1_0_0_1_n_n none l r (constant S2000x256 .f32 0x00000000#32) (ix2 p c)
      = ∑ k : Fin 256, l (ix2 p k) * r (ix2 k c) :=
  (Ideal.matmul_constant_zero_apply dot_S2000x256_S256x256_S2000x256_1_0_0_1_n_n none l r (ix2 p c)).trans
    (dot_plain_sum dot_S2000x256_S256x256_S2000x256_1_0_0_1_n_n rfl rfl
    (fun j k => by
      unfold DotDims.lhsIdx
      rw [dif_neg (show ¬(0 : Fin S2000x256.rank) ∈ dot_S2000x256_S256x256_S2000x256_1_0_0_1_n_n.lhsBatch by decide),
        dif_pos (show (0 : Fin S2000x256.rank) ∈ dot_S2000x256_S256x256_S2000x256_1_0_0_1_n_n.lhsNonContracting by decide)]
      rfl)
    (fun j k => dot_S2000x256_S256x256_S2000x256_1_0_0_1_n_n.lhsIdx_val_of_single rfl j k)
    (fun j k => dot_S2000x256_S256x256_S2000x256_1_0_0_1_n_n.rhsIdx_val_of_single rfl j k)
    (fun j k => by
      unfold DotDims.rhsIdx
      rw [dif_neg (show ¬(1 : Fin S256x256.rank) ∈ dot_S2000x256_S256x256_S2000x256_1_0_0_1_n_n.rhsBatch by decide),
        dif_pos (show (1 : Fin S256x256.rank) ∈ dot_S2000x256_S256x256_S2000x256_1_0_0_1_n_n.rhsNonContracting by decide)]
      rfl)
    l r p c)

/-- The normalized, scaled, shifted and clipped block at (p, k). -/
theorem pre_apply (h : FVec Ideal S2000x256 .f32) (mean var gamma beta : FVec Ideal S1x256 .f32)
    (hb : S1x256.Broadcasts S2000x256) (p : Fin 2000) (k : Fin 256) :
    maximumf
        (addf
          (mulf
            (mulf (subf h (broadcastTo S2000x256 mean hb))
              (broadcastTo S2000x256
                (rsqrt (addf var (broadcast S1x256 (Scalar.ofBits (F := Ideal) .f32 0x3727C5AC#32))))
                hb))
            (broadcastTo S2000x256 gamma hb))
          (broadcastTo S2000x256 beta hb))
        (broadcast S2000x256 (Scalar.ofBits (F := Ideal) .f32 0x00000000#32)) (ix2 p k)
      = bnEntry (h (ix2 p k)) (mean (ix2 (0 : Fin 1) k)) (var (ix2 (0 : Fin 1) k)) (gamma (ix2 (0 : Fin 1) k))
          (beta (ix2 (0 : Fin 1) k)) := by
  show max ((h (ix2 p k) - broadcastTo S2000x256 mean hb (ix2 p k))
        * broadcastTo S2000x256 _ hb (ix2 p k)
        * broadcastTo S2000x256 gamma hb (ix2 p k)
        + broadcastTo S2000x256 beta hb (ix2 p k)) (Ideal.ofBits .f32 0x00000000#32) = _
  rw [broadcastTo_1b_ab_apply, broadcastTo_1b_ab_apply, broadcastTo_1b_ab_apply, broadcastTo_1b_ab_apply,
    Ideal.ofBits_zero_f32]
  rfl

/-- The block at (p, q): `bnLinRow` of row p of the input block, the four row vectors, the weights and the bias row. -/
theorem k1_pay1_apply (v0 : FVec Ideal S2000x256 .f32) (v2 v4 v6 v8 : FVec Ideal S1x256 .f32)
    (v24 : FVec Ideal S256x256 .bf16) (v27 : FVec Ideal S1x256 .f32) (p : Fin 2000) (q : Fin 256) :
    Gen.k1_pay1 (F := Ideal) v0 v2 v4 v6 v8 v24 v27 (ix2 p q)
      = bnLinRow (fun k => v0 (ix2 p k)) (fun k => v2 (ix2 (0 : Fin 1) k)) (fun k => v4 (ix2 (0 : Fin 1) k))
          (fun k => v6 (ix2 (0 : Fin 1) k)) (fun k => v8 (ix2 (0 : Fin 1) k)) (fun k c => v24 (ix2 k c))
          (fun c => v27 (ix2 (0 : Fin 1) c)) q := by
  unfold Gen.k1_pay1 bnLinRow
  simp only [shapeCast_self]
  refine congrArg₂ max (congrArg₂ (· + ·) ((mm_apply _ _ p q).trans ?_) (broadcastTo_1b_ab_apply _ _ p q))
    Ideal.ofBits_zero_f32
  refine Finset.sum_congr rfl fun k _ => congrArg (· * v24 (ix2 k q)) ?_
  exact pre_apply v0 v2 v4 v6 v8 _ p k

/-- Calls 3 and 5 run the same body. -/
theorem k3_pay1_apply (v0 : FVec Ideal S2000x256 .f32) (v2 v4 v6 v8 : FVec Ideal S1x256 .f32)
    (v24 : FVec Ideal S256x256 .bf16) (v27 : FVec Ideal S1x256 .f32) (p : Fin 2000) (q : Fin 256) :
    Gen.k3_pay1 (F := Ideal) v0 v2 v4 v6 v8 v24 v27 (ix2 p q)
      = bnLinRow (fun k => v0 (ix2 p k)) (fun k => v2 (ix2 (0 : Fin 1) k)) (fun k => v4 (ix2 (0 : Fin 1) k))
          (fun k => v6 (ix2 (0 : Fin 1) k)) (fun k => v8 (ix2 (0 : Fin 1) k)) (fun k c => v24 (ix2 k c))
          (fun c => v27 (ix2 (0 : Fin 1) c)) q :=
  k1_pay1_apply v0 v2 v4 v6 v8 v24 v27 p q

theorem k5_pay1_apply (v0 : FVec Ideal S2000x256 .f32) (v2 v4 v6 v8 : FVec Ideal S1x256 .f32)
    (v24 : FVec Ideal S256x256 .bf16) (v27 : FVec Ideal S1x256 .f32) (p : Fin 2000) (q : Fin 256) :
    Gen.k5_pay1 (F := Ideal) v0 v2 v4 v6 v8 v24 v27 (ix2 p q)
      = bnLinRow (fun k => v0 (ix2 p k)) (fun k => v2 (ix2 (0 : Fin 1) k)) (fun k => v4 (ix2 (0 : Fin 1) k))
          (fun k => v6 (ix2 (0 : Fin 1) k)) (fun k => v8 (ix2 (0 : Fin 1) k)) (fun k c => v24 (ix2 k c))
          (fun c => v27 (ix2 (0 : Fin 1) c)) q :=
  k1_pay1_apply v0 v2 v4 v6 v8 v24 v27 p q

end Cert.BodyMath.K1

end
-- ==== Proof.KIdeal.Val1.lean ====
/-
  What the call leaves in its output array, as one function of the arrays it finds: entry (r, q) is
  relu(sum over k of relu((h(r, k) - mean(k)) * rsqrt(var(k) + eps) * scale(k) + shift(k)) * W(k, q) + b(q)).
  Row block t writes rows 2000 t .. 2000 t + 1999, each from the same rows of the row-blocked input and from the whole of the other
  inputs, so every block is the restriction of one whole-array function; the 25 blocks cover the 50000 rows.
-/
import proofs.«121371_j46033459478999_1_alg».proof.Proof.KIdeal.Call1
import proofs.«121371_j46033459478999_1_alg».proof.Proof.Val.K1
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.BodyMath
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The whole output array, from the whole input arrays. -/
def bn1 (a0 : FVec Ideal S50000x256 .f32) (a1 : FVec Ideal S1x256 .f32) (a2 : FVec Ideal S1x256 .f32) (a3 : FVec Ideal S1x256 .f32) (a4 : FVec Ideal S1x256 .f32) (a5 : FVec Ideal S256x256 .bf16) (a6 : FVec Ideal S1x256 .f32) : FVec Ideal S50000x256 .f32 :=
  fun i => bnLinRow (fun k : Fin 256 => a0 (ix2 (i 0) k)) (fun k : Fin 256 => a1 (ix2 (0 : Fin 1) k)) (fun k : Fin 256 => a2 (ix2 (0 : Fin 1) k)) (fun k : Fin 256 => a3 (ix2 (0 : Fin 1) k)) (fun k : Fin 256 => a4 (ix2 (0 : Fin 1) k)) (fun (k : Fin 256) (q : Fin 256) => a5 (ix2 k q)) (fun q : Fin 256 => a6 (ix2 (0 : Fin 1) q)) (i 1)

/-- The block indices, decided over the 25 row blocks: the row-blocked windows sit at row block t, column block 0; every
    other window stays at block (0, 0). -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- The row-blocked input's block entry (p, k) is the array's entry in row 2000 t + p. -/
theorem read1_0 (c : Dev nD) (t : Fin cfg1.N) (p : Fin 2000) (k : Fin 256) (r : Fin 50000)
    (hr : r.val = t.val * 2000 + 1 * p.val) :
    iblk1 V c 0 t (ix2 p k) = V c main_v16 (ix2 r k) := by
  obtain ⟨e00, e01, e10, e11, e20, e21, e30, e31, e40, e41, e50, e51, e60, e61, e70, e71⟩ := idx_facts1 t
  show V c main_v16 (((cfg1.win 0).blk t).view.emb (ix2 p k)) = _
  refine congrArg _ ?_
  funext a; apply Fin.ext
  match a with
  | ⟨0, _⟩ => show win1_0.index t (0 : Fin 2) * 2000 + 1 * p.val = r.val; omega
  | ⟨1, _⟩ => show win1_0.index t (1 : Fin 2) * 256 + 1 * k.val = k.val; omega
/-- This window's block is its whole array. -/
theorem read1_1 (c : Dev nD) (t : Fin cfg1.N) (k : Fin 1) (q : Fin 256) :
    iblk1 V c 1 t (ix2 k q) = V c main_v22 (ix2 k q) := by
  obtain ⟨e00, e01, e10, e11, e20, e21, e30, e31, e40, e41, e50, e51, e60, e61, e70, e71⟩ := idx_facts1 t
  show V c main_v22 (((cfg1.win 1).blk t).view.emb (ix2 k q)) = _
  refine congrArg _ ?_
  funext a; apply Fin.ext
  match a with
  | ⟨0, _⟩ => show win1_1.index t (0 : Fin 2) * 1 + 1 * k.val = k.val; omega
  | ⟨1, _⟩ => show win1_1.index t (1 : Fin 2) * 256 + 1 * q.val = q.val; omega
/-- This window's block is its whole array. -/
theorem read1_2 (c : Dev nD) (t : Fin cfg1.N) (k : Fin 1) (q : Fin 256) :
    iblk1 V c 2 t (ix2 k q) = V c main_v23 (ix2 k q) := by
  obtain ⟨e00, e01, e10, e11, e20, e21, e30, e31, e40, e41, e50, e51, e60, e61, e70, e71⟩ := idx_facts1 t
  show V c main_v23 (((cfg1.win 2).blk t).view.emb (ix2 k q)) = _
  refine congrArg _ ?_
  funext a; apply Fin.ext
  match a with
  | ⟨0, _⟩ => show win1_2.index t (0 : Fin 2) * 1 + 1 * k.val = k.val; omega
  | ⟨1, _⟩ => show win1_2.index t (1 : Fin 2) * 256 + 1 * q.val = q.val; omega
/-- This window's block is its whole array. -/
theorem read1_3 (c : Dev nD) (t : Fin cfg1.N) (k : Fin 1) (q : Fin 256) :
    iblk1 V c 3 t (ix2 k q) = V c main_v24 (ix2 k q) := by
  obtain ⟨e00, e01, e10, e11, e20, e21, e30, e31, e40, e41, e50, e51, e60, e61, e70, e71⟩ := idx_facts1 t
  show V c main_v24 (((cfg1.win 3).blk t).view.emb (ix2 k q)) = _
  refine congrArg _ ?_
  funext a; apply Fin.ext
  match a with
  | ⟨0, _⟩ => show win1_3.index t (0 : Fin 2) * 1 + 1 * k.val = k.val; omega
  | ⟨1, _⟩ => show win1_3.index t (1 : Fin 2) * 256 + 1 * q.val = q.val; omega
/-- This window's block is its whole array. -/
theorem read1_4 (c : Dev nD) (t : Fin cfg1.N) (k : Fin 1) (q : Fin 256) :
    iblk1 V c 4 t (ix2 k q) = V c main_v25 (ix2 k q) := by
  obtain ⟨e00, e01, e10, e11, e20, e21, e30, e31, e40, e41, e50, e51, e60, e61, e70, e71⟩ := idx_facts1 t
  show V c main_v25 (((cfg1.win 4).blk t).view.emb (ix2 k q)) = _
  refine congrArg _ ?_
  funext a; apply Fin.ext
  match a with
  | ⟨0, _⟩ => show win1_4.index t (0 : Fin 2) * 1 + 1 * k.val = k.val; omega
  | ⟨1, _⟩ => show win1_4.index t (1 : Fin 2) * 256 + 1 * q.val = q.val; omega
/-- This window's block is its whole array. -/
theorem read1_5 (c : Dev nD) (t : Fin cfg1.N) (k : Fin 256) (q : Fin 256) :
    iblk1 V c 5 t (ix2 k q) = V c main_v21 (ix2 k q) := by
  obtain ⟨e00, e01, e10, e11, e20, e21, e30, e31, e40, e41, e50, e51, e60, e61, e70, e71⟩ := idx_facts1 t
  show V c main_v21 (((cfg1.win 5).blk t).view.emb (ix2 k q)) = _
  refine congrArg _ ?_
  funext a; apply Fin.ext
  match a with
  | ⟨0, _⟩ => show win1_5.index t (0 : Fin 2) * 256 + 1 * k.val = k.val; omega
  | ⟨1, _⟩ => show win1_5.index t (1 : Fin 2) * 256 + 1 * q.val = q.val; omega
/-- This window's block is its whole array. -/
theorem read1_6 (c : Dev nD) (t : Fin cfg1.N) (k : Fin 1) (q : Fin 256) :
    iblk1 V c 6 t (ix2 k q) = V c main_v26 (ix2 k q) := by
  obtain ⟨e00, e01, e10, e11, e20, e21, e30, e31, e40, e41, e50, e51, e60, e61, e70, e71⟩ := idx_facts1 t
  show V c main_v26 (((cfg1.win 6).blk t).view.emb (ix2 k q)) = _
  refine congrArg _ ?_
  funext a; apply Fin.ext
  match a with
  | ⟨0, _⟩ => show win1_6.index t (0 : Fin 2) * 1 + 1 * k.val = k.val; omega
  | ⟨1, _⟩ => show win1_6.index t (1 : Fin 2) * 256 + 1 * q.val = q.val; omega

/-- What row block t writes back to output window 7 is block t of `bn1` of the arrays the call finds. -/
theorem flushed1_7 (c : Dev nD) (t : Fin cfg1.N) :
    (dat1 V c).flushed 7 t = ((cfg1.win 7).blk t).view.read (Elt Ideal) (bn1 (V c main_v16) (V c main_v22) (V c main_v23) (V c main_v24) (V c main_v25) (V c main_v21) (V c main_v26)) := by
  show (cfg1.win 7).cut (grid1.coords t) ((dat1 V c).after 7 t) = _
  rw [after1_7]
  unfold out1_7
  rw [View.canon_unit_zero zeroOffsets1]
  simp only [View.ld_unit_zero (S := S2000x256) zeroOffsets1, View.ld_unit_zero (S := S1x256) zeroOffsets1, View.ld_unit_zero (S := S256x256) zeroOffsets1]
  obtain ⟨e00, e01, e10, e11, e20, e21, e30, e31, e40, e41, e50, e51, e60, e61, e70, e71⟩ := idx_facts1 t
  funext j
  obtain ⟨p, q, rfl⟩ : ∃ (p : Fin 2000) (q : Fin 256), j = ix2 p q := ⟨j 0, j 1, eq_ix2 j⟩
  refine (K1.k1_pay1_apply (iblk1 V c 0 t) (iblk1 V c 1 t) (iblk1 V c 2 t) (iblk1 V c 3 t) (iblk1 V c 4 t) (iblk1 V c 5 t) (iblk1 V c 6 t) p q).trans ?_
  show _ = bn1 (V c main_v16) (V c main_v22) (V c main_v23) (V c main_v24) (V c main_v25) (V c main_v21) (V c main_v26) (((cfg1.win 7).blk t).view.emb (ix2 p q))
  unfold bn1
  have hrow : ((((cfg1.win 7).blk t).view.emb (ix2 p q)) 0).val = t.val * 2000 + 1 * p.val := by
    show win1_7.index t (0 : Fin 2) * 2000 + 1 * p.val = _; rw [e70]
  have hcol : (((cfg1.win 7).blk t).view.emb (ix2 p q)) 1 = q := by
    apply Fin.ext; show win1_7.index t (1 : Fin 2) * 256 + 1 * q.val = q.val; omega
  rw [hcol]
  simp only [read1_0 V c t p _ _ hrow, read1_1 V c t, read1_2 V c t, read1_3 V c t, read1_4 V c t, read1_5 V c t, read1_6 V c t]

/-- An index of output array 7 is in row block t's block iff its row is in that block's range. -/
theorem mem_blk1_7 (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v27).slice (win1_7.rect t)).set ↔ _
  rw [View.set_slice_whole, Rect.mem_set_unit]
  exact Iff.rfl

/-- Every index of output array 7 is in the block of the row block its row falls in. -/
theorem cover1_7' (i : S50000x256.Idx) : ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_7 _, ?_⟩
  rw [mem_blk1_7]
  obtain ⟨e00, e01, e10, e11, e20, e21, e30, e31, e40, e41, e50, e51, e60, e61, e70, e71⟩ := idx_facts1 ⟨(i 0).val / 2000, by rw [hN]; omega⟩
  intro a
  match a with
  | ⟨0, _⟩ => show win1_7.index _ (0 : Fin 2) * 2000 ≤ (i 0).val ∧ (i 0).val < win1_7.index _ (0 : Fin 2) * 2000 + 2000; rw [e70]; show (i 0).val / 2000 * 2000 ≤ (i 0).val ∧ (i 0).val < (i 0).val / 2000 * 2000 + 2000; omega
  | ⟨1, _⟩ => show win1_7.index _ (1 : Fin 2) * 256 ≤ (i 1).val ∧ (i 1).val < win1_7.index _ (1 : Fin 2) * 256 + 256; omega

/-- Output array 7 after the call is `bn1` of the arrays the call finds. -/
theorem final1_7 (c : Dev nD) :
    (dat1 V c).arrAt 7 cfg1.N = bn1 (V c main_v16) (V c main_v22) (V c main_v23) (V c main_v24) (V c main_v25) (V c main_v21) (V c main_v26) :=
  (dat1 V c).arrAt_eq_of_cover 7 _ (fun t _ => flushed1_7 V c t) cover1_7'

end Cert.KernelIdeal.Calls

end
-- ==== Proof.Val.K2.lean ====
/-
  The later layers' linear block body at an index (256 input columns): entry (p, q) is the sum over the 256 columns of
  (x + agg) at (p, k) times the weight at (k, q), plus the bias at q.
-/
import proofs.«121371_j46033459478999_1_alg».proof.Proof.Gen.KernelIdeal.Skeleton
import proofs.«121371_j46033459478999_1_alg».proof.Proof.Val.Spec
import proofs.«121371_j46033459478999_1_alg».proof.Proof.Val.Layout
import proofs.«121371_j46033459478999_1_alg».proof.Proof.Val.K1

noncomputable section

open scoped BigOperators

namespace Cert.BodyMath.K2

open Idealize.ShloMosaic Idealize.ShloMosaic.ValueIdx Cert.KernelIdeal

/-- The block at (p, q): `linRow` of row p of the two input blocks, the weights and the bias row. -/
theorem k2_pay1_apply (v0 v2 : FVec Ideal S2000x256 .f32) (v6 : FVec Ideal S256x256 .bf16) (v9 : FVec Ideal S1x256 .f32)
    (p : Fin 2000) (q : Fin 256) :
    Gen.k2_pay1 (F := Ideal) v0 v2 v6 v9 (ix2 p q)
      = linRow (fun k => v0 (ix2 p k)) (fun k => v2 (ix2 p k)) (fun k c => v6 (ix2 k c))
          (fun c => v9 (ix2 (0 : Fin 1) c)) q := by
  unfold Gen.k2_pay1 linRow
  simp only [shapeCast_self]
  refine congrArg₂ (· + ·) ((K1.mm_apply _ _ p q).trans ?_) (broadcastTo_1b_ab_apply _ _ p q)
  rfl

/-- Call 4 runs the same body. -/
theorem k4_pay1_apply (v0 v2 : FVec Ideal S2000x256 .f32) (v6 : FVec Ideal S256x256 .bf16) (v9 : FVec Ideal S1x256 .f32)
    (p : Fin 2000) (q : Fin 256) :
    Gen.k4_pay1 (F := Ideal) v0 v2 v6 v9 (ix2 p q)
      = linRow (fun k => v0 (ix2 p k)) (fun k => v2 (ix2 p k)) (fun k c => v6 (ix2 k c))
          (fun c => v9 (ix2 (0 : Fin 1) c)) q :=
  k2_pay1_apply v0 v2 v6 v9 p q

end Cert.BodyMath.K2

end
-- ==== Proof.KIdeal.Val2.lean ====
/-
  What the call leaves in its output array, as one function of the arrays it finds: entry (r, q) is the sum over the
  256 input columns of (h + agg) at (r, k) times the weight at (k, q), plus the bias at q.
  Row block t writes rows 2000 t .. 2000 t + 1999, each from the same rows of the row-blocked input and from the whole of the other
  inputs, so every block is the restriction of one whole-array function; the 25 blocks cover the 50000 rows.
-/
import proofs.«121371_j46033459478999_1_alg».proof.Proof.KIdeal.Call2
import proofs.«121371_j46033459478999_1_alg».proof.Proof.Val.K2
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.BodyMath
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The whole output array, from the whole input arrays. -/
def lin2 (a0 : FVec Ideal S50000x256 .f32) (a1 : FVec Ideal S50000x256 .f32) (a2 : FVec Ideal S256x256 .bf16) (a3 : FVec Ideal S1x256 .f32) : FVec Ideal S50000x256 .f32 :=
  fun i => linRow (fun k : Fin 256 => a0 (ix2 (i 0) k)) (fun k : Fin 256 => a1 (ix2 (i 0) k)) (fun (k : Fin 256) (q : Fin 256) => a2 (ix2 k q)) (fun q : Fin 256 => a3 (ix2 (0 : Fin 1) q)) (i 1)

/-- The block indices, decided over the 25 row blocks: the row-blocked windows sit at row block t, column block 0; every
    other window stays at block (0, 0). -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- The row-blocked input's block entry (p, k) is the array's entry in row 2000 t + p. -/
theorem read2_0 (c : Dev nD) (t : Fin cfg2.N) (p : Fin 2000) (k : Fin 256) (r : Fin 50000)
    (hr : r.val = t.val * 2000 + 1 * p.val) :
    iblk2 V c 0 t (ix2 p k) = V c main_v27 (ix2 r k) := by
  obtain ⟨e00, e01, e10, e11, e20, e21, e30, e31, e40, e41⟩ := idx_facts2 t
  show V c main_v27 (((cfg2.win 0).blk t).view.emb (ix2 p k)) = _
  refine congrArg _ ?_
  funext a; apply Fin.ext
  match a with
  | ⟨0, _⟩ => show win2_0.index t (0 : Fin 2) * 2000 + 1 * p.val = r.val; omega
  | ⟨1, _⟩ => show win2_0.index t (1 : Fin 2) * 256 + 1 * k.val = k.val; omega
/-- The row-blocked input's block entry (p, k) is the array's entry in row 2000 t + p. -/
theorem read2_1 (c : Dev nD) (t : Fin cfg2.N) (p : Fin 2000) (k : Fin 256) (r : Fin 50000)
    (hr : r.val = t.val * 2000 + 1 * p.val) :
    iblk2 V c 1 t (ix2 p k) = V c main_v37 (ix2 r k) := by
  obtain ⟨e00, e01, e10, e11, e20, e21, e30, e31, e40, e41⟩ := idx_facts2 t
  show V c main_v37 (((cfg2.win 1).blk t).view.emb (ix2 p k)) = _
  refine congrArg _ ?_
  funext a; apply Fin.ext
  match a with
  | ⟨0, _⟩ => show win2_1.index t (0 : Fin 2) * 2000 + 1 * p.val = r.val; omega
  | ⟨1, _⟩ => show win2_1.index t (1 : Fin 2) * 256 + 1 * k.val = k.val; omega
/-- This window's block is its whole array. -/
theorem read2_2 (c : Dev nD) (t : Fin cfg2.N) (k : Fin 256) (q : Fin 256) :
    iblk2 V c 2 t (ix2 k q) = V c main_v38 (ix2 k q) := by
  obtain ⟨e00, e01, e10, e11, e20, e21, e30, e31, e40, e41⟩ := idx_facts2 t
  show V c main_v38 (((cfg2.win 2).blk t).view.emb (ix2 k q)) = _
  refine congrArg _ ?_
  funext a; apply Fin.ext
  match a with
  | ⟨0, _⟩ => show win2_2.index t (0 : Fin 2) * 256 + 1 * k.val = k.val; omega
  | ⟨1, _⟩ => show win2_2.index t (1 : Fin 2) * 256 + 1 * q.val = q.val; omega
/-- This window's block is its whole array. -/
theorem read2_3 (c : Dev nD) (t : Fin cfg2.N) (k : Fin 1) (q : Fin 256) :
    iblk2 V c 3 t (ix2 k q) = V c main_v39 (ix2 k q) := by
  obtain ⟨e00, e01, e10, e11, e20, e21, e30, e31, e40, e41⟩ := idx_facts2 t
  show V c main_v39 (((cfg2.win 3).blk t).view.emb (ix2 k q)) = _
  refine congrArg _ ?_
  funext a; apply Fin.ext
  match a with
  | ⟨0, _⟩ => show win2_3.index t (0 : Fin 2) * 1 + 1 * k.val = k.val; omega
  | ⟨1, _⟩ => show win2_3.index t (1 : Fin 2) * 256 + 1 * q.val = q.val; omega

/-- What row block t writes back to output window 4 is block t of `lin2` of the arrays the call finds. -/
theorem flushed2_4 (c : Dev nD) (t : Fin cfg2.N) :
    (dat2 V c).flushed 4 t = ((cfg2.win 4).blk t).view.read (Elt Ideal) (lin2 (V c main_v27) (V c main_v37) (V c main_v38) (V c main_v39)) := by
  show (cfg2.win 4).cut (grid2.coords t) ((dat2 V c).after 4 t) = _
  rw [after2_4]
  unfold out2_4
  rw [View.canon_unit_zero zeroOffsets2]
  simp only [View.ld_unit_zero (S := S2000x256) zeroOffsets2, View.ld_unit_zero (S := S256x256) zeroOffsets2, View.ld_unit_zero (S := S1x256) zeroOffsets2]
  obtain ⟨e00, e01, e10, e11, e20, e21, e30, e31, e40, e41⟩ := idx_facts2 t
  funext j
  obtain ⟨p, q, rfl⟩ : ∃ (p : Fin 2000) (q : Fin 256), j = ix2 p q := ⟨j 0, j 1, eq_ix2 j⟩
  refine (K2.k2_pay1_apply (iblk2 V c 0 t) (iblk2 V c 1 t) (iblk2 V c 2 t) (iblk2 V c 3 t) p q).trans ?_
  show _ = lin2 (V c main_v27) (V c main_v37) (V c main_v38) (V c main_v39) (((cfg2.win 4).blk t).view.emb (ix2 p q))
  unfold lin2
  have hrow : ((((cfg2.win 4).blk t).view.emb (ix2 p q)) 0).val = t.val * 2000 + 1 * p.val := by
    show win2_4.index t (0 : Fin 2) * 2000 + 1 * p.val = _; rw [e40]
  have hcol : (((cfg2.win 4).blk t).view.emb (ix2 p q)) 1 = q := by
    apply Fin.ext; show win2_4.index t (1 : Fin 2) * 256 + 1 * q.val = q.val; omega
  rw [hcol]
  simp only [read2_0 V c t p _ _ hrow, read2_1 V c t p _ _ hrow, read2_2 V c t, read2_3 V c t]

/-- An index of output array 4 is in row block t's block iff its row is in that block's range. -/
theorem mem_blk2_4 (t : Fin cfg2.N) (i : S50000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v40).slice (win2_4.rect t)).set ↔ _
  rw [View.set_slice_whole, Rect.mem_set_unit]
  exact Iff.rfl

/-- Every index of output array 4 is in the block of the row block its row falls in. -/
theorem cover2_4' (i : S50000x256.Idx) : ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_4 _, ?_⟩
  rw [mem_blk2_4]
  obtain ⟨e00, e01, e10, e11, e20, e21, e30, e31, e40, e41⟩ := idx_facts2 ⟨(i 0).val / 2000, by rw [hN]; omega⟩
  intro a
  match a with
  | ⟨0, _⟩ => show win2_4.index _ (0 : Fin 2) * 2000 ≤ (i 0).val ∧ (i 0).val < win2_4.index _ (0 : Fin 2) * 2000 + 2000; rw [e40]; show (i 0).val / 2000 * 2000 ≤ (i 0).val ∧ (i 0).val < (i 0).val / 2000 * 2000 + 2000; omega
  | ⟨1, _⟩ => show win2_4.index _ (1 : Fin 2) * 256 ≤ (i 1).val ∧ (i 1).val < win2_4.index _ (1 : Fin 2) * 256 + 256; omega

/-- Output array 4 after the call is `lin2` of the arrays the call finds. -/
theorem final2_4 (c : Dev nD) :
    (dat2 V c).arrAt 4 cfg2.N = lin2 (V c main_v27) (V c main_v37) (V c main_v38) (V c main_v39) :=
  (dat2 V c).arrAt_eq_of_cover 4 _ (fun t _ => flushed2_4 V c t) cover2_4'

end Cert.KernelIdeal.Calls

end
-- ==== Proof.KIdeal.Val3.lean ====
/-
  What the call leaves in its output array, as one function of the arrays it finds: entry (r, q) is
  relu(sum over k of relu((h(r, k) - mean(k)) * rsqrt(var(k) + eps) * scale(k) + shift(k)) * W(k, q) + b(q)).
  Row block t writes rows 2000 t .. 2000 t + 1999, each from the same rows of the row-blocked input and from the whole of the other
  inputs, so every block is the restriction of one whole-array function; the 25 blocks cover the 50000 rows.
-/
import proofs.«121371_j46033459478999_1_alg».proof.Proof.KIdeal.Call3
import proofs.«121371_j46033459478999_1_alg».proof.Proof.Val.K1
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.BodyMath
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The whole output array, from the whole input arrays. -/
def bn3 (a0 : FVec Ideal S50000x256 .f32) (a1 : FVec Ideal S1x256 .f32) (a2 : FVec Ideal S1x256 .f32) (a3 : FVec Ideal S1x256 .f32) (a4 : FVec Ideal S1x256 .f32) (a5 : FVec Ideal S256x256 .bf16) (a6 : FVec Ideal S1x256 .f32) : FVec Ideal S50000x256 .f32 :=
  fun i => bnLinRow (fun k : Fin 256 => a0 (ix2 (i 0) k)) (fun k : Fin 256 => a1 (ix2 (0 : Fin 1) k)) (fun k : Fin 256 => a2 (ix2 (0 : Fin 1) k)) (fun k : Fin 256 => a3 (ix2 (0 : Fin 1) k)) (fun k : Fin 256 => a4 (ix2 (0 : Fin 1) k)) (fun (k : Fin 256) (q : Fin 256) => a5 (ix2 k q)) (fun q : Fin 256 => a6 (ix2 (0 : Fin 1) q)) (i 1)

/-- The block indices, decided over the 25 row blocks: the row-blocked windows sit at row block t, column block 0; every
    other window stays at block (0, 0). -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

/-- The row-blocked input's block entry (p, k) is the array's entry in row 2000 t + p. -/
theorem read3_0 (c : Dev nD) (t : Fin cfg3.N) (p : Fin 2000) (k : Fin 256) (r : Fin 50000)
    (hr : r.val = t.val * 2000 + 1 * p.val) :
    iblk3 V c 0 t (ix2 p k) = V c main_v40 (ix2 r k) := by
  obtain ⟨e00, e01, e10, e11, e20, e21, e30, e31, e40, e41, e50, e51, e60, e61, e70, e71⟩ := idx_facts3 t
  show V c main_v40 (((cfg3.win 0).blk t).view.emb (ix2 p k)) = _
  refine congrArg _ ?_
  funext a; apply Fin.ext
  match a with
  | ⟨0, _⟩ => show win3_0.index t (0 : Fin 2) * 2000 + 1 * p.val = r.val; omega
  | ⟨1, _⟩ => show win3_0.index t (1 : Fin 2) * 256 + 1 * k.val = k.val; omega
/-- This window's block is its whole array. -/
theorem read3_1 (c : Dev nD) (t : Fin cfg3.N) (k : Fin 1) (q : Fin 256) :
    iblk3 V c 1 t (ix2 k q) = V c main_v46 (ix2 k q) := by
  obtain ⟨e00, e01, e10, e11, e20, e21, e30, e31, e40, e41, e50, e51, e60, e61, e70, e71⟩ := idx_facts3 t
  show V c main_v46 (((cfg3.win 1).blk t).view.emb (ix2 k q)) = _
  refine congrArg _ ?_
  funext a; apply Fin.ext
  match a with
  | ⟨0, _⟩ => show win3_1.index t (0 : Fin 2) * 1 + 1 * k.val = k.val; omega
  | ⟨1, _⟩ => show win3_1.index t (1 : Fin 2) * 256 + 1 * q.val = q.val; omega
/-- This window's block is its whole array. -/
theorem read3_2 (c : Dev nD) (t : Fin cfg3.N) (k : Fin 1) (q : Fin 256) :
    iblk3 V c 2 t (ix2 k q) = V c main_v47 (ix2 k q) := by
  obtain ⟨e00, e01, e10, e11, e20, e21, e30, e31, e40, e41, e50, e51, e60, e61, e70, e71⟩ := idx_facts3 t
  show V c main_v47 (((cfg3.win 2).blk t).view.emb (ix2 k q)) = _
  refine congrArg _ ?_
  funext a; apply Fin.ext
  match a with
  | ⟨0, _⟩ => show win3_2.index t (0 : Fin 2) * 1 + 1 * k.val = k.val; omega
  | ⟨1, _⟩ => show win3_2.index t (1 : Fin 2) * 256 + 1 * q.val = q.val; omega
/-- This window's block is its whole array. -/
theorem read3_3 (c : Dev nD) (t : Fin cfg3.N) (k : Fin 1) (q : Fin 256) :
    iblk3 V c 3 t (ix2 k q) = V c main_v48 (ix2 k q) := by
  obtain ⟨e00, e01, e10, e11, e20, e21, e30, e31, e40, e41, e50, e51, e60, e61, e70, e71⟩ := idx_facts3 t
  show V c main_v48 (((cfg3.win 3).blk t).view.emb (ix2 k q)) = _
  refine congrArg _ ?_
  funext a; apply Fin.ext
  match a with
  | ⟨0, _⟩ => show win3_3.index t (0 : Fin 2) * 1 + 1 * k.val = k.val; omega
  | ⟨1, _⟩ => show win3_3.index t (1 : Fin 2) * 256 + 1 * q.val = q.val; omega
/-- This window's block is its whole array. -/
theorem read3_4 (c : Dev nD) (t : Fin cfg3.N) (k : Fin 1) (q : Fin 256) :
    iblk3 V c 4 t (ix2 k q) = V c main_v49 (ix2 k q) := by
  obtain ⟨e00, e01, e10, e11, e20, e21, e30, e31, e40, e41, e50, e51, e60, e61, e70, e71⟩ := idx_facts3 t
  show V c main_v49 (((cfg3.win 4).blk t).view.emb (ix2 k q)) = _
  refine congrArg _ ?_
  funext a; apply Fin.ext
  match a with
  | ⟨0, _⟩ => show win3_4.index t (0 : Fin 2) * 1 + 1 * k.val = k.val; omega
  | ⟨1, _⟩ => show win3_4.index t (1 : Fin 2) * 256 + 1 * q.val = q.val; omega
/-- This window's block is its whole array. -/
theorem read3_5 (c : Dev nD) (t : Fin cfg3.N) (k : Fin 256) (q : Fin 256) :
    iblk3 V c 5 t (ix2 k q) = V c main_v45 (ix2 k q) := by
  obtain ⟨e00, e01, e10, e11, e20, e21, e30, e31, e40, e41, e50, e51, e60, e61, e70, e71⟩ := idx_facts3 t
  show V c main_v45 (((cfg3.win 5).blk t).view.emb (ix2 k q)) = _
  refine congrArg _ ?_
  funext a; apply Fin.ext
  match a with
  | ⟨0, _⟩ => show win3_5.index t (0 : Fin 2) * 256 + 1 * k.val = k.val; omega
  | ⟨1, _⟩ => show win3_5.index t (1 : Fin 2) * 256 + 1 * q.val = q.val; omega
/-- This window's block is its whole array. -/
theorem read3_6 (c : Dev nD) (t : Fin cfg3.N) (k : Fin 1) (q : Fin 256) :
    iblk3 V c 6 t (ix2 k q) = V c main_v50 (ix2 k q) := by
  obtain ⟨e00, e01, e10, e11, e20, e21, e30, e31, e40, e41, e50, e51, e60, e61, e70, e71⟩ := idx_facts3 t
  show V c main_v50 (((cfg3.win 6).blk t).view.emb (ix2 k q)) = _
  refine congrArg _ ?_
  funext a; apply Fin.ext
  match a with
  | ⟨0, _⟩ => show win3_6.index t (0 : Fin 2) * 1 + 1 * k.val = k.val; omega
  | ⟨1, _⟩ => show win3_6.index t (1 : Fin 2) * 256 + 1 * q.val = q.val; omega

/-- What row block t writes back to output window 7 is block t of `bn3` of the arrays the call finds. -/
theorem flushed3_7 (c : Dev nD) (t : Fin cfg3.N) :
    (dat3 V c).flushed 7 t = ((cfg3.win 7).blk t).view.read (Elt Ideal) (bn3 (V c main_v40) (V c main_v46) (V c main_v47) (V c main_v48) (V c main_v49) (V c main_v45) (V c main_v50)) := by
  show (cfg3.win 7).cut (grid3.coords t) ((dat3 V c).after 7 t) = _
  rw [after3_7]
  unfold out3_7
  rw [View.canon_unit_zero zeroOffsets3]
  simp only [View.ld_unit_zero (S := S2000x256) zeroOffsets3, View.ld_unit_zero (S := S1x256) zeroOffsets3, View.ld_unit_zero (S := S256x256) zeroOffsets3]
  obtain ⟨e00, e01, e10, e11, e20, e21, e30, e31, e40, e41, e50, e51, e60, e61, e70, e71⟩ := idx_facts3 t
  funext j
  obtain ⟨p, q, rfl⟩ : ∃ (p : Fin 2000) (q : Fin 256), j = ix2 p q := ⟨j 0, j 1, eq_ix2 j⟩
  refine (K1.k3_pay1_apply (iblk3 V c 0 t) (iblk3 V c 1 t) (iblk3 V c 2 t) (iblk3 V c 3 t) (iblk3 V c 4 t) (iblk3 V c 5 t) (iblk3 V c 6 t) p q).trans ?_
  show _ = bn3 (V c main_v40) (V c main_v46) (V c main_v47) (V c main_v48) (V c main_v49) (V c main_v45) (V c main_v50) (((cfg3.win 7).blk t).view.emb (ix2 p q))
  unfold bn3
  have hrow : ((((cfg3.win 7).blk t).view.emb (ix2 p q)) 0).val = t.val * 2000 + 1 * p.val := by
    show win3_7.index t (0 : Fin 2) * 2000 + 1 * p.val = _; rw [e70]
  have hcol : (((cfg3.win 7).blk t).view.emb (ix2 p q)) 1 = q := by
    apply Fin.ext; show win3_7.index t (1 : Fin 2) * 256 + 1 * q.val = q.val; omega
  rw [hcol]
  simp only [read3_0 V c t p _ _ hrow, read3_1 V c t, read3_2 V c t, read3_3 V c t, read3_4 V c t, read3_5 V c t, read3_6 V c t]

/-- An index of output array 7 is in row block t's block iff its row is in that block's range. -/
theorem mem_blk3_7 (t : Fin cfg3.N) (i : S50000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v51).slice (win3_7.rect t)).set ↔ _
  rw [View.set_slice_whole, Rect.mem_set_unit]
  exact Iff.rfl

/-- Every index of output array 7 is in the block of the row block its row falls in. -/
theorem cover3_7' (i : S50000x256.Idx) : ∃ t : Fin cfg3.N, (cfg3.win 7).flush t = true ∧ i ∈ ((cfg3.win 7).blk t).view.set := by
  have hi0 : (i 0).val < 50000 := (i 0).isLt
  have hi1 : (i 1).val < 256 := (i 1).isLt
  have hN : cfg3.N = 25 := N_3
  refine ⟨⟨(i 0).val / 2000, by rw [hN]; omega⟩, flush3_7 _, ?_⟩
  rw [mem_blk3_7]
  obtain ⟨e00, e01, e10, e11, e20, e21, e30, e31, e40, e41, e50, e51, e60, e61, e70, e71⟩ := idx_facts3 ⟨(i 0).val / 2000, by rw [hN]; omega⟩
  intro a
  match a with
  | ⟨0, _⟩ => show win3_7.index _ (0 : Fin 2) * 2000 ≤ (i 0).val ∧ (i 0).val < win3_7.index _ (0 : Fin 2) * 2000 + 2000; rw [e70]; show (i 0).val / 2000 * 2000 ≤ (i 0).val ∧ (i 0).val < (i 0).val / 2000 * 2000 + 2000; omega
  | ⟨1, _⟩ => show win3_7.index _ (1 : Fin 2) * 256 ≤ (i 1).val ∧ (i 1).val < win3_7.index _ (1 : Fin 2) * 256 + 256; omega

/-- Output array 7 after the call is `bn3` of the arrays the call finds. -/
theorem final3_7 (c : Dev nD) :
    (dat3 V c).arrAt 7 cfg3.N = bn3 (V c main_v40) (V c main_v46) (V c main_v47) (V c main_v48) (V c main_v49) (V c main_v45) (V c main_v50) :=
  (dat3 V c).arrAt_eq_of_cover 7 _ (fun t _ => flushed3_7 V c t) cover3_7'

end Cert.KernelIdeal.Calls

end
-- ==== Proof.KIdeal.Val4.lean ====
/-
  What the call leaves in its output array, as one function of the arrays it finds: entry (r, q) is the sum over the
  256 input columns of (h + agg) at (r, k) times the weight at (k, q), plus the bias at q.
  Row block t writes rows 2000 t .. 2000 t + 1999, each from the same rows of the row-blocked input and from the whole of the other
  inputs, so every block is the restriction of one whole-array function; the 25 blocks cover the 50000 rows.
-/
import proofs.«121371_j46033459478999_1_alg».proof.Proof.KIdeal.Call4
import proofs.«121371_j46033459478999_1_alg».proof.Proof.Val.K2
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.BodyMath
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets4 : (![0, 0] : Fin 2 → Nat) = fun _ => 0 := funext fun a => by fin_cases a <;> rfl

/-- The whole output array, from the whole input arrays. -/
def lin4 (a0 : FVec Ideal S50000x256 .f32) (a1 : FVec Ideal S50000x256 .f32) (a2 : FVec Ideal S256x256 .bf16) (a3 : FVec Ideal S1x256 .f32) : FVec Ideal S50000x256 .f32 :=
  fun i => linRow (fun k : Fin 256 => a0 (ix2 (i 0) k)) (fun k : Fin 256 => a1 (ix2 (i 0) k)) (fun (k : Fin 256) (q : Fin 256) => a2 (ix2 k q)) (fun q : Fin 256 => a3 (ix2 (0 : Fin 1) q)) (i 1)

/-- The block indices, decided over the 25 row blocks: the row-blocked windows sit at row block t, column block 0; every
    other window stays at block (0, 0). -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

/-- The row-blocked input's block entry (p, k) is the array's entry in row 2000 t + p. -/
theorem read4_0 (c : Dev nD) (t : Fin cfg4.N) (p : Fin 2000) (k : Fin 256) (r : Fin 50000)
    (hr : r.val = t.val * 2000 + 1 * p.val) :
    iblk4 V c 0 t (ix2 p k) = V c main_v51 (ix2 r k) := by
  obtain ⟨e00, e01, e10, e11, e20, e21, e30, e31, e40, e41⟩ := idx_facts4 t
  show V c main_v51 (((cfg4.win 0).blk t).view.emb (ix2 p k)) = _
  refine congrArg _ ?_
  funext a; apply Fin.ext
  match a with
  | ⟨0, _⟩ => show win4_0.index t (0 : Fin 2) * 2000 + 1 * p.val = r.val; omega
  | ⟨1, _⟩ => show win4_0.index t (1 : Fin 2) * 256 + 1 * k.val = k.val; omega
/-- The row-blocked input's block entry (p, k) is the array's entry in row 2000 t + p. -/
theorem read4_1 (c : Dev nD) (t : Fin cfg4.N) (p : Fin 2000) (k : Fin 256) (r : Fin 50000)
    (hr : r.val = t.val * 2000 + 1 * p.val) :
    iblk4 V c 1 t (ix2 p k) = V c main_v61 (ix2 r k) := by
  obtain ⟨e00, e01, e10, e11, e20, e21, e30, e31, e40, e41⟩ := idx_facts4 t
  show V c main_v61 (((cfg4.win 1).blk t).view.emb (ix2 p k)) = _
  refine congrArg _ ?_
  funext a; apply Fin.ext
  match a with
  | ⟨0, _⟩ => show win4_1.index t (0 : Fin 2) * 2000 + 1 * p.val = r.val; omega
  | ⟨1, _⟩ => show win4_1.index t (1 : Fin 2) * 256 + 1 * k.val = k.val; omega
/-- This window's block is its whole array. -/
theorem read4_2 (c : Dev nD) (t : Fin cfg4.N) (k : Fin 256) (q : Fin 256) :
    iblk4 V c 2 t (ix2 k q) = V c main_v62 (ix2 k q) := by
  obtain ⟨e00, e01, e10, e11, e20, e21, e30, e31, e40, e41⟩ := idx_facts4 t
  show V c main_v62 (((cfg4.win 2).blk t).view.emb (ix2 k q)) = _
  refine congrArg _ ?_
  funext a; apply Fin.ext
  match a with
  | ⟨0, _⟩ => show win4_2.index t (0 : Fin 2) * 256 + 1 * k.val = k.val; omega
  | ⟨1, _⟩ => show win4_2.index t (1 : Fin 2) * 256 + 1 * q.val = q.val; omega
/-- This window's block is its whole array. -/
theorem read4_3 (c : Dev nD) (t : Fin cfg4.N) (k : Fin 1) (q : Fin 256) :
    iblk4 V c 3 t (ix2 k q) = V c main_v63 (ix2 k q) := by
  obtain ⟨e00, e01, e10, e11, e20, e21, e30, e31, e40, e41⟩ := idx_facts4 t
  show V c main_v63 (((cfg4.win 3).blk t).view.emb (ix2 k q)) = _
  refine congrArg _ ?_
  funext a; apply Fin.ext
  match a with
  | ⟨0, _⟩ => show win4_3.index t (0 : Fin 2) * 1 + 1 * k.val = k.val; omega
  | ⟨1, _⟩ => show win4_3.index t (1 : Fin 2) * 256 + 1 * q.val = q.val; omega

/-- What row block t writes back to output window 4 is block t of `lin4` of the arrays the call finds. -/
theorem flushed4_4 (c : Dev nD) (t : Fin cfg4.N) :
    (dat4 V c).flushed 4 t = ((cfg4.win 4).blk t).view.read (Elt Ideal) (lin4 (V c main_v51) (V c main_v61) (V c main_v62) (V c main_v63)) := by
  show (cfg4.win 4).cut (grid4.coords t) ((dat4 V c).after 4 t) = _
  rw [after4_4]
  unfold out4_4
  rw [View.canon_unit_zero zeroOffsets4]
  simp only [View.ld_unit_zero (S := S2000x256) zeroOffsets4, View.ld_unit_zero (S := S256x256) zeroOffsets4, View.ld_unit_zero (S := S1x256) zeroOffsets4]
  obtain ⟨e00, e01, e10, e11, e20, e21, e30, e31, e40, e41⟩ := idx_facts4 t
  funext j
  obtain ⟨p, q, rfl⟩ : ∃ (p : Fin 2000) (q : Fin 256), j = ix2 p q := ⟨j 0, j 1, eq_ix2 j⟩
  refine (K2.k4_pay1_apply (iblk4 V c 0 t) (iblk4 V c 1 t) (iblk4 V c 2 t) (iblk4 V c 3 t) p q).trans ?_
  show _ = lin4 (V c main_v51) (V c main_v61) (V c main_v62) (V c main_v63) (((cfg4.win 4).blk t).view.emb (ix2 p q))
  unfold lin4
  have hrow : ((((cfg4.win 4).blk t).view.emb (ix2 p q)) 0).val = t.val * 2000 + 1 * p.val := by
    show win4_4.index t (0 : Fin 2) * 2000 + 1 * p.val = _; rw [e40]
  have hcol : (((cfg4.win 4).blk t).view.emb (ix2 p q)) 1 = q := by
    apply Fin.ext; show win4_4.index t (1 : Fin 2) * 256 + 1 * q.val = q.val; omega
  rw [hcol]
  simp only [read4_0 V c t p _ _ hrow, read4_1 V c t p _ _ hrow, read4_2 V c t, read4_3 V c t]

/-- An index of output array 4 is in row block t's block iff its row is in that block's range. -/
theorem mem_blk4_4 (t : Fin cfg4.N) (i : S50000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v64).slice (win4_4.rect t)).set ↔ _
  rw [View.set_slice_whole, Rect.mem_set_unit]
  exact Iff.rfl

/-- Every index of output array 4 is in the block of the row block its row falls in. -/
theorem cover4_4' (i : S50000x256.Idx) : ∃ t : Fin cfg4.N, (cfg4.win 4).flush t = true ∧ i ∈ ((cfg4.win 4).blk t).view.set := by
  have hi0 : (i 0).val < 50000 := (i 0).isLt
  have hi1 : (i 1).val < 256 := (i 1).isLt
  have hN : cfg4.N = 25 := N_4
  refine ⟨⟨(i 0).val / 2000, by rw [hN]; omega⟩, flush4_4 _, ?_⟩
  rw [mem_blk4_4]
  obtain ⟨e00, e01, e10, e11, e20, e21, e30, e31, e40, e41⟩ := idx_facts4 ⟨(i 0).val / 2000, by rw [hN]; omega⟩
  intro a
  match a with
  | ⟨0, _⟩ => show win4_4.index _ (0 : Fin 2) * 2000 ≤ (i 0).val ∧ (i 0).val < win4_4.index _ (0 : Fin 2) * 2000 + 2000; rw [e40]; show (i 0).val / 2000 * 2000 ≤ (i 0).val ∧ (i 0).val < (i 0).val / 2000 * 2000 + 2000; omega
  | ⟨1, _⟩ => show win4_4.index _ (1 : Fin 2) * 256 ≤ (i 1).val ∧ (i 1).val < win4_4.index _ (1 : Fin 2) * 256 + 256; omega

/-- Output array 4 after the call is `lin4` of the arrays the call finds. -/
theorem final4_4 (c : Dev nD) :
    (dat4 V c).arrAt 4 cfg4.N = lin4 (V c main_v51) (V c main_v61) (V c main_v62) (V c main_v63) :=
  (dat4 V c).arrAt_eq_of_cover 4 _ (fun t _ => flushed4_4 V c t) cover4_4'

end Cert.KernelIdeal.Calls

end
-- ==== Proof.KIdeal.Val5.lean ====
/-
  What the call leaves in its output array, as one function of the arrays it finds: entry (r, q) is
  relu(sum over k of relu((h(r, k) - mean(k)) * rsqrt(var(k) + eps) * scale(k) + shift(k)) * W(k, q) + b(q)).
  Row block t writes rows 2000 t .. 2000 t + 1999, each from the same rows of the row-blocked input and from the whole of the other
  inputs, so every block is the restriction of one whole-array function; the 25 blocks cover the 50000 rows.
-/
import proofs.«121371_j46033459478999_1_alg».proof.Proof.KIdeal.Call5
import proofs.«121371_j46033459478999_1_alg».proof.Proof.Val.K1
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.BodyMath
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The whole output array, from the whole input arrays. -/
def bn5 (a0 : FVec Ideal S50000x256 .f32) (a1 : FVec Ideal S1x256 .f32) (a2 : FVec Ideal S1x256 .f32) (a3 : FVec Ideal S1x256 .f32) (a4 : FVec Ideal S1x256 .f32) (a5 : FVec Ideal S256x256 .bf16) (a6 : FVec Ideal S1x256 .f32) : FVec Ideal S50000x256 .f32 :=
  fun i => bnLinRow (fun k : Fin 256 => a0 (ix2 (i 0) k)) (fun k : Fin 256 => a1 (ix2 (0 : Fin 1) k)) (fun k : Fin 256 => a2 (ix2 (0 : Fin 1) k)) (fun k : Fin 256 => a3 (ix2 (0 : Fin 1) k)) (fun k : Fin 256 => a4 (ix2 (0 : Fin 1) k)) (fun (k : Fin 256) (q : Fin 256) => a5 (ix2 k q)) (fun q : Fin 256 => a6 (ix2 (0 : Fin 1) q)) (i 1)

/-- The block indices, decided over the 25 row blocks: the row-blocked windows sit at row block t, column block 0; every
    other window stays at block (0, 0). -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = t.val
    ∧ win5_7.index t (1 : Fin 2) = 0 :=
  (by decide +kernel : ∀ t : Fin grid5.N, _)

/-- The row-blocked input's block entry (p, k) is the array's entry in row 2000 t + p. -/
theorem read5_0 (c : Dev nD) (t : Fin cfg5.N) (p : Fin 2000) (k : Fin 256) (r : Fin 50000)
    (hr : r.val = t.val * 2000 + 1 * p.val) :
    iblk5 V c 0 t (ix2 p k) = V c main_v64 (ix2 r k) := by
  obtain ⟨e00, e01, e10, e11, e20, e21, e30, e31, e40, e41, e50, e51, e60, e61, e70, e71⟩ := idx_facts5 t
  show V c main_v64 (((cfg5.win 0).blk t).view.emb (ix2 p k)) = _
  refine congrArg _ ?_
  funext a; apply Fin.ext
  match a with
  | ⟨0, _⟩ => show win5_0.index t (0 : Fin 2) * 2000 + 1 * p.val = r.val; omega
  | ⟨1, _⟩ => show win5_0.index t (1 : Fin 2) * 256 + 1 * k.val = k.val; omega
/-- This window's block is its whole array. -/
theorem read5_1 (c : Dev nD) (t : Fin cfg5.N) (k : Fin 1) (q : Fin 256) :
    iblk5 V c 1 t (ix2 k q) = V c main_v70 (ix2 k q) := by
  obtain ⟨e00, e01, e10, e11, e20, e21, e30, e31, e40, e41, e50, e51, e60, e61, e70, e71⟩ := idx_facts5 t
  show V c main_v70 (((cfg5.win 1).blk t).view.emb (ix2 k q)) = _
  refine congrArg _ ?_
  funext a; apply Fin.ext
  match a with
  | ⟨0, _⟩ => show win5_1.index t (0 : Fin 2) * 1 + 1 * k.val = k.val; omega
  | ⟨1, _⟩ => show win5_1.index t (1 : Fin 2) * 256 + 1 * q.val = q.val; omega
/-- This window's block is its whole array. -/
theorem read5_2 (c : Dev nD) (t : Fin cfg5.N) (k : Fin 1) (q : Fin 256) :
    iblk5 V c 2 t (ix2 k q) = V c main_v71 (ix2 k q) := by
  obtain ⟨e00, e01, e10, e11, e20, e21, e30, e31, e40, e41, e50, e51, e60, e61, e70, e71⟩ := idx_facts5 t
  show V c main_v71 (((cfg5.win 2).blk t).view.emb (ix2 k q)) = _
  refine congrArg _ ?_
  funext a; apply Fin.ext
  match a with
  | ⟨0, _⟩ => show win5_2.index t (0 : Fin 2) * 1 + 1 * k.val = k.val; omega
  | ⟨1, _⟩ => show win5_2.index t (1 : Fin 2) * 256 + 1 * q.val = q.val; omega
/-- This window's block is its whole array. -/
theorem read5_3 (c : Dev nD) (t : Fin cfg5.N) (k : Fin 1) (q : Fin 256) :
    iblk5 V c 3 t (ix2 k q) = V c main_v72 (ix2 k q) := by
  obtain ⟨e00, e01, e10, e11, e20, e21, e30, e31, e40, e41, e50, e51, e60, e61, e70, e71⟩ := idx_facts5 t
  show V c main_v72 (((cfg5.win 3).blk t).view.emb (ix2 k q)) = _
  refine congrArg _ ?_
  funext a; apply Fin.ext
  match a with
  | ⟨0, _⟩ => show win5_3.index t (0 : Fin 2) * 1 + 1 * k.val = k.val; omega
  | ⟨1, _⟩ => show win5_3.index t (1 : Fin 2) * 256 + 1 * q.val = q.val; omega
/-- This window's block is its whole array. -/
theorem read5_4 (c : Dev nD) (t : Fin cfg5.N) (k : Fin 1) (q : Fin 256) :
    iblk5 V c 4 t (ix2 k q) = V c main_v73 (ix2 k q) := by
  obtain ⟨e00, e01, e10, e11, e20, e21, e30, e31, e40, e41, e50, e51, e60, e61, e70, e71⟩ := idx_facts5 t
  show V c main_v73 (((cfg5.win 4).blk t).view.emb (ix2 k q)) = _
  refine congrArg _ ?_
  funext a; apply Fin.ext
  match a with
  | ⟨0, _⟩ => show win5_4.index t (0 : Fin 2) * 1 + 1 * k.val = k.val; omega
  | ⟨1, _⟩ => show win5_4.index t (1 : Fin 2) * 256 + 1 * q.val = q.val; omega
/-- This window's block is its whole array. -/
theorem read5_5 (c : Dev nD) (t : Fin cfg5.N) (k : Fin 256) (q : Fin 256) :
    iblk5 V c 5 t (ix2 k q) = V c main_v69 (ix2 k q) := by
  obtain ⟨e00, e01, e10, e11, e20, e21, e30, e31, e40, e41, e50, e51, e60, e61, e70, e71⟩ := idx_facts5 t
  show V c main_v69 (((cfg5.win 5).blk t).view.emb (ix2 k q)) = _
  refine congrArg _ ?_
  funext a; apply Fin.ext
  match a with
  | ⟨0, _⟩ => show win5_5.index t (0 : Fin 2) * 256 + 1 * k.val = k.val; omega
  | ⟨1, _⟩ => show win5_5.index t (1 : Fin 2) * 256 + 1 * q.val = q.val; omega
/-- This window's block is its whole array. -/
theorem read5_6 (c : Dev nD) (t : Fin cfg5.N) (k : Fin 1) (q : Fin 256) :
    iblk5 V c 6 t (ix2 k q) = V c main_v74 (ix2 k q) := by
  obtain ⟨e00, e01, e10, e11, e20, e21, e30, e31, e40, e41, e50, e51, e60, e61, e70, e71⟩ := idx_facts5 t
  show V c main_v74 (((cfg5.win 6).blk t).view.emb (ix2 k q)) = _
  refine congrArg _ ?_
  funext a; apply Fin.ext
  match a with
  | ⟨0, _⟩ => show win5_6.index t (0 : Fin 2) * 1 + 1 * k.val = k.val; omega
  | ⟨1, _⟩ => show win5_6.index t (1 : Fin 2) * 256 + 1 * q.val = q.val; omega

/-- What row block t writes back to output window 7 is block t of `bn5` of the arrays the call finds. -/
theorem flushed5_7 (c : Dev nD) (t : Fin cfg5.N) :
    (dat5 V c).flushed 7 t = ((cfg5.win 7).blk t).view.read (Elt Ideal) (bn5 (V c main_v64) (V c main_v70) (V c main_v71) (V c main_v72) (V c main_v73) (V c main_v69) (V c main_v74)) := by
  show (cfg5.win 7).cut (grid5.coords t) ((dat5 V c).after 7 t) = _
  rw [after5_7]
  unfold out5_7
  rw [View.canon_unit_zero zeroOffsets5]
  simp only [View.ld_unit_zero (S := S2000x256) zeroOffsets5, View.ld_unit_zero (S := S1x256) zeroOffsets5, View.ld_unit_zero (S := S256x256) zeroOffsets5]
  obtain ⟨e00, e01, e10, e11, e20, e21, e30, e31, e40, e41, e50, e51, e60, e61, e70, e71⟩ := idx_facts5 t
  funext j
  obtain ⟨p, q, rfl⟩ : ∃ (p : Fin 2000) (q : Fin 256), j = ix2 p q := ⟨j 0, j 1, eq_ix2 j⟩
  refine (K1.k5_pay1_apply (iblk5 V c 0 t) (iblk5 V c 1 t) (iblk5 V c 2 t) (iblk5 V c 3 t) (iblk5 V c 4 t) (iblk5 V c 5 t) (iblk5 V c 6 t) p q).trans ?_
  show _ = bn5 (V c main_v64) (V c main_v70) (V c main_v71) (V c main_v72) (V c main_v73) (V c main_v69) (V c main_v74) (((cfg5.win 7).blk t).view.emb (ix2 p q))
  unfold bn5
  have hrow : ((((cfg5.win 7).blk t).view.emb (ix2 p q)) 0).val = t.val * 2000 + 1 * p.val := by
    show win5_7.index t (0 : Fin 2) * 2000 + 1 * p.val = _; rw [e70]
  have hcol : (((cfg5.win 7).blk t).view.emb (ix2 p q)) 1 = q := by
    apply Fin.ext; show win5_7.index t (1 : Fin 2) * 256 + 1 * q.val = q.val; omega
  rw [hcol]
  simp only [read5_0 V c t p _ _ hrow, read5_1 V c t, read5_2 V c t, read5_3 V c t, read5_4 V c t, read5_5 V c t, read5_6 V c t]

/-- An index of output array 7 is in row block t's block iff its row is in that block's range. -/
theorem mem_blk5_7 (t : Fin cfg5.N) (i : S50000x256.Idx) :
    i ∈ ((cfg5.win 7).blk t).view.set ↔ ∀ a : Fin 2, win5_7.index t a * S2000x256.size a ≤ (i a).val ∧ (i a).val < win5_7.index t a * S2000x256.size a + S2000x256.size a := by
  show i ∈ ((View.whole main_v75).slice (win5_7.rect t)).set ↔ _
  rw [View.set_slice_whole, Rect.mem_set_unit]
  exact Iff.rfl

/-- Every index of output array 7 is in the block of the row block its row falls in. -/
theorem cover5_7' (i : S50000x256.Idx) : ∃ t : Fin cfg5.N, (cfg5.win 7).flush t = true ∧ i ∈ ((cfg5.win 7).blk t).view.set := by
  have hi0 : (i 0).val < 50000 := (i 0).isLt
  have hi1 : (i 1).val < 256 := (i 1).isLt
  have hN : cfg5.N = 25 := N_5
  refine ⟨⟨(i 0).val / 2000, by rw [hN]; omega⟩, flush5_7 _, ?_⟩
  rw [mem_blk5_7]
  obtain ⟨e00, e01, e10, e11, e20, e21, e30, e31, e40, e41, e50, e51, e60, e61, e70, e71⟩ := idx_facts5 ⟨(i 0).val / 2000, by rw [hN]; omega⟩
  intro a
  match a with
  | ⟨0, _⟩ => show win5_7.index _ (0 : Fin 2) * 2000 ≤ (i 0).val ∧ (i 0).val < win5_7.index _ (0 : Fin 2) * 2000 + 2000; rw [e70]; show (i 0).val / 2000 * 2000 ≤ (i 0).val ∧ (i 0).val < (i 0).val / 2000 * 2000 + 2000; omega
  | ⟨1, _⟩ => show win5_7.index _ (1 : Fin 2) * 256 ≤ (i 1).val ∧ (i 1).val < win5_7.index _ (1 : Fin 2) * 256 + 256; omega

/-- Output array 7 after the call is `bn5` of the arrays the call finds. -/
theorem final5_7 (c : Dev nD) :
    (dat5 V c).arrAt 7 cfg5.N = bn5 (V c main_v64) (V c main_v70) (V c main_v71) (V c main_v72) (V c main_v73) (V c main_v69) (V c main_v74) :=
  (dat5 V c).arrAt_eq_of_cover 7 _ (fun t _ => flushed5_7 V c t) cover5_7'

end Cert.KernelIdeal.Calls

end
-- ==== Proof.Val.K6.lean ====
/-
  The readout block body at an index. The logits: entry (p, m) of the hidden block is the sum over the 768 input columns
  of the input at (p, k) times the first weight at (k, m), plus the first bias at m, clipped at zero; entry (p, q) of the
  logits is the sum over the 768 hidden columns of that entry times the second weight at (m, q), plus the second bias at q.
  The softmax: the row's maximum (folded from minus infinity over the row's two entries) is subtracted from each entry,
  the exponentials are taken, and each is divided by the sum of the row's two exponentials.
-/
import proofs.«121371_j46033459478999_1_alg».proof.Proof.Gen.KernelIdeal.Skeleton
import proofs.«121371_j46033459478999_1_alg».proof.Proof.Val.Spec
import proofs.«121371_j46033459478999_1_alg».proof.Proof.Val.Layout

noncomputable section

open scoped BigOperators

namespace Cert.BodyMath.K6

open Idealize.ShloMosaic Idealize.ShloMosaic.ValueIdx Cert.KernelIdeal

/-- The [1000,768] × [768,768] block product into a zero accumulator, at (p, c). -/
theorem mm1_apply (l : FVec Ideal S1000x768 .bf16) (r : FVec Ideal S768x768 .bf16) (p : Fin 1000) (c : Fin 768) :
    matmul dot_S1000x768_S768x768_S1000x768_1_0_0_1_n_n none l r (constant S1000x768 .f32 0x00000000#32) (ix2 p c)
      = ∑ k : Fin 768, l (ix2 p k) * r (ix2 k c) :=
  (Ideal.matmul_constant_zero_apply dot_S1000x768_S768x768_S1000x768_1_0_0_1_n_n none l r (ix2 p c)).trans
    (dot_plain_sum dot_S1000x768_S768x768_S1000x768_1_0_0_1_n_n rfl rfl
    (fun j k => by
      unfold DotDims.lhsIdx
      rw [dif_neg (show ¬(0 : Fin S1000x768.rank) ∈ dot_S1000x768_S768x768_S1000x768_1_0_0_1_n_n.lhsBatch by decide),
        dif_pos (show (0 : Fin S1000x768.rank) ∈ dot_S1000x768_S768x768_S1000x768_1_0_0_1_n_n.lhsNonContracting by decide)]
      rfl)
    (fun j k => dot_S1000x768_S768x768_S1000x768_1_0_0_1_n_n.lhsIdx_val_of_single rfl j k)
    (fun j k => dot_S1000x768_S768x768_S1000x768_1_0_0_1_n_n.rhsIdx_val_of_single rfl j k)
    (fun j k => by
      unfold DotDims.rhsIdx
      rw [dif_neg (show ¬(1 : Fin S768x768.rank) ∈ dot_S1000x768_S768x768_S1000x768_1_0_0_1_n_n.rhsBatch by decide),
        dif_pos (show (1 : Fin S768x768.rank) ∈ dot_S1000x768_S768x768_S1000x768_1_0_0_1_n_n.rhsNonContracting by decide)]
      rfl)
    l r p c)

/-- The [1000,768] × [768,2] block product into a zero accumulator, at (p, c). -/
theorem mm2_apply (l : FVec Ideal S1000x768 .bf16) (r : FVec Ideal S768x2 .bf16) (p : Fin 1000) (c : Fin 2) :
    matmul dot_S1000x768_S768x2_S1000x2_1_0_0_1_n_n none l r (constant S1000x2 .f32 0x00000000#32) (ix2 p c)
      = ∑ k : Fin 768, l (ix2 p k) * r (ix2 k c) :=
  (Ideal.matmul_constant_zero_apply dot_S1000x768_S768x2_S1000x2_1_0_0_1_n_n none l r (ix2 p c)).trans
    (dot_plain_sum dot_S1000x768_S768x2_S1000x2_1_0_0_1_n_n rfl rfl
    (fun j k => by
      unfold DotDims.lhsIdx
      rw [dif_neg (show ¬(0 : Fin S1000x768.rank) ∈ dot_S1000x768_S768x2_S1000x2_1_0_0_1_n_n.lhsBatch by decide),
        dif_pos (show (0 : Fin S1000x768.rank) ∈ dot_S1000x768_S768x2_S1000x2_1_0_0_1_n_n.lhsNonContracting by decide)]
      rfl)
    (fun j k => dot_S1000x768_S768x2_S1000x2_1_0_0_1_n_n.lhsIdx_val_of_single rfl j k)
    (fun j k => dot_S1000x768_S768x2_S1000x2_1_0_0_1_n_n.rhsIdx_val_of_single rfl j k)
    (fun j k => by
      unfold DotDims.rhsIdx
      rw [dif_neg (show ¬(1 : Fin S768x2.rank) ∈ dot_S1000x768_S768x2_S1000x2_1_0_0_1_n_n.rhsBatch by decide),
        dif_pos (show (1 : Fin S768x2.rank) ∈ dot_S1000x768_S768x2_S1000x2_1_0_0_1_n_n.rhsNonContracting by decide)]
      rfl)
    l r p c)

/-- The hidden block at (p, m). -/
theorem hidden_apply (l : FVec Ideal S1000x768 .bf16) (w : FVec Ideal S768x768 .bf16) (b : FVec Ideal S1x768 .f32)
    (hb : S1x768.Broadcasts S1000x768) (p : Fin 1000) (m : Fin 768) :
    maximumf
        (addf (matmul dot_S1000x768_S768x768_S1000x768_1_0_0_1_n_n none l w (constant S1000x768 .f32 0x00000000#32))
          (broadcastTo S1000x768 b hb))
        (broadcast S1000x768 (Scalar.ofBits (F := Ideal) .f32 0x00000000#32)) (ix2 p m)
      = hiddenRow (fun k => l (ix2 p k)) (fun k c => w (ix2 k c)) (fun c => b (ix2 (0 : Fin 1) c)) m := by
  unfold hiddenRow
  exact congrArg₂ max (congrArg₂ (· + ·) (mm1_apply l w p m) (broadcastTo_1b_ab_apply b hb p m)) Ideal.ofBits_zero_f32

/-- The logits block at (p, q): `logitRow` of row p of the input block, the two weight matrices and the two bias rows. -/
theorem k6_pay1_apply (v0 : FVec Ideal S1000x768 .f32) (v3 : FVec Ideal S768x768 .bf16) (v6 : FVec Ideal S1x768 .f32)
    (v13 : FVec Ideal S768x2 .bf16) (v16 : FVec Ideal S1x2 .f32) (p : Fin 1000) (q : Fin 2) :
    Gen.k6_pay1 (F := Ideal) v0 v3 v6 v13 v16 (ix2 p q)
      = logitRow (fun k => v0 (ix2 p k)) (fun k m => v3 (ix2 k m)) (fun m => v6 (ix2 (0 : Fin 1) m))
          (fun m c => v13 (ix2 m c)) (fun c => v16 (ix2 (0 : Fin 1) c)) q := by
  unfold Gen.k6_pay1 logitRow
  simp only [shapeCast_self]
  refine congrArg₂ (· + ·) ((mm2_apply _ _ p q).trans ?_) (broadcastTo_1b_ab_apply _ _ p q)
  refine Finset.sum_congr rfl fun m _ => congrArg (· * v13 (ix2 m q)) ?_
  exact hidden_apply _ v3 v6 _ p m

/-! ## The softmax of a [1000,2] block -/

section Softmax

variable (Z : FVec Ideal S1000x2 .f32) (hred : S1000x2.Reduces [1] S1000) (hφ : FKind.Formats .f32)
  (hmax : (0xFF800000#32 : BitVec 32) = FKind.maximumf.neutral .f32 hφ)
  (hadd : (0x00000000#32 : BitVec 32) = FKind.add.neutral .f32 hφ)
  (hc : S1000.ShapeCasts S1000x1) (hb : S1000x1.Broadcasts S1000x2)

/-- Each row's maximum: the lane maximum folded from minus infinity, compared with minus infinity once more. -/
abbrev maxOf : FVec Ideal S1000 .f32 :=
  maximumf (broadcast S1000 (Scalar.ofBits (F := Ideal) .f32 0xFF800000#32))
    (multiReduction .maximumf [1] S1000 Z 0xFF800000#32 hred hφ hmax)

theorem maxOf_apply (p : Fin 1000) : maxOf Z hred hφ hmax (ix1 p) = rowMax (fun c => Z (ix2 p c)) := by
  unfold rowMax
  refine congrArg (max negInf) ((Ideal.multiReduction_maximumf_single Z _ hred hφ hmax (ix1 p)).trans ?_)
  exact congrArg ((Finset.univ : Finset (Fin 2)).fold max negInf) (funext fun c => congrArg Z (lift_row hred p c))

/-- The exponentials of the entries less their row's maximum. -/
abbrev expOf : FVec Ideal S1000x2 .f32 :=
  exp (subf Z (broadcastTo S1000x2 (shapeCast S1000x1 (maxOf Z hred hφ hmax) hc) hb))

theorem expOf_apply (p : Fin 1000) (c : Fin 2) :
    expOf Z hred hφ hmax hc hb (ix2 p c) = Ideal.exp (Z (ix2 p c) - rowMax (fun c => Z (ix2 p c))) := by
  show Ideal.exp (Z (ix2 p c) - broadcastTo S1000x2 (shapeCast S1000x1 (maxOf Z hred hφ hmax) hc) hb (ix2 p c)) = _
  rw [castcol_bcast_apply, maxOf_apply]

/-- The softmax block. -/
abbrev softmaxOf : FVec Ideal S1000x2 .f32 :=
  divf (expOf Z hred hφ hmax hc hb)
    (broadcastTo S1000x2
      (shapeCast S1000x1 (multiReduction .add [1] S1000 (expOf Z hred hφ hmax hc hb) 0x00000000#32 hred hφ hadd) hc) hb)

theorem softmaxOf_apply (p : Fin 1000) (q : Fin 2) :
    softmaxOf Z hred hφ hmax hadd hc hb (ix2 p q) = softmaxRow (fun c => Z (ix2 p c)) q := by
  unfold softmaxRow
  show Ideal.div (expOf Z hred hφ hmax hc hb (ix2 p q))
      (broadcastTo S1000x2
        (shapeCast S1000x1 (multiReduction .add [1] S1000 (expOf Z hred hφ hmax hc hb) 0x00000000#32 hred hφ hadd) hc)
        hb (ix2 p q)) = _
  rw [castcol_bcast_apply, expOf_apply]
  refine congrArg (Ideal.div _) ((Ideal.multiReduction_add_single _ _ hred hφ hadd (ix1 p)).trans ?_)
  exact Finset.sum_congr rfl fun c _ =>
    (congrArg (expOf Z hred hφ hmax hc hb) (lift_row hred p c)).trans (expOf_apply Z hred hφ hmax hc hb p c)

end Softmax

/-- The probabilities block at (p, q): the softmax of row p of the logits. -/
theorem k6_pay2_apply (v0 : FVec Ideal S1000x768 .f32) (v3 : FVec Ideal S768x768 .bf16) (v6 : FVec Ideal S1x768 .f32)
    (v13 : FVec Ideal S768x2 .bf16) (v16 : FVec Ideal S1x2 .f32) (p : Fin 1000) (q : Fin 2) :
    Gen.k6_pay2 (F := Ideal) v0 v3 v6 v13 v16 (ix2 p q)
      = softmaxRow (logitRow (fun k => v0 (ix2 p k)) (fun k m => v3 (ix2 k m)) (fun m => v6 (ix2 (0 : Fin 1) m))
          (fun m c => v13 (ix2 m c)) (fun c => v16 (ix2 (0 : Fin 1) c))) q := by
  unfold Gen.k6_pay2
  refine (softmaxOf_apply (Gen.k6_pay1 (F := Ideal) v0 v3 v6 v13 v16) _ _ _ _ _ _ p q).trans ?_
  exact congrArg (softmaxRow · q) (funext fun c => k6_pay1_apply v0 v3 v6 v13 v16 p c)

end Cert.BodyMath.K6

end
-- ==== Proof.KIdeal.Val6.lean ====
/-
  What the readout leaves in its two output arrays, as functions of the arrays it finds: the logits at (r, q) are
  sum over n of relu(sum over k of h(r, k) * W1(k, n) + b1(n)) * W2(n, q) + b2(q), and the second array holds the softmax of each
  row of logits over its two columns.
  Row block t writes rows 1000 t .. 1000 t + 999, each from the same rows of the row-blocked input and from the whole of the other
  inputs, so every block is the restriction of one whole-array function; the 50 blocks cover the 50000 rows.
-/
import proofs.«121371_j46033459478999_1_alg».proof.Proof.KIdeal.Call6
import proofs.«121371_j46033459478999_1_alg».proof.Proof.Val.K6
import Idealize.ShloMosaic.Lib.Pipeline.Value
import Idealize.ShloMosaic.Lib.ValueIdx

set_option maxRecDepth 16384

noncomputable section

open scoped BigOperators

namespace Cert.KernelIdeal.Calls

open Cert.KernelIdeal Cert.KernelIdeal.Gen Cert.BodyMath
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zeroOffsets6 : (![0, 0] : Fin 2 → Nat) = fun _ => 0 := funext fun a => by fin_cases a <;> rfl

/-- The whole array of logits, from the whole input arrays. -/
def logits6 (a0 : FVec Ideal S50000x768 .f32) (a1 : FVec Ideal S768x768 .bf16) (a2 : FVec Ideal S1x768 .f32) (a3 : FVec Ideal S768x2 .bf16) (a4 : FVec Ideal S1x2 .f32) : FVec Ideal S50000x2 .f32 :=
  fun i => (logitRow (fun k : Fin 768 => a0 (ix2 (i 0) k)) (fun (k : Fin 768) (n : Fin 768) => a1 (ix2 k n)) (fun n : Fin 768 => a2 (ix2 (0 : Fin 1) n)) (fun (n : Fin 768) (q : Fin 2) => a3 (ix2 n q)) (fun q : Fin 2 => a4 (ix2 (0 : Fin 1) q))) (i 1)
/-- The whole array of softmax rows, from the whole input arrays. -/
def probs6 (a0 : FVec Ideal S50000x768 .f32) (a1 : FVec Ideal S768x768 .bf16) (a2 : FVec Ideal S1x768 .f32) (a3 : FVec Ideal S768x2 .bf16) (a4 : FVec Ideal S1x2 .f32) : FVec Ideal S50000x2 .f32 :=
  fun i => softmaxRow (logitRow (fun k : Fin 768 => a0 (ix2 (i 0) k)) (fun (k : Fin 768) (n : Fin 768) => a1 (ix2 k n)) (fun n : Fin 768 => a2 (ix2 (0 : Fin 1) n)) (fun (n : Fin 768) (q : Fin 2) => a3 (ix2 n q)) (fun q : Fin 2 => a4 (ix2 (0 : Fin 1) q))) (i 1)

/-- The block indices, decided over the 50 row blocks: the row-blocked windows sit at row block t, column block 0; every
    other window stays at block (0, 0). -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0
    ∧ win6_6.index t (0 : Fin 2) = t.val
    ∧ win6_6.index t (1 : Fin 2) = 0 :=
  (by decide +kernel : ∀ t : Fin grid6.N, _)

/-- The row-blocked input's block entry (p, k) is the array's entry in row 1000 t + p. -/
theorem read6_0 (c : Dev nD) (t : Fin cfg6.N) (p : Fin 1000) (k : Fin 768) (r : Fin 50000)
    (hr : r.val = t.val * 1000 + 1 * p.val) :
    iblk6 V c 0 t (ix2 p k) = V c main_v76 (ix2 r k) := by
  obtain ⟨e00, e01, e10, e11, e20, e21, e30, e31, e40, e41, e50, e51, e60, e61⟩ := idx_facts6 t
  show V c main_v76 (((cfg6.win 0).blk t).view.emb (ix2 p k)) = _
  refine congrArg _ ?_
  funext a; apply Fin.ext
  match a with
  | ⟨0, _⟩ => show win6_0.index t (0 : Fin 2) * 1000 + 1 * p.val = r.val; omega
  | ⟨1, _⟩ => show win6_0.index t (1 : Fin 2) * 768 + 1 * k.val = k.val; omega
/-- This window's block is its whole array. -/
theorem read6_1 (c : Dev nD) (t : Fin cfg6.N) (k : Fin 768) (q : Fin 768) :
    iblk6 V c 1 t (ix2 k q) = V c main_v77 (ix2 k q) := by
  obtain ⟨e00, e01, e10, e11, e20, e21, e30, e31, e40, e41, e50, e51, e60, e61⟩ := idx_facts6 t
  show V c main_v77 (((cfg6.win 1).blk t).view.emb (ix2 k q)) = _
  refine congrArg _ ?_
  funext a; apply Fin.ext
  match a with
  | ⟨0, _⟩ => show win6_1.index t (0 : Fin 2) * 768 + 1 * k.val = k.val; omega
  | ⟨1, _⟩ => show win6_1.index t (1 : Fin 2) * 768 + 1 * q.val = q.val; omega
/-- This window's block is its whole array. -/
theorem read6_2 (c : Dev nD) (t : Fin cfg6.N) (k : Fin 1) (q : Fin 768) :
    iblk6 V c 2 t (ix2 k q) = V c main_v79 (ix2 k q) := by
  obtain ⟨e00, e01, e10, e11, e20, e21, e30, e31, e40, e41, e50, e51, e60, e61⟩ := idx_facts6 t
  show V c main_v79 (((cfg6.win 2).blk t).view.emb (ix2 k q)) = _
  refine congrArg _ ?_
  funext a; apply Fin.ext
  match a with
  | ⟨0, _⟩ => show win6_2.index t (0 : Fin 2) * 1 + 1 * k.val = k.val; omega
  | ⟨1, _⟩ => show win6_2.index t (1 : Fin 2) * 768 + 1 * q.val = q.val; omega
/-- This window's block is its whole array. -/
theorem read6_3 (c : Dev nD) (t : Fin cfg6.N) (k : Fin 768) (q : Fin 2) :
    iblk6 V c 3 t (ix2 k q) = V c main_v78 (ix2 k q) := by
  obtain ⟨e00, e01, e10, e11, e20, e21, e30, e31, e40, e41, e50, e51, e60, e61⟩ := idx_facts6 t
  show V c main_v78 (((cfg6.win 3).blk t).view.emb (ix2 k q)) = _
  refine congrArg _ ?_
  funext a; apply Fin.ext
  match a with
  | ⟨0, _⟩ => show win6_3.index t (0 : Fin 2) * 768 + 1 * k.val = k.val; omega
  | ⟨1, _⟩ => show win6_3.index t (1 : Fin 2) * 2 + 1 * q.val = q.val; omega
/-- This window's block is its whole array. -/
theorem read6_4 (c : Dev nD) (t : Fin cfg6.N) (k : Fin 1) (q : Fin 2) :
    iblk6 V c 4 t (ix2 k q) = V c main_v80 (ix2 k q) := by
  obtain ⟨e00, e01, e10, e11, e20, e21, e30, e31, e40, e41, e50, e51, e60, e61⟩ := idx_facts6 t
  show V c main_v80 (((cfg6.win 4).blk t).view.emb (ix2 k q)) = _
  refine congrArg _ ?_
  funext a; apply Fin.ext
  match a with
  | ⟨0, _⟩ => show win6_4.index t (0 : Fin 2) * 1 + 1 * k.val = k.val; omega
  | ⟨1, _⟩ => show win6_4.index t (1 : Fin 2) * 2 + 1 * q.val = q.val; omega

/-- What row block t writes back to output window 5 is block t of `logits6` of the arrays the call finds. -/
theorem flushed6_5 (c : Dev nD) (t : Fin cfg6.N) :
    (dat6 V c).flushed 5 t = ((cfg6.win 5).blk t).view.read (Elt Ideal) (logits6 (V c main_v76) (V c main_v77) (V c main_v79) (V c main_v78) (V c main_v80)) := by
  show (cfg6.win 5).cut (grid6.coords t) ((dat6 V c).after 5 t) = _
  rw [after6_5]
  unfold out6_5
  rw [View.canon_unit_zero zeroOffsets6]
  simp only [View.ld_unit_zero (S := S1000x768) zeroOffsets6, View.ld_unit_zero (S := S768x768) zeroOffsets6, View.ld_unit_zero (S := S1x768) zeroOffsets6, View.ld_unit_zero (S := S768x2) zeroOffsets6, View.ld_unit_zero (S := S1x2) zeroOffsets6]
  obtain ⟨e00, e01, e10, e11, e20, e21, e30, e31, e40, e41, e50, e51, e60, e61⟩ := idx_facts6 t
  funext j
  obtain ⟨p, q, rfl⟩ : ∃ (p : Fin 1000) (q : Fin 2), j = ix2 p q := ⟨j 0, j 1, eq_ix2 j⟩
  refine (K6.k6_pay1_apply (iblk6 V c 0 t) (iblk6 V c 1 t) (iblk6 V c 2 t) (iblk6 V c 3 t) (iblk6 V c 4 t) p q).trans ?_
  show _ = logits6 (V c main_v76) (V c main_v77) (V c main_v79) (V c main_v78) (V c main_v80) (((cfg6.win 5).blk t).view.emb (ix2 p q))
  unfold logits6
  have hrow : ((((cfg6.win 5).blk t).view.emb (ix2 p q)) 0).val = t.val * 1000 + 1 * p.val := by
    show win6_5.index t (0 : Fin 2) * 1000 + 1 * p.val = _; rw [e50]
  have hcol : (((cfg6.win 5).blk t).view.emb (ix2 p q)) 1 = q := by
    apply Fin.ext; show win6_5.index t (1 : Fin 2) * 2 + 1 * q.val = q.val; omega
  rw [hcol]
  simp only [read6_0 V c t p _ _ hrow, read6_1 V c t, read6_2 V c t, read6_3 V c t, read6_4 V c t]

/-- An index of output array 5 is in row block t's block iff its row is in that block's range. -/
theorem mem_blk6_5 (t : Fin cfg6.N) (i : S50000x2.Idx) :
    i ∈ ((cfg6.win 5).blk t).view.set ↔ ∀ a : Fin 2, win6_5.index t a * S1000x2.size a ≤ (i a).val ∧ (i a).val < win6_5.index t a * S1000x2.size a + S1000x2.size a := by
  show i ∈ ((View.whole main_v81_0).slice (win6_5.rect t)).set ↔ _
  rw [View.set_slice_whole, Rect.mem_set_unit]
  exact Iff.rfl

/-- Every index of output array 5 is in the block of the row block its row falls in. -/
theorem cover6_5' (i : S50000x2.Idx) : ∃ t : Fin cfg6.N, (cfg6.win 5).flush t = true ∧ i ∈ ((cfg6.win 5).blk t).view.set := by
  have hi0 : (i 0).val < 50000 := (i 0).isLt
  have hi1 : (i 1).val < 2 := (i 1).isLt
  have hN : cfg6.N = 50 := N_6
  refine ⟨⟨(i 0).val / 1000, by rw [hN]; omega⟩, flush6_5 _, ?_⟩
  rw [mem_blk6_5]
  obtain ⟨e00, e01, e10, e11, e20, e21, e30, e31, e40, e41, e50, e51, e60, e61⟩ := idx_facts6 ⟨(i 0).val / 1000, by rw [hN]; omega⟩
  intro a
  match a with
  | ⟨0, _⟩ => show win6_5.index _ (0 : Fin 2) * 1000 ≤ (i 0).val ∧ (i 0).val < win6_5.index _ (0 : Fin 2) * 1000 + 1000; rw [e50]; show (i 0).val / 1000 * 1000 ≤ (i 0).val ∧ (i 0).val < (i 0).val / 1000 * 1000 + 1000; omega
  | ⟨1, _⟩ => show win6_5.index _ (1 : Fin 2) * 2 ≤ (i 1).val ∧ (i 1).val < win6_5.index _ (1 : Fin 2) * 2 + 2; omega

/-- Output array 5 after the call is `logits6` of the arrays the call finds. -/
theorem final6_5 (c : Dev nD) :
    (dat6 V c).arrAt 5 cfg6.N = logits6 (V c main_v76) (V c main_v77) (V c main_v79) (V c main_v78) (V c main_v80) :=
  (dat6 V c).arrAt_eq_of_cover 5 _ (fun t _ => flushed6_5 V c t) cover6_5'

/-- What row block t writes back to output window 6 is block t of `probs6` of the arrays the call finds. -/
theorem flushed6_6 (c : Dev nD) (t : Fin cfg6.N) :
    (dat6 V c).flushed 6 t = ((cfg6.win 6).blk t).view.read (Elt Ideal) (probs6 (V c main_v76) (V c main_v77) (V c main_v79) (V c main_v78) (V c main_v80)) := by
  show (cfg6.win 6).cut (grid6.coords t) ((dat6 V c).after 6 t) = _
  rw [after6_6]
  unfold out6_6
  rw [View.canon_unit_zero zeroOffsets6]
  simp only [View.ld_unit_zero (S := S1000x768) zeroOffsets6, View.ld_unit_zero (S := S768x768) zeroOffsets6, View.ld_unit_zero (S := S1x768) zeroOffsets6, View.ld_unit_zero (S := S768x2) zeroOffsets6, View.ld_unit_zero (S := S1x2) zeroOffsets6]
  obtain ⟨e00, e01, e10, e11, e20, e21, e30, e31, e40, e41, e50, e51, e60, e61⟩ := idx_facts6 t
  funext j
  obtain ⟨p, q, rfl⟩ : ∃ (p : Fin 1000) (q : Fin 2), j = ix2 p q := ⟨j 0, j 1, eq_ix2 j⟩
  refine (K6.k6_pay2_apply (iblk6 V c 0 t) (iblk6 V c 1 t) (iblk6 V c 2 t) (iblk6 V c 3 t) (iblk6 V c 4 t) p q).trans ?_
  show _ = probs6 (V c main_v76) (V c main_v77) (V c main_v79) (V c main_v78) (V c main_v80) (((cfg6.win 6).blk t).view.emb (ix2 p q))
  unfold probs6
  have hrow : ((((cfg6.win 6).blk t).view.emb (ix2 p q)) 0).val = t.val * 1000 + 1 * p.val := by
    show win6_6.index t (0 : Fin 2) * 1000 + 1 * p.val = _; rw [e60]
  have hcol : (((cfg6.win 6).blk t).view.emb (ix2 p q)) 1 = q := by
    apply Fin.ext; show win6_6.index t (1 : Fin 2) * 2 + 1 * q.val = q.val; omega
  rw [hcol]
  simp only [read6_0 V c t p _ _ hrow, read6_1 V c t, read6_2 V c t, read6_3 V c t, read6_4 V c t]

/-- An index of output array 6 is in row block t's block iff its row is in that block's range. -/
theorem mem_blk6_6 (t : Fin cfg6.N) (i : S50000x2.Idx) :
    i ∈ ((cfg6.win 6).blk t).view.set ↔ ∀ a : Fin 2, win6_6.index t a * S1000x2.size a ≤ (i a).val ∧ (i a).val < win6_6.index t a * S1000x2.size a + S1000x2.size a := by
  show i ∈ ((View.whole main_v81_1).slice (win6_6.rect t)).set ↔ _
  rw [View.set_slice_whole, Rect.mem_set_unit]
  exact Iff.rfl

/-- Every index of output array 6 is in the block of the row block its row falls in. -/
theorem cover6_6' (i : S50000x2.Idx) : ∃ t : Fin cfg6.N, (cfg6.win 6).flush t = true ∧ i ∈ ((cfg6.win 6).blk t).view.set := by
  have hi0 : (i 0).val < 50000 := (i 0).isLt
  have hi1 : (i 1).val < 2 := (i 1).isLt
  have hN : cfg6.N = 50 := N_6
  refine ⟨⟨(i 0).val / 1000, by rw [hN]; omega⟩, flush6_6 _, ?_⟩
  rw [mem_blk6_6]
  obtain ⟨e00, e01, e10, e11, e20, e21, e30, e31, e40, e41, e50, e51, e60, e61⟩ := idx_facts6 ⟨(i 0).val / 1000, by rw [hN]; omega⟩
  intro a
  match a with
  | ⟨0, _⟩ => show win6_6.index _ (0 : Fin 2) * 1000 ≤ (i 0).val ∧ (i 0).val < win6_6.index _ (0 : Fin 2) * 1000 + 1000; rw [e60]; show (i 0).val / 1000 * 1000 ≤ (i 0).val ∧ (i 0).val < (i 0).val / 1000 * 1000 + 1000; omega
  | ⟨1, _⟩ => show win6_6.index _ (1 : Fin 2) * 2 ≤ (i 1).val ∧ (i 1).val < win6_6.index _ (1 : Fin 2) * 2 + 2; omega

/-- Output array 6 after the call is `probs6` of the arrays the call finds. -/
theorem final6_6 (c : Dev nD) :
    (dat6 V c).arrAt 6 cfg6.N = probs6 (V c main_v76) (V c main_v77) (V c main_v79) (V c main_v78) (V c main_v80) :=
  (dat6 V c).arrAt_eq_of_cover 6 _ (fun t _ => flushed6_6 V c t) cover6_6'

end Cert.KernelIdeal.Calls

end
-- ==== Proof.Val.RefLin.lean ====
/-
  The reference's linear stage on whole arrays, at an index: the host adds the aggregate to the features, contracts the
  sum with the weight matrix over the one shared axis, lays the bias out as one row, repeats it down the 50000 rows and
  adds it. Entry (r, q) is the sum over the input columns of (x + agg) at (r, k) times the weight at (k, q), plus the
  bias at q: the same row function as a block of rows computes.
-/
import proofs.«121371_j46033459478999_1_alg».proof.Proof.Gen.ReferenceIdeal
import proofs.«121371_j46033459478999_1_alg».proof.Proof.Val.Spec
import proofs.«121371_j46033459478999_1_alg».proof.Proof.Val.Layout

noncomputable section

open scoped BigOperators

namespace Cert.BodyMath.Ref

open Idealize.ShloMosaic Idealize.ShloMosaic.ValueIdx Cert.ReferenceIdeal Cert.ReferenceIdeal.Facts₀

/-- A bias of 256 entries laid out as one row and repeated down the 50000 rows. -/
abbrev rowOf256 (b : FVec Ideal S256 .f32) : FVec Ideal S50000x256 .f32 :=
  broadcastInDim S50000x256 ![0, 1] bcast_S1x256_S50000x256_0_1 (broadcastInDim S1x256 ![1] bcast_S256_S1x256_1 b)

theorem rowOf256_apply (b : FVec Ideal S256 .f32) (r : Fin 50000) (q : Fin 256) : rowOf256 b (ix2 r q) = b (ix1 q) :=
  bcast_row_apply b bcast_S256_S1x256_1 bcast_S1x256_S50000x256_0_1 r q

/-- The host's [50000,128] × [128,256] product at (r, c). -/
theorem dg128_apply (l : FVec Ideal S50000x128 .f32) (w : FVec Ideal S128x256 .f32) (r : Fin 50000) (c : Fin 256) :
    Host.dotGeneral (F := Ideal) dot_S50000x128_S128x256_S50000x256_1_0_0_1_n_n none l w (ix2 r c)
      = ∑ k : Fin 128, l (ix2 r k) * w (ix2 k c) :=
  (Ideal.dotGeneral_apply dot_S50000x128_S128x256_S50000x256_1_0_0_1_n_n none .single l w (ix2 r c)).trans
    (dot_plain_sum dot_S50000x128_S128x256_S50000x256_1_0_0_1_n_n rfl rfl
    (fun j k => by
      unfold DotDims.lhsIdx
      rw [dif_neg (show ¬(0 : Fin S50000x128.rank) ∈ dot_S50000x128_S128x256_S50000x256_1_0_0_1_n_n.lhsBatch by decide),
        dif_pos (show (0 : Fin S50000x128.rank) ∈ dot_S50000x128_S128x256_S50000x256_1_0_0_1_n_n.lhsNonContracting by decide)]
      rfl)
    (fun j k => dot_S50000x128_S128x256_S50000x256_1_0_0_1_n_n.lhsIdx_val_of_single rfl j k)
    (fun j k => dot_S50000x128_S128x256_S50000x256_1_0_0_1_n_n.rhsIdx_val_of_single rfl j k)
    (fun j k => by
      unfold DotDims.rhsIdx
      rw [dif_neg (show ¬(1 : Fin S128x256.rank) ∈ dot_S50000x128_S128x256_S50000x256_1_0_0_1_n_n.rhsBatch by decide),
        dif_pos (show (1 : Fin S128x256.rank) ∈ dot_S50000x128_S128x256_S50000x256_1_0_0_1_n_n.rhsNonContracting by decide)]
      rfl)
    l w r c)

/-- The host's [50000,256] × [256,256] product at (r, c). -/
theorem dg256_apply (l : FVec Ideal S50000x256 .f32) (w : FVec Ideal S256x256 .f32) (r : Fin 50000) (c : Fin 256) :
    Host.dotGeneral (F := Ideal) dot_S50000x256_S256x256_S50000x256_1_0_0_1_n_n none l w (ix2 r c)
      = ∑ k : Fin 256, l (ix2 r k) * w (ix2 k c) :=
  (Ideal.dotGeneral_apply dot_S50000x256_S256x256_S50000x256_1_0_0_1_n_n none .single l w (ix2 r c)).trans
    (dot_plain_sum dot_S50000x256_S256x256_S50000x256_1_0_0_1_n_n rfl rfl
    (fun j k => by
      unfold DotDims.lhsIdx
      rw [dif_neg (show ¬(0 : Fin S50000x256.rank) ∈ dot_S50000x256_S256x256_S50000x256_1_0_0_1_n_n.lhsBatch by decide),
        dif_pos (show (0 : Fin S50000x256.rank) ∈ dot_S50000x256_S256x256_S50000x256_1_0_0_1_n_n.lhsNonContracting by decide)]
      rfl)
    (fun j k => dot_S50000x256_S256x256_S50000x256_1_0_0_1_n_n.lhsIdx_val_of_single rfl j k)
    (fun j k => dot_S50000x256_S256x256_S50000x256_1_0_0_1_n_n.rhsIdx_val_of_single rfl j k)
    (fun j k => by
      unfold DotDims.rhsIdx
      rw [dif_neg (show ¬(1 : Fin S256x256.rank) ∈ dot_S50000x256_S256x256_S50000x256_1_0_0_1_n_n.rhsBatch by decide),
        dif_pos (show (1 : Fin S256x256.rank) ∈ dot_S50000x256_S256x256_S50000x256_1_0_0_1_n_n.rhsNonContracting by decide)]
      rfl)
    l w r c)

/-- The first layer's linear stage as the host spells it: add, contract, broadcast the bias twice, add. -/
def lin128 (x agg : FVec Ideal S50000x128 .f32) (W : FVec Ideal S128x256 .f32) (b : FVec Ideal S256 .f32) :
    FVec Ideal S50000x256 .f32 :=
  addf (Host.dotGeneral (F := Ideal) dot_S50000x128_S128x256_S50000x256_1_0_0_1_n_n none (addf x agg) W)
    (broadcastInDim S50000x256 ![0, 1] bcast_S1x256_S50000x256_0_1 (broadcastInDim S1x256 ![1] bcast_S256_S1x256_1 b))

/-- It is `linRow` of row r of the two inputs at every (r, q). -/
theorem lin128_apply (x agg : FVec Ideal S50000x128 .f32) (W : FVec Ideal S128x256 .f32) (b : FVec Ideal S256 .f32)
    (r : Fin 50000) (q : Fin 256) :
    lin128 x agg W b (ix2 r q)
      = linRow (fun k => x (ix2 r k)) (fun k => agg (ix2 r k)) (fun k c => W (ix2 k c)) (fun c => b (ix1 c)) q := by
  unfold lin128 linRow
  refine congrArg₂ (· + ·) ((dg128_apply _ _ r q).trans ?_) (rowOf256_apply b r q)
  rfl

/-- The later layers' linear stage (256 input columns), as the host spells it. -/
def lin256 (x agg : FVec Ideal S50000x256 .f32) (W : FVec Ideal S256x256 .f32) (b : FVec Ideal S256 .f32) :
    FVec Ideal S50000x256 .f32 :=
  addf (Host.dotGeneral (F := Ideal) dot_S50000x256_S256x256_S50000x256_1_0_0_1_n_n none (addf x agg) W)
    (broadcastInDim S50000x256 ![0, 1] bcast_S1x256_S50000x256_0_1 (broadcastInDim S1x256 ![1] bcast_S256_S1x256_1 b))

theorem lin256_apply (x agg : FVec Ideal S50000x256 .f32) (W : FVec Ideal S256x256 .f32) (b : FVec Ideal S256 .f32)
    (r : Fin 50000) (q : Fin 256) :
    lin256 x agg W b (ix2 r q)
      = linRow (fun k => x (ix2 r k)) (fun k => agg (ix2 r k)) (fun k c => W (ix2 k c)) (fun c => b (ix1 c)) q := by
  unfold lin256 linRow
  refine congrArg₂ (· + ·) ((dg256_apply _ _ r q).trans ?_) (rowOf256_apply b r q)
  rfl

end Cert.BodyMath.Ref

end
-- ==== Proof.Val.RefBn.lean ====
/-
  The reference's normalize-clip-multiply stage on whole arrays, at an index. The host lays the mean, the reciprocal
  square root of (variance + eps), the scale and the shift each out as one row repeated down the 50000 rows, computes
  ((h - mean) * rsqrt (var + eps)) * gamma + beta entry by entry, clips at zero, contracts with the weight matrix, adds the
  bias row and clips at zero again. Entry (r, q) is `bnLinRow` of row r.
-/
import proofs.«121371_j46033459478999_1_alg».proof.Proof.Gen.ReferenceIdeal
import proofs.«121371_j46033459478999_1_alg».proof.Proof.Val.Spec
import proofs.«121371_j46033459478999_1_alg».proof.Proof.Val.Layout
import proofs.«121371_j46033459478999_1_alg».proof.Proof.Val.RefLin

noncomputable section

open scoped BigOperators

namespace Cert.BodyMath.Ref

open Idealize.ShloMosaic Idealize.ShloMosaic.ValueIdx Cert.ReferenceIdeal Cert.ReferenceIdeal.Facts₀

/-- The clip at zero of a [50000,256] array, as the host's outlined function spells it: the maximum with a zero scalar
    broadcast to the array's shape. -/
abbrev relu256 (x : FVec Ideal S50000x256 .f32) : FVec Ideal S50000x256 .f32 :=
  maximumf x (broadcastInDim S50000x256 ![] bcast_S_S50000x256 (constant (F := Ideal) S_ .f32 0x00000000#32))

theorem relu256_apply (x : FVec Ideal S50000x256 .f32) (j : S50000x256.Idx) : relu256 x j = max (x j) 0 := by
  show max (x j) (broadcastInDim S50000x256 ![] bcast_S_S50000x256 (constant (F := Ideal) S_ .f32 0x00000000#32) j) = _
  rw [bcast_scalar_apply]
  show max (x j) (Ideal.ofBits .f32 0x00000000#32) = _
  rw [Ideal.ofBits_zero_f32]

/-- The reciprocal square root of the variance plus the stabilizer, on the 256 columns. -/
abbrev rstd256 (var : FVec Ideal S256 .f32) : FVec Ideal S256 .f32 :=
  Host.rsqrt (addf var (broadcastInDim S256 ![] bcast_S_S256 (constant (F := Ideal) S_ .f32 0x3727C5AC#32)))

theorem rstd256_apply (var : FVec Ideal S256 .f32) (k : Fin 256) :
    rstd256 var (ix1 k) = Ideal.rsqrt (var (ix1 k) + eps) := by
  show Ideal.rsqrt (var (ix1 k)
      + broadcastInDim S256 ![] bcast_S_S256 (constant (F := Ideal) S_ .f32 0x3727C5AC#32) (ix1 k)) = _
  rw [bcast_scalar_apply]
  rfl

/-- The normalized, scaled, shifted and clipped array. -/
def bnPre (h : FVec Ideal S50000x256 .f32) (mean var gamma beta : FVec Ideal S256 .f32) : FVec Ideal S50000x256 .f32 :=
  relu256 (addf (mulf (mulf (subf h (rowOf256 mean)) (rowOf256 (rstd256 var))) (rowOf256 gamma)) (rowOf256 beta))

theorem bnPre_apply (h : FVec Ideal S50000x256 .f32) (mean var gamma beta : FVec Ideal S256 .f32) (r : Fin 50000)
    (k : Fin 256) :
    bnPre h mean var gamma beta (ix2 r k)
      = bnEntry (h (ix2 r k)) (mean (ix1 k)) (var (ix1 k)) (gamma (ix1 k)) (beta (ix1 k)) := by
  unfold bnPre bnEntry
  rw [relu256_apply]
  show max ((h (ix2 r k) - rowOf256 mean (ix2 r k)) * rowOf256 (rstd256 var) (ix2 r k) * rowOf256 gamma (ix2 r k)
      + rowOf256 beta (ix2 r k)) 0 = _
  rw [rowOf256_apply, rowOf256_apply, rowOf256_apply, rowOf256_apply, rstd256_apply]

/-- The whole stage as the host spells it. -/
def bnLin (h : FVec Ideal S50000x256 .f32) (mean var gamma beta : FVec Ideal S256 .f32) (W : FVec Ideal S256x256 .f32)
    (b : FVec Ideal S256 .f32) : FVec Ideal S50000x256 .f32 :=
  relu256 (addf
    (Host.dotGeneral (F := Ideal) dot_S50000x256_S256x256_S50000x256_1_0_0_1_n_n none (bnPre h mean var gamma beta) W)
    (rowOf256 b))

/-- It is `bnLinRow` of row r at every (r, q). -/
theorem bnLin_apply (h : FVec Ideal S50000x256 .f32) (mean var gamma beta : FVec Ideal S256 .f32)
    (W : FVec Ideal S256x256 .f32) (b : FVec Ideal S256 .f32) (r : Fin 50000) (q : Fin 256) :
    bnLin h mean var gamma beta W b (ix2 r q)
      = bnLinRow (fun k => h (ix2 r k)) (fun k => mean (ix1 k)) (fun k => var (ix1 k)) (fun k => gamma (ix1 k))
          (fun k => beta (ix1 k)) (fun k c => W (ix2 k c)) (fun c => b (ix1 c)) q := by
  unfold bnLin bnLinRow
  rw [relu256_apply]
  refine congrArg (max · 0) (congrArg₂ (· + ·) ((dg256_apply _ _ r q).trans ?_) (rowOf256_apply b r q))
  exact Finset.sum_congr rfl fun k _ => congrArg (· * W (ix2 k q)) (bnPre_apply h mean var gamma beta r k)

end Cert.BodyMath.Ref

end
-- ==== Proof.Val.RefReadout.lean ====
/-
  The reference's readout on whole arrays, at an index. The logits: the host contracts the 768 features with the first
  weight matrix, adds the first bias laid out as a row repeated down the 50000 rows, clips at zero, contracts with the
  second weight matrix and adds the second bias row. The softmax: the host reduces each row by maximum from minus infinity,
  compares with minus infinity once more, lays the 50000 maxima out as a column repeated across the two columns,
  subtracts, exponentiates, sums each row from zero, lays the sums out the same way and divides.
-/
import proofs.«121371_j46033459478999_1_alg».proof.Proof.Gen.ReferenceIdeal
import proofs.«121371_j46033459478999_1_alg».proof.Proof.Val.Spec
import proofs.«121371_j46033459478999_1_alg».proof.Proof.Val.Layout
import Idealize.ShloMosaic.PureOps.Reduce

noncomputable section

open scoped BigOperators

namespace Cert.BodyMath.Ref

open Idealize.ShloMosaic Idealize.ShloMosaic.ValueIdx Cert.ReferenceIdeal Cert.ReferenceIdeal.Facts₀

/-! ## The logits -/

/-- A bias of 768 entries laid out as one row and repeated down the 50000 rows. -/
abbrev rowOf768 (b : FVec Ideal S768 .f32) : FVec Ideal S50000x768 .f32 :=
  broadcastInDim S50000x768 ![0, 1] bcast_S1x768_S50000x768_0_1 (broadcastInDim S1x768 ![1] bcast_S768_S1x768_1 b)

theorem rowOf768_apply (b : FVec Ideal S768 .f32) (r : Fin 50000) (q : Fin 768) : rowOf768 b (ix2 r q) = b (ix1 q) :=
  bcast_row_apply b bcast_S768_S1x768_1 bcast_S1x768_S50000x768_0_1 r q

/-- A bias of 2 entries laid out as one row and repeated down the 50000 rows. -/
abbrev rowOf2 (b : FVec Ideal S2 .f32) : FVec Ideal S50000x2 .f32 :=
  broadcastInDim S50000x2 ![0, 1] bcast_S1x2_S50000x2_0_1 (broadcastInDim S1x2 ![1] bcast_S2_S1x2_1 b)

theorem rowOf2_apply (b : FVec Ideal S2 .f32) (r : Fin 50000) (q : Fin 2) : rowOf2 b (ix2 r q) = b (ix1 q) :=
  bcast_row_apply b bcast_S2_S1x2_1 bcast_S1x2_S50000x2_0_1 r q

/-- The clip at zero of a [50000,768] array, as the host's outlined function spells it. -/
abbrev relu768 (x : FVec Ideal S50000x768 .f32) : FVec Ideal S50000x768 .f32 :=
  maximumf x (broadcastInDim S50000x768 ![] bcast_S_S50000x768 (constant (F := Ideal) S_ .f32 0x00000000#32))

theorem relu768_apply (x : FVec Ideal S50000x768 .f32) (j : S50000x768.Idx) : relu768 x j = max (x j) 0 := by
  show max (x j) (broadcastInDim S50000x768 ![] bcast_S_S50000x768 (constant (F := Ideal) S_ .f32 0x00000000#32) j) = _
  rw [bcast_scalar_apply]
  show max (x j) (Ideal.ofBits .f32 0x00000000#32) = _
  rw [Ideal.ofBits_zero_f32]

/-- The host's [50000,768] × [768,768] product at (r, c). -/
theorem dg768_apply (l : FVec Ideal S50000x768 .f32) (w : FVec Ideal S768x768 .f32) (r : Fin 50000) (c : Fin 768) :
    Host.dotGeneral (F := Ideal) dot_S50000x768_S768x768_S50000x768_1_0_0_1_n_n none l w (ix2 r c)
      = ∑ k : Fin 768, l (ix2 r k) * w (ix2 k c) :=
  (Ideal.dotGeneral_apply dot_S50000x768_S768x768_S50000x768_1_0_0_1_n_n none .single l w (ix2 r c)).trans
    (dot_plain_sum dot_S50000x768_S768x768_S50000x768_1_0_0_1_n_n rfl rfl
    (fun j k => by
      unfold DotDims.lhsIdx
      rw [dif_neg (show ¬(0 : Fin S50000x768.rank) ∈ dot_S50000x768_S768x768_S50000x768_1_0_0_1_n_n.lhsBatch by decide),
        dif_pos (show (0 : Fin S50000x768.rank) ∈ dot_S50000x768_S768x768_S50000x768_1_0_0_1_n_n.lhsNonContracting by decide)]
      rfl)
    (fun j k => dot_S50000x768_S768x768_S50000x768_1_0_0_1_n_n.lhsIdx_val_of_single rfl j k)
    (fun j k => dot_S50000x768_S768x768_S50000x768_1_0_0_1_n_n.rhsIdx_val_of_single rfl j k)
    (fun j k => by
      unfold DotDims.rhsIdx
      rw [dif_neg (show ¬(1 : Fin S768x768.rank) ∈ dot_S50000x768_S768x768_S50000x768_1_0_0_1_n_n.rhsBatch by decide),
        dif_pos (show (1 : Fin S768x768.rank) ∈ dot_S50000x768_S768x768_S50000x768_1_0_0_1_n_n.rhsNonContracting by decide)]
      rfl)
    l w r c)

/-- The host's [50000,768] × [768,2] product at (r, c). -/
theorem dg768x2_apply (l : FVec Ideal S50000x768 .f32) (w : FVec Ideal S768x2 .f32) (r : Fin 50000) (c : Fin 2) :
    Host.dotGeneral (F := Ideal) dot_S50000x768_S768x2_S50000x2_1_0_0_1_n_n none l w (ix2 r c)
      = ∑ k : Fin 768, l (ix2 r k) * w (ix2 k c) :=
  (Ideal.dotGeneral_apply dot_S50000x768_S768x2_S50000x2_1_0_0_1_n_n none .single l w (ix2 r c)).trans
    (dot_plain_sum dot_S50000x768_S768x2_S50000x2_1_0_0_1_n_n rfl rfl
    (fun j k => by
      unfold DotDims.lhsIdx
      rw [dif_neg (show ¬(0 : Fin S50000x768.rank) ∈ dot_S50000x768_S768x2_S50000x2_1_0_0_1_n_n.lhsBatch by decide),
        dif_pos (show (0 : Fin S50000x768.rank) ∈ dot_S50000x768_S768x2_S50000x2_1_0_0_1_n_n.lhsNonContracting by decide)]
      rfl)
    (fun j k => dot_S50000x768_S768x2_S50000x2_1_0_0_1_n_n.lhsIdx_val_of_single rfl j k)
    (fun j k => dot_S50000x768_S768x2_S50000x2_1_0_0_1_n_n.rhsIdx_val_of_single rfl j k)
    (fun j k => by
      unfold DotDims.rhsIdx
      rw [dif_neg (show ¬(1 : Fin S768x2.rank) ∈ dot_S50000x768_S768x2_S50000x2_1_0_0_1_n_n.rhsBatch by decide),
        dif_pos (show (1 : Fin S768x2.rank) ∈ dot_S50000x768_S768x2_S50000x2_1_0_0_1_n_n.rhsNonContracting by decide)]
      rfl)
    l w r c)

/-- The hidden layer as the host spells it. -/
def hidden (h : FVec Ideal S50000x768 .f32) (W1 : FVec Ideal S768x768 .f32) (b1 : FVec Ideal S768 .f32) :
    FVec Ideal S50000x768 .f32 :=
  relu768 (addf (Host.dotGeneral (F := Ideal) dot_S50000x768_S768x768_S50000x768_1_0_0_1_n_n none h W1) (rowOf768 b1))

theorem hidden_apply (h : FVec Ideal S50000x768 .f32) (W1 : FVec Ideal S768x768 .f32) (b1 : FVec Ideal S768 .f32)
    (r : Fin 50000) (m : Fin 768) :
    hidden h W1 b1 (ix2 r m) = hiddenRow (fun k => h (ix2 r k)) (fun k c => W1 (ix2 k c)) (fun c => b1 (ix1 c)) m := by
  unfold hidden hiddenRow
  rw [relu768_apply]
  exact congrArg (max · 0) (congrArg₂ (· + ·) (dg768_apply h W1 r m) (rowOf768_apply b1 r m))

/-- The logits as the host spells them. -/
def logits (h : FVec Ideal S50000x768 .f32) (W1 : FVec Ideal S768x768 .f32) (b1 : FVec Ideal S768 .f32)
    (W2 : FVec Ideal S768x2 .f32) (b2 : FVec Ideal S2 .f32) : FVec Ideal S50000x2 .f32 :=
  addf (Host.dotGeneral (F := Ideal) dot_S50000x768_S768x2_S50000x2_1_0_0_1_n_n none (hidden h W1 b1) W2) (rowOf2 b2)

/-- They are `logitRow` of row r at every (r, q). -/
theorem logits_apply (h : FVec Ideal S50000x768 .f32) (W1 : FVec Ideal S768x768 .f32) (b1 : FVec Ideal S768 .f32)
    (W2 : FVec Ideal S768x2 .f32) (b2 : FVec Ideal S2 .f32) (r : Fin 50000) (q : Fin 2) :
    logits h W1 b1 W2 b2 (ix2 r q)
      = logitRow (fun k => h (ix2 r k)) (fun k m => W1 (ix2 k m)) (fun m => b1 (ix1 m)) (fun m c => W2 (ix2 m c))
          (fun c => b2 (ix1 c)) q := by
  unfold logits logitRow
  refine congrArg₂ (· + ·) ((dg768x2_apply _ _ r q).trans ?_) (rowOf2_apply b2 r q)
  exact Finset.sum_congr rfl fun m _ => congrArg (· * W2 (ix2 m q)) (hidden_apply h W1 b1 r m)

/-! ## The softmax -/

/-- The shape fact that names the index a reduction along the second axis reads. -/
theorem reduces_rows : S50000x2.Reduces [1] S50000 := by decide

/-- 50000 entries laid out as one column and repeated across the two columns. -/
abbrev colOf (v : FVec Ideal S50000 .f32) : FVec Ideal S50000x2 .f32 :=
  broadcastInDim S50000x2 ![0, 1] bcast_S50000x1_S50000x2_0_1 (broadcastInDim S50000x1 ![0] bcast_S50000_S50000x1_0 v)

theorem colOf_apply (v : FVec Ideal S50000 .f32) (r : Fin 50000) (q : Fin 2) : colOf v (ix2 r q) = v (ix1 r) :=
  bcast_col_apply v bcast_S50000_S50000x1_0 bcast_S50000x1_S50000x2_0_1 r q

/-- Each row's maximum: reduced from minus infinity, compared with minus infinity once more. -/
abbrev maxOf (Z : FVec Ideal S50000x2 .f32) : FVec Ideal S50000 .f32 :=
  maximumf (broadcastInDim S50000 ![] bcast_S_S50000 (constant (F := Ideal) S_ .f32 0xFF800000#32))
    (Host.reduce (FloatOps.maximumf (F := Ideal) (φ := .f32)) Z (constant (F := Ideal) S_ .f32 0xFF800000#32)
      reducesTo_S50000x2_S50000_d1 h_S_)

theorem maxOf_apply (Z : FVec Ideal S50000x2 .f32) (r : Fin 50000) : maxOf Z (ix1 r) = rowMax (fun c => Z (ix2 r c)) := by
  unfold rowMax
  show max (broadcastInDim S50000 ![] bcast_S_S50000 (constant (F := Ideal) S_ .f32 0xFF800000#32) (ix1 r))
      (Host.reduce (FloatOps.maximumf (F := Ideal) (φ := .f32)) Z (constant (F := Ideal) S_ .f32 0xFF800000#32)
        reducesTo_S50000x2_S50000_d1 h_S_ (ix1 r)) = _
  rw [bcast_scalar_apply]
  refine congrArg (max negInf) ((Host.reduce_eq_fold_single _ Z _ reducesTo_S50000x2_S50000_d1 reduces_rows h_S_
    (ix1 r)).trans ?_)
  exact congrArg ((Finset.univ : Finset (Fin 2)).fold max negInf)
    (funext fun c => congrArg Z (lift_row reduces_rows r c))

/-- The exponentials of the entries less their row's maximum. -/
abbrev expOf (Z : FVec Ideal S50000x2 .f32) : FVec Ideal S50000x2 .f32 := Host.exp (subf Z (colOf (maxOf Z)))

theorem expOf_apply (Z : FVec Ideal S50000x2 .f32) (r : Fin 50000) (c : Fin 2) :
    expOf Z (ix2 r c) = Ideal.exp (Z (ix2 r c) - rowMax (fun c => Z (ix2 r c))) := by
  show Ideal.exp (Z (ix2 r c) - colOf (maxOf Z) (ix2 r c)) = _
  rw [colOf_apply, maxOf_apply]

/-- Each row's sum, from zero. -/
theorem rowSum_apply (E : FVec Ideal S50000x2 .f32) (r : Fin 50000) :
    Host.reduceAdd E (constant (F := Ideal) S_ .f32 0x00000000#32) reducesTo_S50000x2_S50000_d1 h_S_ (ix1 r)
      = ∑ c : Fin 2, E (ix2 r c) := by
  rw [hostReduceAdd_apply, Ideal.hostReduceAdd_single reducesTo_S50000x2_S50000_d1 reduces_rows]
  show Ideal.ofBits .f32 0x00000000#32 + _ = _
  rw [Ideal.ofBits_zero_f32, zero_add]
  exact Finset.sum_congr rfl fun c _ => congrArg E (lift_row reduces_rows r c)

/-- The softmax as the host spells it. -/
def softmax (Z : FVec Ideal S50000x2 .f32) : FVec Ideal S50000x2 .f32 :=
  Host.divf (expOf Z)
    (colOf (Host.reduceAdd (expOf Z) (constant (F := Ideal) S_ .f32 0x00000000#32) reducesTo_S50000x2_S50000_d1 h_S_))

/-- It is `softmaxRow` of row r at every (r, q). -/
theorem softmax_apply (Z : FVec Ideal S50000x2 .f32) (r : Fin 50000) (q : Fin 2) :
    softmax Z (ix2 r q) = softmaxRow (fun c => Z (ix2 r c)) q := by
  unfold softmax softmaxRow
  rw [hostDivf_apply, colOf_apply, rowSum_apply, expOf_apply]
  exact congrArg (Ideal.div _) (Finset.sum_congr rfl fun c _ => expOf_apply Z r c)

end Cert.BodyMath.Ref

end
-- ==== Proof.Bridge.Stages.lean ====
/-
  The kernel program's seven calls, each as one whole-array function of what it finds (the blocks-to-array forms), are
  the reference's stages of the same name applied to the same arrays: the first linear map of a layer is the matrix
  product of (h + agg) with the weights plus the bias row; the second call of a layer is normalise, scale, shift,
  rectify, then the second linear map and the rectifier; the readout is two linear maps with a rectifier between them,
  and the softmax of each row of logits. On both sides entry (r, q) is the same finite sum over the contracted axis;
  the kernel's change of float format on the weights is the identity on extended reals, and its bias rows are the
  reference's bias vectors read at row 0.
-/
import proofs.«121371_j46033459478999_1_alg».proof.Proof.KIdeal.Val0
import proofs.«121371_j46033459478999_1_alg».proof.Proof.KIdeal.Val1
import proofs.«121371_j46033459478999_1_alg».proof.Proof.KIdeal.Val2
import proofs.«121371_j46033459478999_1_alg».proof.Proof.KIdeal.Val3
import proofs.«121371_j46033459478999_1_alg».proof.Proof.KIdeal.Val4
import proofs.«121371_j46033459478999_1_alg».proof.Proof.KIdeal.Val5
import proofs.«121371_j46033459478999_1_alg».proof.Proof.KIdeal.Val6
import proofs.«121371_j46033459478999_1_alg».proof.Proof.Val.RefLin
import proofs.«121371_j46033459478999_1_alg».proof.Proof.Val.RefBn
import proofs.«121371_j46033459478999_1_alg».proof.Proof.Val.RefReadout
import proofs.«121371_j46033459478999_1_alg».proof.Proof.Ref.Stages

noncomputable section

open scoped BigOperators

namespace Cert.Bridge

open Idealize.ShloMosaic Idealize.ShloMosaic.ValueIdx Cert.BodyMath
open Cert.KernelIdeal.Calls (lin0 lin2 lin4 bn1 bn3 bn5 logits6 probs6)
open Cert.ReferenceIdeal.RefRun

/-- A vector recast as a one-row matrix reads, at row 0, as the vector. -/
theorem row_apply {n : Nat} (b : (⟨1, ![n]⟩ : Shape).Idx → EReal) (h : (⟨1, ![n]⟩ : Shape).ShapeCasts ⟨2, ![1, n]⟩) (c : Fin n) :
    shapeCast ⟨2, ![1, n]⟩ b h (ix2 (0 : Fin 1) c) = b (ix1 c) :=
  (shapeCast_addUnit_apply ![n] b h _).trans (congrArg b (funext fun a => by match a with | ⟨0, _⟩ => rfl))

/-! The reference's stages are spelt twice in this certificate (once for their index-level reading, once in the run);
    the two spellings are the same terms. -/
theorem lin128_same (x agg : FVec Ideal Cert.ReferenceIdeal.S50000x128 .f32) (W : FVec Ideal Cert.ReferenceIdeal.S128x256 .f32)
    (b : FVec Ideal Cert.ReferenceIdeal.S256 .f32) : Ref.lin128 x agg W b = linear128 (F := Ideal) (addf x agg) W b := rfl
theorem lin256_same (x agg : FVec Ideal Cert.ReferenceIdeal.S50000x256 .f32) (W : FVec Ideal Cert.ReferenceIdeal.S256x256 .f32)
    (b : FVec Ideal Cert.ReferenceIdeal.S256 .f32) : Ref.lin256 x agg W b = linear256 (F := Ideal) (addf x agg) W b := rfl
theorem bnLin_same (z : FVec Ideal Cert.ReferenceIdeal.S50000x256 .f32) (μ v g be : FVec Ideal Cert.ReferenceIdeal.S256 .f32)
    (W : FVec Ideal Cert.ReferenceIdeal.S256x256 .f32) (b : FVec Ideal Cert.ReferenceIdeal.S256 .f32) :
    Ref.bnLin z μ v g be W b = relu256 (F := Ideal) (linear256 (normScaleShiftRelu z μ v g be) W b) := rfl
theorem logits_same (H : FVec Ideal Cert.ReferenceIdeal.S50000x768 .f32) (W1 : FVec Ideal Cert.ReferenceIdeal.S768x768 .f32)
    (b1 : FVec Ideal Cert.ReferenceIdeal.S768 .f32) (W2 : FVec Ideal Cert.ReferenceIdeal.S768x2 .f32) (b2 : FVec Ideal Cert.ReferenceIdeal.S2 .f32) :
    Ref.logits H W1 b1 W2 b2 = readoutLogits (F := Ideal) (readoutHidden H W1 b1) W2 b2 := rfl
theorem softmax_same (Z : FVec Ideal Cert.ReferenceIdeal.S50000x2 .f32) : Ref.softmax Z = softmax2 (F := Ideal) Z := rfl

/-! ## The first linear map of each layer -/

theorem lin0_eq (x agg : FVec Ideal Cert.KernelIdeal.S50000x128 .f32) (W : FVec Ideal Cert.KernelIdeal.S128x256 .f32) (b : FVec Ideal Cert.KernelIdeal.S256 .f32)
    (hW : FTy.bf16.bits < FTy.f32.bits) (hb : Cert.KernelIdeal.S256.ShapeCasts Cert.KernelIdeal.S1x256) :
    lin0 x agg (truncf .bf16 W hW) (shapeCast Cert.KernelIdeal.S1x256 b hb) = linear128 (F := Ideal) (addf x agg) W b := by
  funext i
  obtain ⟨r, q, rfl⟩ : ∃ (r : Fin 50000) (q : Fin 256), i = ix2 r q := ⟨i 0, i 1, eq_ix2 i⟩
  refine Eq.trans ?_ ((Ref.lin128_apply x agg W b r q).symm.trans (congrFun (lin128_same x agg W b) _))
  unfold lin0
  simp only [row_apply b hb]
  rfl

theorem lin2_eq (x agg : FVec Ideal Cert.KernelIdeal.S50000x256 .f32) (W : FVec Ideal Cert.KernelIdeal.S256x256 .f32) (b : FVec Ideal Cert.KernelIdeal.S256 .f32)
    (hW : FTy.bf16.bits < FTy.f32.bits) (hb : Cert.KernelIdeal.S256.ShapeCasts Cert.KernelIdeal.S1x256) :
    lin2 x agg (truncf .bf16 W hW) (shapeCast Cert.KernelIdeal.S1x256 b hb) = linear256 (F := Ideal) (addf x agg) W b := by
  funext i
  obtain ⟨r, q, rfl⟩ : ∃ (r : Fin 50000) (q : Fin 256), i = ix2 r q := ⟨i 0, i 1, eq_ix2 i⟩
  refine Eq.trans ?_ ((Ref.lin256_apply x agg W b r q).symm.trans (congrFun (lin256_same x agg W b) _))
  unfold lin2
  simp only [row_apply b hb]
  rfl

theorem lin4_eq (x agg : FVec Ideal Cert.KernelIdeal.S50000x256 .f32) (W : FVec Ideal Cert.KernelIdeal.S256x256 .f32) (b : FVec Ideal Cert.KernelIdeal.S256 .f32)
    (hW : FTy.bf16.bits < FTy.f32.bits) (hb : Cert.KernelIdeal.S256.ShapeCasts Cert.KernelIdeal.S1x256) :
    lin4 x agg (truncf .bf16 W hW) (shapeCast Cert.KernelIdeal.S1x256 b hb) = linear256 (F := Ideal) (addf x agg) W b := by
  funext i
  obtain ⟨r, q, rfl⟩ : ∃ (r : Fin 50000) (q : Fin 256), i = ix2 r q := ⟨i 0, i 1, eq_ix2 i⟩
  refine Eq.trans ?_ ((Ref.lin256_apply x agg W b r q).symm.trans (congrFun (lin256_same x agg W b) _))
  unfold lin4
  simp only [row_apply b hb]
  rfl

/-! ## The normalisation and second linear map of each layer -/

theorem bn1_eq (z : FVec Ideal Cert.KernelIdeal.S50000x256 .f32) (μ v g be : FVec Ideal Cert.KernelIdeal.S256 .f32) (W : FVec Ideal Cert.KernelIdeal.S256x256 .f32)
    (b : FVec Ideal Cert.KernelIdeal.S256 .f32) (hW : FTy.bf16.bits < FTy.f32.bits) (h1 h2 h3 h4 h5 : Cert.KernelIdeal.S256.ShapeCasts Cert.KernelIdeal.S1x256) :
    bn1 z (shapeCast Cert.KernelIdeal.S1x256 μ h1) (shapeCast Cert.KernelIdeal.S1x256 v h2) (shapeCast Cert.KernelIdeal.S1x256 g h3) (shapeCast Cert.KernelIdeal.S1x256 be h4)
        (truncf .bf16 W hW) (shapeCast Cert.KernelIdeal.S1x256 b h5)
      = relu256 (F := Ideal) (linear256 (normScaleShiftRelu z μ v g be) W b) := by
  funext i
  obtain ⟨r, q, rfl⟩ : ∃ (r : Fin 50000) (q : Fin 256), i = ix2 r q := ⟨i 0, i 1, eq_ix2 i⟩
  refine Eq.trans ?_ ((Ref.bnLin_apply z μ v g be W b r q).symm.trans (congrFun (bnLin_same z μ v g be W b) _))
  unfold bn1
  simp only [row_apply μ h1, row_apply v h2, row_apply g h3, row_apply be h4, row_apply b h5]
  rfl

theorem bn3_eq (z : FVec Ideal Cert.KernelIdeal.S50000x256 .f32) (μ v g be : FVec Ideal Cert.KernelIdeal.S256 .f32) (W : FVec Ideal Cert.KernelIdeal.S256x256 .f32)
    (b : FVec Ideal Cert.KernelIdeal.S256 .f32) (hW : FTy.bf16.bits < FTy.f32.bits) (h1 h2 h3 h4 h5 : Cert.KernelIdeal.S256.ShapeCasts Cert.KernelIdeal.S1x256) :
    bn3 z (shapeCast Cert.KernelIdeal.S1x256 μ h1) (shapeCast Cert.KernelIdeal.S1x256 v h2) (shapeCast Cert.KernelIdeal.S1x256 g h3) (shapeCast Cert.KernelIdeal.S1x256 be h4)
        (truncf .bf16 W hW) (shapeCast Cert.KernelIdeal.S1x256 b h5)
      = relu256 (F := Ideal) (linear256 (normScaleShiftRelu z μ v g be) W b) := by
  funext i
  obtain ⟨r, q, rfl⟩ : ∃ (r : Fin 50000) (q : Fin 256), i = ix2 r q := ⟨i 0, i 1, eq_ix2 i⟩
  refine Eq.trans ?_ ((Ref.bnLin_apply z μ v g be W b r q).symm.trans (congrFun (bnLin_same z μ v g be W b) _))
  unfold bn3
  simp only [row_apply μ h1, row_apply v h2, row_apply g h3, row_apply be h4, row_apply b h5]
  rfl

theorem bn5_eq (z : FVec Ideal Cert.KernelIdeal.S50000x256 .f32) (μ v g be : FVec Ideal Cert.KernelIdeal.S256 .f32) (W : FVec Ideal Cert.KernelIdeal.S256x256 .f32)
    (b : FVec Ideal Cert.KernelIdeal.S256 .f32) (hW : FTy.bf16.bits < FTy.f32.bits) (h1 h2 h3 h4 h5 : Cert.KernelIdeal.S256.ShapeCasts Cert.KernelIdeal.S1x256) :
    bn5 z (shapeCast Cert.KernelIdeal.S1x256 μ h1) (shapeCast Cert.KernelIdeal.S1x256 v h2) (shapeCast Cert.KernelIdeal.S1x256 g h3) (shapeCast Cert.KernelIdeal.S1x256 be h4)
        (truncf .bf16 W hW) (shapeCast Cert.KernelIdeal.S1x256 b h5)
      = relu256 (F := Ideal) (linear256 (normScaleShiftRelu z μ v g be) W b) := by
  funext i
  obtain ⟨r, q, rfl⟩ : ∃ (r : Fin 50000) (q : Fin 256), i = ix2 r q := ⟨i 0, i 1, eq_ix2 i⟩
  refine Eq.trans ?_ ((Ref.bnLin_apply z μ v g be W b r q).symm.trans (congrFun (bnLin_same z μ v g be W b) _))
  unfold bn5
  simp only [row_apply μ h1, row_apply v h2, row_apply g h3, row_apply be h4, row_apply b h5]
  rfl

/-! ## The readout -/

theorem logits6_eq (H : FVec Ideal Cert.KernelIdeal.S50000x768 .f32) (W1 : FVec Ideal Cert.KernelIdeal.S768x768 .f32) (b1 : FVec Ideal Cert.KernelIdeal.S768 .f32)
    (W2 : FVec Ideal Cert.KernelIdeal.S768x2 .f32) (b2 : FVec Ideal Cert.KernelIdeal.S2 .f32) (hW1 hW2 : FTy.bf16.bits < FTy.f32.bits)
    (hb1 : Cert.KernelIdeal.S768.ShapeCasts Cert.KernelIdeal.S1x768) (hb2 : Cert.KernelIdeal.S2.ShapeCasts Cert.KernelIdeal.S1x2) :
    logits6 H (truncf .bf16 W1 hW1) (shapeCast Cert.KernelIdeal.S1x768 b1 hb1) (truncf .bf16 W2 hW2) (shapeCast Cert.KernelIdeal.S1x2 b2 hb2)
      = readoutLogits (F := Ideal) (readoutHidden H W1 b1) W2 b2 := by
  funext i
  obtain ⟨r, q, rfl⟩ : ∃ (r : Fin 50000) (q : Fin 2), i = ix2 r q := ⟨i 0, i 1, eq_ix2 i⟩
  refine Eq.trans ?_ ((Ref.logits_apply H W1 b1 W2 b2 r q).symm.trans (congrFun (logits_same H W1 b1 W2 b2) _))
  unfold logits6
  simp only [row_apply b1 hb1, row_apply b2 hb2]
  rfl

theorem probs6_eq (H : FVec Ideal Cert.KernelIdeal.S50000x768 .f32) (W1 : FVec Ideal Cert.KernelIdeal.S768x768 .f32) (b1 : FVec Ideal Cert.KernelIdeal.S768 .f32)
    (W2 : FVec Ideal Cert.KernelIdeal.S768x2 .f32) (b2 : FVec Ideal Cert.KernelIdeal.S2 .f32) (hW1 hW2 : FTy.bf16.bits < FTy.f32.bits)
    (hb1 : Cert.KernelIdeal.S768.ShapeCasts Cert.KernelIdeal.S1x768) (hb2 : Cert.KernelIdeal.S2.ShapeCasts Cert.KernelIdeal.S1x2) :
    probs6 H (truncf .bf16 W1 hW1) (shapeCast Cert.KernelIdeal.S1x768 b1 hb1) (truncf .bf16 W2 hW2) (shapeCast Cert.KernelIdeal.S1x2 b2 hb2)
      = softmax2 (F := Ideal) (readoutLogits (readoutHidden H W1 b1) W2 b2) := by
  funext i
  obtain ⟨r, q, rfl⟩ : ∃ (r : Fin 50000) (q : Fin 2), i = ix2 r q := ⟨i 0, i 1, eq_ix2 i⟩
  refine Eq.trans ?_ ((Ref.softmax_apply (readoutLogits (F := Ideal) (readoutHidden H W1 b1) W2 b2) r q).symm.trans
    (congrFun (softmax_same _) _))
  refine Eq.trans ?_ (congrArg (softmaxRow · q) (funext fun c =>
    ((Ref.logits_apply H W1 b1 W2 b2 r c).symm.trans (congrFun (logits_same H W1 b1 W2 b2) _))))
  unfold probs6
  simp only [row_apply b1 hb1, row_apply b2 hb2]
  rfl

end Cert.Bridge

end
-- ==== Proof.Bridge.Net.lean ====
/-
  The two programs compute the same network. On the kernel side each call's output array is the reference's stage of
  the same name applied to what the call finds, and what it finds is read through the host operations between the
  calls: the neighbour aggregation, the column mean and variance and the side-by-side join are the same host
  operations in both programs, the weights in the narrower float format are the weights, the bias rows are the bias
  vectors. Layer by layer the kernel's arrays are therefore the reference's hidden arrays of the same arguments, and
  its two results the reference's logits and their softmax.
-/
import proofs.«121371_j46033459478999_1_alg».proof.Defs
import proofs.«121371_j46033459478999_1_alg».proof.Proof.Gen.Pre_finite_inputs
import proofs.«121371_j46033459478999_1_alg».proof.Proof.KIdeal.Run
import proofs.«121371_j46033459478999_1_alg».proof.Proof.KRead.At1
import proofs.«121371_j46033459478999_1_alg».proof.Proof.KRead.At5
import proofs.«121371_j46033459478999_1_alg».proof.Proof.KRead.At7
import proofs.«121371_j46033459478999_1_alg».proof.Proof.KRead.At11
import proofs.«121371_j46033459478999_1_alg».proof.Proof.KRead.At13
import proofs.«121371_j46033459478999_1_alg».proof.Proof.KRead.At17
import proofs.«121371_j46033459478999_1_alg».proof.Proof.KRead.At19
import proofs.«121371_j46033459478999_1_alg».proof.Proof.Bridge.Stages
import proofs.«121371_j46033459478999_1_alg».proof.Proof.Ref.Frame

noncomputable section

namespace Cert.Bridge

open Idealize.ShloMosaic Idealize.ShloMosaic.TcCoe Idealize.SL.Sem
open Cert.KernelIdeal.Calls Cert.ReferenceIdeal.RefRun

/-! ## The host operations the two programs share -/

theorem agg128_same (x : FVec Ideal Cert.KernelIdeal.S50000x128 .f32) (ei : IVec Cert.KernelIdeal.S2x800000 32) :
    addf x (aggK128 (F := Ideal) x ei) = aggregateEdges128 (F := Ideal) x ei := rfl
theorem agg256_same (h : FVec Ideal Cert.KernelIdeal.S50000x256 .f32) (ei : IVec Cert.KernelIdeal.S2x800000 32) :
    addf h (aggK256 (F := Ideal) h ei) = aggregateEdges256 (F := Ideal) h ei := rfl
theorem mean_same (a : FVec Ideal Cert.KernelIdeal.S50000x256 .f32) : meanK (F := Ideal) a = colMean (F := Ideal) a := rfl
theorem var_same (a : FVec Ideal Cert.KernelIdeal.S50000x256 .f32) :
    varK (F := Ideal) a = colVar (F := Ideal) a (constantI Cert.ReferenceIdeal.S_ 32 0#32) := rfl
theorem concat_same (h1 h2 h3 : FVec Ideal Cert.KernelIdeal.S50000x256 .f32) : concatK (F := Ideal) h1 h2 h3 = concat3 (F := Ideal) h1 h2 h3 := rfl

section Kernel

variable (m : (ℓ : Loc Cert.KernelIdeal.nD Cert.KernelIdeal.τ Cert.KernelIdeal.sig) → Buf (Elt Ideal) ℓ) (c : Dev Cert.KernelIdeal.nD)

/-! ## Each call's output array, layer by layer -/

/-- The first linear map of each layer on the kernel side: the reference's, of the node rows plus their neighbour sums. -/
theorem k_lin0 : (res0_4 (F := Ideal) m c : FVec Ideal Cert.KernelIdeal.S50000x256 .f32) = linear128 (F := Ideal) (aggregateEdges128 (m (c, Proc.devRef .tc Cert.KernelIdeal.main_arg0)) (m (c, Proc.devRef .tc Cert.KernelIdeal.main_arg1))) (m (c, Proc.devRef .tc Cert.KernelIdeal.main_arg2)) (m (c, Proc.devRef .tc Cert.KernelIdeal.main_arg3)) := by
  unfold res0_4
  rw [final0_4 (ent0 m) c]
  show lin0 (U1 m c Cert.KernelIdeal.main_arg0) (U1 m c Cert.KernelIdeal.main_v13) (U1 m c Cert.KernelIdeal.main_v14) (U1 m c Cert.KernelIdeal.main_v15) = _
  rw [U1_arg0, U1_v13, U1_v14, U1_v15]
  unfold wcast brow256
  rw [lin0_eq, agg128_same]

/-- The first layer's tail on the kernel side: the normalisation with the array's own column statistics, the second linear map, the rectifier. -/
theorem k_bn1 : (res1_7 (F := Ideal) m c : FVec Ideal Cert.KernelIdeal.S50000x256 .f32) = mlpTail (F := Ideal) (res0_4 m c) (m (c, Proc.devRef .tc Cert.KernelIdeal.main_arg4)) (m (c, Proc.devRef .tc Cert.KernelIdeal.main_arg5)) (m (c, Proc.devRef .tc Cert.KernelIdeal.main_arg6)) (m (c, Proc.devRef .tc Cert.KernelIdeal.main_arg7)) := by
  unfold res1_7
  rw [final1_7 (ent1 m) c]
  show bn1 (U5 m c Cert.KernelIdeal.main_v16) (U5 m c Cert.KernelIdeal.main_v22) (U5 m c Cert.KernelIdeal.main_v23) (U5 m c Cert.KernelIdeal.main_v24) (U5 m c Cert.KernelIdeal.main_v25) (U5 m c Cert.KernelIdeal.main_v21) (U5 m c Cert.KernelIdeal.main_v26) = _
  rw [U5_v16, U5_v22, U5_v23, U5_v24, U5_v25, U5_v21, U5_v26]
  unfold wcast brow256
  rw [bn1_eq, mean_same, var_same]
  rfl

theorem k_lin2 : (res2_4 (F := Ideal) m c : FVec Ideal Cert.KernelIdeal.S50000x256 .f32) = linear256 (F := Ideal) (aggregateEdges256 (res1_7 m c) (m (c, Proc.devRef .tc Cert.KernelIdeal.main_arg1))) (m (c, Proc.devRef .tc Cert.KernelIdeal.main_arg8)) (m (c, Proc.devRef .tc Cert.KernelIdeal.main_arg9)) := by
  unfold res2_4
  rw [final2_4 (ent2 m) c]
  show lin2 (U7 m c Cert.KernelIdeal.main_v27) (U7 m c Cert.KernelIdeal.main_v37) (U7 m c Cert.KernelIdeal.main_v38) (U7 m c Cert.KernelIdeal.main_v39) = _
  rw [U7_v27, U7_v37, U7_v38, U7_v39]
  unfold wcast brow256
  rw [lin2_eq, agg256_same]

/-- The second layer's tail on the kernel side: the normalisation with the array's own column statistics, the second linear map, the rectifier. -/
theorem k_bn3 : (res3_7 (F := Ideal) m c : FVec Ideal Cert.KernelIdeal.S50000x256 .f32) = mlpTail (F := Ideal) (res2_4 m c) (m (c, Proc.devRef .tc Cert.KernelIdeal.main_arg10)) (m (c, Proc.devRef .tc Cert.KernelIdeal.main_arg11)) (m (c, Proc.devRef .tc Cert.KernelIdeal.main_arg12)) (m (c, Proc.devRef .tc Cert.KernelIdeal.main_arg13)) := by
  unfold res3_7
  rw [final3_7 (ent3 m) c]
  show bn3 (U11 m c Cert.KernelIdeal.main_v40) (U11 m c Cert.KernelIdeal.main_v46) (U11 m c Cert.KernelIdeal.main_v47) (U11 m c Cert.KernelIdeal.main_v48) (U11 m c Cert.KernelIdeal.main_v49) (U11 m c Cert.KernelIdeal.main_v45) (U11 m c Cert.KernelIdeal.main_v50) = _
  rw [U11_v40, U11_v46, U11_v47, U11_v48, U11_v49, U11_v45, U11_v50]
  unfold wcast brow256
  rw [bn3_eq, mean_same, var_same]
  rfl

theorem k_lin4 : (res4_4 (F := Ideal) m c : FVec Ideal Cert.KernelIdeal.S50000x256 .f32) = linear256 (F := Ideal) (aggregateEdges256 (res3_7 m c) (m (c, Proc.devRef .tc Cert.KernelIdeal.main_arg1))) (m (c, Proc.devRef .tc Cert.KernelIdeal.main_arg14)) (m (c, Proc.devRef .tc Cert.KernelIdeal.main_arg15)) := by
  unfold res4_4
  rw [final4_4 (ent4 m) c]
  show lin4 (U13 m c Cert.KernelIdeal.main_v51) (U13 m c Cert.KernelIdeal.main_v61) (U13 m c Cert.KernelIdeal.main_v62) (U13 m c Cert.KernelIdeal.main_v63) = _
  rw [U13_v51, U13_v61, U13_v62, U13_v63]
  unfold wcast brow256
  rw [lin4_eq, agg256_same]

/-- The third layer's tail on the kernel side: the normalisation with the array's own column statistics, the second linear map, the rectifier. -/
theorem k_bn5 : (res5_7 (F := Ideal) m c : FVec Ideal Cert.KernelIdeal.S50000x256 .f32) = mlpTail (F := Ideal) (res4_4 m c) (m (c, Proc.devRef .tc Cert.KernelIdeal.main_arg16)) (m (c, Proc.devRef .tc Cert.KernelIdeal.main_arg17)) (m (c, Proc.devRef .tc Cert.KernelIdeal.main_arg18)) (m (c, Proc.devRef .tc Cert.KernelIdeal.main_arg19)) := by
  unfold res5_7
  rw [final5_7 (ent5 m) c]
  show bn5 (U17 m c Cert.KernelIdeal.main_v64) (U17 m c Cert.KernelIdeal.main_v70) (U17 m c Cert.KernelIdeal.main_v71) (U17 m c Cert.KernelIdeal.main_v72) (U17 m c Cert.KernelIdeal.main_v73) (U17 m c Cert.KernelIdeal.main_v69) (U17 m c Cert.KernelIdeal.main_v74) = _
  rw [U17_v64, U17_v70, U17_v71, U17_v72, U17_v73, U17_v69, U17_v74]
  unfold wcast brow256
  rw [bn5_eq, mean_same, var_same]
  rfl

/-- The readout on the kernel side: the reference's two maps of the three layers' arrays side by side, -/
theorem k_logits : (res6_5 (F := Ideal) m c : FVec Ideal Cert.KernelIdeal.S50000x2 .f32)
    = readoutLogits (F := Ideal) (readoutHidden (concat3 (res1_7 m c) (res3_7 m c) (res5_7 m c)) (m (c, Proc.devRef .tc Cert.KernelIdeal.main_arg20)) (m (c, Proc.devRef .tc Cert.KernelIdeal.main_arg21))) (m (c, Proc.devRef .tc Cert.KernelIdeal.main_arg22)) (m (c, Proc.devRef .tc Cert.KernelIdeal.main_arg23)) := by
  unfold res6_5
  rw [final6_5 (ent6 m) c]
  show logits6 (U19 m c Cert.KernelIdeal.main_v76) (U19 m c Cert.KernelIdeal.main_v77) (U19 m c Cert.KernelIdeal.main_v79) (U19 m c Cert.KernelIdeal.main_v78) (U19 m c Cert.KernelIdeal.main_v80) = _
  rw [U19_v76, U19_v77, U19_v79, U19_v78, U19_v80]
  unfold wcast brow768 brow2
  rw [logits6_eq, concat_same]
/-- and the softmax of those logits. -/
theorem k_probs : (res6_6 (F := Ideal) m c : FVec Ideal Cert.KernelIdeal.S50000x2 .f32) = softmax2 (F := Ideal) (res6_5 (F := Ideal) m c) := by
  rw [k_logits]
  unfold res6_6
  rw [final6_6 (ent6 m) c]
  show probs6 (U19 m c Cert.KernelIdeal.main_v76) (U19 m c Cert.KernelIdeal.main_v77) (U19 m c Cert.KernelIdeal.main_v79) (U19 m c Cert.KernelIdeal.main_v78) (U19 m c Cert.KernelIdeal.main_v80) = _
  rw [U19_v76, U19_v77, U19_v79, U19_v78, U19_v80]
  unfold wcast brow768 brow2
  rw [probs6_eq, concat_same]

end Kernel

/-! ## The two networks on agreeing arguments -/

section Both

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
  (c : Dev Cert.KernelIdeal.nD)

include hagree

theorem hidden1_eq : hidden1 (F := Ideal) m' c = res1_7 (F := Ideal) m c := by
  unfold hidden1
  rw [(hagree c).1, (hagree c).2.1, (hagree c).2.2.1, (hagree c).2.2.2.1, (hagree c).2.2.2.2.1, (hagree c).2.2.2.2.2.1, (hagree c).2.2.2.2.2.2.1, (hagree c).2.2.2.2.2.2.2.1]
  rw [k_bn1, k_lin0]
theorem hidden2_eq : hidden2 (F := Ideal) m' c = res3_7 (F := Ideal) m c := by
  unfold hidden2
  rw [hidden1_eq m m' hagree c, (hagree c).2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
  rw [k_bn3, k_lin2]
theorem hidden3_eq : hidden3 (F := Ideal) m' c = res5_7 (F := Ideal) m c := by
  unfold hidden3
  rw [hidden2_eq m m' hagree c, (hagree c).2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1]
  rw [k_bn5, k_lin4]
/-- The reference's logits are the kernel's first result. -/
theorem logits_bridge : logits (F := Ideal) m' c = res6_5 (F := Ideal) m c := by
  rw [logits_eq, hidden1_eq m m' hagree c, hidden2_eq m m' hagree c, hidden3_eq m m' hagree c,
    (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2, k_logits]
/-- The reference's softmax is the kernel's second result. -/
theorem probs_bridge : probs (F := Ideal) m' c = res6_6 (F := Ideal) m c := by
  rw [probs_eq, logits_bridge m m' hagree c, k_probs]

end Both

/-! ## The claim's last conjunct -/

/-- From memories agreeing on the arguments both idealized programs run to the end, with equal results and unchanged
    arguments: the kernel's run names its results, the reference's run ends at the same two arrays. -/
theorem algebraic : Cert.algebraic_KernelIdeal_ReferenceIdeal := by
  intro m g m' g' _ hagree
  refine ⟨fun c => res6_5 (F := Ideal) m c, fun c => res6_6 (F := Ideal) m c, Cert.KernelIdeal.Calls.run_main m g, ?_⟩
  exact (θ_run (Cert.ReferenceIdeal.defs (F := Ideal)) _ _).mono
    (fun r h c => ⟨(h c).1.1.trans (logits_bridge m m' hagree c), (h c).1.2.trans (probs_bridge m m' hagree c), (h c).2⟩)
    (Cert.ReferenceIdeal.RefRun.run (F := Ideal) m' g')

end Cert.Bridge

end
-- ==== Proof.lean ====
/-
  A three-layer graph network with sum aggregation over 800000 edges, batch normalisation, and a two-map readout with a
  softmax, on 50000 nodes: the kernel program computes every dense stage (the two linear maps of each layer, the
  normalisation, the readout) in seven calls over row blocks of 2000 (1000 for the readout) nodes, and the
  aggregation, the column statistics and the join of the three layers with host operations between the calls; the
  reference computes everything with host operations on whole arrays.

  Frames. Each call's body reads whole staging blocks and overwrites its whole output block, so a call changes its
  output array and nothing else; the host operations write only their own result buffers; no argument array is ever
  written. The same text serves the word-level program and its idealization. The reference is a straight line of host
  operations.

  Values, on extended reals. A call's output array is one function of the arrays the call finds: entry (r, q) is a
  finite sum over the contracted axis, the same sum the reference's matrix product has there; the 25 (or 50) row blocks
  tile the 50000 rows. The change of float format on the weights is the identity, the bias rows are the bias vectors
  read at row 0, and the aggregation, mean, variance and join are the same host operations in both programs. So the
  kernel's arrays are, layer by layer, the reference's, and both results agree. No finiteness of the inputs is used:
  the two sides are the same sums in the same order of operations, not rearrangements of one another.

  The idealization rewrote nothing, so there is nothing to preserve.
-/
import proofs.«121371_j46033459478999_1_alg».proof.Defs
import proofs.«121371_j46033459478999_1_alg».proof.Proof.Gen.Kernel
import proofs.«121371_j46033459478999_1_alg».proof.Proof.Gen.KernelIdeal
import proofs.«121371_j46033459478999_1_alg».proof.Proof.Gen.ReferenceIdeal
import proofs.«121371_j46033459478999_1_alg».proof.Proof.Gen.Pre_finite_inputs
import proofs.«121371_j46033459478999_1_alg».proof.Proof.KBits.Run
import proofs.«121371_j46033459478999_1_alg».proof.Proof.KIdeal.Run
import proofs.«121371_j46033459478999_1_alg».proof.Proof.Ref.Frame
import proofs.«121371_j46033459478999_1_alg».proof.Proof.Bridge.Net
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_kernel : Cert.frame_Kernel := fun m ρ _ => Cert.Kernel.Calls.frame m ρ

/-- So does its idealization. -/
theorem frame_kernelIdeal : Cert.frame_KernelIdeal := fun m ρ _ => Cert.KernelIdeal.Calls.frame m ρ

/-- So does the reference. -/
theorem frame_referenceIdeal : Cert.frame_ReferenceIdeal := fun m ρ _ => Cert.ReferenceIdeal.RefRun.frame_ri m ρ

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Bridge.algebraic⟩

end Cert.Proof

end
